-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v16)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v16) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S2x64x4096 : Shape := ⟨3, ![2, 64, 4096]⟩
abbrev S16384x4096 : Shape := ⟨2, ![16384, 4096]⟩
abbrev S16384 : Shape := ⟨1, ![16384]⟩
abbrev S2048x4096 : Shape := ⟨2, ![2048, 4096]⟩
abbrev S2048 : Shape := ⟨1, ![2048]⟩
abbrev S1x2048 : Shape := ⟨2, ![1, 2048]⟩
abbrev S1 : Shape := ⟨1, ![1]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S2x64x4096 : S_.BroadcastsInDim S2x64x4096 (![] : Fin 0 → Fin S2x64x4096.rank)
  reducesTo_S2x64x4096_S_d0_1_2 : S2x64x4096.ReducesTo [0, 1, 2] S_
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg14 : FVec F S1 .f32) (main_v63 : IVec S_ 1) (main_v67 : IVec S_ 1) : IVec S_ 1 :=
  let main_v68 : IVec S_ 1 := andi main_v63 main_v67
  let main_v69 : FVec F S1 .f32 := Host.absf main_arg14
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg11 : FVec F S2048x4096 .f32) (main_arg12 : FVec F S2048 .f32) (main_arg13 : FVec F S1x2048 .f32) (main_arg14 : FVec F S1 .f32) (main_v48 : IVec S_ 1) (main_v49 : FVec F S16384 .f32) (main_v50 : FVec F S16384 .f32) : IVec S_ 1 :=
  let main_v51 : IVec S16384 1 := cmpf .olt main_v49 main_v50
  let main_c_19 : IVec S_ 1 := constantI S_ 1 1#1
  let main_v52 : IVec S_ 1 := (fun x v => Host.reduce IntOp.andi x v reducesTo_S16384_S_d0 h_S_) main_v51 main_c_19
  let main_v53 : IVec S_ 1 := andi main_v48 main_v52
  let main_v54 : FVec F S2048x4096 .f32 := Host.absf main_arg11
  let main_cst_20 : FVec F S_ .f32 := constant S_ .f32 0x7F800000#32
  let main_v55 : FVec F S2048x4096 .f32 := broadcastInDim S2048x4096 ![] bcast_S_S2048x4096 main_cst_20
  let main_v56 : IVec S2048x4096 1 := cmpf .olt main_v54 main_v55
  let main_c_21 : IVec S_ 1 := constantI S_ 1 1#1
  let main_v57 : IVec S_ 1 := (fun x v => Host.reduce IntOp.andi x v reducesTo_S2048x4096_S_d0_1 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S1x2048 .f32 := Host.absf main_arg13
  let main_cst_24 : FVec F S_ .f32 := constant S_ .f32 0x7F800000#32
  let main_v65 : FVec F S1x2048 .f32 := broadcastInDim S1x2048 ![] bcast_S_S1x2048 main_cst_24
  let main_v66 : IVec S1x2048 1 := cmpf .olt main_v64 main_v65
  let main_c_25 : IVec S_ 1 := constantI S_ 1 1#1
  let main_v67 : IVec S_ 1 := (fun x v => Host.reduce IntOp.andi x v reducesTo_S1x2048_S_d0_1 h_S_) main_v66 main_c_25
  fn_part4 (F := F) main_arg14 main_v63 main_v67

def fn_part2 {F : FTy → Type} [FloatOps F] (main_arg7 : FVec F S16384x4096 .f32) (main_arg8 : FVec F S16384x4096 .f32) (main_arg9 : FVec F S16384 .f32) (main_arg10 : FVec F S16384 .f32) (main_arg11 : FVec F S2048x4096 .f32) (main_arg12 : FVec F S2048 .f32) (main_arg13 : FVec F S1x2048 .f32) (main_arg14 : FVec F S1 .f32) (main_v33 : IVec S_ 1) : IVec S_ 1 :=
  let main_v34 : FVec F S16384x4096 .f32 := Host.absf main_arg7
  let main_cst_12 : FVec F S_ .f32 := constant S_ .f32 0x7F800000#32
  let main_v35 : FVec F S16384x4096 .f32 := broadcastInDim S16384x4096 ![] bcast_S_S16384x4096 main_cst_12
  let main_v36 : IVec S16384x4096 1 := cmpf .olt main_v34 main_v35
  let main_c_13 : IVec S_ 1 := constantI S_ 1 1#1
  let main_v37 : IVec S_ 1 := (fun x v => Host.reduce IntOp.andi x v reducesTo_S16384x4096_S_d0_1 h_S_) main_v36 main_c_13
  let main_v38 : IVec S_ 1 := andi main_v33 main_v37
  let main_v39 : FVec F S16384x4096 .f32 := Host.absf main_arg8
  let main_cst_14 : FVec F S_ .f32 := constant S_ .f32 0x7F800000#32
  let main_v40 : FVec F S16384x4096 .f32 := broadcastInDim S16384x4096 ![] bcast_S_S16384x4096 main_cst_14
  let main_v41 : IVec S16384x4096 1 := cmpf .olt main_v39 main_v40
  let main_c_15 : IVec S_ 1 := constantI S_ 1 1#1
  let main_v42 : IVec S_ 1 := (fun x v => Host.reduce IntOp.andi x v reducesTo_S16384x4096_S_d0_1 h_S_) main_v41 main_c_15
  let main_v43 : IVec S_ 1 := andi main_v38 main_v42
  let main_v44 : FVec F S16384 .f32 := Host.absf main_arg9
  let main_cst_16 : FVec F S_ .f32 := constant S_ .f32 0x7F800000#32
  let main_v45 : FVec F S16384 .f32 := broadcastInDim S16384 ![] bcast_S_S16384 main_cst_16
  let main_v46 : IVec S16384 1 := cmpf .olt main_v44 main_v45
  let main_c_17 : IVec S_ 1 := constantI S_ 1 1#1
  let main_v47 : IVec S_ 1 := (fun x v => Host.reduce IntOp.andi x v reducesTo_S16384_S_d0 h_S_) main_v46 main_c_17
  let main_v48 : IVec S_ 1 := andi main_v43 main_v47
  let main_v49 : FVec F S16384 .f32 := Host.absf main_arg10
  let main_cst_18 : FVec F S_ .f32 := constant S_ .f32 0x7F800000#32
  let main_v50 : FVec F S16384 .f32 := broadcastInDim S16384 ![] bcast_S_S16384 main_cst_18
  fn_part3 (F := F) main_arg11 main_arg12 main_arg13 main_arg14 main_v48 main_v49 main_v50

def fn_part1 {F : FTy → Type} [FloatOps F] (main_arg4 : FVec F S16384x4096 .f32) (main_arg5 : FVec F S16384 .f32) (main_arg6 : FVec F S16384 .f32) (main_arg7 : FVec F S16384x4096 .f32) (main_arg8 : FVec F S16384x4096 .f32) (main_arg9 : FVec F S16384 .f32) (main_arg10 : FVec F S16384 .f32) (main_arg11 : FVec F S2048x4096 .f32) (main_arg12 : FVec F S2048 .f32) (main_arg13 : FVec F S1x2048 .f32) (main_arg14 : FVec F S1 .f32) (main_v13 : IVec S_ 1) (main_v16 : IVec S16384x4096 1) : IVec S_ 1 :=
  let main_c_5 : IVec S_ 1 := constantI S_ 1 1#1
  let main_v17 : IVec S_ 1 := (fun x v => Host.reduce IntOp.andi x v reducesTo_S16384x4096_S_d0_1 h_S_) main_v16 main_c_5
  let main_v18 : IVec S_ 1 := andi main_v13 main_v17
  let main_v19 : FVec F S16384x4096 .f32 := Host.absf main_arg4
  let main_cst_6 : FVec F S_ .f32 := constant S_ .f32 0x7F800000#32
  let main_v20 : FVec F S16384x4096 .f32 := broadcastInDim S16384x4096 ![] bcast_S_S16384x4096 main_cst_6
  let main_v21 : IVec S16384x4096 1 := cmpf .olt main_v19 main_v20
  let main_c_7 : IVec S_ 1 := constantI S_ 1 1#1
  let main_v22 : IVec S_ 1 := (fun x v => Host.reduce IntOp.andi x v reducesTo_S16384x4096_S_d0_1 h_S_) main_v21 main_c_7
  let main_v23 : IVec S_ 1 := andi main_v18 main_v22
  let main_v24 : FVec F S16384 .f32 := Host.absf main_arg5
  let main_cst_8 : FVec F S_ .f32 := constant S_ .f32 0x7F800000#32
  let main_v25 : FVec F S16384 .f32 := broadcastInDim S16384 ![] bcast_S_S16384 main_cst_8
  let main_v26 : IVec S16384 1 := cmpf .olt main_v24 main_v25
  let main_c_9 : IVec S_ 1 := constantI S_ 1 1#1
  let main_v27 : IVec S_ 1 := (fun x v => Host.reduce IntOp.andi x v reducesTo_S16384_S_d0 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64x4096 .f32) (main_arg1 : FVec F S2x64x4096 .f32) (main_arg2 : FVec F S2x64x4096 .f32) (main_arg3 : FVec F S16384x4096 .f32) (main_arg4 : FVec F S16384x4096 .f32) (main_arg5 : FVec F S16384 .f32) (main_arg6 : FVec F S16384 .f32) (main_arg7 : FVec F S16384x4096 .f32) (main_arg8 : FVec F S16384x4096 .f32) (main_arg9 : FVec F S16384 .f32) (main_arg10 : FVec F S16384 .f32) (main_arg11 : FVec F S2048x4096 .f32) (main_arg12 : FVec F S2048 .f32) (main_arg13 : FVec F S1x2048 .f32) (main_arg14 : FVec F S1 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S2x64x4096 .f32 := Host.absf main_arg1
  let main_cst_0 : FVec F S_ .f32 := constant S_ .f32 0x7F800000#32
  let main_v5 : FVec F S2x64x4096 .f32 := broadcastInDim S2x64x4096 ![] bcast_S_S2x64x4096 main_cst_0
  let main_v6 : IVec S2x64x4096 1 := cmpf .olt main_v4 main_v5
  let main_c_1 : IVec S_ 1 := constantI S_ 1 1#1
  let main_v7 : IVec S_ 1 := (fun x v => Host.reduce IntOp.andi x v reducesTo_S2x64x4096_S_d0_1_2 h_S_) main_v6 main_c_1
  let main_v8 : IVec S_ 1 := andi main_v3 main_v7
  let main_v9 : FVec F S2x64x4096 .f32 := Host.absf main_arg2
  let main_cst_2 : FVec F S_ .f32 := constant S_ .f32 0x7F800000#32
  let main_v10 : FVec F S2x64x4096 .f32 := broadcastInDim S2x64x4096 ![] bcast_S_S2x64x4096 main_cst_2
  let main_v11 : IVec S2x64x4096 1 := cmpf .olt main_v9 main_v10
  let main_c_3 : IVec S_ 1 := constantI S_ 1 1#1
  let main_v12 : IVec S_ 1 := (fun x v => Host.reduce IntOp.andi x v reducesTo_S2x64x4096_S_d0_1_2 h_S_) main_v11 main_c_3
  let main_v13 : IVec S_ 1 := andi main_v8 main_v12
  let main_v14 : FVec F S16384x4096 .f32 := Host.absf main_arg3
  let main_cst_4 : FVec F S_ .f32 := constant S_ .f32 0x7F800000#32
  let main_v15 : FVec F S16384x4096 .f32 := broadcastInDim S16384x4096 ![] bcast_S_S16384x4096 main_cst_4
  let main_v16 : IVec S16384x4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64x4096 : Shape := ⟨2, ![64, 4096]⟩
abbrev S2x64x4096 : Shape := ⟨3, ![2, 64, 4096]⟩
abbrev S16384x4096 : Shape := ⟨2, ![16384, 4096]⟩
abbrev S16384 : Shape := ⟨1, ![16384]⟩
abbrev S2048x4096 : Shape := ⟨2, ![2048, 4096]⟩
abbrev S2048 : Shape := ⟨1, ![2048]⟩
abbrev S1x2048 : Shape := ⟨2, ![1, 2048]⟩
abbrev S1 : Shape := ⟨1, ![1]⟩
abbrev S1x64x4096 : Shape := ⟨3, ![1, 64, 4096]⟩
abbrev S1x16384 : Shape := ⟨2, ![1, 16384]⟩
abbrev S64x512 : Shape := ⟨2, ![64, 512]⟩
abbrev S512x4096 : Shape := ⟨2, ![512, 4096]⟩
abbrev S1x512 : Shape := ⟨2, ![1, 512]⟩
abbrev S4x64x512 : Shape := ⟨3, ![4, 64, 512]⟩
abbrev S1x64x512 : Shape := ⟨3, ![1, 64, 512]⟩
abbrev S64x2048 : Shape := ⟨2, ![64, 2048]⟩
abbrev S1024x4096 : Shape := ⟨2, ![1024, 4096]⟩
abbrev S1x1024 : Shape := ⟨2, ![1, 1024]⟩
abbrev S64x1024 : Shape := ⟨2, ![64, 1024]⟩
abbrev S2048x1 : Shape := ⟨2, ![2048, 1]⟩
abbrev S64x1 : Shape := ⟨2, ![64, 1]⟩
abbrev S1x1 : Shape := ⟨2, ![1, 1]⟩
abbrev S_ : Shape := ⟨0, ![]⟩

abbrev nBuf : Space → Nat
  | .hbm => 47
  | .vmem => 41
  | .smem => 0
  | _ => 0

abbrev bufTy : (tb : Table) → Fin (tcTables nBuf tb) → BufTy
  | .hbm, ⟨0, _⟩ => ⟨S64x4096, .f32⟩
  | .hbm, ⟨1, _⟩ => ⟨S2x64x4096, .f32⟩
  | .hbm, ⟨2, _⟩ => ⟨S2x64x4096, .f32⟩
  | .hbm, ⟨3, _⟩ => ⟨S16384x4096, .f32⟩
  | .hbm, ⟨4, _⟩ => ⟨S16384x4096, .f32⟩
  | .hbm, ⟨5, _⟩ => ⟨S16384, .f32⟩
  | .hbm, ⟨6, _⟩ => ⟨S16384, .f32⟩
  | .hbm, ⟨7, _⟩ => ⟨S16384x4096, .f32⟩
  | .hbm, ⟨8, _⟩ => ⟨S16384x4096, .f32⟩
  | .hbm, ⟨9, _⟩ => ⟨S16384, .f32⟩
  | .hbm, ⟨10, _⟩ => ⟨S16384, .f32⟩
  | .hbm, ⟨11, _⟩ => ⟨S2048x4096, .f32⟩
  | .hbm, ⟨12, _⟩ => ⟨S2048, .f32⟩
  | .hbm, ⟨13, _⟩ => ⟨S1x2048, .f32⟩
  | .hbm, ⟨14, _⟩ => ⟨S1, .f32⟩
  | .hbm, ⟨15, _⟩ => ⟨S1x64x4096, .f32⟩
  | .hbm, ⟨16, _⟩ => ⟨S64x4096, .f32⟩
  | .hbm, ⟨17, _⟩ => ⟨S1x64x4096, .f32⟩
  | .hbm, ⟨18, _⟩ => ⟨S64x4096, .f32⟩
  | .hbm, ⟨19, _⟩ => ⟨S1x16384, .f32⟩
  | .hbm, ⟨20, _⟩ => ⟨S1x16384, .f32⟩
  | .hbm, ⟨21, _⟩ => ⟨S64x4096, .f32⟩
  | .hbm, ⟨22, _⟩ => ⟨S64x4096, .f32⟩
  | .hbm, ⟨23, _⟩ => ⟨S1x64x4096, .f32⟩
  | .hbm, ⟨24, _⟩ => ⟨S64x4096, .f32⟩
  | .hbm, ⟨25, _⟩ => ⟨S1x64x4096, .f32⟩
  | .hbm, ⟨26, _⟩ => ⟨S64x4096, .f32⟩
  | .hbm, ⟨27, _⟩ => ⟨S1x16384, .f32⟩
  | .hbm, ⟨28, _⟩ => ⟨S1x16384, .f32⟩
  | .hbm, ⟨29, _⟩ => ⟨S64x4096, .f32⟩
  | .hbm, ⟨30, _⟩ => ⟨S64x4096, .f32⟩
  | .hbm, ⟨31, _⟩ => ⟨S1x64x4096, .f32⟩
  | .hbm, ⟨32, _⟩ => ⟨S1x64x4096, .f32⟩
  | .hbm, ⟨33, _⟩ => ⟨S2x64x4096, .f32⟩
  | .hbm, ⟨34, _⟩ => ⟨S1x64x4096, .f32⟩
  | .hbm, ⟨35, _⟩ => ⟨S1x64x4096, .f32⟩
  | .hbm, ⟨36, _⟩ => ⟨S2x64x4096, .f32⟩
  | .hbm, ⟨37, _⟩ => ⟨S1x2048, .f32⟩
  | .hbm, ⟨38, _⟩ => ⟨S64x2048, .f32⟩
  | .hbm, ⟨39, _⟩ => ⟨S2048x1, .f32⟩
  | .hbm, ⟨40, _⟩ => ⟨S64x1, .f32⟩
  | .hbm, ⟨41, _⟩ => ⟨S1x1, .f32⟩
  | .hbm, ⟨42, _⟩ => ⟨S64x1, .f32⟩
  | .hbm, ⟨43, _⟩ => ⟨S64x1, .f32⟩
  | .hbm, ⟨44, _⟩ => ⟨S_, .f32⟩
  | .hbm, ⟨45, _⟩ => ⟨S64x1, .f32⟩
  | .hbm, ⟨46, _⟩ => ⟨S64x1, .f32⟩
  | .local _ .vmem, ⟨0, _⟩ => ⟨S64x4096, .f32⟩
  | .local _ .vmem, ⟨1, _⟩ => ⟨S64x4096, .f32⟩
  | .local _ .vmem, ⟨2, _⟩ => ⟨S64x512, .f32⟩
  | .local _ .vmem, ⟨3, _⟩ => ⟨S64x512, .f32⟩
  | .local _ .vmem, ⟨4, _⟩ => ⟨S512x4096, .f32⟩
  | .local _ .vmem, ⟨5, _⟩ => ⟨S512x4096, .f32⟩
  | .local _ .vmem, ⟨6, _⟩ => ⟨S512x4096, .f32⟩
  | .local _ .vmem, ⟨7, _⟩ => ⟨S512x4096, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S4x64x512, .f32⟩
  | .local _ .vmem, ⟨17, _⟩ => ⟨S64x4096, .f32⟩
  | .local _ .vmem, ⟨18, _⟩ => ⟨S64x4096, .f32⟩
  | .local _ .vmem, ⟨19, _⟩ => ⟨S64x512, .f32⟩
  | .local _ .vmem, ⟨20, _⟩ => ⟨S64x512, .f32⟩
  | .local _ .vmem, ⟨21, _⟩ => ⟨S512x4096, .f32⟩
  | .local _ .vmem, ⟨22, _⟩ => ⟨S512x4096, .f32⟩
  | .local _ .vmem, ⟨23, _⟩ => ⟨S512x4096, .f32⟩
  | .local _ .vmem, ⟨24, _⟩ => ⟨S512x4096, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S64x512, .f32⟩
  | .local _ .vmem, ⟨30, _⟩ => ⟨S64x512, .f32⟩
  | .local _ .vmem, ⟨31, _⟩ => ⟨S64x512, .f32⟩
  | .local _ .vmem, ⟨32, _⟩ => ⟨S64x512, .f32⟩
  | .local _ .vmem, ⟨33, _⟩ => ⟨S4x64x512, .f32⟩
  | .local _ .vmem, ⟨34, _⟩ => ⟨S64x4096, .f32⟩
  | .local _ .vmem, ⟨35, _⟩ => ⟨S1024x4096, .f32⟩
  | .local _ .vmem, ⟨36, _⟩ => ⟨S1024x4096, .f32⟩
  | .local _ .vmem, ⟨37, _⟩ => ⟨S1x1024, .f32⟩
  | .local _ .vmem, ⟨38, _⟩ => ⟨S1x1024, .f32⟩
  | .local _ .vmem, ⟨39, _⟩ => ⟨S64x1024, .f32⟩
  | .local _ .vmem, ⟨40, _⟩ => ⟨S64x1024, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6_0 : Ref sig .tc := ⟨.hbm, 21, rfl⟩
abbrev main_v6_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_call0_cst : Ref sig .tc := ⟨.hbm, 44, rfl⟩
abbrev main_call0_v0 : Ref sig .tc := ⟨.hbm, 45, rfl⟩
abbrev main_v27 : Ref sig .tc := ⟨.hbm, 46, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc1_stg0_0 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg6_1 : Ref sig .tc := ⟨.vmem, 28, rfl⟩
abbrev cc1_stg7_0 : Ref sig .tc := ⟨.vmem, 29, rfl⟩
abbrev cc1_stg7_1 : Ref sig .tc := ⟨.vmem, 30, rfl⟩
abbrev cc1_stg8_0 : Ref sig .tc := ⟨.vmem, 31, rfl⟩
abbrev cc1_stg8_1 : Ref sig .tc := ⟨.vmem, 32, rfl⟩
abbrev cc1_scratch0 : Ref sig .tc := ⟨.vmem, 33, rfl⟩
abbrev cc2_stg0_0 : Ref sig .tc := ⟨.vmem, 34, rfl⟩
abbrev cc2_stg1_0 : Ref sig .tc := ⟨.vmem, 35, rfl⟩
abbrev cc2_stg1_1 : Ref sig .tc := ⟨.vmem, 36, rfl⟩
abbrev cc2_stg2_0 : Ref sig .tc := ⟨.vmem, 37, rfl⟩
abbrev cc2_stg2_1 : Ref sig .tc := ⟨.vmem, 38, rfl⟩
abbrev cc2_stg3_0 : Ref sig .tc := ⟨.vmem, 39, rfl⟩
abbrev cc2_stg3_1 : Ref sig .tc := ⟨.vmem, 40, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc1_sem0_0 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc2_sem0_0 : DmaSem sig := 32
abbrev cc2_sem1_0 : DmaSem sig := 33
abbrev cc2_sem1_1 : DmaSem sig := 34
abbrev cc2_sem2_0 : DmaSem sig := 35
abbrev cc2_sem2_1 : DmaSem sig := 36
abbrev cc2_sem3_0 : DmaSem sig := 37
abbrev cc2_sem3_1 : DmaSem sig := 38

abbrev nD : Nat := 1
abbrev τ : Topo := Topo.v7x

variable {F : FTy → Type} [FloatOps F]

abbrev grid0 : Pipeline.Grid := ⟨2, ![8, 4], ![false, false]⟩

def k0_off1 (i : grid0.Coords) : Fin 3 → Nat :=
  let arg1 : BitVec 32 := BitVec.ofNat 32 (i 1).val
  let v16 : Index := Scalar.indexCast arg1
  let c0_12 : Index := 0#32
  let c0_13 : Index := 0#32
  ![v16.toNat, 0, 0]
def k0_cond1 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32 : BitVec 32 := 0#32
  let v22 : BitVec 1 := Scalar.cmpi .ne v21 c0_i32
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![8, 4], ![false, false]⟩

def k1_off1 (i : grid1.Coords) : Fin 3 → Nat :=
  let arg1 : BitVec 32 := BitVec.ofNat 32 (i 1).val
  let v17 : Index := Scalar.indexCast arg1
  let c0_12 : Index := 0#32
  let c0_13 : Index := 0#32
  ![v17.toNat, 0, 0]
def k1_cond1 (i : grid1.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32 : BitVec 32 := 0#32
  let v23 : BitVec 1 := Scalar.cmpi .ne v22 c0_i32
  v23

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

def cc1_transform_6 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg1 c8_i32
  let v1 : BitVec 32 := Scalar.addi v0 arg0
  let c0_i32 : BitVec 32 := 0#32
  let c0_i32_0 : BitVec 32 := 0#32
  ![c0_i32.toNat, v1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S64x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S64x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S64x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S512x4096 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S64x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S64x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S64x4096 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S1024x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x64x4096_S1x64x4096_0_0_0 : S2x64x4096.Slices ![0, 0, 0] S1x64x4096
  shapeCasts_S1x64x4096_S64x4096 : S1x64x4096.ShapeCasts S64x4096
  shapeCasts_S16384_S1x16384 : S16384.ShapeCasts S1x16384
  inb_S64x4096_S64x4096_0_0 : ∀ a, (![0, 0] : Fin 2 → Nat) a + S64x4096.size a ≤ S64x4096.size a
  h_S64x4096 : 0 < S64x4096.numel
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S64x512 : S1x512.Broadcasts S64x512
  shapeCasts_S64x4096_S64x4096 : S64x4096.ShapeCasts S64x4096
  h_S1x64x512 : 0 < S1x64x512.numel
  shapeCasts_S1x64x512_S64x512 : S1x64x512.ShapeCasts S64x512
  shapeCasts_S64x512_S1x64x512 : S64x512.ShapeCasts S1x64x512
  inb_S4x64x512_S1x64x512_0_0_0 : ∀ a, (![0, 0, 0] : Fin 3 → Nat) a + S1x64x512.size a ≤ S4x64x512.size a
  inb_S4x64x512_S1x64x512_1_0_0 : ∀ a, (![1, 0, 0] : Fin 3 → Nat) a + S1x64x512.size a ≤ S4x64x512.size a
  inb_S4x64x512_S1x64x512_2_0_0 : ∀ a, (![2, 0, 0] : Fin 3 → Nat) a + S1x64x512.size a ≤ S4x64x512.size a
  inb_S4x64x512_S1x64x512_3_0_0 : ∀ a, (![3, 0, 0] : Fin 3 → Nat) a + S1x64x512.size a ≤ S4x64x512.size a
  inb_S64x512_S64x512_0_0 : ∀ a, (![0, 0] : Fin 2 → Nat) a + S64x512.size a ≤ S64x512.size a
  h_S64x512 : 0 < S64x512.numel
  shapeCasts_S64x512_S64x512 : S64x512.ShapeCasts S64x512
  slices_S2x64x4096_S1x64x4096_1_0_0 : S2x64x4096.Slices ![1, 0, 0] S1x64x4096
  bcast_S64x4096_S1x64x4096_1_2 : S64x4096.BroadcastsInDim S1x64x4096 (![1, 2] : Fin 2 → Fin S1x64x4096.rank)
  concatenates_S1x64x4096_S1x64x4096_S2x64x4096_d0 : Shape.Concatenates [S1x64x4096, S1x64x4096] S2x64x4096 0
  shapeCasts_S2048_S1x2048 : S2048.ShapeCasts S1x2048
  inb_S1024x4096_S1024x4096_0_0 : ∀ a, (![0, 0] : Fin 2 → Nat) a + S1024x4096.size a ≤ S1024x4096.size a
  h_S1024x4096 : 0 < S1024x4096.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  inb_S64x1024_S64x1024_0_0 : ∀ a, (![0, 0] : Fin 2 → Nat) a + S64x1024.size a ≤ S64x1024.size a
  h_S64x1024 : 0 < S64x1024.numel
  transposes_S1x2048_S2048x1_1_0 : S1x2048.Transposes [1, 0] S2048x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S64x4096_S512x4096_S64x512_1_1_0_0_n_n_wf : DotDims.WF S64x4096 S512x4096 S64x512 [1] [1] [0] [0] [] []
  dot_S64x4096_S1024x4096_S64x1024_1_1_0_0_n_n_wf : DotDims.WF S64x4096 S1024x4096 S64x1024 [1] [1] [0] [0] [] []
  dot_S64x2048_S2048x1_S64x1_1_0_0_1_n_n_wf : DotDims.WF S64x2048 S2048x1 S64x1 [1] [0] [0] [1] [] []
  hrank0 : 0 < grid0.rank
  k0_off1_inb : ∀ i : grid0.Coords, ∀ a, (k0_off1 i) a + S1x64x512.size a ≤ S4x64x512.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S64x4096.size a
  hwx0_0 : ∀ i : grid0.Coords, EltTy.bits .f32 = 32 ∨ (Rect.block (s := S64x4096) S64x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x4096.size a
  hwx0_1 : ∀ i : grid0.Coords, EltTy.bits .f32 = 32 ∨ (Rect.block (s := S64x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x512.size a ≤ S64x4096.size a
  hwx0_2 : ∀ i : grid0.Coords, EltTy.bits .f32 = 32 ∨ (Rect.block (s := S64x4096) S64x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x4096.size a ≤ S16384x4096.size a
  hwx0_3 : ∀ i : grid0.Coords, EltTy.bits .f32 = 32 ∨ (Rect.block (s := S16384x4096) S512x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x4096.size a ≤ S16384x4096.size a
  hwx0_4 : ∀ i : grid0.Coords, EltTy.bits .f32 = 32 ∨ (Rect.block (s := S16384x4096) S512x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x16384.size a
  hwx0_5 : ∀ i : grid0.Coords, EltTy.bits .f32 = 32 ∨ (Rect.block (s := S1x16384) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x16384.size a
  hwx0_6 : ∀ i : grid0.Coords, EltTy.bits .f32 = 32 ∨ (Rect.block (s := S1x16384) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x512.size a ≤ S64x4096.size a
  hwx0_7 : ∀ i : grid0.Coords, EltTy.bits .f32 = 32 ∨ (Rect.block (s := S64x4096) S64x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x512.size a ≤ S64x4096.size a
  hwx0_8 : ∀ i : grid0.Coords, EltTy.bits .f32 = 32 ∨ (Rect.block (s := S64x4096) S64x512.size (cc0_transform_8 i) (hinb0_8 i)).WholeWords (EltTy.packing .f32)
  hrank1 : 0 < grid1.rank
  k1_off1_inb : ∀ i : grid1.Coords, ∀ a, (k1_off1 i) a + S1x64x512.size a ≤ S4x64x512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x4096.size a ≤ S64x4096.size a
  hwx1_0 : ∀ i : grid1.Coords, EltTy.bits .f32 = 32 ∨ (Rect.block (s := S64x4096) S64x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x4096.size a ≤ S64x4096.size a
  hwx1_1 : ∀ i : grid1.Coords, EltTy.bits .f32 = 32 ∨ (Rect.block (s := S64x4096) S64x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x512.size a ≤ S64x4096.size a
  hwx1_2 : ∀ i : grid1.Coords, EltTy.bits .f32 = 32 ∨ (Rect.block (s := S64x4096) S64x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S16384x4096.size a
  hwx1_3 : ∀ i : grid1.Coords, EltTy.bits .f32 = 32 ∨ (Rect.block (s := S16384x4096) S512x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x4096.size a ≤ S16384x4096.size a
  hwx1_4 : ∀ i : grid1.Coords, EltTy.bits .f32 = 32 ∨ (Rect.block (s := S16384x4096) S512x4096.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512.size a ≤ S1x16384.size a
  hwx1_5 : ∀ i : grid1.Coords, EltTy.bits .f32 = 32 ∨ (Rect.block (s := S1x16384) S1x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512.size a ≤ S1x16384.size a
  hwx1_6 : ∀ i : grid1.Coords, EltTy.bits .f32 = 32 ∨ (Rect.block (s := S1x16384) S1x512.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S64x512.size a ≤ S64x4096.size a
  hwx1_7 : ∀ i : grid1.Coords, EltTy.bits .f32 = 32 ∨ (Rect.block (s := S64x4096) S64x512.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S64x512.size a ≤ S64x4096.size a
  hwx1_8 : ∀ i : grid1.Coords, EltTy.bits .f32 = 32 ∨ (Rect.block (s := S64x4096) S64x512.size (cc1_transform_8 i) (hinb1_8 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S64x4096.size a ≤ S64x4096.size a
  hwx2_0 : ∀ i : grid2.Coords, EltTy.bits .f32 = 32 ∨ (Rect.block (s := S64x4096) S64x4096.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x4096.size a ≤ S2048x4096.size a
  hwx2_1 : ∀ i : grid2.Coords, EltTy.bits .f32 = 32 ∨ (Rect.block (s := S2048x4096) S1024x4096.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x2048.size a
  hwx2_2 : ∀ i : grid2.Coords, EltTy.bits .f32 = 32 ∨ (Rect.block (s := S1x2048) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S64x1024.size a ≤ S64x2048.size a
  hwx2_3 : ∀ i : grid2.Coords, EltTy.bits .f32 = 32 ∨ (Rect.block (s := S64x2048) S64x1024.size (cc2_transform_3 i) (hinb2_3 i)).WholeWords (EltTy.packing .f32)

variable [Facts₀]

def dot_S64x4096_S512x4096_S64x512_1_1_0_0_n_n : DotDims S64x4096 S512x4096 S64x512 where
  lhsContracting := [1]
  rhsContracting := [1]
  lhsNonContracting := [0]
  rhsNonContracting := [0]
  lhsBatch := []
  rhsBatch := []
  wf := dot_S64x4096_S512x4096_S64x512_1_1_0_0_n_n_wf
def dot_S64x4096_S1024x4096_S64x1024_1_1_0_0_n_n : DotDims S64x4096 S1024x4096 S64x1024 where
  lhsContracting := [1]
  rhsContracting := [1]
  lhsNonContracting := [0]
  rhsNonContracting := [0]
  lhsBatch := []
  rhsBatch := []
  wf := dot_S64x4096_S1024x4096_S64x1024_1_1_0_0_n_n_wf
def dot_S64x2048_S2048x1_S64x1_1_0_0_1_n_n : DotDims S64x2048 S2048x1 S64x1 where
  lhsContracting := [1]
  rhsContracting := [0]
  lhsNonContracting := [0]
  rhsNonContracting := [1]
  lhsBatch := []
  rhsBatch := []
  wf := dot_S64x2048_S2048x1_S64x1_1_0_0_1_n_n_wf

abbrev win0_0 : Pipeline.Window sig grid0 :=
  Pipeline.Window.ofSpec (Memref.whole main_arg0) S64x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S64x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S64x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S64x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun i => !(k0_cond1 i == 1#1) | 8 => fun i => !(k0_cond1 i == 1#1) | ⟨_ + 9, h⟩ => absurd h (Nat.not_lt.2 (Nat.le_add_left _ _))

abbrev win1_0 : Pipeline.Window sig grid1 :=
  Pipeline.Window.ofSpec (Memref.whole main_v6_0) S64x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v8) S64x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S64x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S512x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S512x4096.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v11) S1x512.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v12) S1x512.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v13_0) S64x512.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v13_1) S64x512.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond1 i == 1#1) | 8 => fun i => !(k1_cond1 i == 1#1) | ⟨_ + 9, h⟩ => absurd h (Nat.not_lt.2 (Nat.le_add_left _ _))

abbrev win2_0 : Pipeline.Window sig grid2 :=
  Pipeline.Window.ofSpec (Memref.whole main_v13_0) S64x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S1024x4096.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v20) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v21) S64x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S64x4096 : Shape := ⟨2, ![64, 4096]⟩
abbrev S2x64x4096 : Shape := ⟨3, ![2, 64, 4096]⟩
abbrev S16384x4096 : Shape := ⟨2, ![16384, 4096]⟩
abbrev S16384 : Shape := ⟨1, ![16384]⟩
abbrev S2048x4096 : Shape := ⟨2, ![2048, 4096]⟩
abbrev S2048 : Shape := ⟨1, ![2048]⟩
abbrev S1x2048 : Shape := ⟨2, ![1, 2048]⟩
abbrev S1 : Shape := ⟨1, ![1]⟩
abbrev S1x64x4096 : Shape := ⟨3, ![1, 64, 4096]⟩
abbrev S4096x16384 : Shape := ⟨2, ![4096, 16384]⟩
abbrev S64x16384 : Shape := ⟨2, ![64, 16384]⟩
abbrev S1x16384 : Shape := ⟨2, ![1, 16384]⟩
abbrev S_ : Shape := ⟨0, ![]⟩
abbrev S4096x2048 : Shape := ⟨2, ![4096, 2048]⟩
abbrev S64x2048 : Shape := ⟨2, ![64, 2048]⟩
abbrev S2048x1 : Shape := ⟨2, ![2048, 1]⟩
abbrev S64x1 : Shape := ⟨2, ![64, 1]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S64x4096, .f32⟩
  | 1 => ⟨S2x64x4096, .f32⟩
  | 2 => ⟨S2x64x4096, .f32⟩
  | 3 => ⟨S16384x4096, .f32⟩
  | 4 => ⟨S16384x4096, .f32⟩
  | 5 => ⟨S16384, .f32⟩
  | 6 => ⟨S16384, .f32⟩
  | 7 => ⟨S16384x4096, .f32⟩
  | 8 => ⟨S16384x4096, .f32⟩
  | 9 => ⟨S16384, .f32⟩
  | 10 => ⟨S16384, .f32⟩
  | 11 => ⟨S2048x4096, .f32⟩
  | 12 => ⟨S2048, .f32⟩
  | 13 => ⟨S1x2048, .f32⟩
  | 14 => ⟨S1, .f32⟩
  | 15 => ⟨S1x64x4096, .f32⟩
  | 16 => ⟨S64x4096, .f32⟩
  | 17 => ⟨S1x64x4096, .f32⟩
  | 18 => ⟨S64x4096, .f32⟩
  | 19 => ⟨S4096x16384, .f32⟩
  | 20 => ⟨S64x16384, .f32⟩
  | 21 => ⟨S1x16384, .f32⟩
  | 22 => ⟨S64x16384, .f32⟩
  | 23 => ⟨S64x16384, .f32⟩
  | 24 => ⟨S4096x16384, .f32⟩
  | 25 => ⟨S64x16384, .f32⟩
  | 26 => ⟨S64x16384, .f32⟩
  | 27 => ⟨S1x16384, .f32⟩
  | 28 => ⟨S64x16384, .f32⟩
  | 29 => ⟨S64x16384, .f32⟩
  | 30 => ⟨S64x4096, .f32⟩
  | 31 => ⟨S64x4096, .f32⟩
  | 32 => ⟨S64x4096, .f32⟩
  | 33 => ⟨S64x4096, .f32⟩
  | 34 => ⟨S64x4096, .f32⟩
  | 35 => ⟨S64x4096, .f32⟩
  | 36 => ⟨S_, .f32⟩
  | 37 => ⟨S64x4096, .f32⟩
  | 38 => ⟨S64x4096, .f32⟩
  | 39 => ⟨S_, .f32⟩
  | 40 => ⟨S64x4096, .f32⟩
  | 41 => ⟨S64x4096, .f32⟩
  | 42 => ⟨S64x4096, .f32⟩
  | 43 => ⟨S64x4096, .f32⟩
  | 44 => ⟨S64x4096, .f32⟩
  | 45 => ⟨S_, .f32⟩
  | 46 => ⟨S64x4096, .f32⟩
  | 47 => ⟨S64x4096, .f32⟩
  | 48 => ⟨S_, .f32⟩
  | 49 => ⟨S64x4096, .f32⟩
  | 50 => ⟨S64x4096, .f32⟩
  | 51 => ⟨S64x4096, .f32⟩
  | 52 => ⟨S64x4096, .f32⟩
  | 53 => ⟨S64x4096, .f32⟩
  | 54 => ⟨S64x4096, .f32⟩
  | 55 => ⟨S64x4096, .f32⟩
  | 56 => ⟨S_, .f32⟩
  | 57 => ⟨S64x4096, .f32⟩
  | 58 => ⟨S64x4096, .f32⟩
  | 59 => ⟨S_, .f32⟩
  | 60 => ⟨S64x4096, .f32⟩
  | 61 => ⟨S64x4096, .f32⟩
  | 62 => ⟨S64x4096, .f32⟩
  | 63 => ⟨S64x4096, .f32⟩
  | 64 => ⟨S1x64x4096, .f32⟩
  | 65 => ⟨S64x4096, .f32⟩
  | 66 => ⟨S1x64x4096, .f32⟩
  | 67 => ⟨S64x4096, .f32⟩
  | 68 => ⟨S4096x16384, .f32⟩
  | 69 => ⟨S64x16384, .f32⟩
  | 70 => ⟨S1x16384, .f32⟩
  | 71 => ⟨S64x16384, .f32⟩
  | 72 => ⟨S64x16384, .f32⟩
  | 73 => ⟨S4096x16384, .f32⟩
  | 74 => ⟨S64x16384, .f32⟩
  | 75 => ⟨S64x16384, .f32⟩
  | 76 => ⟨S1x16384, .f32⟩
  | 77 => ⟨S64x16384, .f32⟩
  | 78 => ⟨S64x16384, .f32⟩
  | 79 => ⟨S64x4096, .f32⟩
  | 80 => ⟨S64x4096, .f32⟩
  | 81 => ⟨S64x4096, .f32⟩
  | 82 => ⟨S64x4096, .f32⟩
  | 83 => ⟨S64x4096, .f32⟩
  | 84 => ⟨S64x4096, .f32⟩
  | 85 => ⟨S_, .f32⟩
  | 86 => ⟨S64x4096, .f32⟩
  | 87 => ⟨S64x4096, .f32⟩
  | 88 => ⟨S_, .f32⟩
  | 89 => ⟨S64x4096, .f32⟩
  | 90 => ⟨S64x4096, .f32⟩
  | 91 => ⟨S64x4096, .f32⟩
  | 92 => ⟨S64x4096, .f32⟩
  | 93 => ⟨S64x4096, .f32⟩
  | 94 => ⟨S_, .f32⟩
  | 95 => ⟨S64x4096, .f32⟩
  | 96 => ⟨S64x4096, .f32⟩
  | 97 => ⟨S_, .f32⟩
  | 98 => ⟨S64x4096, .f32⟩
  | 99 => ⟨S64x4096, .f32⟩
  | 100 => ⟨S64x4096, .f32⟩
  | 101 => ⟨S64x4096, .f32⟩
  | 102 => ⟨S64x4096, .f32⟩
  | 103 => ⟨S64x4096, .f32⟩
  | 104 => ⟨S64x4096, .f32⟩
  | 105 => ⟨S_, .f32⟩
  | 106 => ⟨S64x4096, .f32⟩
  | 107 => ⟨S64x4096, .f32⟩
  | 108 => ⟨S_, .f32⟩
  | 109 => ⟨S64x4096, .f32⟩
  | 110 => ⟨S64x4096, .f32⟩
  | 111 => ⟨S64x4096, .f32⟩
  | 112 => ⟨S64x4096, .f32⟩
  | 113 => ⟨S1x64x4096, .f32⟩
  | 114 => ⟨S1x64x4096, .f32⟩
  | 115 => ⟨S2x64x4096, .f32⟩
  | 116 => ⟨S1x64x4096, .f32⟩
  | 117 => ⟨S1x64x4096, .f32⟩
  | 118 => ⟨S2x64x4096, .f32⟩
  | 119 => ⟨S4096x2048, .f32⟩
  | 120 => ⟨S64x2048, .f32⟩
  | 121 => ⟨S1x2048, .f32⟩
  | 122 => ⟨S64x2048, .f32⟩
  | 123 => ⟨S64x2048, .f32⟩
  | 124 => ⟨S_, .f32⟩
  | 125 => ⟨S64x2048, .f32⟩
  | 126 => ⟨S64x2048, .f32⟩
  | 127 => ⟨S2048x1, .f32⟩
  | _ => ⟨S64x4096, .f32⟩

abbrev hbmTy0_1 (i : Nat) : BufTy := match i % 128 with
  | 0 => ⟨S64x1, .f32⟩
  | 1 => ⟨S1x1, .f32⟩
  | 2 => ⟨S64x1, .f32⟩
  | 3 => ⟨S64x1, .f32⟩
  | 4 => ⟨S_, .f32⟩
  | 5 => ⟨S64x1, .f32⟩
  | 6 => ⟨S64x1, .f32⟩
  | _ => ⟨S64x4096, .f32⟩

abbrev hbmTy (i : Nat) : BufTy := match i / 128 with
  | 0 => hbmTy0_0 i
  | 1 => hbmTy0_1 i
  | _ => ⟨S64x4096, .f32⟩

abbrev bufTy : (tb : Table) → Fin (tcTables nBuf tb) → BufTy
  | .hbm, ⟨i, _⟩ => hbmTy i
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_1 : Ref sig .tc := ⟨.hbm, 45, rfl⟩
abbrev main_v28 : Ref sig .tc := ⟨.hbm, 46, rfl⟩
abbrev main_v29 : Ref sig .tc := ⟨.hbm, 47, rfl⟩
abbrev main_cst_2 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_3 : Ref sig .tc := ⟨.hbm, 56, rfl⟩
abbrev main_v37 : Ref sig .tc := ⟨.hbm, 57, rfl⟩
abbrev main_v38 : Ref sig .tc := ⟨.hbm, 58, rfl⟩
abbrev main_cst_4 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_cst_5 : Ref sig .tc := ⟨.hbm, 85, rfl⟩
abbrev main_v64 : Ref sig .tc := ⟨.hbm, 86, rfl⟩
abbrev main_v65 : Ref sig .tc := ⟨.hbm, 87, rfl⟩
abbrev main_cst_6 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_7 : Ref sig .tc := ⟨.hbm, 94, rfl⟩
abbrev main_v71 : Ref sig .tc := ⟨.hbm, 95, rfl⟩
abbrev main_v72 : Ref sig .tc := ⟨.hbm, 96, rfl⟩
abbrev main_cst_8 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_cst_9 : Ref sig .tc := ⟨.hbm, 105, rfl⟩
abbrev main_v80 : Ref sig .tc := ⟨.hbm, 106, rfl⟩
abbrev main_v81 : Ref sig .tc := ⟨.hbm, 107, rfl⟩
abbrev main_cst_10 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_call0_cst : Ref sig .tc := ⟨.hbm, 124, rfl⟩
abbrev main_call0_v0 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_call1_cst : Ref sig .tc := ⟨.hbm, 132, rfl⟩
abbrev main_call1_v0 : Ref sig .tc := ⟨.hbm, 133, rfl⟩
abbrev main_v103 : Ref sig .tc := ⟨.hbm, 134, rfl⟩

abbrev nD : Nat := 1
abbrev τ : Topo := Topo.v7x

variable {F : FTy → Type} [FloatOps F]

class Facts₀ : Prop where
  slices_S2x64x4096_S1x64x4096_0_0_0 : S2x64x4096.Slices ![0, 0, 0] S1x64x4096
  shapeCasts_S1x64x4096_S64x4096 : S1x64x4096.ShapeCasts S64x4096
  transposes_S16384x4096_S4096x16384_1_0 : S16384x4096.Transposes [1, 0] S4096x16384
  bcast_S16384_S1x16384_1 : S16384.BroadcastsInDim S1x16384 (![1] : Fin 1 → Fin S1x16384.rank)
  bcast_S1x16384_S64x16384_0_1 : S1x16384.BroadcastsInDim S64x16384 (![0, 1] : Fin 2 → Fin S64x16384.rank)
  slices_S64x16384_S64x4096_0_0 : S64x16384.Slices ![0, 0] S64x4096
  slices_S64x16384_S64x4096_0_4096 : S64x16384.Slices ![0, 4096] S64x4096
  slices_S64x16384_S64x4096_0_8192 : S64x16384.Slices ![0, 8192] S64x4096
  slices_S64x16384_S64x4096_0_12288 : S64x16384.Slices ![0, 12288] S64x4096
  bcast_S_S64x4096 : S_.BroadcastsInDim S64x4096 (![] : Fin 0 → Fin S64x4096.rank)
  slices_S2x64x4096_S1x64x4096_1_0_0 : S2x64x4096.Slices ![1, 0, 0] S1x64x4096
  bcast_S64x4096_S1x64x4096_1_2 : S64x4096.BroadcastsInDim S1x64x4096 (![1, 2] : Fin 2 → Fin S1x64x4096.rank)
  concatenates_S1x64x4096_S1x64x4096_S2x64x4096_d0 : Shape.Concatenates [S1x64x4096, S1x64x4096] S2x64x4096 0
  transposes_S2048x4096_S4096x2048_1_0 : S2048x4096.Transposes [1, 0] S4096x2048
  bcast_S2048_S1x2048_1 : S2048.BroadcastsInDim S1x2048 (![1] : Fin 1 → Fin S1x2048.rank)
  bcast_S1x2048_S64x2048_0_1 : S1x2048.BroadcastsInDim S64x2048 (![0, 1] : Fin 2 → Fin S64x2048.rank)
  bcast_S_S64x2048 : S_.BroadcastsInDim S64x2048 (![] : Fin 0 → Fin S64x2048.rank)
  transposes_S1x2048_S2048x1_1_0 : S1x2048.Transposes [1, 0] S2048x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S64x4096_S4096x16384_S64x16384_1_0_0_1_n_n_wf : DotDims.WF S64x4096 S4096x16384 S64x16384 [1] [0] [0] [1] [] []
  dot_S64x4096_S4096x2048_S64x2048_1_0_0_1_n_n_wf : DotDims.WF S64x4096 S4096x2048 S64x2048 [1] [0] [0] [1] [] []
  dot_S64x2048_S2048x1_S64x1_1_0_0_1_n_n_wf : DotDims.WF S64x2048 S2048x1 S64x1 [1] [0] [0] [1] [] []

variable [Facts₀]

def dot_S64x4096_S4096x16384_S64x16384_1_0_0_1_n_n : DotDims S64x4096 S4096x16384 S64x16384 where
  lhsContracting := [1]
  rhsContracting := [0]
  lhsNonContracting := [0]
  rhsNonContracting := [1]
  lhsBatch := []
  rhsBatch := []
  wf := dot_S64x4096_S4096x16384_S64x16384_1_0_0_1_n_n_wf
def dot_S64x4096_S4096x2048_S64x2048_1_0_0_1_n_n : DotDims S64x4096 S4096x2048 S64x2048 where
  lhsContracting := [1]
  rhsContracting := [0]
  lhsNonContracting := [0]
  rhsNonContracting := [1]
  lhsBatch := []
  rhsBatch := []
  wf := dot_S64x4096_S4096x2048_S64x2048_1_0_0_1_n_n_wf
def dot_S64x2048_S2048x1_S64x1_1_0_0_1_n_n : DotDims S64x2048 S2048x1 S64x1 where
  lhsContracting := [1]
  rhsContracting := [0]
  lhsNonContracting := [0]
  rhsNonContracting := [1]
  lhsBatch := []
  rhsBatch := []
  wf := dot_S64x2048_S2048x1_S64x1_1_0_0_1_n_n_wf

class Facts : Prop extends Facts₀ where

variable [Facts]
-- ==== Proof.Spec.lean ====
/-
  The mathematics both programs compute, stated once, index by index, on the extended reals: one step of a two-layer
  LSTM over a batch of 64 rows and 4096 hidden units, and a two-layer "count" head on the second layer's output.

  For one layer with input x, hidden state h, cell state c (64 × 4096 each), weights W_ih, W_hh (16384 × 4096) and biases
  b_ih, b_hh (16384), the pre-activation of gate column j in row b is
      gate b j = ((Σ_k x(b,k)·W_ih(j,k) + b_ih(j)) + Σ_k h(b,k)·W_hh(j,k)) + b_hh(j),
  in exactly this grouping. The 16384 columns are four consecutive groups of 4096: input, forget, cell and output gate.
  With σ the logistic function,
      c'(b,u) = σ(gate b (4096+u))·c(b,u) + σ(gate b u)·tanh(gate b (8192+u)),
      h'(b,u) = σ(gate b (12288+u))·tanh(c'(b,u)).
  Layer 0 reads the input features and slice 0 of the two stacked states; layer 1 reads layer 0's new hidden state and
  slice 1. The head is relu(relu(h₂·Wc1ᵀ + bc1)·Wc2ᵀ + bc2).

  Nothing here mentions a program: the arrays are functions from literal index shapes to the extended reals.
-/
import Idealize.ShloMosaic.PureOps.Ideal
import Idealize.ShloMosaic.Lib.ValueIdx

noncomputable section

open Idealize.ShloMosaic Idealize.ShloMosaic.TcCoe
open Idealize.ShloMosaic.ValueIdx (ix1 ix2 ix3)

namespace Cert.Lstm

/-! ## The arrays -/

/-- A 64 × 4096 array of extended reals: the features, one layer's hidden or cell state. -/
abbrev M64x4096 : Type := (⟨2, ![64, 4096]⟩ : Shape).Idx → EReal
/-- The two layers' states stacked: 2 × 64 × 4096. -/
abbrev T2x64x4096 : Type := (⟨3, ![2, 64, 4096]⟩ : Shape).Idx → EReal
/-- A gate weight matrix, 16384 × 4096: row j holds the weights of gate column j. -/
abbrev M16384x4096 : Type := (⟨2, ![16384, 4096]⟩ : Shape).Idx → EReal
/-- A gate bias, 16384. -/
abbrev V16384 : Type := (⟨1, ![16384]⟩ : Shape).Idx → EReal
/-- The head's first weight matrix, 2048 × 4096. -/
abbrev M2048x4096 : Type := (⟨2, ![2048, 4096]⟩ : Shape).Idx → EReal
/-- The head's first bias, 2048. -/
abbrev V2048 : Type := (⟨1, ![2048]⟩ : Shape).Idx → EReal
/-- The head's second weight matrix, 1 × 2048. -/
abbrev M1x2048 : Type := (⟨2, ![1, 2048]⟩ : Shape).Idx → EReal
/-- The head's second bias, one number. -/
abbrev V1 : Type := (⟨1, ![1]⟩ : Shape).Idx → EReal
/-- The count estimate, 64 × 1. -/
abbrev M64x1 : Type := (⟨2, ![64, 1]⟩ : Shape).Idx → EReal

/-- Slice `s` of a stacked state, as a 64 × 4096 array. -/
def layerOf (s : Fin 2) (a : T2x64x4096) : M64x4096 :=
  fun i => a (ix3 s ⟨(i 0).val, (i 0).isLt⟩ ⟨(i 1).val, (i 1).isLt⟩)

/-- A function of a row and a unit, as a 64 × 4096 array. -/
def asMat (f : Fin 64 → Fin 4096 → EReal) : M64x4096 :=
  fun i => f ⟨(i 0).val, (i 0).isLt⟩ ⟨(i 1).val, (i 1).isLt⟩

/-- A function of a layer, a row and a unit, as a 2 × 64 × 4096 array. -/
def asStack (f : Fin 2 → Fin 64 → Fin 4096 → EReal) : T2x64x4096 :=
  fun i => f ⟨(i 0).val, (i 0).isLt⟩ ⟨(i 1).val, (i 1).isLt⟩ ⟨(i 2).val, (i 2).isLt⟩

/-- A function of a row, as a 64 × 1 array. -/
def asCol (f : Fin 64 → EReal) : M64x1 :=
  fun i => f ⟨(i 0).val, (i 0).isLt⟩

theorem layerOf_apply (s : Fin 2) (a : T2x64x4096) (b : Fin 64) (u : Fin 4096) :
    layerOf s a (ix2 b u) = a (ix3 s b u) := rfl

theorem asMat_apply (f : Fin 64 → Fin 4096 → EReal) (b : Fin 64) (u : Fin 4096) : asMat f (ix2 b u) = f b u := rfl

theorem asStack_apply (f : Fin 2 → Fin 64 → Fin 4096 → EReal) (s : Fin 2) (b : Fin 64) (u : Fin 4096) :
    asStack f (ix3 s b u) = f s b u := rfl

theorem asCol_apply (f : Fin 64 → EReal) (b : Fin 64) (z : Fin 1) : asCol f (ix2 b z) = f b := rfl

/-- An array that agrees with `f` at every row and unit is `asMat f`. -/
theorem eq_asMat {a : M64x4096} {f : Fin 64 → Fin 4096 → EReal} (h : ∀ b u, a (ix2 b u) = f b u) : a = asMat f := by
  funext i
  rw [ValueIdx.eq_ix2 i]
  exact h _ _

/-- A stacked array that agrees with `f` at every layer, row and unit is `asStack f`. -/
theorem eq_asStack {a : T2x64x4096} {f : Fin 2 → Fin 64 → Fin 4096 → EReal} (h : ∀ s b u, a (ix3 s b u) = f s b u) :
    a = asStack f := by
  funext i
  rw [ValueIdx.eq_ix3 i]
  exact h _ _ _

/-- A 64 × 1 array that agrees with `f` at every row is `asCol f`. -/
theorem eq_asCol {a : M64x1} {f : Fin 64 → EReal} (h : ∀ b (z : Fin 1), a (ix2 b z) = f b) : a = asCol f := by
  funext i
  rw [ValueIdx.eq_ix2 i]
  exact h _ _

/-! ## One layer -/

/-- The pre-activation of gate column `j` in row `b`: input product plus input bias, plus hidden product, plus hidden
    bias, grouped in that order. -/
def gate (x h : M64x4096) (Wih Whh : M16384x4096) (bih bhh : V16384) (b : Fin 64) (j : Fin 16384) : EReal :=
  ((∑ k : Fin 4096, x (ix2 b k) * Wih (ix2 j k) + bih (ix1 j)) + ∑ k : Fin 4096, h (ix2 b k) * Whh (ix2 j k)) + bhh (ix1 j)

/-- Unit `u`'s column in the input gate's group, columns 0 … 4095. -/
abbrev colI (u : Fin 4096) : Fin 16384 := ⟨u.val, by have := u.isLt; omega⟩
/-- Unit `u`'s column in the forget gate's group, columns 4096 … 8191. -/
abbrev colF (u : Fin 4096) : Fin 16384 := ⟨4096 + u.val, by have := u.isLt; omega⟩
/-- Unit `u`'s column in the cell gate's group, columns 8192 … 12287. -/
abbrev colG (u : Fin 4096) : Fin 16384 := ⟨8192 + u.val, by have := u.isLt; omega⟩
/-- Unit `u`'s column in the output gate's group, columns 12288 … 16383. -/
abbrev colO (u : Fin 4096) : Fin 16384 := ⟨12288 + u.val, by have := u.isLt; omega⟩

/-- The new cell state: forget gate times the old cell state, plus input gate times the squashed cell gate. -/
def cellC (x h c : M64x4096) (Wih Whh : M16384x4096) (bih bhh : V16384) (b : Fin 64) (u : Fin 4096) : EReal :=
  Ideal.logistic (gate x h Wih Whh bih bhh b (colF u)) * c (ix2 b u)
    + Ideal.logistic (gate x h Wih Whh bih bhh b (colI u)) * Ideal.tanh (gate x h Wih Whh bih bhh b (colG u))

/-- The new hidden state: output gate times the squashed new cell state. -/
def cellH (x h c : M64x4096) (Wih Whh : M16384x4096) (bih bhh : V16384) (b : Fin 64) (u : Fin 4096) : EReal :=
  Ideal.logistic (gate x h Wih Whh bih bhh b (colO u)) * Ideal.tanh (cellC x h c Wih Whh bih bhh b u)

/-! ## The two layers and the head, as functions of the fifteen argument arrays

  `x0` the features; `x1`, `x2` the stacked hidden and cell states; `x3 x4 x5 x6` layer 0's W_ih, W_hh, b_ih, b_hh;
  `x7 x8 x9 x10` layer 1's; `x11 x12` the head's first layer; `x13 x14` its second. -/

/-- Layer 0's new cell state. -/
def c1 (x0 : M64x4096) (x1 x2 : T2x64x4096) (x3 x4 : M16384x4096) (x5 x6 : V16384) (b : Fin 64) (u : Fin 4096) : EReal :=
  cellC x0 (layerOf 0 x1) (layerOf 0 x2) x3 x4 x5 x6 b u

/-- Layer 0's new hidden state. -/
def h1 (x0 : M64x4096) (x1 x2 : T2x64x4096) (x3 x4 : M16384x4096) (x5 x6 : V16384) (b : Fin 64) (u : Fin 4096) : EReal :=
  cellH x0 (layerOf 0 x1) (layerOf 0 x2) x3 x4 x5 x6 b u

/-- Layer 1's new cell state: its input is layer 0's new hidden state. -/
def c2 (x0 : M64x4096) (x1 x2 : T2x64x4096) (x3 x4 : M16384x4096) (x5 x6 : V16384) (x7 x8 : M16384x4096) (x9 x10 : V16384)
    (b : Fin 64) (u : Fin 4096) : EReal :=
  cellC (asMat (h1 x0 x1 x2 x3 x4 x5 x6)) (layerOf 1 x1) (layerOf 1 x2) x7 x8 x9 x10 b u

/-- Layer 1's new hidden state. -/
def h2 (x0 : M64x4096) (x1 x2 : T2x64x4096) (x3 x4 : M16384x4096) (x5 x6 : V16384) (x7 x8 : M16384x4096) (x9 x10 : V16384)
    (b : Fin 64) (u : Fin 4096) : EReal :=
  cellH (asMat (h1 x0 x1 x2 x3 x4 x5 x6)) (layerOf 1 x1) (layerOf 1 x2) x7 x8 x9 x10 b u

/-- The two new hidden states, by layer. -/
def hStack (x0 : M64x4096) (x1 x2 : T2x64x4096) (x3 x4 : M16384x4096) (x5 x6 : V16384) (x7 x8 : M16384x4096) (x9 x10 : V16384)
    (s : Fin 2) (b : Fin 64) (u : Fin 4096) : EReal :=
  if s.val = 0 then h1 x0 x1 x2 x3 x4 x5 x6 b u else h2 x0 x1 x2 x3 x4 x5 x6 x7 x8 x9 x10 b u

/-- The two new cell states, by layer. -/
def cStack (x0 : M64x4096) (x1 x2 : T2x64x4096) (x3 x4 : M16384x4096) (x5 x6 : V16384) (x7 x8 : M16384x4096) (x9 x10 : V16384)
    (s : Fin 2) (b : Fin 64) (u : Fin 4096) : EReal :=
  if s.val = 0 then c1 x0 x1 x2 x3 x4 x5 x6 b u else c2 x0 x1 x2 x3 x4 x5 x6 x7 x8 x9 x10 b u

/-- The head's hidden layer: relu of an affine map of layer 1's new hidden state. -/
def hidden (x0 : M64x4096) (x1 x2 : T2x64x4096) (x3 x4 : M16384x4096) (x5 x6 : V16384) (x7 x8 : M16384x4096) (x9 x10 : V16384)
    (x11 : M2048x4096) (x12 : V2048) (b : Fin 64) (j : Fin 2048) : EReal :=
  max (∑ k : Fin 4096, h2 x0 x1 x2 x3 x4 x5 x6 x7 x8 x9 x10 b k * x11 (ix2 j k) + x12 (ix1 j)) 0

/-- The count estimate of row `b`: relu of an affine map of the head's hidden layer. -/
def count (x0 : M64x4096) (x1 x2 : T2x64x4096) (x3 x4 : M16384x4096) (x5 x6 : V16384) (x7 x8 : M16384x4096) (x9 x10 : V16384)
    (x11 : M2048x4096) (x12 : V2048) (x13 : M1x2048) (x14 : V1) (b : Fin 64) : EReal :=
  max (∑ j : Fin 2048, hidden x0 x1 x2 x3 x4 x5 x6 x7 x8 x9 x10 x11 x12 b j * x13 (ix2 (0 : Fin 1) j) + x14 (ix1 (0 : Fin 1))) 0

/-! ## The four results as whole arrays -/

/-- First result: layer 1's new hidden state. -/
def outH (x0 : M64x4096) (x1 x2 : T2x64x4096) (x3 x4 : M16384x4096) (x5 x6 : V16384) (x7 x8 : M16384x4096) (x9 x10 : V16384) :
    M64x4096 :=
  asMat (h2 x0 x1 x2 x3 x4 x5 x6 x7 x8 x9 x10)

/-- Second result: the two new hidden states stacked. -/
def outHStack (x0 : M64x4096) (x1 x2 : T2x64x4096) (x3 x4 : M16384x4096) (x5 x6 : V16384) (x7 x8 : M16384x4096) (x9 x10 : V16384) :
    T2x64x4096 :=
  asStack (hStack x0 x1 x2 x3 x4 x5 x6 x7 x8 x9 x10)

/-- Third result: the two new cell states stacked. -/
def outCStack (x0 : M64x4096) (x1 x2 : T2x64x4096) (x3 x4 : M16384x4096) (x5 x6 : V16384) (x7 x8 : M16384x4096) (x9 x10 : V16384) :
    T2x64x4096 :=
  asStack (cStack x0 x1 x2 x3 x4 x5 x6 x7 x8 x9 x10)

/-- Fourth result: the count estimate, one number per row. -/
def outCount (x0 : M64x4096) (x1 x2 : T2x64x4096) (x3 x4 : M16384x4096) (x5 x6 : V16384) (x7 x8 : M16384x4096) (x9 x10 : V16384)
    (x11 : M2048x4096) (x12 : V2048) (x13 : M1x2048) (x14 : V1) : M64x1 :=
  asCol (count x0 x1 x2 x3 x4 x5 x6 x7 x8 x9 x10 x11 x12 x13 x14)

end Cert.Lstm

end
-- ==== Proof.RefLayer0.lean ====
/-
  The reference's first layer, read index by index: the value its host operations leave for the gate pre-activations,
  the new cell state and the new hidden state of layer 0 is the specification's `gate`, `c1`, `h1` of the argument arrays.
  The reference spells the gates as a transposed weight matrix contracted against the input, a broadcast bias added, the
  same for the hidden state, and the logistic function as 1 / (1 + exp(−x)); at the extended reals each step is the
  textbook operation, so the composite is the specification's formula with the same grouping of the four summands.
-/
import proofs.«142131_j78597901517448_2_alg».proof.Proof.Gen.ReferenceIdeal.Read
import proofs.«142131_j78597901517448_2_alg».proof.Proof.Spec
import Idealize.ShloMosaic.Lib.ValueIdx
import Idealize.ShloMosaic.Lib.IdealHost
import Idealize.ShloMosaic.PureOps.Ideal.Laws

noncomputable section

open Idealize.ShloMosaic Idealize.ShloMosaic.TcCoe
open Idealize.ShloMosaic.ValueIdx (ix1 ix2 ix3)
open Cert.ReferenceIdeal Cert.ReferenceIdeal.Read

namespace Cert.RefSide

/-! ## Where the layout operations of layer 0 read

  Each equation says which element of an argument array a composed chain of layout operations (transpose, slice,
  reshape, broadcast) reads, at an index given by its coordinates. -/

/-- The input product's left operand at contraction position `k`: row `b`, column `k` of the features. -/
theorem l5 (b : Fin 64) (j : Fin 16384) (k : Fin 4096) : lidx_main_v5 (ix2 b j) k = ix2 b k :=
  funext fun a => Fin.ext (by match a with | ⟨0, _⟩ => rfl | ⟨1, _⟩ => rfl)

/-- The input product's right operand is the transposed weight matrix: it reads W_ih at row `j`, column `k`. -/
theorem r5 (b : Fin 64) (j : Fin 16384) (k : Fin 4096) : idx_main_v4 (ridx_main_v5 (ix2 b j) k) = ix2 j k :=
  funext fun a => Fin.ext (by match a with | ⟨0, _⟩ => rfl | ⟨1, _⟩ => rfl)

/-- The hidden product's left operand is slice 0 of the stacked hidden state, reshaped to 64 × 4096: row `b`, unit `k`. -/
theorem l10 (b : Fin 64) (j : Fin 16384) (k : Fin 4096) :
    idx_main_v0 (idx_main_v1 (lidx_main_v10 (ix2 b j) k)) = ix3 (0 : Fin 2) b k :=
  funext fun a => Fin.ext (by
    have hb := b.isLt; have hk := k.isLt
    match a with
    | ⟨0, _⟩ => rfl
    | ⟨1, _⟩ => show (b.val * 4096 + k.val) / 4096 % 64 = b.val; omega
    | ⟨2, _⟩ => show (b.val * 4096 + k.val) % 4096 = k.val; omega)

/-- The hidden product's right operand reads W_hh at row `j`, column `k`. -/
theorem r10 (b : Fin 64) (j : Fin 16384) (k : Fin 4096) : idx_main_v9 (ridx_main_v10 (ix2 b j) k) = ix2 j k :=
  funext fun a => Fin.ext (by match a with | ⟨0, _⟩ => rfl | ⟨1, _⟩ => rfl)

/-- The broadcast input bias at row `b`, column `j` is the bias at `j`. -/
theorem b7 (b : Fin 64) (j : Fin 16384) : idx_main_v6 (idx_main_v7 (ix2 b j)) = ix1 j :=
  funext fun a => Fin.ext (by match a with | ⟨0, _⟩ => rfl)

/-- The broadcast hidden bias at row `b`, column `j` is the bias at `j`. -/
theorem b13 (b : Fin 64) (j : Fin 16384) : idx_main_v12 (idx_main_v13 (ix2 b j)) = ix1 j :=
  funext fun a => Fin.ext (by match a with | ⟨0, _⟩ => rfl)

/-- The first column slice is the input gate's group. -/
theorem e15 (b : Fin 64) (u : Fin 4096) : idx_main_v15 (ix2 b u) = ix2 b (Lstm.colI u) :=
  funext fun a => Fin.ext (by match a with | ⟨0, _⟩ => rfl | ⟨1, _⟩ => rfl)

/-- The second column slice is the forget gate's group. -/
theorem e16 (b : Fin 64) (u : Fin 4096) : idx_main_v16 (ix2 b u) = ix2 b (Lstm.colF u) :=
  funext fun a => Fin.ext (by match a with | ⟨0, _⟩ => rfl | ⟨1, _⟩ => rfl)

/-- The third column slice is the cell gate's group. -/
theorem e17 (b : Fin 64) (u : Fin 4096) : idx_main_v17 (ix2 b u) = ix2 b (Lstm.colG u) :=
  funext fun a => Fin.ext (by match a with | ⟨0, _⟩ => rfl | ⟨1, _⟩ => rfl)

/-- The fourth column slice is the output gate's group. -/
theorem e18 (b : Fin 64) (u : Fin 4096) : idx_main_v18 (ix2 b u) = ix2 b (Lstm.colO u) :=
  funext fun a => Fin.ext (by match a with | ⟨0, _⟩ => rfl | ⟨1, _⟩ => rfl)

/-- The old cell state of layer 0 is slice 0 of the stacked cell state, reshaped: row `b`, unit `u`. -/
theorem s3 (b : Fin 64) (u : Fin 4096) : idx_main_v2 (idx_main_v3 (ix2 b u)) = ix3 (0 : Fin 2) b u :=
  funext fun a => Fin.ext (by
    have hb := b.isLt; have hu := u.isLt
    match a with
    | ⟨0, _⟩ => rfl
    | ⟨1, _⟩ => show (b.val * 4096 + u.val) / 4096 % 64 = b.val; omega
    | ⟨2, _⟩ => show (b.val * 4096 + u.val) % 4096 = u.val; omega)

/-! ## The gates of layer 0 -/

/-- The reference's gate pre-activations of layer 0 (the sum that ends its gates line), at row `b` and column `j`. -/
theorem gates0 (x0 : (⟨S64x4096, .f32⟩ : BufTy).Contents (Elt Ideal)) (x1 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (b : Fin 64) (j : Fin 16384) :
    val_main_v14 (F := Ideal) x0 x1 x3 x4 x5 x6 (ix2 b j) = Lstm.gate x0 (Lstm.layerOf 0 x1) x3 x4 x5 x6 b j := by
  simp only [val_main_v14_apply, val_main_v11_apply, val_main_v8_apply, val_main_v5_apply, val_main_v10_apply,
    val_main_v7_apply, val_main_v6_apply, val_main_v13_apply, val_main_v12_apply, val_main_v4_apply, val_main_v9_apply,
    val_main_v1_apply, val_main_v0_apply, l5, r5, l10, r10, b7, b13, Ideal.addf_def]
  rfl

/-! ## The cell of layer 0 -/

/-- The reference's new cell state of layer 0 at row `b`, unit `u`. -/
theorem c1_eq (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (b : Fin 64) (u : Fin 4096) :
    val_main_v34 (F := Ideal) x0 x1 x2 x3 x4 x5 x6 (ix2 b u) = Lstm.c1 x0 x1 x2 x3 x4 x5 x6 b u := by
  simp only [val_main_v34_apply, val_main_v25_apply, val_main_v24_apply, val_main_v23_apply, val_main_cst_0_apply,
    val_main_v22_apply, val_main_v21_apply, val_main_cst_apply, val_main_v20_apply, val_main_v19_apply, val_main_v16_apply,
    val_main_v3_apply, val_main_v2_apply, val_main_v33_apply, val_main_v31_apply, val_main_v30_apply, val_main_cst_2_apply,
    val_main_v29_apply, val_main_v28_apply, val_main_cst_1_apply, val_main_v27_apply, val_main_v26_apply, val_main_v15_apply,
    val_main_v32_apply, val_main_v17_apply, e15, e16, e17, s3, gates0,
    Ideal.addf_def, Ideal.mulf_def, Ideal.hostDivf_def, Ideal.hostNegf_def, Ideal.negf_def, Ideal.hostUnary_exp_def,
    Ideal.hostUnary_tanh_def, Ideal.ofBits_def, Ideal.ofBits_one_f32]
  rfl

/-- The reference's new hidden state of layer 0 at row `b`, unit `u`. -/
theorem h1_eq (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (b : Fin 64) (u : Fin 4096) :
    val_main_v42 (F := Ideal) x0 x1 x2 x3 x4 x5 x6 (ix2 b u) = Lstm.h1 x0 x1 x2 x3 x4 x5 x6 b u := by
  simp only [val_main_v42_apply, val_main_v40_apply, val_main_v39_apply, val_main_cst_4_apply, val_main_v38_apply,
    val_main_v37_apply, val_main_cst_3_apply, val_main_v36_apply, val_main_v35_apply, val_main_v18_apply, val_main_v41_apply,
    e18, gates0, c1_eq,
    Ideal.addf_def, Ideal.mulf_def, Ideal.hostDivf_def, Ideal.hostNegf_def, Ideal.negf_def, Ideal.hostUnary_exp_def,
    Ideal.hostUnary_tanh_def, Ideal.ofBits_def, Ideal.ofBits_one_f32]
  rfl

/-- The reference's new cell state of layer 0, as a whole array. -/
theorem c1_arr (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal)) :
    val_main_v34 (F := Ideal) x0 x1 x2 x3 x4 x5 x6 = Lstm.asMat (Lstm.c1 x0 x1 x2 x3 x4 x5 x6) :=
  Lstm.eq_asMat (c1_eq x0 x1 x2 x3 x4 x5 x6)

/-- The reference's new hidden state of layer 0, as a whole array. -/
theorem h1_arr (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal)) :
    val_main_v42 (F := Ideal) x0 x1 x2 x3 x4 x5 x6 = Lstm.asMat (Lstm.h1 x0 x1 x2 x3 x4 x5 x6) :=
  Lstm.eq_asMat (h1_eq x0 x1 x2 x3 x4 x5 x6)

end Cert.RefSide

end
-- ==== Proof.RefLayer1.lean ====
/-
  The reference's second layer, read index by index. Its input is the first layer's new hidden state, its old states
  are slice 1 of the two stacked states, and its weights are the second group of four arguments; otherwise the
  operations are those of the first layer. The value left for its gate pre-activations, new cell state and new hidden
  state is the specification's `gate`, `c2`, `h2`.
-/
import proofs.«142131_j78597901517448_2_alg».proof.Proof.RefLayer0

noncomputable section

open Idealize.ShloMosaic Idealize.ShloMosaic.TcCoe
open Idealize.ShloMosaic.ValueIdx (ix1 ix2 ix3)
open Cert.ReferenceIdeal Cert.ReferenceIdeal.Read

namespace Cert.RefSide

/-! ## Where the layout operations of layer 1 read -/

/-- The input product's left operand at contraction position `k`: row `b`, unit `k` of layer 0's new hidden state. -/
theorem l48 (b : Fin 64) (j : Fin 16384) (k : Fin 4096) : lidx_main_v48 (ix2 b j) k = ix2 b k :=
  funext fun a => Fin.ext (by match a with | ⟨0, _⟩ => rfl | ⟨1, _⟩ => rfl)

/-- The input product's right operand reads layer 1's W_ih at row `j`, column `k`. -/
theorem r48 (b : Fin 64) (j : Fin 16384) (k : Fin 4096) : idx_main_v47 (ridx_main_v48 (ix2 b j) k) = ix2 j k :=
  funext fun a => Fin.ext (by match a with | ⟨0, _⟩ => rfl | ⟨1, _⟩ => rfl)

/-- The hidden product's left operand is slice 1 of the stacked hidden state, reshaped to 64 × 4096: row `b`, unit `k`. -/
theorem l53 (b : Fin 64) (j : Fin 16384) (k : Fin 4096) :
    idx_main_v43 (idx_main_v44 (lidx_main_v53 (ix2 b j) k)) = ix3 (1 : Fin 2) b k :=
  funext fun a => Fin.ext (by
    have hb := b.isLt; have hk := k.isLt
    match a with
    | ⟨0, _⟩ => rfl
    | ⟨1, _⟩ => show (b.val * 4096 + k.val) / 4096 % 64 = b.val; omega
    | ⟨2, _⟩ => show (b.val * 4096 + k.val) % 4096 = k.val; omega)

/-- The hidden product's right operand reads layer 1's W_hh at row `j`, column `k`. -/
theorem r53 (b : Fin 64) (j : Fin 16384) (k : Fin 4096) : idx_main_v52 (ridx_main_v53 (ix2 b j) k) = ix2 j k :=
  funext fun a => Fin.ext (by match a with | ⟨0, _⟩ => rfl | ⟨1, _⟩ => rfl)

/-- The broadcast input bias of layer 1 at row `b`, column `j` is the bias at `j`. -/
theorem b50 (b : Fin 64) (j : Fin 16384) : idx_main_v49 (idx_main_v50 (ix2 b j)) = ix1 j :=
  funext fun a => Fin.ext (by match a with | ⟨0, _⟩ => rfl)

/-- The broadcast hidden bias of layer 1 at row `b`, column `j` is the bias at `j`. -/
theorem b56 (b : Fin 64) (j : Fin 16384) : idx_main_v55 (idx_main_v56 (ix2 b j)) = ix1 j :=
  funext fun a => Fin.ext (by match a with | ⟨0, _⟩ => rfl)

/-- The first column slice of layer 1's gates is the input gate's group. -/
theorem e58 (b : Fin 64) (u : Fin 4096) : idx_main_v58 (ix2 b u) = ix2 b (Lstm.colI u) :=
  funext fun a => Fin.ext (by match a with | ⟨0, _⟩ => rfl | ⟨1, _⟩ => rfl)

/-- The second column slice of layer 1's gates is the forget gate's group. -/
theorem e59 (b : Fin 64) (u : Fin 4096) : idx_main_v59 (ix2 b u) = ix2 b (Lstm.colF u) :=
  funext fun a => Fin.ext (by match a with | ⟨0, _⟩ => rfl | ⟨1, _⟩ => rfl)

/-- The third column slice of layer 1's gates is the cell gate's group. -/
theorem e60 (b : Fin 64) (u : Fin 4096) : idx_main_v60 (ix2 b u) = ix2 b (Lstm.colG u) :=
  funext fun a => Fin.ext (by match a with | ⟨0, _⟩ => rfl | ⟨1, _⟩ => rfl)

/-- The fourth column slice of layer 1's gates is the output gate's group. -/
theorem e61 (b : Fin 64) (u : Fin 4096) : idx_main_v61 (ix2 b u) = ix2 b (Lstm.colO u) :=
  funext fun a => Fin.ext (by match a with | ⟨0, _⟩ => rfl | ⟨1, _⟩ => rfl)

/-- The old cell state of layer 1 is slice 1 of the stacked cell state, reshaped: row `b`, unit `u`. -/
theorem s46 (b : Fin 64) (u : Fin 4096) : idx_main_v45 (idx_main_v46 (ix2 b u)) = ix3 (1 : Fin 2) b u :=
  funext fun a => Fin.ext (by
    have hb := b.isLt; have hu := u.isLt
    match a with
    | ⟨0, _⟩ => rfl
    | ⟨1, _⟩ => show (b.val * 4096 + u.val) / 4096 % 64 = b.val; omega
    | ⟨2, _⟩ => show (b.val * 4096 + u.val) % 4096 = u.val; omega)

/-! ## The gates of layer 1 -/

/-- The reference's gate pre-activations of layer 1 at row `b` and column `j`: the specification's `gate` with layer
    0's new hidden state as the input. -/
theorem gates1 (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal))
    (b : Fin 64) (j : Fin 16384) :
    val_main_v57 (F := Ideal) x0 x1 x2 x3 x4 x5 x6 x7 x8 x9 x10 (ix2 b j)
      = Lstm.gate (Lstm.asMat (Lstm.h1 x0 x1 x2 x3 x4 x5 x6)) (Lstm.layerOf 1 x1) x7 x8 x9 x10 b j := by
  simp only [val_main_v57_apply, val_main_v54_apply, val_main_v51_apply, val_main_v48_apply, val_main_v53_apply,
    val_main_v50_apply, val_main_v49_apply, val_main_v56_apply, val_main_v55_apply, val_main_v47_apply, val_main_v52_apply,
    val_main_v44_apply, val_main_v43_apply, l48, r48, l53, r53, b50, b56, h1_eq, Ideal.addf_def]
  rfl

/-! ## The cell of layer 1 -/

/-- The reference's new cell state of layer 1 at row `b`, unit `u`. -/
theorem c2_eq (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal))
    (b : Fin 64) (u : Fin 4096) :
    val_main_v77 (F := Ideal) x0 x1 x2 x3 x4 x5 x6 x7 x8 x9 x10 (ix2 b u) = Lstm.c2 x0 x1 x2 x3 x4 x5 x6 x7 x8 x9 x10 b u := by
  simp only [val_main_v77_apply, val_main_v68_apply, val_main_v67_apply, val_main_v66_apply, val_main_cst_6_apply,
    val_main_v65_apply, val_main_v64_apply, val_main_cst_5_apply, val_main_v63_apply, val_main_v62_apply, val_main_v59_apply,
    val_main_v46_apply, val_main_v45_apply, val_main_v76_apply, val_main_v74_apply, val_main_v73_apply, val_main_cst_8_apply,
    val_main_v72_apply, val_main_v71_apply, val_main_cst_7_apply, val_main_v70_apply, val_main_v69_apply, val_main_v58_apply,
    val_main_v75_apply, val_main_v60_apply, e58, e59, e60, s46, gates1,
    Ideal.addf_def, Ideal.mulf_def, Ideal.hostDivf_def, Ideal.hostNegf_def, Ideal.negf_def, Ideal.hostUnary_exp_def,
    Ideal.hostUnary_tanh_def, Ideal.ofBits_def, Ideal.ofBits_one_f32]
  rfl

/-- The reference's new hidden state of layer 1 at row `b`, unit `u`. -/
theorem h2_eq (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal))
    (b : Fin 64) (u : Fin 4096) :
    val_main_v85 (F := Ideal) x0 x1 x2 x3 x4 x5 x6 x7 x8 x9 x10 (ix2 b u) = Lstm.h2 x0 x1 x2 x3 x4 x5 x6 x7 x8 x9 x10 b u := by
  simp only [val_main_v85_apply, val_main_v83_apply, val_main_v82_apply, val_main_cst_10_apply, val_main_v81_apply,
    val_main_v80_apply, val_main_cst_9_apply, val_main_v79_apply, val_main_v78_apply, val_main_v61_apply, val_main_v84_apply,
    e61, gates1, c2_eq,
    Ideal.addf_def, Ideal.mulf_def, Ideal.hostDivf_def, Ideal.hostNegf_def, Ideal.negf_def, Ideal.hostUnary_exp_def,
    Ideal.hostUnary_tanh_def, Ideal.ofBits_def, Ideal.ofBits_one_f32]
  rfl

/-- The reference's first result, layer 1's new hidden state, as a whole array. -/
theorem h2_arr (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal)) :
    val_main_v85 (F := Ideal) x0 x1 x2 x3 x4 x5 x6 x7 x8 x9 x10 = Lstm.outH x0 x1 x2 x3 x4 x5 x6 x7 x8 x9 x10 :=
  Lstm.eq_asMat (h2_eq x0 x1 x2 x3 x4 x5 x6 x7 x8 x9 x10)

end Cert.RefSide

end
-- ==== Proof.RefStack.lean ====
/-
  The reference's second and third results: the two layers' new hidden states, and the two layers' new cell states,
  stacked along a new leading axis. The reference gives each 64 × 4096 array a leading axis of extent one and joins the
  two along it; an element of the join with leading coordinate 0 is the first array's, with leading coordinate 1 the
  second's. This is proved once for any two arrays and then used for both results.
-/
import proofs.«142131_j78597901517448_2_alg».proof.Proof.RefLayer1

noncomputable section

open Idealize.ShloMosaic Idealize.ShloMosaic.TcCoe
open Idealize.ShloMosaic.ValueIdx (ix1 ix2 ix3)
open Cert.ReferenceIdeal Cert.ReferenceIdeal.Read Cert.ReferenceIdeal.Facts₀

namespace Cert.RefSide

/-- A 64 × 4096 array given a leading axis of extent one, read at leading coordinate `z`, row `b`, unit `u`. -/
theorem lead_apply (p : (⟨S64x4096, .f32⟩ : BufTy).Contents (Elt Ideal)) (z : Fin 1) (b : Fin 64) (u : Fin 4096) :
    broadcastInDim S1x64x4096 ![1, 2] bcast_S64x4096_S1x64x4096_1_2 p (ix3 z b u) = p (ix2 b u) :=
  broadcastInDim_apply _ bcast_S64x4096_S1x64x4096_1_2 p (ix3 z b u) (ix2 b u) (fun a => match a with
    | ⟨0, _⟩ => by show b.val = if (64 : Nat) = 1 then 0 else b.val; rw [if_neg (by decide)]
    | ⟨1, _⟩ => by show u.val = if (4096 : Nat) = 1 then 0 else u.val; rw [if_neg (by decide)])

/-- Two 64 × 4096 arrays stacked along a new leading axis, read at layer `s`, row `b`, unit `u`: the first array at
    layer 0, the second at layer 1. -/
theorem stack_apply (p q : (⟨S64x4096, .f32⟩ : BufTy).Contents (Elt Ideal)) (s : Fin 2) (b : Fin 64) (u : Fin 4096) :
    concatenate S2x64x4096 0
        [⟨S1x64x4096, broadcastInDim S1x64x4096 ![1, 2] bcast_S64x4096_S1x64x4096_1_2 p⟩,
         ⟨S1x64x4096, broadcastInDim S1x64x4096 ![1, 2] bcast_S64x4096_S1x64x4096_1_2 q⟩]
        concatenates_S1x64x4096_S1x64x4096_S2x64x4096_d0 (ix3 s b u)
      = if s.val = 0 then p (ix2 b u) else q (ix2 b u) := by
  match s with
  | ⟨0, _⟩ =>
    rw [if_pos rfl]
    refine (concatenate_pair_apply_left (0 : Fin S2x64x4096.rank) _ _ concatenates_S1x64x4096_S1x64x4096_S2x64x4096_d0
      (ix3 (⟨0, by decide⟩ : Fin 2) b u) rfl (ix3 (0 : Fin 1) b u) (fun a => by
        match a with
        | ⟨0, _⟩ => rfl
        | ⟨1, _⟩ => rfl
        | ⟨2, _⟩ => rfl)).trans ?_
    exact lead_apply p 0 b u
  | ⟨1, _⟩ =>
    rw [if_neg (show ¬ (1 : Nat) = 0 by decide)]
    refine (concatenate_pair_apply_right (0 : Fin S2x64x4096.rank) _ _ concatenates_S1x64x4096_S1x64x4096_S2x64x4096_d0
      (ix3 (⟨1, by decide⟩ : Fin 2) b u) rfl rfl (ix3 (0 : Fin 1) b u) (fun a => by
        match a with
        | ⟨0, _⟩ => exact fun h => absurd rfl h
        | ⟨1, _⟩ => exact fun _ => rfl
        | ⟨2, _⟩ => exact fun _ => rfl) rfl).trans ?_
    exact lead_apply q 0 b u

/-- The reference's second result at layer `s`, row `b`, unit `u`. -/
theorem hstack_eq (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal))
    (s : Fin 2) (b : Fin 64) (u : Fin 4096) :
    val_main_v88 (F := Ideal) x0 x1 x2 x3 x4 x5 x6 x7 x8 x9 x10 (ix3 s b u)
      = Lstm.hStack x0 x1 x2 x3 x4 x5 x6 x7 x8 x9 x10 s b u := by
  unfold val_main_v88 val_main_v86 val_main_v87 Lstm.hStack
  rw [stack_apply, h1_eq, h2_eq]

/-- The reference's third result at layer `s`, row `b`, unit `u`. -/
theorem cstack_eq (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal))
    (s : Fin 2) (b : Fin 64) (u : Fin 4096) :
    val_main_v91 (F := Ideal) x0 x1 x2 x3 x4 x5 x6 x7 x8 x9 x10 (ix3 s b u)
      = Lstm.cStack x0 x1 x2 x3 x4 x5 x6 x7 x8 x9 x10 s b u := by
  unfold val_main_v91 val_main_v89 val_main_v90 Lstm.cStack
  rw [stack_apply, c1_eq, c2_eq]

/-- The reference's second result as a whole array. -/
theorem hstack_arr (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal)) :
    val_main_v88 (F := Ideal) x0 x1 x2 x3 x4 x5 x6 x7 x8 x9 x10 = Lstm.outHStack x0 x1 x2 x3 x4 x5 x6 x7 x8 x9 x10 :=
  Lstm.eq_asStack (hstack_eq x0 x1 x2 x3 x4 x5 x6 x7 x8 x9 x10)

/-- The reference's third result as a whole array. -/
theorem cstack_arr (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal)) :
    val_main_v91 (F := Ideal) x0 x1 x2 x3 x4 x5 x6 x7 x8 x9 x10 = Lstm.outCStack x0 x1 x2 x3 x4 x5 x6 x7 x8 x9 x10 :=
  Lstm.eq_asStack (cstack_eq x0 x1 x2 x3 x4 x5 x6 x7 x8 x9 x10)

end Cert.RefSide

end
-- ==== Proof.RefHead.lean ====
/-
  The reference's fourth result, the count head: two affine maps, each followed by a maximum against zero, applied to
  layer 1's new hidden state. The weight matrices enter transposed, so the contraction of row `b` against output
  column `j` reads the weight at row `j`; the biases are broadcast over the rows; the zero the maxima compare against
  is the float zero word, which is the extended real 0.
-/
import proofs.«142131_j78597901517448_2_alg».proof.Proof.RefLayer1

noncomputable section

open Idealize.ShloMosaic Idealize.ShloMosaic.TcCoe
open Idealize.ShloMosaic.ValueIdx (ix1 ix2 ix3)
open Cert.ReferenceIdeal Cert.ReferenceIdeal.Read

namespace Cert.RefSide

/-! ## Where the head's layout operations read -/

/-- The first product's left operand at contraction position `k`: row `b`, unit `k` of layer 1's new hidden state. -/
theorem l93 (b : Fin 64) (j : Fin 2048) (k : Fin 4096) : lidx_main_v93 (ix2 b j) k = ix2 b k :=
  funext fun a => Fin.ext (by match a with | ⟨0, _⟩ => rfl | ⟨1, _⟩ => rfl)

/-- The first product's right operand reads the first weight matrix at row `j`, column `k`. -/
theorem r93 (b : Fin 64) (j : Fin 2048) (k : Fin 4096) : idx_main_v92 (ridx_main_v93 (ix2 b j) k) = ix2 j k :=
  funext fun a => Fin.ext (by match a with | ⟨0, _⟩ => rfl | ⟨1, _⟩ => rfl)

/-- The broadcast first bias at row `b`, column `j` is the bias at `j`. -/
theorem b95 (b : Fin 64) (j : Fin 2048) : idx_main_v94 (idx_main_v95 (ix2 b j)) = ix1 j :=
  funext fun a => Fin.ext (by match a with | ⟨0, _⟩ => rfl)

/-- The second product's left operand at contraction position `k`: row `b`, column `k` of the hidden layer. -/
theorem l99 (b : Fin 64) (z : Fin 1) (k : Fin 2048) : lidx_main_v99 (ix2 b z) k = ix2 b k :=
  funext fun a => Fin.ext (by match a with | ⟨0, _⟩ => rfl | ⟨1, _⟩ => rfl)

/-- The second product's right operand reads the second weight matrix at its one row, column `k`. -/
theorem r99 (b : Fin 64) (z : Fin 1) (k : Fin 2048) : idx_main_v98 (ridx_main_v99 (ix2 b z) k) = ix2 (0 : Fin 1) k :=
  funext fun a => Fin.ext (by
    have hz := z.isLt
    match a with
    | ⟨0, _⟩ => show z.val = 0; omega
    | ⟨1, _⟩ => rfl)

/-- The broadcast second bias is its one entry. -/
theorem b101 (b : Fin 64) (z : Fin 1) : idx_main_v100 (idx_main_v101 (ix2 b z)) = ix1 (0 : Fin 1) :=
  funext fun a => Fin.ext (by match a with | ⟨0, _⟩ => rfl)

/-! ## The hidden layer and the count -/

/-- The reference's hidden layer of the head at row `b`, column `j`. -/
theorem hidden_eq (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal))
    (x11 : (⟨S2048x4096, .f32⟩ : BufTy).Contents (Elt Ideal)) (x12 : (⟨S2048, .f32⟩ : BufTy).Contents (Elt Ideal))
    (b : Fin 64) (j : Fin 2048) :
    val_main_v97 (F := Ideal) x0 x1 x2 x3 x4 x5 x6 x7 x8 x9 x10 x11 x12 (ix2 b j)
      = Lstm.hidden x0 x1 x2 x3 x4 x5 x6 x7 x8 x9 x10 x11 x12 b j := by
  simp only [val_main_v97_apply, val_main_v96_apply, val_main_v93_apply, val_main_v92_apply, val_main_v95_apply,
    val_main_v94_apply, val_main_call0_v0_apply, val_main_call0_cst_apply, l93, r93, b95, h2_eq,
    Ideal.addf_def, Ideal.maximumf_def, Ideal.ofBits_def, Ideal.ofBits_zero_f32]
  rfl

/-- The reference's count estimate at row `b` (its one column `z`). -/
theorem count_eq (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal))
    (x11 : (⟨S2048x4096, .f32⟩ : BufTy).Contents (Elt Ideal)) (x12 : (⟨S2048, .f32⟩ : BufTy).Contents (Elt Ideal))
    (x13 : (⟨S1x2048, .f32⟩ : BufTy).Contents (Elt Ideal)) (x14 : (⟨S1, .f32⟩ : BufTy).Contents (Elt Ideal))
    (b : Fin 64) (z : Fin 1) :
    val_main_v103 (F := Ideal) x0 x1 x2 x3 x4 x5 x6 x7 x8 x9 x10 x11 x12 x13 x14 (ix2 b z)
      = Lstm.count x0 x1 x2 x3 x4 x5 x6 x7 x8 x9 x10 x11 x12 x13 x14 b := by
  simp only [val_main_v103_apply, val_main_v102_apply, val_main_v99_apply, val_main_v98_apply, val_main_v101_apply,
    val_main_v100_apply, val_main_call1_v0_apply, val_main_call1_cst_apply, l99, r99, b101, hidden_eq,
    Ideal.addf_def, Ideal.maximumf_def, Ideal.ofBits_def, Ideal.ofBits_zero_f32]
  rfl

/-- The reference's fourth result as a whole array. -/
theorem count_arr (x0 : (⟨S64x4096, .f32⟩ : BufTy).Contents (Elt Ideal)) (x1 x2 : (⟨S2x64x4096, .f32⟩ : BufTy).Contents (Elt Ideal))
    (x3 x4 : (⟨S16384x4096, .f32⟩ : BufTy).Contents (Elt Ideal)) (x5 x6 : (⟨S16384, .f32⟩ : BufTy).Contents (Elt Ideal))
    (x7 x8 : (⟨S16384x4096, .f32⟩ : BufTy).Contents (Elt Ideal)) (x9 x10 : (⟨S16384, .f32⟩ : BufTy).Contents (Elt Ideal))
    (x11 : (⟨S2048x4096, .f32⟩ : BufTy).Contents (Elt Ideal)) (x12 : (⟨S2048, .f32⟩ : BufTy).Contents (Elt Ideal))
    (x13 : (⟨S1x2048, .f32⟩ : BufTy).Contents (Elt Ideal)) (x14 : (⟨S1, .f32⟩ : BufTy).Contents (Elt Ideal)) :
    val_main_v103 (F := Ideal) x0 x1 x2 x3 x4 x5 x6 x7 x8 x9 x10 x11 x12 x13 x14
      = Lstm.outCount x0 x1 x2 x3 x4 x5 x6 x7 x8 x9 x10 x11 x12 x13 x14 :=
  Lstm.eq_asCol (count_eq x0 x1 x2 x3 x4 x5 x6 x7 x8 x9 x10 x11 x12 x13 x14)

end Cert.RefSide

end
-- ==== Proof.RefIsSpec.lean ====
/-
  The reference is the specification: each of the four results the reference's run ends with, as the generated run
  names it from the launch memory `m` on core `c`, is the specification's array of the fifteen argument arrays as the
  launch memory holds them. Each is the generated stage equation followed by the whole-array form of the layer, stack
  or head lemma.
-/
import proofs.«142131_j78597901517448_2_alg».proof.Proof.RefStack
import proofs.«142131_j78597901517448_2_alg».proof.Proof.RefHead

noncomputable section

open Cert.ReferenceIdeal Cert.ReferenceIdeal.Gen Idealize.ShloMosaic Idealize.ShloMosaic.TcCoe Idealize.SL.Sem
open Cert.ReferenceIdeal.Read

namespace Cert.RefSide

/-- First result: layer 1's new hidden state. -/
theorem res_h (m : (ℓ : Loc nD τ sig) → Buf (Elt Ideal) ℓ) (c : Dev nD) :
    Cert.ReferenceIdeal.Value.res_main_v85 m c
      = Lstm.outH (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v85_eq (F := Ideal) m c).trans (h2_arr _ _ _ _ _ _ _ _ _ _ _)

/-- Second result: the two new hidden states stacked. -/
theorem res_hstack (m : (ℓ : Loc nD τ sig) → Buf (Elt Ideal) ℓ) (c : Dev nD) :
    Cert.ReferenceIdeal.Value.res_main_v88 m c
      = Lstm.outHStack (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v88_eq (F := Ideal) m c).trans (hstack_arr _ _ _ _ _ _ _ _ _ _ _)

/-- Third result: the two new cell states stacked. -/
theorem res_cstack (m : (ℓ : Loc nD τ sig) → Buf (Elt Ideal) ℓ) (c : Dev nD) :
    Cert.ReferenceIdeal.Value.res_main_v91 m c
      = Lstm.outCStack (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) :=
  (val_main_v91_eq (F := Ideal) m c).trans (cstack_arr _ _ _ _ _ _ _ _ _ _ _)

/-- Fourth result: the count estimate. -/
theorem res_count (m : (ℓ : Loc nD τ sig) → Buf (Elt Ideal) ℓ) (c : Dev nD) :
    Cert.ReferenceIdeal.Value.res_main_v103 m c
      = Lstm.outCount (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13))
          (m ((c.tc : Thread nD τ).loc main_arg14)) :=
  (val_main_v103_eq (F := Ideal) m c).trans (count_arr _ _ _ _ _ _ _ _ _ _ _ _ _ _ _)

end Cert.RefSide

end
-- ==== Proof.RefRun.lean ====
/-
  The reference's run with its four results named by the specification: every weakly fair execution of the reference
  from the launch memory `m` terminates with its results at the specification's arrays of the argument arrays as `m`
  holds them, and with the arguments unchanged. This is the generated run with each result's term replaced by the
  specification's array through the four equations proved before.
-/
import proofs.«142131_j78597901517448_2_alg».proof.Proof.RefIsSpec

noncomputable section

open Cert.ReferenceIdeal Cert.ReferenceIdeal.Gen Idealize.ShloMosaic Idealize.ShloMosaic.TcCoe Idealize.SL.Sem

namespace Cert.RefSide

/-- The reference's run: results at the specification's four arrays, arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v85)
          = Lstm.outH (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10))
      ∧ r.2.mem ((c.tc : Thread nD τ).loc main_v88)
          = Lstm.outHStack (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10))
      ∧ r.2.mem ((c.tc : Thread nD τ).loc main_v91)
          = Lstm.outCStack (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10))
      ∧ r.2.mem ((c.tc : Thread nD τ).loc main_v103)
          = Lstm.outCount (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) (m ((c.tc : Thread nD τ).loc main_arg11))
              (m ((c.tc : Thread nD τ).loc main_arg12)) (m ((c.tc : Thread nD τ).loc main_arg13))
              (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c =>
      ⟨(h c).1.trans (res_h m c), (h c).2.1.trans (res_hstack m c), (h c).2.2.1.trans (res_cstack m c),
        (h c).2.2.2.1.trans (res_count m c), (h c).2.2.2.2⟩)
    (Cert.ReferenceIdeal.Value.run (F := Ideal) m ρ)

end Cert.RefSide

end
-- ==== Proof.FrameLib.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Small facts about loads and stores through rectangles, shared by the two LSTM layers -/

/-! ## Loads through a whole buffer, and a load of the rectangle a store just went through -/

theorem hz2 : (![0, 0] : Fin 2 → ℕ) = fun _ => 0 := by funext a; fin_cases a <;> rfl

/-- A load through the whole-shape rectangle of a whole memref held at the contents that read `x` reads `x`. -/
theorem readAt_whole {sp : Space} {S : Shape} {e : EltTy} (m : Memref sig .tc sp S e) (h : m.IsWhole) {off : Fin S.rank → ℕ}
    (hz : off = fun _ => 0) (inb : ∀ a, off a + S.size a ≤ S.size a) (x : S.Idx → Elt F e) :
    View.readAt (Elt F) m.view (Rect.unit (s := S) off S.size inb).toLoadRect (h.unread x) = x := by
  rw [View.readAt_eq_ld, h.read_unread]; exact View.ld_unit_zero hz inb x

theorem rdW_a (m : Memref sig .tc .vmem S64x4096 .f32) (h : m.IsWhole) (x : Vec F S64x4096 .f32) :
    View.readAt (Elt F) m.view (Rect.unit (s := S64x4096) ![0, 0] S64x4096.size inb_S64x4096_S64x4096_0_0).toLoadRect (h.unread x) = x :=
  readAt_whole m h hz2 _ x
theorem rdW_w (m : Memref sig .tc .vmem S512x4096 .f32) (h : m.IsWhole) (x : Vec F S512x4096 .f32) :
    View.readAt (Elt F) m.view (Rect.unit (s := S512x4096) ![0, 0] S512x4096.size inb_S512x4096_S512x4096_0_0).toLoadRect (h.unread x) = x :=
  readAt_whole m h hz2 _ x
theorem rdW_b (m : Memref sig .tc .vmem S1x512 .f32) (h : m.IsWhole) (x : Vec F S1x512 .f32) :
    View.readAt (Elt F) m.view (Rect.unit (s := S1x512) ![0, 0] S1x512.size inb_S1x512_S1x512_0_0).toLoadRect (h.unread x) = x :=
  readAt_whole m h hz2 _ x
theorem rdW_c (m : Memref sig .tc .vmem S64x512 .f32) (h : m.IsWhole) (x : Vec F S64x512 .f32) :
    View.readAt (Elt F) m.view (Rect.unit (s := S64x512) ![0, 0] S64x512.size inb_S64x512_S64x512_0_0).toLoadRect (h.unread x) = x :=
  readAt_whole m h hz2 _ x

/-- A load through the very rectangle the one listed store went through reads that store's payload. -/
theorem readCov_own {sp : Space} {S : Shape} {e : EltTy} (v : View sig .tc sp S e) {off off' size : Fin S.rank → ℕ} (h : off = off')
    (inb : ∀ a, off a + size a ≤ S.size a) (inb' : ∀ a, off' a + size a ≤ S.size a)
    (P : (Rect.unit (s := S) off size inb).shape.Idx → Elt F e) :
    v.readCov [(⟨Rect.unit (s := S) off size inb, P⟩ : View.Piece (Elt F) S e)] (Rect.unit (s := S) off' size inb').toLoadRect = P := by
  subst h; exact View.readCov_cons_toLoadRect v _ P []

/-! ## Slabs of the gate scratch: a store into one slab leaves the others, and reads back through its own box -/

theorem unread_read {sp : Space} {S : Shape} {e : EltTy} (m : Memref sig .tc sp S e) (h : m.IsWhole) (f : m.view.ty.Contents (Elt F)) :
    h.unread (m.view.read (Elt F) f) = f := (h.eq_unread rfl).symm

/-- A load of slab `g'` after one store through slab `g ≠ g'` reads what was there before. -/
theorem slab_miss (v : View sig .tc .vmem S4x64x512 .f32) (f : v.ty.Contents (Elt F)) {off : Fin 3 → ℕ} (g g' : ℕ) (hoff : off = ![g, 0, 0]) (hne : g ≠ g')
    (inb : ∀ a, off a + S1x64x512.size a ≤ S4x64x512.size a) (inb' : ∀ a, (![g', 0, 0] : Fin 3 → ℕ) a + S1x64x512.size a ≤ S4x64x512.size a)
    (P : (Rect.unit (s := S4x64x512) off S1x64x512.size inb).shape.Idx → Elt F .f32) :
    View.readAt (Elt F) v (Rect.unit (s := S4x64x512) ![g', 0, 0] S1x64x512.size inb').toLoadRect (v.writes (Elt F) f [(⟨Rect.unit (s := S4x64x512) off S1x64x512.size inb, P⟩ : View.Piece (Elt F) S4x64x512 .f32)])
      = View.readAt (Elt F) v (Rect.unit (s := S4x64x512) ![g', 0, 0] S1x64x512.size inb').toLoadRect f := by
  subst hoff
  funext j
  have hj : (j (0 : Fin 3)).val < 1 := (j (0 : Fin 3)).isLt
  rw [View.readAt_apply, View.readAt_apply]
  refine (View.read_writes_cons_unit_of_not_mem v f inb P [] _ rfl (0 : Fin 3) ?_).trans rfl
  show g' + 1 * (j (0 : Fin 3)).val < g ∨ g + 1 ≤ g' + 1 * (j (0 : Fin 3)).val
  omega

/-- A load of slab `g` after one store through slab `g` reads the stored tile. -/
theorem slab_hit (v : View sig .tc .vmem S4x64x512 .f32) (f : v.ty.Contents (Elt F)) {off off' : Fin 3 → ℕ} (hoff : off = off')
    (inb : ∀ a, off a + S1x64x512.size a ≤ S4x64x512.size a) (inb' : ∀ a, off' a + S1x64x512.size a ≤ S4x64x512.size a)
    (P : (Rect.unit (s := S4x64x512) off S1x64x512.size inb).shape.Idx → Elt F .f32) :
    View.readAt (Elt F) v (Rect.unit (s := S4x64x512) off' S1x64x512.size inb').toLoadRect (v.writes (Elt F) f [(⟨Rect.unit (s := S4x64x512) off S1x64x512.size inb, P⟩ : View.Piece (Elt F) S4x64x512 .f32)]) = P := by
  subst hoff
  funext j
  exact View.read_writes_cons_emb v f (Rect.unit (s := S4x64x512) off S1x64x512.size inb) P [] j

end Cert.KernelIdeal.Hand

end
-- ==== Proof.LstmDefs0.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # LSTM layer 0 (kernel region 0): 32 grid points, 8 hidden tiles of 512 columns × 4 gates

At point `t = 4·ht + g` the body computes gate `g`'s pre-activation tile for hidden tile `ht` — the two activations
times the two weight tiles (rows `g·4096 + ht·512 …` of each weight matrix) plus the two bias tiles — and stores it into
slab `g` of a scratch of four slabs. At `g = 3` it then reads the four slabs and the old cell-state block and stores the
new hidden-state and cell-state blocks of tile `ht`, which the pipeline writes back there. The output windows are
idle at the other three points. The scratch is carried from point to point: before point `t` its slabs `g' < g` hold
the gate tiles of the points `4·ht + g'`. -/

section Region0
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the region-entry contents and whose body leaves the block in place: unfetched, the block index has
    not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place: unfetched, the block index has
    not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place: unfetched, the block index has
    not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the region-entry contents and whose body leaves the block in place: unfetched, the block index has
    not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the region-entry contents and whose body leaves the block in place: unfetched, the block index has
    not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the region-entry contents and whose body leaves the block in place: unfetched, the block index has
    not moved since the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is the region-entry contents and whose body leaves the block in place: unfetched, the block index has
    not moved since the point before. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition, the scratch offset, the idle points: decided over the grid -/

/-- The body's `scf.if` is taken exactly at the last gate of each hidden tile. -/
theorem hcond0 : ∀ t : Fin cfg0.N, k0_cond1 (grid0.coords t) = 1#1 ↔ t.val % 4 = 3 :=
  (by decide +kernel : ∀ t : Fin grid0.N, k0_cond1 (grid0.coords t) = 1#1 ↔ t.val % 4 = 3)
/-- At the points of gate 0 the scratch store lands on slab 0. -/
theorem hoff0_0 : ∀ t : Fin cfg0.N, t.val % 4 = 0 → k0_off1 (grid0.coords t) = ![0, 0, 0] :=
  (by decide +kernel : ∀ t : Fin grid0.N, t.val % 4 = 0 → k0_off1 (grid0.coords t) = ![0, 0, 0])
/-- At the points of gate 1 the scratch store lands on slab 1. -/
theorem hoff0_1 : ∀ t : Fin cfg0.N, t.val % 4 = 1 → k0_off1 (grid0.coords t) = ![1, 0, 0] :=
  (by decide +kernel : ∀ t : Fin grid0.N, t.val % 4 = 1 → k0_off1 (grid0.coords t) = ![1, 0, 0])
/-- At the points of gate 2 the scratch store lands on slab 2. -/
theorem hoff0_2 : ∀ t : Fin cfg0.N, t.val % 4 = 2 → k0_off1 (grid0.coords t) = ![2, 0, 0] :=
  (by decide +kernel : ∀ t : Fin grid0.N, t.val % 4 = 2 → k0_off1 (grid0.coords t) = ![2, 0, 0])
/-- At the points of gate 3 the scratch store lands on slab 3. -/
theorem hoff0_3 : ∀ t : Fin cfg0.N, t.val % 4 = 3 → k0_off1 (grid0.coords t) = ![3, 0, 0] :=
  (by decide +kernel : ∀ t : Fin grid0.N, t.val % 4 = 3 → k0_off1 (grid0.coords t) = ![3, 0, 0])
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Output window 7 is idle, and not written back, away from the last gate; live at it. -/
theorem idleAt0_7 : ∀ t : Fin cfg0.N, ¬ t.val % 4 = 3 → cfg0.idle 7 (grid0.coords t) = true :=
  (by decide +kernel : ∀ t : Fin grid0.N, ¬ t.val % 4 = 3 → cfg0.idle 7 (grid0.coords t) = true)
theorem noFlush0_7 : ∀ t : Fin cfg0.N, ¬ t.val % 4 = 3 → (cfg0.win 7).flush t = false :=
  (by decide +kernel : ∀ t : Fin grid0.N, ¬ t.val % 4 = 3 → (cfg0.win 7).flush t = false)
theorem liveAt0_7 : ∀ t : Fin cfg0.N, t.val % 4 = 3 → cfg0.idle 7 (grid0.coords t) = false :=
  (by decide +kernel : ∀ t : Fin grid0.N, t.val % 4 = 3 → cfg0.idle 7 (grid0.coords t) = false)
/-- Output window 8 is idle, and not written back, away from the last gate; live at it. -/
theorem idleAt0_8 : ∀ t : Fin cfg0.N, ¬ t.val % 4 = 3 → cfg0.idle 8 (grid0.coords t) = true :=
  (by decide +kernel : ∀ t : Fin grid0.N, ¬ t.val % 4 = 3 → cfg0.idle 8 (grid0.coords t) = true)
theorem noFlush0_8 : ∀ t : Fin cfg0.N, ¬ t.val % 4 = 3 → (cfg0.win 8).flush t = false :=
  (by decide +kernel : ∀ t : Fin grid0.N, ¬ t.val % 4 = 3 → (cfg0.win 8).flush t = false)
theorem liveAt0_8 : ∀ t : Fin cfg0.N, t.val % 4 = 3 → cfg0.idle 8 (grid0.coords t) = false :=
  (by decide +kernel : ∀ t : Fin grid0.N, t.val % 4 = 3 → cfg0.idle 8 (grid0.coords t) = false)

/-! ## The staging memrefs at a point, and the scratch -/
abbrev ms0_0 (t : Fin cfg0.N) : Memref sig .tc .vmem S64x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x512 .f32 := win0_8.stage (cfg0.slots t 8)
abbrev hs0_8 (t : Fin cfg0.N) : (ms0_8 t).IsWhole := hstage0_8 ((cfg0.slots t 8).cast nbuf0_8)
/-- The gate scratch: a whole scoped buffer of the kernel's own. -/
abbrev scM0 : Memref sig .tc .vmem S4x64x512 .f32 := Memref.whole cc0_scratch0
abbrev hsc0 : scM0.IsWhole := Memref.isWhole_whole _

/-! ## The gate tiles, the output blocks, the slabs -/

/-- The gate tile point `t` computes: the body's arithmetic over the point's six input blocks. -/
def gateAt0 (c : Dev nD) (t : Fin cfg0.N) : Vec F S1x64x512 .f32 :=
  k0_pay1 (iblk0 V c 0 t) (iblk0 V c 3 t) (iblk0 V c 5 t) (iblk0 V c 1 t) (iblk0 V c 4 t) (iblk0 V c 6 t)

/-- The point of gate `j` in `t`'s group of four (one hidden tile). -/
def grp0 (t : Fin cfg0.N) (j : ℕ) (hj : j < 4) : Fin cfg0.N :=
  ⟨4 * (t.val / 4) + j, by
    have hN : t.val < 32 := lt_of_lt_of_eq t.isLt (show cfg0.N = 32 from N_0)
    exact lt_of_lt_of_eq (by omega : 4 * (t.val / 4) + j < 32) (show cfg0.N = 32 from N_0).symm⟩
theorem grp0_val (t : Fin cfg0.N) (j : ℕ) (hj : j < 4) : (grp0 t j hj).val = 4 * (t.val / 4) + j := rfl

abbrev r0_o : Rect S64x512 := Rect.unit (s := S64x512) ![0, 0] S64x512.size inb_S64x512_S64x512_0_0

/-- The new hidden-state block of `t`'s hidden tile: the one store of the last gate's point, over the four gate tiles
    of the group and the old cell-state block. -/
def hOut0 (c : Dev nD) (t : Fin cfg0.N) : Vec F S64x512 .f32 :=
  View.canon [⟨r0_o, k0_pay3 (gateAt0 V c (grp0 t 0 (by decide))) (gateAt0 V c (grp0 t 1 (by decide))) (gateAt0 V c (grp0 t 2 (by decide))) (gateAt0 V c (grp0 t 3 (by decide))) (iblk0 V c 2 t)⟩]
/-- The new cell-state block, likewise (it does not read the fourth gate). -/
def cOut0 (c : Dev nD) (t : Fin cfg0.N) : Vec F S64x512 .f32 :=
  View.canon [⟨r0_o, k0_pay2 (gateAt0 V c (grp0 t 0 (by decide))) (gateAt0 V c (grp0 t 1 (by decide))) (gateAt0 V c (grp0 t 2 (by decide))) (iblk0 V c 2 t)⟩]

theorem cover0_o (p0 : Vec F S64x512 .f32) (y : S64x512.Idx) :
    ∃ pc ∈ ([⟨r0_o, p0⟩] : List (View.Piece (Elt F) S64x512 .f32)), y ∈ pc.1.set :=
  View.cover_of_tiled [⟨r0_o, p0⟩] S64x512.size (by rfl) y

abbrev sb0_0 : Rect S4x64x512 := Rect.unit (s := S4x64x512) ![0, 0, 0] S1x64x512.size inb_S4x64x512_S1x64x512_0_0_0
abbrev sb0_1 : Rect S4x64x512 := Rect.unit (s := S4x64x512) ![1, 0, 0] S1x64x512.size inb_S4x64x512_S1x64x512_1_0_0
abbrev sb0_2 : Rect S4x64x512 := Rect.unit (s := S4x64x512) ![2, 0, 0] S1x64x512.size inb_S4x64x512_S1x64x512_2_0_0
abbrev sb0_3 : Rect S4x64x512 := Rect.unit (s := S4x64x512) ![3, 0, 0] S1x64x512.size inb_S4x64x512_S1x64x512_3_0_0
/-- Slab `j` of the scratch held at the contents that read `xs`. -/
def slabRd0 (j : ℕ) (xs : Vec F S4x64x512 .f32) : Vec F S1x64x512 .f32 :=
  match j with
  | 0 => View.readAt (Elt F) scM0.view sb0_0.toLoadRect (hsc0.unread xs)
  | 1 => View.readAt (Elt F) scM0.view sb0_1.toLoadRect (hsc0.unread xs)
  | 2 => View.readAt (Elt F) scM0.view sb0_2.toLoadRect (hsc0.unread xs)
  | _ => View.readAt (Elt F) scM0.view sb0_3.toLoadRect (hsc0.unread xs)

/-- Before position `n` the slabs of the earlier points of `n`'s group hold those points' gate tiles. -/
def SlabOk0 (c : Dev nD) (n : ℕ) (xs : Vec F S4x64x512 .f32) : Prop :=
  ∀ t' : Fin cfg0.N, t'.val / 4 = n / 4 → t'.val < n → slabRd0 (t'.val % 4) xs = gateAt0 V c t'

/-- The region's invariant before position `n`: the scratch at contents whose earlier slabs are the group's gate tiles,
    the rest of the scoped buffers and the generator register untouched. -/
def PhiL0 (c : Dev nD) (n : ℕ) : sProp 𝕄 :=
  iprop((∃ xs : Vec F S4x64x512 .f32, owns (c : Thread nD τ) scM0 fullShare xs ∗ ⌜SlabOk0 V c n xs⌝)
    ∗ Pipeline.scopedRestBut (Ix := Unit) (Name := ℕ) (U := UR sig nD τ) (Lvl := ℕ) (Val := Elt F) spec0 c [cc0_scratch0]
    ∗ (∃ r, prngReg c r))

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => hOut0 V c t
    | ⟨8, _⟩ => cOut0 V c t
  Φ u := PhiL0 V c u.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = hOut0 V c t := by dsimp only [dat0]
theorem after0_8 (c : Dev nD) (t : Fin cfg0.N) : (dat0 V c).after 8 t = cOut0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Region0

end Cert.KernelIdeal.Hand

end
-- ==== Proof.LstmRuns0.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import proofs.«142131_j78597901517448_2_alg».proof.Proof.FrameLib
import proofs.«142131_j78597901517448_2_alg».proof.Proof.LstmDefs0
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs0
/-! ## The body's runs, one per gate coordinate -/

set_option maxHeartbeats 2000000 in
/-- The body at a point whose gate coordinate is 0 (not the last gate): it loads the two activations, the two weight
    tiles and the two bias tiles, and stores their gate tile into slab 0 of the scratch; nothing else is touched. The
    scratch is left at its contents with the pieces the body stores written. -/
noncomputable def kernelRun0_A0 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![0, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k0_off1 i) := ⟨![0, 0, 0], hl⟩
    simp only [cc0_kernel_eq_skeleton]; unfold cc0_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 2000000 in
/-- The body at a point whose gate coordinate is 1 (not the last gate): it loads the two activations, the two weight
    tiles and the two bias tiles, and stores their gate tile into slab 1 of the scratch; nothing else is touched. The
    scratch is left at its contents with the pieces the body stores written. -/
noncomputable def kernelRun0_A1 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![1, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k0_off1 i) := ⟨![1, 0, 0], hl⟩
    simp only [cc0_kernel_eq_skeleton]; unfold cc0_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 2000000 in
/-- The body at a point whose gate coordinate is 2 (not the last gate): it loads the two activations, the two weight
    tiles and the two bias tiles, and stores their gate tile into slab 2 of the scratch; nothing else is touched. The
    scratch is left at its contents with the pieces the body stores written. -/
noncomputable def kernelRun0_A2 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![2, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k0_off1 i) := ⟨![2, 0, 0], hl⟩
    simp only [cc0_kernel_eq_skeleton]; unfold cc0_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 4000000 in
/-- The body at a point whose gate coordinate is 3 (the last gate): it stores the fourth gate tile into slab 3 of the
    scratch, then reads the four slabs and the cell-state block and stores the new hidden state and the new cell state
    into the two output buffers. Slabs 0, 1, 2 of the scratch are taken at ANY contents whose reads are `ps0`, `ps1`,
    `ps2` (what the three points before stored there). -/
noncomputable def kernelRun0_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k0_cond1 i = 1#1) (hl : k0_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    Σ' (L9 : List (View.Piece (Elt F) S64x512 .f32)) (L10 : List (View.Piece (Elt F) S64x512 .f32)), { LS : List (View.Piece (Elt F) S4x64x512 .f32) //
      ∀ (xs : Vec F S4x64x512 .f32)
        (hps0 : View.readAt (Elt F) arg11.view (Rect.unit (s := S4x64x512) ![0, 0, 0] S1x64x512.size inb_S4x64x512_S1x64x512_0_0_0).toLoadRect (harg11.unread xs) = ps0)
        (hps1 : View.readAt (Elt F) arg11.view (Rect.unit (s := S4x64x512) ![1, 0, 0] S1x64x512.size inb_S4x64x512_S1x64x512_1_0_0).toLoadRect (harg11.unread xs) = ps1)
        (hps2 : View.readAt (Elt F) arg11.view (Rect.unit (s := S4x64x512) ![2, 0, 0] S1x64x512.size inb_S4x64x512_S1x64x512_2_0_0).toLoadRect (harg11.unread xs) = ps2)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)
                ∗ (arg11.view.loc (c : Thread nD τ) ↦[arg11.view.set]{fullShare} arg11.view.writes (Elt F) (harg11.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11) K } := by
  refine ⟨?_, ?_, ?_, fun xs hps0 hps1 hps2 E K => ?run⟩
  case run =>
    letI : ClosedOff (k0_off1 i) := ⟨![3, 0, 0], hl⟩
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]; · iexists _; iexact H10
    iexact HS

/-! ## The pieces the body stores -/

/-- At gate 0 the one piece the scratch gets is the gate tile of the six blocks, through the slab the offsets name. -/
theorem LS0_A0 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![0, 0, 0])
    (x0 x1 : Vec F S64x4096 .f32) (x3 x4 : Vec F S512x4096 .f32) (x5 x6 : Vec F S1x512 .f32) :
    (kernelRun0_A0 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k0_off1 i) S1x64x512.size (k0_off1_inb i), k0_pay1 x0 x3 x5 x1 x4 x6⟩ : View.Piece (Elt F) S4x64x512 .f32)] := by
  unfold kernelRun0_A0
  dsimp only
  rw [rdW_a, rdW_a, rdW_w, rdW_w, rdW_b, rdW_b]

/-- At gate 1 the one piece the scratch gets is the gate tile of the six blocks, through the slab the offsets name. -/
theorem LS0_A1 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![1, 0, 0])
    (x0 x1 : Vec F S64x4096 .f32) (x3 x4 : Vec F S512x4096 .f32) (x5 x6 : Vec F S1x512 .f32) :
    (kernelRun0_A1 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k0_off1 i) S1x64x512.size (k0_off1_inb i), k0_pay1 x0 x3 x5 x1 x4 x6⟩ : View.Piece (Elt F) S4x64x512 .f32)] := by
  unfold kernelRun0_A1
  dsimp only
  rw [rdW_a, rdW_a, rdW_w, rdW_w, rdW_b, rdW_b]

/-- At gate 2 the one piece the scratch gets is the gate tile of the six blocks, through the slab the offsets name. -/
theorem LS0_A2 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![2, 0, 0])
    (x0 x1 : Vec F S64x4096 .f32) (x3 x4 : Vec F S512x4096 .f32) (x5 x6 : Vec F S1x512 .f32) :
    (kernelRun0_A2 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k0_off1 i) S1x64x512.size (k0_off1_inb i), k0_pay1 x0 x3 x5 x1 x4 x6⟩ : View.Piece (Elt F) S4x64x512 .f32)] := by
  unfold kernelRun0_A2
  dsimp only
  rw [rdW_a, rdW_a, rdW_w, rdW_w, rdW_b, rdW_b]

/-- At the last gate the scratch gets the same kind of piece, -/
theorem LS0_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k0_cond1 i = 1#1) (hl : k0_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun0_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).2.2.1
      = [(⟨Rect.unit (s := S4x64x512) (k0_off1 i) S1x64x512.size (k0_off1_inb i), k0_pay1 x0 x3 x5 x1 x4 x6⟩ : View.Piece (Elt F) S4x64x512 .f32)] := by
  unfold kernelRun0_B
  dsimp only
  sl_unfold_words
  rw [rdW_a, rdW_a, rdW_w, rdW_w, rdW_b, rdW_b]

/-- the hidden-state buffer one store of the cell arithmetic over the three slabs it was handed, the tile it has just
    stored, and the cell-state block, -/
theorem L90_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k0_cond1 i = 1#1) (hl : k0_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun0_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).1
      = [(⟨r0_o, k0_pay3 ps0 ps1 ps2 (k0_pay1 x0 x3 x5 x1 x4 x6) x2⟩ : View.Piece (Elt F) S64x512 .f32)] := by
  unfold kernelRun0_B
  dsimp only
  sl_unfold_words
  rw [rdW_c, rdW_a, rdW_a, rdW_w, rdW_w, rdW_b, rdW_b]
  refine congrArg (fun p => [(⟨r0_o, k0_pay3 ps0 ps1 ps2 p x2⟩ : View.Piece (Elt F) S64x512 .f32)]) ?_
  exact readCov_own _ hl _ _ _

/-- and the cell-state buffer one store over the three slabs and the cell-state block. -/
theorem L100_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k0_cond1 i = 1#1) (hl : k0_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun0_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).2.1
      = [(⟨r0_o, k0_pay2 ps0 ps1 ps2 x2⟩ : View.Piece (Elt F) S64x512 .f32)] := by
  unfold kernelRun0_B
  dsimp only
  rw [rdW_c]

end Runs0

end Cert.KernelIdeal.Hand

end
-- ==== Proof.FrameL0.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import proofs.«142131_j78597901517448_2_alg».proof.Proof.FrameLib
import proofs.«142131_j78597901517448_2_alg».proof.Proof.LstmDefs0
import proofs.«142131_j78597901517448_2_alg».proof.Proof.LstmRuns0
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Oblig0
variable (V : (c : Dev nD) → (b : Ref sig .tc) → Buf (Elt F) ((c : Thread nD τ).loc b))

/-! ## The slab facts from point to point -/

/-- A store of point `t`'s gate tile into slab `g = t mod 4 < 3` keeps the earlier slabs of the group and puts the tile
    where the next positions look for it. -/
theorem slabOk0_A (c : Dev nD) (t : Fin cfg0.N) (g : ℕ) (hg3 : g < 3) (hg : t.val % 4 = g) (xs : Vec F S4x64x512 .f32)
    (hok : SlabOk0 V c t.val xs) {off : Fin 3 → ℕ} (hoff : off = ![g, 0, 0]) (inb : ∀ a, off a + S1x64x512.size a ≤ S4x64x512.size a) :
    SlabOk0 V c (t.val + 1) (scM0.view.read (Elt F) (scM0.view.writes (Elt F) (hsc0.unread xs)
      [(⟨Rect.unit (s := S4x64x512) off S1x64x512.size inb, gateAt0 V c t⟩ : View.Piece (Elt F) S4x64x512 .f32)])) := by
  intro t' hdiv hlt
  have hN : t.val < 32 := lt_of_lt_of_eq t.isLt (show cfg0.N = 32 from N_0)
  by_cases htt : t'.val = t.val
  · have e : t' = t := Fin.ext htt
    subst e
    rw [hg]
    have hgs : g = 0 ∨ g = 1 ∨ g = 2 := by omega
    rcases hgs with rfl | rfl | rfl <;> (unfold slabRd0; dsimp only; rw [unread_read]; exact slab_hit _ _ hoff _ _ _)
  · have hlt' : t'.val < t.val := by omega
    have hdiv' : t'.val / 4 = t.val / 4 := by omega
    rw [← hok t' hdiv' hlt']
    have hne : g ≠ t'.val % 4 := by omega
    have h4 : t'.val % 4 < 4 := Nat.mod_lt _ (by decide)
    generalize t'.val % 4 = g' at hne h4 ⊢
    have hgs : g' = 0 ∨ g' = 1 ∨ g' = 2 ∨ g' = 3 := by omega
    rcases hgs with rfl | rfl | rfl | rfl <;> (unfold slabRd0; dsimp only; rw [unread_read]; exact slab_miss _ _ g _ hoff hne _ _ _)

/-- After the last gate's point a new group begins: nothing is asked of the scratch. -/
theorem slabOk0_B (c : Dev nD) (t : Fin cfg0.N) (hg : t.val % 4 = 3) (xs : Vec F S4x64x512 .f32) : SlabOk0 V c (t.val + 1) xs := by
  intro t' hdiv hlt; omega

/-- At the last gate's point the three earlier slabs read as the group's first three gate tiles. -/
theorem hps0 (c : Dev nD) (t : Fin cfg0.N) (hg : t.val % 4 = 3) (xs : Vec F S4x64x512 .f32) (hok : SlabOk0 V c t.val xs) :
    View.readAt (Elt F) scM0.view sb0_0.toLoadRect (hsc0.unread xs) = gateAt0 V c (grp0 t 0 (by decide))
    ∧ View.readAt (Elt F) scM0.view sb0_1.toLoadRect (hsc0.unread xs) = gateAt0 V c (grp0 t 1 (by decide))
    ∧ View.readAt (Elt F) scM0.view sb0_2.toLoadRect (hsc0.unread xs) = gateAt0 V c (grp0 t 2 (by decide)) := by
  refine ⟨?_, ?_, ?_⟩
  · have h := hok (grp0 t 0 (by decide)) (by rw [grp0_val]; omega) (by rw [grp0_val]; omega)
    have e : (grp0 t 0 (by decide)).val % 4 = 0 := by rw [grp0_val]; omega
    rw [e] at h; unfold slabRd0 at h; dsimp only at h; exact h
  · have h := hok (grp0 t 1 (by decide)) (by rw [grp0_val]; omega) (by rw [grp0_val]; omega)
    have e : (grp0 t 1 (by decide)).val % 4 = 1 := by rw [grp0_val]; omega
    rw [e] at h; unfold slabRd0 at h; dsimp only at h; exact h
  · have h := hok (grp0 t 2 (by decide)) (by rw [grp0_val]; omega) (by rw [grp0_val]; omega)
    have e : (grp0 t 2 (by decide)).val % 4 = 2 := by rw [grp0_val]; omega
    rw [e] at h; unfold slabRd0 at h; dsimp only at h; exact h

theorem grp0_last (t : Fin cfg0.N) (hg : t.val % 4 = 3) : grp0 t 3 (by decide) = t :=
  Fin.ext (by rw [grp0_val]; omega)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: the inputs' buffers hold their blocks; the gate coordinate says which run applies; the
    invariant hands the run the scratch with its earlier slabs at the group's gate tiles and takes it back with this
    point's tile stored; at the last gate the two output buffers end at the cell arithmetic over the four tiles. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.castSucc = PhiL0 V c t.val from rfl, show (dat0 V c).Φ t.succ = PhiL0 V c (t.val + 1) from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hN : t.val < 32 := lt_of_lt_of_eq t.isLt (show cfg0.N = 32 from N_0)
  by_cases h3 : t.val % 4 = 3
  · -- the last gate: the fourth tile goes into slab 3, then the cell arithmetic into the two output buffers
    rw [show (dat0 V c).leavesExact 7 t = owns (c : Thread nD τ) (ms0_7 t) fullShare ((dat0 V c).after 7 t) from by
      unfold Dat.leavesExact; rw [liveAt0_7 t h3], after0_7]
    rw [show (dat0 V c).leavesExact 8 t = owns (c : Thread nD τ) (ms0_8 t) fullShare ((dat0 V c).after 8 t) from by
      unfold Dat.leavesExact; rw [liveAt0_8 t h3], after0_8]
    unfold PhiL0
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain ⟨hp0, hp1, hp2⟩ := hps0 V c t h3 xs hok
    iapply ((kernelRun0_B c (grid0.coords t) _ _ _ _ _ _ _ _ _ _ _ _ _ _ _ _ _ _ _ _ ((hcond0 t).mpr h3) (hoff0_3 t h3) (iblk0 V c 0 t) (iblk0 V c 1 t) (iblk0 V c 2 t) (iblk0 V c 3 t) (iblk0 V c 4 t) (iblk0 V c 5 t) (iblk0 V c 6 t)
      (gateAt0 V c (grp0 t 0 (by decide))) (gateAt0 V c (grp0 t 1 (by decide))) (gateAt0 V c (grp0 t 2 (by decide)))).2.2.2 xs hp0 hp1 hp2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, HS⟩
    isplitl [HS Hrest Hg]
    · isplitl [HS]
      · iexists _; isplitl [HS]
        · unfold owns; iexists _; isplitr
          swap; · iexact HS
          ipureintro; rfl
        · ipureintro; exact slabOk0_B V c t h3 _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [L90_B]
      refine (View.read_writes_eq_canon _ _ _ (cover0_o _)).trans ?_
      unfold hOut0; rw [grp0_last t h3]; rfl
    · unfold owns; iexists _; isplitr
      swap; · iexact H8
      ipureintro
      rw [L100_B]
      exact View.read_writes_eq_canon _ _ _ (cover0_o _)
  have hcases : t.val % 4 = 0 ∨ t.val % 4 = 1 ∨ t.val % 4 = 2 := by omega
  rcases hcases with hg | hg | hg
  · -- gate 0: the gate tile goes into slab 0; the outputs are idle
    rw [Dat.leavesExact_idle (dat0 V c) 7 t (idleAt0_7 t h3) (noFlush0_7 t h3),
      Dat.leavesExact_idle (dat0 V c) 8 t (idleAt0_8 t h3) (noFlush0_8 t h3)]
    unfold PhiL0
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A0 c (grid0.coords t) _ _ _ _ _ _ _ _ _ _ _ _ _ _ _ _ _ _ _ _ (fun h => h3 ((hcond0 t).mp h)) (hoff0_0 t hg) (iblk0 V c 0 t) (iblk0 V c 1 t) (iblk0 V c 3 t) (iblk0 V c 4 t) (iblk0 V c 5 t) (iblk0 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS0_A0]
          exact slabOk0_A V c t 0 (by decide) hg xs hok (hoff0_0 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  · -- gate 1: the gate tile goes into slab 1; the outputs are idle
    rw [Dat.leavesExact_idle (dat0 V c) 7 t (idleAt0_7 t h3) (noFlush0_7 t h3),
      Dat.leavesExact_idle (dat0 V c) 8 t (idleAt0_8 t h3) (noFlush0_8 t h3)]
    unfold PhiL0
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A1 c (grid0.coords t) _ _ _ _ _ _ _ _ _ _ _ _ _ _ _ _ _ _ _ _ (fun h => h3 ((hcond0 t).mp h)) (hoff0_1 t hg) (iblk0 V c 0 t) (iblk0 V c 1 t) (iblk0 V c 3 t) (iblk0 V c 4 t) (iblk0 V c 5 t) (iblk0 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS0_A1]
          exact slabOk0_A V c t 1 (by decide) hg xs hok (hoff0_1 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  · -- gate 2: the gate tile goes into slab 2; the outputs are idle
    rw [Dat.leavesExact_idle (dat0 V c) 7 t (idleAt0_7 t h3) (noFlush0_7 t h3),
      Dat.leavesExact_idle (dat0 V c) 8 t (idleAt0_8 t h3) (noFlush0_8 t h3)]
    unfold PhiL0
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A2 c (grid0.coords t) _ _ _ _ _ _ _ _ _ _ _ _ _ _ _ _ _ _ _ _ (fun h => h3 ((hcond0 t).mp h)) (hoff0_2 t hg) (iblk0 V c 0 t) (iblk0 V c 1 t) (iblk0 V c 3 t) (iblk0 V c 4 t) (iblk0 V c 5 t) (iblk0 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS0_A2]
          exact slabOk0_A V c t 2 (by decide) hg xs hok (hoff0_2 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region — every scoped buffer no window stages at some contents, the generator register —
    is the invariant before the first point: nothing is asked of the scratch yet. -/
theorem hin0 (c : Dev nD) : Pipeline.ΦA spec0 c ⊢ (dat0 V c).Φ 0 := by
  rw [show (dat0 V c).Φ 0 = PhiL0 V c 0 from rfl]
  unfold Pipeline.ΦA PhiL0
  rw [scopedRest0_split]
  simp only [scM0, owns_whole]
  iintro ⟨⟨⟨%f, Hs⟩, Hrest⟩, Hg⟩
  isplitl [Hs]
  · iexists f; isplitl [Hs]; · iexact Hs
    ipureintro; intro t' _ h; exact absurd h (Nat.not_lt_zero _)
  isplitl [Hrest]; · iexact Hrest
  iexact Hg

/-- After the last point the invariant gives that back: the scratch's contents are forgotten. -/
theorem hout0 (c : Dev nD) : (dat0 V c).Φ (Fin.last cfg0.N) ⊢ Pipeline.ΦA spec0 c := by
  rw [show (dat0 V c).Φ (Fin.last cfg0.N) = PhiL0 V c cfg0.N from rfl]
  unfold Pipeline.ΦA PhiL0
  rw [scopedRest0_split]
  simp only [scM0, owns_whole]
  iintro ⟨⟨%xs, Hs, -⟩, Hrest, Hg⟩
  isplitl [Hs Hrest]
  · isplitl [Hs]; · iexists xs; iexact Hs
    iexact Hrest
  iexact Hg

end Oblig0

end Cert.KernelIdeal.Hand

end
-- ==== Proof.LstmDefs1.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # LSTM layer 1 (kernel region 1): 32 grid points, 8 hidden tiles of 512 columns × 4 gates

At point `t = 4·ht + g` the body computes gate `g`'s pre-activation tile for hidden tile `ht` — the two activations
times the two weight tiles (rows `g·4096 + ht·512 …` of each weight matrix) plus the two bias tiles — and stores it into
slab `g` of a scratch of four slabs. At `g = 3` it then reads the four slabs and the old cell-state block and stores the
new hidden-state and cell-state blocks of tile `ht`, which the pipeline writes back there. The output windows are
idle at the other three points. The scratch is carried from point to point: before point `t` its slabs `g' < g` hold
the gate tiles of the points `4·ht + g'`. -/

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place: unfetched, the block index has
    not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place: unfetched, the block index has
    not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place: unfetched, the block index has
    not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the region-entry contents and whose body leaves the block in place: unfetched, the block index has
    not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the region-entry contents and whose body leaves the block in place: unfetched, the block index has
    not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the region-entry contents and whose body leaves the block in place: unfetched, the block index has
    not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is the region-entry contents and whose body leaves the block in place: unfetched, the block index has
    not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The branch condition, the scratch offset, the idle points: decided over the grid -/

/-- The body's `scf.if` is taken exactly at the last gate of each hidden tile. -/
theorem hcond1 : ∀ t : Fin cfg1.N, k1_cond1 (grid1.coords t) = 1#1 ↔ t.val % 4 = 3 :=
  (by decide +kernel : ∀ t : Fin grid1.N, k1_cond1 (grid1.coords t) = 1#1 ↔ t.val % 4 = 3)
/-- At the points of gate 0 the scratch store lands on slab 0. -/
theorem hoff1_0 : ∀ t : Fin cfg1.N, t.val % 4 = 0 → k1_off1 (grid1.coords t) = ![0, 0, 0] :=
  (by decide +kernel : ∀ t : Fin grid1.N, t.val % 4 = 0 → k1_off1 (grid1.coords t) = ![0, 0, 0])
/-- At the points of gate 1 the scratch store lands on slab 1. -/
theorem hoff1_1 : ∀ t : Fin cfg1.N, t.val % 4 = 1 → k1_off1 (grid1.coords t) = ![1, 0, 0] :=
  (by decide +kernel : ∀ t : Fin grid1.N, t.val % 4 = 1 → k1_off1 (grid1.coords t) = ![1, 0, 0])
/-- At the points of gate 2 the scratch store lands on slab 2. -/
theorem hoff1_2 : ∀ t : Fin cfg1.N, t.val % 4 = 2 → k1_off1 (grid1.coords t) = ![2, 0, 0] :=
  (by decide +kernel : ∀ t : Fin grid1.N, t.val % 4 = 2 → k1_off1 (grid1.coords t) = ![2, 0, 0])
/-- At the points of gate 3 the scratch store lands on slab 3. -/
theorem hoff1_3 : ∀ t : Fin cfg1.N, t.val % 4 = 3 → k1_off1 (grid1.coords t) = ![3, 0, 0] :=
  (by decide +kernel : ∀ t : Fin grid1.N, t.val % 4 = 3 → k1_off1 (grid1.coords t) = ![3, 0, 0])
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Output window 7 is idle, and not written back, away from the last gate; live at it. -/
theorem idleAt1_7 : ∀ t : Fin cfg1.N, ¬ t.val % 4 = 3 → cfg1.idle 7 (grid1.coords t) = true :=
  (by decide +kernel : ∀ t : Fin grid1.N, ¬ t.val % 4 = 3 → cfg1.idle 7 (grid1.coords t) = true)
theorem noFlush1_7 : ∀ t : Fin cfg1.N, ¬ t.val % 4 = 3 → (cfg1.win 7).flush t = false :=
  (by decide +kernel : ∀ t : Fin grid1.N, ¬ t.val % 4 = 3 → (cfg1.win 7).flush t = false)
theorem liveAt1_7 : ∀ t : Fin cfg1.N, t.val % 4 = 3 → cfg1.idle 7 (grid1.coords t) = false :=
  (by decide +kernel : ∀ t : Fin grid1.N, t.val % 4 = 3 → cfg1.idle 7 (grid1.coords t) = false)
/-- Output window 8 is idle, and not written back, away from the last gate; live at it. -/
theorem idleAt1_8 : ∀ t : Fin cfg1.N, ¬ t.val % 4 = 3 → cfg1.idle 8 (grid1.coords t) = true :=
  (by decide +kernel : ∀ t : Fin grid1.N, ¬ t.val % 4 = 3 → cfg1.idle 8 (grid1.coords t) = true)
theorem noFlush1_8 : ∀ t : Fin cfg1.N, ¬ t.val % 4 = 3 → (cfg1.win 8).flush t = false :=
  (by decide +kernel : ∀ t : Fin grid1.N, ¬ t.val % 4 = 3 → (cfg1.win 8).flush t = false)
theorem liveAt1_8 : ∀ t : Fin cfg1.N, t.val % 4 = 3 → cfg1.idle 8 (grid1.coords t) = false :=
  (by decide +kernel : ∀ t : Fin grid1.N, t.val % 4 = 3 → cfg1.idle 8 (grid1.coords t) = false)

/-! ## The staging memrefs at a point, and the scratch -/
abbrev ms1_0 (t : Fin cfg1.N) : Memref sig .tc .vmem S64x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x512 .f32 := win1_8.stage (cfg1.slots t 8)
abbrev hs1_8 (t : Fin cfg1.N) : (ms1_8 t).IsWhole := hstage1_8 ((cfg1.slots t 8).cast nbuf1_8)
/-- The gate scratch: a whole scoped buffer of the kernel's own. -/
abbrev scM1 : Memref sig .tc .vmem S4x64x512 .f32 := Memref.whole cc1_scratch0
abbrev hsc1 : scM1.IsWhole := Memref.isWhole_whole _

/-! ## The gate tiles, the output blocks, the slabs -/

/-- The gate tile point `t` computes: the body's arithmetic over the point's six input blocks. -/
def gateAt1 (c : Dev nD) (t : Fin cfg1.N) : Vec F S1x64x512 .f32 :=
  k1_pay1 (iblk1 V c 0 t) (iblk1 V c 3 t) (iblk1 V c 5 t) (iblk1 V c 1 t) (iblk1 V c 4 t) (iblk1 V c 6 t)

/-- The point of gate `j` in `t`'s group of four (one hidden tile). -/
def grp1 (t : Fin cfg1.N) (j : ℕ) (hj : j < 4) : Fin cfg1.N :=
  ⟨4 * (t.val / 4) + j, by
    have hN : t.val < 32 := lt_of_lt_of_eq t.isLt (show cfg1.N = 32 from N_1)
    exact lt_of_lt_of_eq (by omega : 4 * (t.val / 4) + j < 32) (show cfg1.N = 32 from N_1).symm⟩
theorem grp1_val (t : Fin cfg1.N) (j : ℕ) (hj : j < 4) : (grp1 t j hj).val = 4 * (t.val / 4) + j := rfl

abbrev r1_o : Rect S64x512 := Rect.unit (s := S64x512) ![0, 0] S64x512.size inb_S64x512_S64x512_0_0

/-- The new hidden-state block of `t`'s hidden tile: the one store of the last gate's point, over the four gate tiles
    of the group and the old cell-state block. -/
def hOut1 (c : Dev nD) (t : Fin cfg1.N) : Vec F S64x512 .f32 :=
  View.canon [⟨r1_o, k1_pay3 (gateAt1 V c (grp1 t 0 (by decide))) (gateAt1 V c (grp1 t 1 (by decide))) (gateAt1 V c (grp1 t 2 (by decide))) (gateAt1 V c (grp1 t 3 (by decide))) (iblk1 V c 2 t)⟩]
/-- The new cell-state block, likewise (it does not read the fourth gate). -/
def cOut1 (c : Dev nD) (t : Fin cfg1.N) : Vec F S64x512 .f32 :=
  View.canon [⟨r1_o, k1_pay2 (gateAt1 V c (grp1 t 0 (by decide))) (gateAt1 V c (grp1 t 1 (by decide))) (gateAt1 V c (grp1 t 2 (by decide))) (iblk1 V c 2 t)⟩]

theorem cover1_o (p0 : Vec F S64x512 .f32) (y : S64x512.Idx) :
    ∃ pc ∈ ([⟨r1_o, p0⟩] : List (View.Piece (Elt F) S64x512 .f32)), y ∈ pc.1.set :=
  View.cover_of_tiled [⟨r1_o, p0⟩] S64x512.size (by rfl) y

abbrev sb1_0 : Rect S4x64x512 := Rect.unit (s := S4x64x512) ![0, 0, 0] S1x64x512.size inb_S4x64x512_S1x64x512_0_0_0
abbrev sb1_1 : Rect S4x64x512 := Rect.unit (s := S4x64x512) ![1, 0, 0] S1x64x512.size inb_S4x64x512_S1x64x512_1_0_0
abbrev sb1_2 : Rect S4x64x512 := Rect.unit (s := S4x64x512) ![2, 0, 0] S1x64x512.size inb_S4x64x512_S1x64x512_2_0_0
abbrev sb1_3 : Rect S4x64x512 := Rect.unit (s := S4x64x512) ![3, 0, 0] S1x64x512.size inb_S4x64x512_S1x64x512_3_0_0
/-- Slab `j` of the scratch held at the contents that read `xs`. -/
def slabRd1 (j : ℕ) (xs : Vec F S4x64x512 .f32) : Vec F S1x64x512 .f32 :=
  match j with
  | 0 => View.readAt (Elt F) scM1.view sb1_0.toLoadRect (hsc1.unread xs)
  | 1 => View.readAt (Elt F) scM1.view sb1_1.toLoadRect (hsc1.unread xs)
  | 2 => View.readAt (Elt F) scM1.view sb1_2.toLoadRect (hsc1.unread xs)
  | _ => View.readAt (Elt F) scM1.view sb1_3.toLoadRect (hsc1.unread xs)

/-- Before position `n` the slabs of the earlier points of `n`'s group hold those points' gate tiles. -/
def SlabOk1 (c : Dev nD) (n : ℕ) (xs : Vec F S4x64x512 .f32) : Prop :=
  ∀ t' : Fin cfg1.N, t'.val / 4 = n / 4 → t'.val < n → slabRd1 (t'.val % 4) xs = gateAt1 V c t'

/-- The region's invariant before position `n`: the scratch at contents whose earlier slabs are the group's gate tiles,
    the rest of the scoped buffers and the generator register untouched. -/
def PhiL1 (c : Dev nD) (n : ℕ) : sProp 𝕄 :=
  iprop((∃ xs : Vec F S4x64x512 .f32, owns (c : Thread nD τ) scM1 fullShare xs ∗ ⌜SlabOk1 V c n xs⌝)
    ∗ Pipeline.scopedRestBut (Ix := Unit) (Name := ℕ) (U := UR sig nD τ) (Lvl := ℕ) (Val := Elt F) spec1 c [cc1_scratch0]
    ∗ (∃ r, prngReg c r))

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => hOut1 V c t
    | ⟨8, _⟩ => cOut1 V c t
  Φ u := PhiL1 V c u.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = hOut1 V c t := by dsimp only [dat1]
theorem after1_8 (c : Dev nD) (t : Fin cfg1.N) : (dat1 V c).after 8 t = cOut1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Region1

end Cert.KernelIdeal.Hand

end
-- ==== Proof.LstmRuns1.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import proofs.«142131_j78597901517448_2_alg».proof.Proof.FrameLib
import proofs.«142131_j78597901517448_2_alg».proof.Proof.LstmDefs1
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs1
/-! ## The body's runs, one per gate coordinate -/

set_option maxHeartbeats 2000000 in
/-- The body at a point whose gate coordinate is 0 (not the last gate): it loads the two activations, the two weight
    tiles and the two bias tiles, and stores their gate tile into slab 0 of the scratch; nothing else is touched. The
    scratch is left at its contents with the pieces the body stores written. -/
noncomputable def kernelRun1_A0 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![0, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k1_off1 i) := ⟨![0, 0, 0], hl⟩
    simp only [cc1_kernel_eq_skeleton]; unfold cc1_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 2000000 in
/-- The body at a point whose gate coordinate is 1 (not the last gate): it loads the two activations, the two weight
    tiles and the two bias tiles, and stores their gate tile into slab 1 of the scratch; nothing else is touched. The
    scratch is left at its contents with the pieces the body stores written. -/
noncomputable def kernelRun1_A1 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![1, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k1_off1 i) := ⟨![1, 0, 0], hl⟩
    simp only [cc1_kernel_eq_skeleton]; unfold cc1_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 2000000 in
/-- The body at a point whose gate coordinate is 2 (not the last gate): it loads the two activations, the two weight
    tiles and the two bias tiles, and stores their gate tile into slab 2 of the scratch; nothing else is touched. The
    scratch is left at its contents with the pieces the body stores written. -/
noncomputable def kernelRun1_A2 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![2, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k1_off1 i) := ⟨![2, 0, 0], hl⟩
    simp only [cc1_kernel_eq_skeleton]; unfold cc1_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 4000000 in
/-- The body at a point whose gate coordinate is 3 (the last gate): it stores the fourth gate tile into slab 3 of the
    scratch, then reads the four slabs and the cell-state block and stores the new hidden state and the new cell state
    into the two output buffers. Slabs 0, 1, 2 of the scratch are taken at ANY contents whose reads are `ps0`, `ps1`,
    `ps2` (what the three points before stored there). -/
noncomputable def kernelRun1_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k1_cond1 i = 1#1) (hl : k1_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    Σ' (L9 : List (View.Piece (Elt F) S64x512 .f32)) (L10 : List (View.Piece (Elt F) S64x512 .f32)), { LS : List (View.Piece (Elt F) S4x64x512 .f32) //
      ∀ (xs : Vec F S4x64x512 .f32)
        (hps0 : View.readAt (Elt F) arg11.view (Rect.unit (s := S4x64x512) ![0, 0, 0] S1x64x512.size inb_S4x64x512_S1x64x512_0_0_0).toLoadRect (harg11.unread xs) = ps0)
        (hps1 : View.readAt (Elt F) arg11.view (Rect.unit (s := S4x64x512) ![1, 0, 0] S1x64x512.size inb_S4x64x512_S1x64x512_1_0_0).toLoadRect (harg11.unread xs) = ps1)
        (hps2 : View.readAt (Elt F) arg11.view (Rect.unit (s := S4x64x512) ![2, 0, 0] S1x64x512.size inb_S4x64x512_S1x64x512_2_0_0).toLoadRect (harg11.unread xs) = ps2)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)
                ∗ (arg11.view.loc (c : Thread nD τ) ↦[arg11.view.set]{fullShare} arg11.view.writes (Elt F) (harg11.unread xs) LS)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, ?_, ?_, fun xs hps0 hps1 hps2 E K => ?run⟩
  case run =>
    letI : ClosedOff (k1_off1 i) := ⟨![3, 0, 0], hl⟩
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]; · iexists _; iexact H10
    iexact HS

/-! ## The pieces the body stores -/

/-- At gate 0 the one piece the scratch gets is the gate tile of the six blocks, through the slab the offsets name. -/
theorem LS1_A0 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![0, 0, 0])
    (x0 x1 : Vec F S64x4096 .f32) (x3 x4 : Vec F S512x4096 .f32) (x5 x6 : Vec F S1x512 .f32) :
    (kernelRun1_A0 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k1_off1 i) S1x64x512.size (k1_off1_inb i), k1_pay1 x0 x3 x5 x1 x4 x6⟩ : View.Piece (Elt F) S4x64x512 .f32)] := by
  unfold kernelRun1_A0
  dsimp only
  rw [rdW_a, rdW_a, rdW_w, rdW_w, rdW_b, rdW_b]

/-- At gate 1 the one piece the scratch gets is the gate tile of the six blocks, through the slab the offsets name. -/
theorem LS1_A1 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![1, 0, 0])
    (x0 x1 : Vec F S64x4096 .f32) (x3 x4 : Vec F S512x4096 .f32) (x5 x6 : Vec F S1x512 .f32) :
    (kernelRun1_A1 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k1_off1 i) S1x64x512.size (k1_off1_inb i), k1_pay1 x0 x3 x5 x1 x4 x6⟩ : View.Piece (Elt F) S4x64x512 .f32)] := by
  unfold kernelRun1_A1
  dsimp only
  rw [rdW_a, rdW_a, rdW_w, rdW_w, rdW_b, rdW_b]

/-- At gate 2 the one piece the scratch gets is the gate tile of the six blocks, through the slab the offsets name. -/
theorem LS1_A2 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![2, 0, 0])
    (x0 x1 : Vec F S64x4096 .f32) (x3 x4 : Vec F S512x4096 .f32) (x5 x6 : Vec F S1x512 .f32) :
    (kernelRun1_A2 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k1_off1 i) S1x64x512.size (k1_off1_inb i), k1_pay1 x0 x3 x5 x1 x4 x6⟩ : View.Piece (Elt F) S4x64x512 .f32)] := by
  unfold kernelRun1_A2
  dsimp only
  rw [rdW_a, rdW_a, rdW_w, rdW_w, rdW_b, rdW_b]

/-- At the last gate the scratch gets the same kind of piece, -/
theorem LS1_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k1_cond1 i = 1#1) (hl : k1_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun1_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).2.2.1
      = [(⟨Rect.unit (s := S4x64x512) (k1_off1 i) S1x64x512.size (k1_off1_inb i), k1_pay1 x0 x3 x5 x1 x4 x6⟩ : View.Piece (Elt F) S4x64x512 .f32)] := by
  unfold kernelRun1_B
  dsimp only
  sl_unfold_words
  rw [rdW_a, rdW_a, rdW_w, rdW_w, rdW_b, rdW_b]

/-- the hidden-state buffer one store of the cell arithmetic over the three slabs it was handed, the tile it has just
    stored, and the cell-state block, -/
theorem L91_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k1_cond1 i = 1#1) (hl : k1_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun1_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).1
      = [(⟨r1_o, k1_pay3 ps0 ps1 ps2 (k1_pay1 x0 x3 x5 x1 x4 x6) x2⟩ : View.Piece (Elt F) S64x512 .f32)] := by
  unfold kernelRun1_B
  dsimp only
  sl_unfold_words
  rw [rdW_c, rdW_a, rdW_a, rdW_w, rdW_w, rdW_b, rdW_b]
  refine congrArg (fun p => [(⟨r1_o, k1_pay3 ps0 ps1 ps2 p x2⟩ : View.Piece (Elt F) S64x512 .f32)]) ?_
  exact readCov_own _ hl _ _ _

/-- and the cell-state buffer one store over the three slabs and the cell-state block. -/
theorem L101_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k1_cond1 i = 1#1) (hl : k1_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun1_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).2.1
      = [(⟨r1_o, k1_pay2 ps0 ps1 ps2 x2⟩ : View.Piece (Elt F) S64x512 .f32)] := by
  unfold kernelRun1_B
  dsimp only
  rw [rdW_c]

end Runs1

end Cert.KernelIdeal.Hand

end
-- ==== Proof.FrameL1.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import proofs.«142131_j78597901517448_2_alg».proof.Proof.FrameLib
import proofs.«142131_j78597901517448_2_alg».proof.Proof.LstmDefs1
import proofs.«142131_j78597901517448_2_alg».proof.Proof.LstmRuns1
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Oblig1
variable (V : (c : Dev nD) → (b : Ref sig .tc) → Buf (Elt F) ((c : Thread nD τ).loc b))

/-! ## The slab facts from point to point -/

/-- A store of point `t`'s gate tile into slab `g = t mod 4 < 3` keeps the earlier slabs of the group and puts the tile
    where the next positions look for it. -/
theorem slabOk1_A (c : Dev nD) (t : Fin cfg1.N) (g : ℕ) (hg3 : g < 3) (hg : t.val % 4 = g) (xs : Vec F S4x64x512 .f32)
    (hok : SlabOk1 V c t.val xs) {off : Fin 3 → ℕ} (hoff : off = ![g, 0, 0]) (inb : ∀ a, off a + S1x64x512.size a ≤ S4x64x512.size a) :
    SlabOk1 V c (t.val + 1) (scM1.view.read (Elt F) (scM1.view.writes (Elt F) (hsc1.unread xs)
      [(⟨Rect.unit (s := S4x64x512) off S1x64x512.size inb, gateAt1 V c t⟩ : View.Piece (Elt F) S4x64x512 .f32)])) := by
  intro t' hdiv hlt
  have hN : t.val < 32 := lt_of_lt_of_eq t.isLt (show cfg1.N = 32 from N_1)
  by_cases htt : t'.val = t.val
  · have e : t' = t := Fin.ext htt
    subst e
    rw [hg]
    have hgs : g = 0 ∨ g = 1 ∨ g = 2 := by omega
    rcases hgs with rfl | rfl | rfl <;> (unfold slabRd1; dsimp only; rw [unread_read]; exact slab_hit _ _ hoff _ _ _)
  · have hlt' : t'.val < t.val := by omega
    have hdiv' : t'.val / 4 = t.val / 4 := by omega
    rw [← hok t' hdiv' hlt']
    have hne : g ≠ t'.val % 4 := by omega
    have h4 : t'.val % 4 < 4 := Nat.mod_lt _ (by decide)
    generalize t'.val % 4 = g' at hne h4 ⊢
    have hgs : g' = 0 ∨ g' = 1 ∨ g' = 2 ∨ g' = 3 := by omega
    rcases hgs with rfl | rfl | rfl | rfl <;> (unfold slabRd1; dsimp only; rw [unread_read]; exact slab_miss _ _ g _ hoff hne _ _ _)

/-- After the last gate's point a new group begins: nothing is asked of the scratch. -/
theorem slabOk1_B (c : Dev nD) (t : Fin cfg1.N) (hg : t.val % 4 = 3) (xs : Vec F S4x64x512 .f32) : SlabOk1 V c (t.val + 1) xs := by
  intro t' hdiv hlt; omega

/-- At the last gate's point the three earlier slabs read as the group's first three gate tiles. -/
theorem hps1 (c : Dev nD) (t : Fin cfg1.N) (hg : t.val % 4 = 3) (xs : Vec F S4x64x512 .f32) (hok : SlabOk1 V c t.val xs) :
    View.readAt (Elt F) scM1.view sb1_0.toLoadRect (hsc1.unread xs) = gateAt1 V c (grp1 t 0 (by decide))
    ∧ View.readAt (Elt F) scM1.view sb1_1.toLoadRect (hsc1.unread xs) = gateAt1 V c (grp1 t 1 (by decide))
    ∧ View.readAt (Elt F) scM1.view sb1_2.toLoadRect (hsc1.unread xs) = gateAt1 V c (grp1 t 2 (by decide)) := by
  refine ⟨?_, ?_, ?_⟩
  · have h := hok (grp1 t 0 (by decide)) (by rw [grp1_val]; omega) (by rw [grp1_val]; omega)
    have e : (grp1 t 0 (by decide)).val % 4 = 0 := by rw [grp1_val]; omega
    rw [e] at h; unfold slabRd1 at h; dsimp only at h; exact h
  · have h := hok (grp1 t 1 (by decide)) (by rw [grp1_val]; omega) (by rw [grp1_val]; omega)
    have e : (grp1 t 1 (by decide)).val % 4 = 1 := by rw [grp1_val]; omega
    rw [e] at h; unfold slabRd1 at h; dsimp only at h; exact h
  · have h := hok (grp1 t 2 (by decide)) (by rw [grp1_val]; omega) (by rw [grp1_val]; omega)
    have e : (grp1 t 2 (by decide)).val % 4 = 2 := by rw [grp1_val]; omega
    rw [e] at h; unfold slabRd1 at h; dsimp only at h; exact h

theorem grp1_last (t : Fin cfg1.N) (hg : t.val % 4 = 3) : grp1 t 3 (by decide) = t :=
  Fin.ext (by rw [grp1_val]; omega)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' buffers hold their blocks; the gate coordinate says which run applies; the
    invariant hands the run the scratch with its earlier slabs at the group's gate tiles and takes it back with this
    point's tile stored; at the last gate the two output buffers end at the cell arithmetic over the four tiles. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.castSucc = PhiL1 V c t.val from rfl, show (dat1 V c).Φ t.succ = PhiL1 V c (t.val + 1) from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 32 := lt_of_lt_of_eq t.isLt (show cfg1.N = 32 from N_1)
  by_cases h3 : t.val % 4 = 3
  · -- the last gate: the fourth tile goes into slab 3, then the cell arithmetic into the two output buffers
    rw [show (dat1 V c).leavesExact 7 t = owns (c : Thread nD τ) (ms1_7 t) fullShare ((dat1 V c).after 7 t) from by
      unfold Dat.leavesExact; rw [liveAt1_7 t h3], after1_7]
    rw [show (dat1 V c).leavesExact 8 t = owns (c : Thread nD τ) (ms1_8 t) fullShare ((dat1 V c).after 8 t) from by
      unfold Dat.leavesExact; rw [liveAt1_8 t h3], after1_8]
    unfold PhiL1
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain ⟨hp0, hp1, hp2⟩ := hps1 V c t h3 xs hok
    iapply ((kernelRun1_B c (grid1.coords t) _ _ _ _ _ _ _ _ _ _ _ _ _ _ _ _ _ _ _ _ ((hcond1 t).mpr h3) (hoff1_3 t h3) (iblk1 V c 0 t) (iblk1 V c 1 t) (iblk1 V c 2 t) (iblk1 V c 3 t) (iblk1 V c 4 t) (iblk1 V c 5 t) (iblk1 V c 6 t)
      (gateAt1 V c (grp1 t 0 (by decide))) (gateAt1 V c (grp1 t 1 (by decide))) (gateAt1 V c (grp1 t 2 (by decide)))).2.2.2 xs hp0 hp1 hp2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, HS⟩
    isplitl [HS Hrest Hg]
    · isplitl [HS]
      · iexists _; isplitl [HS]
        · unfold owns; iexists _; isplitr
          swap; · iexact HS
          ipureintro; rfl
        · ipureintro; exact slabOk1_B V c t h3 _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [L91_B]
      refine (View.read_writes_eq_canon _ _ _ (cover1_o _)).trans ?_
      unfold hOut1; rw [grp1_last t h3]; rfl
    · unfold owns; iexists _; isplitr
      swap; · iexact H8
      ipureintro
      rw [L101_B]
      exact View.read_writes_eq_canon _ _ _ (cover1_o _)
  have hcases : t.val % 4 = 0 ∨ t.val % 4 = 1 ∨ t.val % 4 = 2 := by omega
  rcases hcases with hg | hg | hg
  · -- gate 0: the gate tile goes into slab 0; the outputs are idle
    rw [Dat.leavesExact_idle (dat1 V c) 7 t (idleAt1_7 t h3) (noFlush1_7 t h3),
      Dat.leavesExact_idle (dat1 V c) 8 t (idleAt1_8 t h3) (noFlush1_8 t h3)]
    unfold PhiL1
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A0 c (grid1.coords t) _ _ _ _ _ _ _ _ _ _ _ _ _ _ _ _ _ _ _ _ (fun h => h3 ((hcond1 t).mp h)) (hoff1_0 t hg) (iblk1 V c 0 t) (iblk1 V c 1 t) (iblk1 V c 3 t) (iblk1 V c 4 t) (iblk1 V c 5 t) (iblk1 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS1_A0]
          exact slabOk1_A V c t 0 (by decide) hg xs hok (hoff1_0 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  · -- gate 1: the gate tile goes into slab 1; the outputs are idle
    rw [Dat.leavesExact_idle (dat1 V c) 7 t (idleAt1_7 t h3) (noFlush1_7 t h3),
      Dat.leavesExact_idle (dat1 V c) 8 t (idleAt1_8 t h3) (noFlush1_8 t h3)]
    unfold PhiL1
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A1 c (grid1.coords t) _ _ _ _ _ _ _ _ _ _ _ _ _ _ _ _ _ _ _ _ (fun h => h3 ((hcond1 t).mp h)) (hoff1_1 t hg) (iblk1 V c 0 t) (iblk1 V c 1 t) (iblk1 V c 3 t) (iblk1 V c 4 t) (iblk1 V c 5 t) (iblk1 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS1_A1]
          exact slabOk1_A V c t 1 (by decide) hg xs hok (hoff1_1 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  · -- gate 2: the gate tile goes into slab 2; the outputs are idle
    rw [Dat.leavesExact_idle (dat1 V c) 7 t (idleAt1_7 t h3) (noFlush1_7 t h3),
      Dat.leavesExact_idle (dat1 V c) 8 t (idleAt1_8 t h3) (noFlush1_8 t h3)]
    unfold PhiL1
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A2 c (grid1.coords t) _ _ _ _ _ _ _ _ _ _ _ _ _ _ _ _ _ _ _ _ (fun h => h3 ((hcond1 t).mp h)) (hoff1_2 t hg) (iblk1 V c 0 t) (iblk1 V c 1 t) (iblk1 V c 3 t) (iblk1 V c 4 t) (iblk1 V c 5 t) (iblk1 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS1_A2]
          exact slabOk1_A V c t 2 (by decide) hg xs hok (hoff1_2 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region — every scoped buffer no window stages at some contents, the generator register —
    is the invariant before the first point: nothing is asked of the scratch yet. -/
theorem hin1 (c : Dev nD) : Pipeline.ΦA spec1 c ⊢ (dat1 V c).Φ 0 := by
  rw [show (dat1 V c).Φ 0 = PhiL1 V c 0 from rfl]
  unfold Pipeline.ΦA PhiL1
  rw [scopedRest1_split]
  simp only [scM1, owns_whole]
  iintro ⟨⟨⟨%f, Hs⟩, Hrest⟩, Hg⟩
  isplitl [Hs]
  · iexists f; isplitl [Hs]; · iexact Hs
    ipureintro; intro t' _ h; exact absurd h (Nat.not_lt_zero _)
  isplitl [Hrest]; · iexact Hrest
  iexact Hg

/-- After the last point the invariant gives that back: the scratch's contents are forgotten. -/
theorem hout1 (c : Dev nD) : (dat1 V c).Φ (Fin.last cfg1.N) ⊢ Pipeline.ΦA spec1 c := by
  rw [show (dat1 V c).Φ (Fin.last cfg1.N) = PhiL1 V c cfg1.N from rfl]
  unfold Pipeline.ΦA PhiL1
  rw [scopedRest1_split]
  simp only [scM1, owns_whole]
  iintro ⟨⟨%xs, Hs, -⟩, Hrest, Hg⟩
  isplitl [Hs Hrest]
  · isplitl [Hs]; · iexists xs; iexact Hs
    iexact Hrest
  iexact Hg

end Oblig1

end Cert.KernelIdeal.Hand

end
-- ==== Proof.FrameHead.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The count head's hidden layer (the third kernel region): one block of 1024 output columns per grid point

At a point the body loads the whole activation matrix, one tile of 1024 rows of the weight matrix and the matching
tile of the bias row, and stores `max (x · Wᵀ + b) 0` for those 1024 columns into the output block. Nothing is kept
between points, so the region's invariant is the scoped rest and the generator register, untouched. -/

section Region2
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the region-entry contents and whose body leaves the block in place: unfetched, the block index has
    not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the region-entry contents and whose body leaves the block in place: unfetched, the block index has
    not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the region-entry contents and whose body leaves the block in place: unfetched, the block index has
    not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole buffer -/

abbrev r2_x : Rect S64x4096 := Rect.unit (s := S64x4096) ![0, 0] S64x4096.size inb_S64x4096_S64x4096_0_0
abbrev r2_w : Rect S1024x4096 := Rect.unit (s := S1024x4096) ![0, 0] S1024x4096.size inb_S1024x4096_S1024x4096_0_0
abbrev r2_b : Rect S1x1024 := Rect.unit (s := S1x1024) ![0, 0] S1x1024.size inb_S1x1024_S1x1024_0_0
abbrev r2_o : Rect S64x1024 := Rect.unit (s := S64x1024) ![0, 0] S64x1024.size inb_S64x1024_S64x1024_0_0

/-- The output block after the body, from the three input blocks: its one store, over the body's arithmetic. -/
def out2_3 (x0 : Vec F S64x4096 .f32) (x1 : Vec F S1024x4096 .f32) (x2 : Vec F S1x1024 .f32) : Vec F S64x1024 .f32 :=
  View.canon [⟨r2_o, k2_pay1 (View.ld x0 r2_x) (View.ld x1 r2_w) (View.ld x2 r2_b)⟩]

/-- The one store covers the block. -/
theorem cover2_3 (p0 : Vec F S64x1024 .f32) (y : S64x1024.Idx) :
    ∃ pc ∈ ([⟨r2_o, p0⟩] : List (View.Piece (Elt F) S64x1024 .f32)), y ∈ pc.1.set :=
  View.cover_of_tiled [⟨r2_o, p0⟩] S64x1024.size (by rfl) y

set_option maxHeartbeats 1000000 in
/-- The body on whole staging buffers, the inputs' at contents `x·` and the output's at anything, runs to the
    continuation holding the inputs as they were and the output at `out2_3` of them. -/
theorem sound_kernel2 (c : Dev nD) (E : Set ℕ) (i : grid2.Coords) (arg1 : Memref sig .tc .vmem S64x4096 .f32) (harg1 : arg1.IsWhole) (arg2 : Memref sig .tc .vmem S1024x4096 .f32) (harg2 : arg2.IsWhole) (arg3 : Memref sig .tc .vmem S1x1024 .f32) (harg3 : arg3.IsWhole) (arg4 : Memref sig .tc .vmem S64x1024 .f32) (harg4 : arg4.IsWhole)
    (x0 : Vec F S64x4096 .f32) (x1 : Vec F S1024x4096 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer at its block and the output's
    at `out2_3` of the three blocks; the invariant the scoped rest and the generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.FrameRun.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import proofs.«142131_j78597901517448_2_alg».proof.Proof.Gen.KernelIdeal.Regions
import proofs.«142131_j78597901517448_2_alg».proof.Proof.FrameL0
import proofs.«142131_j78597901517448_2_alg».proof.Proof.FrameL1
import proofs.«142131_j78597901517448_2_alg».proof.Proof.FrameHead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: five stretches of host operations around three kernel regions

Between two items a core holds every unscoped buffer at a valuation `WJ`: the launch memory, then each host stretch's
operations applied, and at a region's exit its output windows' arrays at what the write-backs leave. The regions are
entered and left through the records below; the run reads every unscoped buffer off the last valuation. -/

variable (m : (ℓ : Loc nD τ sig) → Buf (Elt F) ℓ) (ρ : Dev nD → PrngReg)

/-- Core `c`'s unscoped buffers at launch. -/
abbrev W0 (c : Dev nD) : Valuation τ sig (Elt F) := fun b => m (c, b)
/-- After the first host stretch (the slices and reshapes that feed layer 0). -/
abbrev W1 (c : Dev nD) : Valuation τ sig (Elt F) := StableHlo.after hostOps0 (W0 m c)
/-- The same read at a TensorCore reference: layer 0's entry contents. -/
abbrev Ve0 : (c : Dev nD) → (b : Ref sig .tc) → Buf (Elt F) ((c : Thread nD τ).loc b) := fun c b => W1 m c b

/-- At layer/region 0's exit: its windows' arrays at what the write-backs leave (an input's as entered), every other
    buffer as entered. -/
def W2 (c : Dev nD) : Valuation τ sig (Elt F) :=
  Pipeline.withArrays spec0 c (W1 m c) fun w => (dat0 (Ve0 m) c).arrAt w cfg0.N
theorem W2_arr (c : Dev nD) (w : Fin cfg0.W) :
    W2 m c (Proc.devRef .tc (Pipeline.arrRef spec0 w)) = (dat0 (Ve0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (Ve0 m) c).arrAt w cfg0.N = W2 m c (Pipeline.arrRef spec0 w) :=
  (W2_arr m c w).symm
theorem hrest0 (c : Dev nD) : ∀ b, b ∉ Finset.univ.image (Pipeline.arrRef spec0) → W2 m c b = Ve0 m c b :=
  fun b hb => W2_of_ne m c b fun w e => hb (Finset.mem_image.mpr ⟨w, Finset.mem_univ _, e⟩)
/-- A buffer that is no OUTPUT array of region 0 leaves it as it entered: an input window's array is never written,
    and a buffer no window stages bypasses the region. -/
theorem W2_keep (c : Dev nD) (b : Ref sig .tc) (hin : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    rw [W2_arr]
    exact ((dat0 (Ve0 m) c).arrAt_in w (hin w rfl) _).trans (A_eq0 (Ve0 m) c w)
  · exact W2_of_ne m c b (fun w e => h ⟨w, e⟩)

/-- After the second host stretch (the slices and reshapes that feed layer 1). -/
abbrev W3 (c : Dev nD) : Valuation τ sig (Elt F) := StableHlo.after hostOps1 (W2 m c)
abbrev Ve1 : (c : Dev nD) → (b : Ref sig .tc) → Buf (Elt F) ((c : Thread nD τ).loc b) := fun c b => W3 m c b

/-- At layer/region 1's exit: its windows' arrays at what the write-backs leave (an input's as entered), every other
    buffer as entered. -/
def W4 (c : Dev nD) : Valuation τ sig (Elt F) :=
  Pipeline.withArrays spec1 c (W3 m c) fun w => (dat1 (Ve1 m) c).arrAt w cfg1.N
theorem W4_arr (c : Dev nD) (w : Fin cfg1.W) :
    W4 m c (Proc.devRef .tc (Pipeline.arrRef spec1 w)) = (dat1 (Ve1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (Ve1 m) c).arrAt w cfg1.N = W4 m c (Pipeline.arrRef spec1 w) :=
  (W4_arr m c w).symm
theorem hrest1 (c : Dev nD) : ∀ b, b ∉ Finset.univ.image (Pipeline.arrRef spec1) → W4 m c b = Ve1 m c b :=
  fun b hb => W4_of_ne m c b fun w e => hb (Finset.mem_image.mpr ⟨w, Finset.mem_univ _, e⟩)
/-- A buffer that is no OUTPUT array of region 1 leaves it as it entered: an input window's array is never written,
    and a buffer no window stages bypasses the region. -/
theorem W4_keep (c : Dev nD) (b : Ref sig .tc) (hin : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    rw [W4_arr]
    exact ((dat1 (Ve1 m) c).arrAt_in w (hin w rfl) _).trans (A_eq1 (Ve1 m) c w)
  · exact W4_of_ne m c b (fun w e => h ⟨w, e⟩)

/-- After the third host stretch (the two stacks and the head's bias row). -/
abbrev W5 (c : Dev nD) : Valuation τ sig (Elt F) := StableHlo.after hostOps2 (W4 m c)
abbrev Ve2 : (c : Dev nD) → (b : Ref sig .tc) → Buf (Elt F) ((c : Thread nD τ).loc b) := fun c b => W5 m c b

/-- At layer/region 2's exit: its windows' arrays at what the write-backs leave (an input's as entered), every other
    buffer as entered. -/
def W6 (c : Dev nD) : Valuation τ sig (Elt F) :=
  Pipeline.withArrays spec2 c (W5 m c) fun w => (dat2 (Ve2 m) c).arrAt w cfg2.N
theorem W6_arr (c : Dev nD) (w : Fin cfg2.W) :
    W6 m c (Proc.devRef .tc (Pipeline.arrRef spec2 w)) = (dat2 (Ve2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (Ve2 m) c).arrAt w cfg2.N = W6 m c (Pipeline.arrRef spec2 w) :=
  (W6_arr m c w).symm
theorem hrest2 (c : Dev nD) : ∀ b, b ∉ Finset.univ.image (Pipeline.arrRef spec2) → W6 m c b = Ve2 m c b :=
  fun b hb => W6_of_ne m c b fun w e => hb (Finset.mem_image.mpr ⟨w, Finset.mem_univ _, e⟩)
/-- A buffer that is no OUTPUT array of region 2 leaves it as it entered: an input window's array is never written,
    and a buffer no window stages bypasses the region. -/
theorem W6_keep (c : Dev nD) (b : Ref sig .tc) (hin : ∀ w, Pipeline.arrRef spec2 w = b → (cfg2.win w).isOut = false) :
    W6 m c (Proc.devRef .tc b) = W5 m c (Proc.devRef .tc b) := by
  by_cases h : ∃ w, Pipeline.arrRef spec2 w = b
  · obtain ⟨w, rfl⟩ := h
    rw [W6_arr]
    exact ((dat2 (Ve2 m) c).arrAt_in w (hin w rfl) _).trans (A_eq2 (Ve2 m) c w)
  · exact W6_of_ne m c b (fun w e => h ⟨w, e⟩)

/-- After the fourth host stretch (the head's last linear layer). -/
abbrev W7 (c : Dev nD) : Valuation τ sig (Elt F) := StableHlo.after hostOps3 (W6 m c)
/-- After the last host stretch (the final rectifier): what @main returns from. -/
abbrev W8 (c : Dev nD) : Valuation τ sig (Elt F) := StableHlo.after hostOps3_1 (W7 m c)

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
  | ⟨2, _⟩ => fun c => dat2 (Ve2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- LSTM layer 0 as a segment: entered from every unscoped buffer at `W1`, left at `W2`. Its windows' arrays are
    split out of the unscoped buffers and put back at the contents the write-backs leave; the generator register and the
    scoped rest enter the region's invariant (which tracks the gate scratch from point to point) and come back; nothing is
    owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Ve0 m) c).Φ 0 from rfl]
    exact (show _ ⊢ (Pipeline.ΦA spec0 c : sProp 𝕄) by
      unfold Pipeline.ΦA
      iintro ⟨Hp, -, Hr⟩
      isplitl [Hr]; · iexact Hr
      iexact Hp).trans (hin0 (Ve0 m) c)
  hout c := by
    rw [Pipeline.ownSems0_none, show (pdats m 0 c).Φ (Fin.last _) = (dat0 (Ve0 m) c).Φ (Fin.last _) from rfl]
    exact (hout0 (Ve0 m) c).trans (show (Pipeline.ΦA spec0 c : sProp 𝕄) ⊢ _ by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LSTM layer 1 as a segment: entered from every unscoped buffer at `W3`, left at `W4`. Its windows' arrays are
    split out of the unscoped buffers and put back at the contents the write-backs leave; the generator register and the
    scoped rest enter the region's invariant (which tracks the gate scratch from point to point) and come back; nothing is
    owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Ve1 m) c).Φ 0 from rfl]
    exact (show _ ⊢ (Pipeline.ΦA spec1 c : sProp 𝕄) by
      unfold Pipeline.ΦA
      iintro ⟨Hp, -, Hr⟩
      isplitl [Hr]; · iexact Hr
      iexact Hp).trans (hin1 (Ve1 m) c)
  hout c := by
    rw [Pipeline.ownSems0_none, show (pdats m 1 c).Φ (Fin.last _) = (dat1 (Ve1 m) c).Φ (Fin.last _) from rfl]
    exact (hout1 (Ve1 m) c).trans (show (Pipeline.ΦA spec1 c : sProp 𝕄) ⊢ _ by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The count head's hidden layer as a segment: entered from every unscoped buffer at `W5`, left at `W6`; the class
    invariant (scoped rest and generator register) in and out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)) ]

/-- @main is the run of the segments. -/
theorem main_run (c : Dev nD) : main (F := F) c = Pipeline.Seg.run (segs m) :=
  (main_chain c).trans (by rw [Pipeline.Seg.run_eq_chain]; rfl)

set_option backward.isDefEq.respectTransparency.types false in
/-- THE RUN. From any memory with zero counters every weakly fair execution of @main on the TensorCores terminates,
    nothing faulting, and every final memory holds each unscoped buffer at the last valuation `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := ⟨fun _ => .rfl, fun _ => .rfl, fun _ => .rfl, fun _ => .rfl, fun _ => .rfl, fun _ => .rfl, fun _ => .rfl, fun _ => .rfl,
      fun c => sep_mono .rfl (show R c ⊢ _ by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.KernelIdeal.Hand

end
-- ==== Proof.FrameArgs.lean ====
import proofs.«142131_j78597901517448_2_alg».proof.Proof.Gen.KernelIdeal.Launch
import proofs.«142131_j78597901517448_2_alg».proof.Proof.Gen.KernelIdeal.Skeleton
import proofs.«142131_j78597901517448_2_alg».proof.Proof.Gen.KernelIdeal.Points
import proofs.«142131_j78597901517448_2_alg».proof.Proof.Gen.KernelIdeal.Regions
import proofs.«142131_j78597901517448_2_alg».proof.Proof.FrameRun
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The arguments end as launched

No host stretch writes an argument of @main and no region has one as an output window's array, so the last valuation
at an argument's buffer walks back, item by item, to the launch memory. -/

variable (m : (ℓ : Loc nD τ sig) → Buf (Elt F) ℓ)

/-- A buffer no host stretch writes and no region outputs holds at the end what it held at launch. -/
theorem W8_keep (c : Dev nD) (b : Ref sig .tc)
    (h0 : b ∉ hostOps0_W) (h1 : b ∉ hostOps1_W) (h2 : b ∉ hostOps2_W) (h3 : b ∉ hostOps3_W) (h31 : b ∉ hostOps3_1_W)
    (k0 : ∀ w, Pipeline.arrRef spec0 w = b → (cfg0.win w).isOut = false)
    (k1 : ∀ w, Pipeline.arrRef spec1 w = b → (cfg1.win w).isOut = false)
    (k2 : ∀ w, Pipeline.arrRef spec2 w = b → (cfg2.win w).isOut = false) :
    W8 m c (Proc.devRef .tc b) = m (c, Proc.devRef .tc b) :=
  calc W8 m c (Proc.devRef .tc b)
    _ = W7 m c (Proc.devRef .tc b) := StableHlo.after_of_writes_sub hostOps3_1 _ hostOps3_1_writes h31
    _ = W6 m c (Proc.devRef .tc b) := StableHlo.after_of_writes_sub hostOps3 _ hostOps3_writes h3
    _ = W5 m c (Proc.devRef .tc b) := W6_keep m c b k2
    _ = W4 m c (Proc.devRef .tc b) := StableHlo.after_of_writes_sub hostOps2 _ hostOps2_writes h2
    _ = W3 m c (Proc.devRef .tc b) := W4_keep m c b k1
    _ = W2 m c (Proc.devRef .tc b) := StableHlo.after_of_writes_sub hostOps1 _ hostOps1_writes h1
    _ = W1 m c (Proc.devRef .tc b) := W2_keep m c b k0
    _ = W0 m c (Proc.devRef .tc b) := StableHlo.after_of_writes_sub hostOps0 _ hostOps0_writes h0
    _ = m (c, Proc.devRef .tc b) := rfl

theorem W8_main_arg0 (c : Dev nD) : W8 m c (Proc.devRef .tc main_arg0) = m ((c : Thread nD τ).loc main_arg0) :=
  W8_keep m c main_arg0 (by decide) (by decide) (by decide) (by decide) (by decide) (by decide) (by decide) (by decide)
theorem W8_main_arg1 (c : Dev nD) : W8 m c (Proc.devRef .tc main_arg1) = m ((c : Thread nD τ).loc main_arg1) :=
  W8_keep m c main_arg1 (by decide) (by decide) (by decide) (by decide) (by decide) (by decide) (by decide) (by decide)
theorem W8_main_arg2 (c : Dev nD) : W8 m c (Proc.devRef .tc main_arg2) = m ((c : Thread nD τ).loc main_arg2) :=
  W8_keep m c main_arg2 (by decide) (by decide) (by decide) (by decide) (by decide) (by decide) (by decide) (by decide)
theorem W8_main_arg3 (c : Dev nD) : W8 m c (Proc.devRef .tc main_arg3) = m ((c : Thread nD τ).loc main_arg3) :=
  W8_keep m c main_arg3 (by decide) (by decide) (by decide) (by decide) (by decide) (by decide) (by decide) (by decide)
theorem W8_main_arg4 (c : Dev nD) : W8 m c (Proc.devRef .tc main_arg4) = m ((c : Thread nD τ).loc main_arg4) :=
  W8_keep m c main_arg4 (by decide) (by decide) (by decide) (by decide) (by decide) (by decide) (by decide) (by decide)
theorem W8_main_arg5 (c : Dev nD) : W8 m c (Proc.devRef .tc main_arg5) = m ((c : Thread nD τ).loc main_arg5) :=
  W8_keep m c main_arg5 (by decide) (by decide) (by decide) (by decide) (by decide) (by decide) (by decide) (by decide)
theorem W8_main_arg6 (c : Dev nD) : W8 m c (Proc.devRef .tc main_arg6) = m ((c : Thread nD τ).loc main_arg6) :=
  W8_keep m c main_arg6 (by decide) (by decide) (by decide) (by decide) (by decide) (by decide) (by decide) (by decide)
theorem W8_main_arg7 (c : Dev nD) : W8 m c (Proc.devRef .tc main_arg7) = m ((c : Thread nD τ).loc main_arg7) :=
  W8_keep m c main_arg7 (by decide) (by decide) (by decide) (by decide) (by decide) (by decide) (by decide) (by decide)
theorem W8_main_arg8 (c : Dev nD) : W8 m c (Proc.devRef .tc main_arg8) = m ((c : Thread nD τ).loc main_arg8) :=
  W8_keep m c main_arg8 (by decide) (by decide) (by decide) (by decide) (by decide) (by decide) (by decide) (by decide)
theorem W8_main_arg9 (c : Dev nD) : W8 m c (Proc.devRef .tc main_arg9) = m ((c : Thread nD τ).loc main_arg9) :=
  W8_keep m c main_arg9 (by decide) (by decide) (by decide) (by decide) (by decide) (by decide) (by decide) (by decide)
theorem W8_main_arg10 (c : Dev nD) : W8 m c (Proc.devRef .tc main_arg10) = m ((c : Thread nD τ).loc main_arg10) :=
  W8_keep m c main_arg10 (by decide) (by decide) (by decide) (by decide) (by decide) (by decide) (by decide) (by decide)
theorem W8_main_arg11 (c : Dev nD) : W8 m c (Proc.devRef .tc main_arg11) = m ((c : Thread nD τ).loc main_arg11) :=
  W8_keep m c main_arg11 (by decide) (by decide) (by decide) (by decide) (by decide) (by decide) (by decide) (by decide)
theorem W8_main_arg12 (c : Dev nD) : W8 m c (Proc.devRef .tc main_arg12) = m ((c : Thread nD τ).loc main_arg12) :=
  W8_keep m c main_arg12 (by decide) (by decide) (by decide) (by decide) (by decide) (by decide) (by decide) (by decide)
theorem W8_main_arg13 (c : Dev nD) : W8 m c (Proc.devRef .tc main_arg13) = m ((c : Thread nD τ).loc main_arg13) :=
  W8_keep m c main_arg13 (by decide) (by decide) (by decide) (by decide) (by decide) (by decide) (by decide) (by decide)
theorem W8_main_arg14 (c : Dev nD) : W8 m c (Proc.devRef .tc main_arg14) = m ((c : Thread nD τ).loc main_arg14) :=
  W8_keep m c main_arg14 (by decide) (by decide) (by decide) (by decide) (by decide) (by decide) (by decide) (by decide)

/-- THE FRAME, at any `F`: every weakly fair execution of @main terminates, nothing faulting, and every argument array
    ends holding its launch contents — the run's post read at the fifteen arguments. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c),
     (h c _ (mem_uc main_arg12 (by decide))).trans (W8_main_arg12 m c),
     (h c _ (mem_uc main_arg13 (by decide))).trans (W8_main_arg13 m c),
     (h c _ (mem_uc main_arg14 (by decide))).trans (W8_main_arg14 m c)⟩)
    (run_main m ρ)

end Cert.KernelIdeal.Hand

end
-- ==== Proof.FrameLibW.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Small facts about loads and stores through rectangles, shared by the two LSTM layers -/

/-! ## Loads through a whole buffer, and a load of the rectangle a store just went through -/

theorem hz2 : (![0, 0] : Fin 2 → ℕ) = fun _ => 0 := by funext a; fin_cases a <;> rfl

/-- A load through the whole-shape rectangle of a whole memref held at the contents that read `x` reads `x`. -/
theorem readAt_whole {sp : Space} {S : Shape} {e : EltTy} (m : Memref sig .tc sp S e) (h : m.IsWhole) {off : Fin S.rank → ℕ}
    (hz : off = fun _ => 0) (inb : ∀ a, off a + S.size a ≤ S.size a) (x : S.Idx → Elt F e) :
    View.readAt (Elt F) m.view (Rect.unit (s := S) off S.size inb).toLoadRect (h.unread x) = x := by
  rw [View.readAt_eq_ld, h.read_unread]; exact View.ld_unit_zero hz inb x

theorem rdW_a (m : Memref sig .tc .vmem S64x4096 .f32) (h : m.IsWhole) (x : Vec F S64x4096 .f32) :
    View.readAt (Elt F) m.view (Rect.unit (s := S64x4096) ![0, 0] S64x4096.size inb_S64x4096_S64x4096_0_0).toLoadRect (h.unread x) = x :=
  readAt_whole m h hz2 _ x
theorem rdW_w (m : Memref sig .tc .vmem S512x4096 .f32) (h : m.IsWhole) (x : Vec F S512x4096 .f32) :
    View.readAt (Elt F) m.view (Rect.unit (s := S512x4096) ![0, 0] S512x4096.size inb_S512x4096_S512x4096_0_0).toLoadRect (h.unread x) = x :=
  readAt_whole m h hz2 _ x
theorem rdW_b (m : Memref sig .tc .vmem S1x512 .f32) (h : m.IsWhole) (x : Vec F S1x512 .f32) :
    View.readAt (Elt F) m.view (Rect.unit (s := S1x512) ![0, 0] S1x512.size inb_S1x512_S1x512_0_0).toLoadRect (h.unread x) = x :=
  readAt_whole m h hz2 _ x
theorem rdW_c (m : Memref sig .tc .vmem S64x512 .f32) (h : m.IsWhole) (x : Vec F S64x512 .f32) :
    View.readAt (Elt F) m.view (Rect.unit (s := S64x512) ![0, 0] S64x512.size inb_S64x512_S64x512_0_0).toLoadRect (h.unread x) = x :=
  readAt_whole m h hz2 _ x

/-- A load through the very rectangle the one listed store went through reads that store's payload. -/
theorem readCov_own {sp : Space} {S : Shape} {e : EltTy} (v : View sig .tc sp S e) {off off' size : Fin S.rank → ℕ} (h : off = off')
    (inb : ∀ a, off a + size a ≤ S.size a) (inb' : ∀ a, off' a + size a ≤ S.size a)
    (P : (Rect.unit (s := S) off size inb).shape.Idx → Elt F e) :
    v.readCov [(⟨Rect.unit (s := S) off size inb, P⟩ : View.Piece (Elt F) S e)] (Rect.unit (s := S) off' size inb').toLoadRect = P := by
  subst h; exact View.readCov_cons_toLoadRect v _ P []

/-! ## Slabs of the gate scratch: a store into one slab leaves the others, and reads back through its own box -/

theorem unread_read {sp : Space} {S : Shape} {e : EltTy} (m : Memref sig .tc sp S e) (h : m.IsWhole) (f : m.view.ty.Contents (Elt F)) :
    h.unread (m.view.read (Elt F) f) = f := (h.eq_unread rfl).symm

/-- A load of slab `g'` after one store through slab `g ≠ g'` reads what was there before. -/
theorem slab_miss (v : View sig .tc .vmem S4x64x512 .f32) (f : v.ty.Contents (Elt F)) {off : Fin 3 → ℕ} (g g' : ℕ) (hoff : off = ![g, 0, 0]) (hne : g ≠ g')
    (inb : ∀ a, off a + S1x64x512.size a ≤ S4x64x512.size a) (inb' : ∀ a, (![g', 0, 0] : Fin 3 → ℕ) a + S1x64x512.size a ≤ S4x64x512.size a)
    (P : (Rect.unit (s := S4x64x512) off S1x64x512.size inb).shape.Idx → Elt F .f32) :
    View.readAt (Elt F) v (Rect.unit (s := S4x64x512) ![g', 0, 0] S1x64x512.size inb').toLoadRect (v.writes (Elt F) f [(⟨Rect.unit (s := S4x64x512) off S1x64x512.size inb, P⟩ : View.Piece (Elt F) S4x64x512 .f32)])
      = View.readAt (Elt F) v (Rect.unit (s := S4x64x512) ![g', 0, 0] S1x64x512.size inb').toLoadRect f := by
  subst hoff
  funext j
  have hj : (j (0 : Fin 3)).val < 1 := (j (0 : Fin 3)).isLt
  rw [View.readAt_apply, View.readAt_apply]
  refine (View.read_writes_cons_unit_of_not_mem v f inb P [] _ rfl (0 : Fin 3) ?_).trans rfl
  show g' + 1 * (j (0 : Fin 3)).val < g ∨ g + 1 ≤ g' + 1 * (j (0 : Fin 3)).val
  omega

/-- A load of slab `g` after one store through slab `g` reads the stored tile. -/
theorem slab_hit (v : View sig .tc .vmem S4x64x512 .f32) (f : v.ty.Contents (Elt F)) {off off' : Fin 3 → ℕ} (hoff : off = off')
    (inb : ∀ a, off a + S1x64x512.size a ≤ S4x64x512.size a) (inb' : ∀ a, off' a + S1x64x512.size a ≤ S4x64x512.size a)
    (P : (Rect.unit (s := S4x64x512) off S1x64x512.size inb).shape.Idx → Elt F .f32) :
    View.readAt (Elt F) v (Rect.unit (s := S4x64x512) off' S1x64x512.size inb').toLoadRect (v.writes (Elt F) f [(⟨Rect.unit (s := S4x64x512) off S1x64x512.size inb, P⟩ : View.Piece (Elt F) S4x64x512 .f32)]) = P := by
  subst hoff
  funext j
  exact View.read_writes_cons_emb v f (Rect.unit (s := S4x64x512) off S1x64x512.size inb) P [] j

end Cert.Kernel.Hand

end
-- ==== Proof.LstmDefs0W.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # LSTM layer 0 (kernel region 0): 32 grid points, 8 hidden tiles of 512 columns × 4 gates

At point `t = 4·ht + g` the body computes gate `g`'s pre-activation tile for hidden tile `ht` — the two activations
times the two weight tiles (rows `g·4096 + ht·512 …` of each weight matrix) plus the two bias tiles — and stores it into
slab `g` of a scratch of four slabs. At `g = 3` it then reads the four slabs and the old cell-state block and stores the
new hidden-state and cell-state blocks of tile `ht`, which the pipeline writes back there. The output windows are
idle at the other three points. The scratch is carried from point to point: before point `t` its slabs `g' < g` hold
the gate tiles of the points `4·ht + g'`. -/

section Region0
variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof data
    whose array is the region-entry contents and whose body leaves the block in place: unfetched, the block index has
    not moved since the point before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof data
    whose array is the region-entry contents and whose body leaves the block in place: unfetched, the block index has
    not moved since the point before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof data
    whose array is the region-entry contents and whose body leaves the block in place: unfetched, the block index has
    not moved since the point before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof data
    whose array is the region-entry contents and whose body leaves the block in place: unfetched, the block index has
    not moved since the point before. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not, for any proof data
    whose array is the region-entry contents and whose body leaves the block in place: unfetched, the block index has
    not moved since the point before. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not, for any proof data
    whose array is the region-entry contents and whose body leaves the block in place: unfetched, the block index has
    not moved since the point before. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not, for any proof data
    whose array is the region-entry contents and whose body leaves the block in place: unfetched, the block index has
    not moved since the point before. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The branch condition, the scratch offset, the idle points: decided over the grid -/

/-- The body's `scf.if` is taken exactly at the last gate of each hidden tile. -/
theorem hcond0 : ∀ t : Fin cfg0.N, k0_cond1 (grid0.coords t) = 1#1 ↔ t.val % 4 = 3 :=
  (by decide +kernel : ∀ t : Fin grid0.N, k0_cond1 (grid0.coords t) = 1#1 ↔ t.val % 4 = 3)
/-- At the points of gate 0 the scratch store lands on slab 0. -/
theorem hoff0_0 : ∀ t : Fin cfg0.N, t.val % 4 = 0 → k0_off1 (grid0.coords t) = ![0, 0, 0] :=
  (by decide +kernel : ∀ t : Fin grid0.N, t.val % 4 = 0 → k0_off1 (grid0.coords t) = ![0, 0, 0])
/-- At the points of gate 1 the scratch store lands on slab 1. -/
theorem hoff0_1 : ∀ t : Fin cfg0.N, t.val % 4 = 1 → k0_off1 (grid0.coords t) = ![1, 0, 0] :=
  (by decide +kernel : ∀ t : Fin grid0.N, t.val % 4 = 1 → k0_off1 (grid0.coords t) = ![1, 0, 0])
/-- At the points of gate 2 the scratch store lands on slab 2. -/
theorem hoff0_2 : ∀ t : Fin cfg0.N, t.val % 4 = 2 → k0_off1 (grid0.coords t) = ![2, 0, 0] :=
  (by decide +kernel : ∀ t : Fin grid0.N, t.val % 4 = 2 → k0_off1 (grid0.coords t) = ![2, 0, 0])
/-- At the points of gate 3 the scratch store lands on slab 3. -/
theorem hoff0_3 : ∀ t : Fin cfg0.N, t.val % 4 = 3 → k0_off1 (grid0.coords t) = ![3, 0, 0] :=
  (by decide +kernel : ∀ t : Fin grid0.N, t.val % 4 = 3 → k0_off1 (grid0.coords t) = ![3, 0, 0])
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
/-- Output window 7 is idle, and not written back, away from the last gate; live at it. -/
theorem idleAt0_7 : ∀ t : Fin cfg0.N, ¬ t.val % 4 = 3 → cfg0.idle 7 (grid0.coords t) = true :=
  (by decide +kernel : ∀ t : Fin grid0.N, ¬ t.val % 4 = 3 → cfg0.idle 7 (grid0.coords t) = true)
theorem noFlush0_7 : ∀ t : Fin cfg0.N, ¬ t.val % 4 = 3 → (cfg0.win 7).flush t = false :=
  (by decide +kernel : ∀ t : Fin grid0.N, ¬ t.val % 4 = 3 → (cfg0.win 7).flush t = false)
theorem liveAt0_7 : ∀ t : Fin cfg0.N, t.val % 4 = 3 → cfg0.idle 7 (grid0.coords t) = false :=
  (by decide +kernel : ∀ t : Fin grid0.N, t.val % 4 = 3 → cfg0.idle 7 (grid0.coords t) = false)
/-- Output window 8 is idle, and not written back, away from the last gate; live at it. -/
theorem idleAt0_8 : ∀ t : Fin cfg0.N, ¬ t.val % 4 = 3 → cfg0.idle 8 (grid0.coords t) = true :=
  (by decide +kernel : ∀ t : Fin grid0.N, ¬ t.val % 4 = 3 → cfg0.idle 8 (grid0.coords t) = true)
theorem noFlush0_8 : ∀ t : Fin cfg0.N, ¬ t.val % 4 = 3 → (cfg0.win 8).flush t = false :=
  (by decide +kernel : ∀ t : Fin grid0.N, ¬ t.val % 4 = 3 → (cfg0.win 8).flush t = false)
theorem liveAt0_8 : ∀ t : Fin cfg0.N, t.val % 4 = 3 → cfg0.idle 8 (grid0.coords t) = false :=
  (by decide +kernel : ∀ t : Fin grid0.N, t.val % 4 = 3 → cfg0.idle 8 (grid0.coords t) = false)

/-! ## The staging memrefs at a point, and the scratch -/
abbrev ms0_0 (t : Fin cfg0.N) : Memref sig .tc .vmem S64x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S64x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S64x512 .f32 := win0_8.stage (cfg0.slots t 8)
abbrev hs0_8 (t : Fin cfg0.N) : (ms0_8 t).IsWhole := hstage0_8 ((cfg0.slots t 8).cast nbuf0_8)
/-- The gate scratch: a whole scoped buffer of the kernel's own. -/
abbrev scM0 : Memref sig .tc .vmem S4x64x512 .f32 := Memref.whole cc0_scratch0
abbrev hsc0 : scM0.IsWhole := Memref.isWhole_whole _

/-! ## The gate tiles, the output blocks, the slabs -/

/-- The gate tile point `t` computes: the body's arithmetic over the point's six input blocks. -/
def gateAt0 (c : Dev nD) (t : Fin cfg0.N) : Vec F S1x64x512 .f32 :=
  k0_pay1 (iblk0 V c 0 t) (iblk0 V c 3 t) (iblk0 V c 5 t) (iblk0 V c 1 t) (iblk0 V c 4 t) (iblk0 V c 6 t)

/-- The point of gate `j` in `t`'s group of four (one hidden tile). -/
def grp0 (t : Fin cfg0.N) (j : ℕ) (hj : j < 4) : Fin cfg0.N :=
  ⟨4 * (t.val / 4) + j, by
    have hN : t.val < 32 := lt_of_lt_of_eq t.isLt (show cfg0.N = 32 from N_0)
    exact lt_of_lt_of_eq (by omega : 4 * (t.val / 4) + j < 32) (show cfg0.N = 32 from N_0).symm⟩
theorem grp0_val (t : Fin cfg0.N) (j : ℕ) (hj : j < 4) : (grp0 t j hj).val = 4 * (t.val / 4) + j := rfl

abbrev r0_o : Rect S64x512 := Rect.unit (s := S64x512) ![0, 0] S64x512.size inb_S64x512_S64x512_0_0

/-- The new hidden-state block of `t`'s hidden tile: the one store of the last gate's point, over the four gate tiles
    of the group and the old cell-state block. -/
def hOut0 (c : Dev nD) (t : Fin cfg0.N) : Vec F S64x512 .f32 :=
  View.canon [⟨r0_o, k0_pay3 (gateAt0 V c (grp0 t 0 (by decide))) (gateAt0 V c (grp0 t 1 (by decide))) (gateAt0 V c (grp0 t 2 (by decide))) (gateAt0 V c (grp0 t 3 (by decide))) (iblk0 V c 2 t)⟩]
/-- The new cell-state block, likewise (it does not read the fourth gate). -/
def cOut0 (c : Dev nD) (t : Fin cfg0.N) : Vec F S64x512 .f32 :=
  View.canon [⟨r0_o, k0_pay2 (gateAt0 V c (grp0 t 0 (by decide))) (gateAt0 V c (grp0 t 1 (by decide))) (gateAt0 V c (grp0 t 2 (by decide))) (iblk0 V c 2 t)⟩]

theorem cover0_o (p0 : Vec F S64x512 .f32) (y : S64x512.Idx) :
    ∃ pc ∈ ([⟨r0_o, p0⟩] : List (View.Piece (Elt F) S64x512 .f32)), y ∈ pc.1.set :=
  View.cover_of_tiled [⟨r0_o, p0⟩] S64x512.size (by rfl) y

abbrev sb0_0 : Rect S4x64x512 := Rect.unit (s := S4x64x512) ![0, 0, 0] S1x64x512.size inb_S4x64x512_S1x64x512_0_0_0
abbrev sb0_1 : Rect S4x64x512 := Rect.unit (s := S4x64x512) ![1, 0, 0] S1x64x512.size inb_S4x64x512_S1x64x512_1_0_0
abbrev sb0_2 : Rect S4x64x512 := Rect.unit (s := S4x64x512) ![2, 0, 0] S1x64x512.size inb_S4x64x512_S1x64x512_2_0_0
abbrev sb0_3 : Rect S4x64x512 := Rect.unit (s := S4x64x512) ![3, 0, 0] S1x64x512.size inb_S4x64x512_S1x64x512_3_0_0
/-- Slab `j` of the scratch held at the contents that read `xs`. -/
def slabRd0 (j : ℕ) (xs : Vec F S4x64x512 .f32) : Vec F S1x64x512 .f32 :=
  match j with
  | 0 => View.readAt (Elt F) scM0.view sb0_0.toLoadRect (hsc0.unread xs)
  | 1 => View.readAt (Elt F) scM0.view sb0_1.toLoadRect (hsc0.unread xs)
  | 2 => View.readAt (Elt F) scM0.view sb0_2.toLoadRect (hsc0.unread xs)
  | _ => View.readAt (Elt F) scM0.view sb0_3.toLoadRect (hsc0.unread xs)

/-- Before position `n` the slabs of the earlier points of `n`'s group hold those points' gate tiles. -/
def SlabOk0 (c : Dev nD) (n : ℕ) (xs : Vec F S4x64x512 .f32) : Prop :=
  ∀ t' : Fin cfg0.N, t'.val / 4 = n / 4 → t'.val < n → slabRd0 (t'.val % 4) xs = gateAt0 V c t'

/-- The region's invariant before position `n`: the scratch at contents whose earlier slabs are the group's gate tiles,
    the rest of the scoped buffers and the generator register untouched. -/
def PhiL0 (c : Dev nD) (n : ℕ) : sProp 𝕄 :=
  iprop((∃ xs : Vec F S4x64x512 .f32, owns (c : Thread nD τ) scM0 fullShare xs ∗ ⌜SlabOk0 V c n xs⌝)
    ∗ Pipeline.scopedRestBut (Ix := Unit) (Name := ℕ) (U := UR sig nD τ) (Lvl := ℕ) (Val := Elt F) spec0 c [cc0_scratch0]
    ∗ (∃ r, prngReg c r))

/-! ## The region's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => hOut0 V c t
    | ⟨8, _⟩ => cOut0 V c t
  Φ u := PhiL0 V c u.val
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = hOut0 V c t := by dsimp only [dat0]
theorem after0_8 (c : Dev nD) (t : Fin cfg0.N) : (dat0 V c).after 8 t = cOut0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

end Region0

end Cert.Kernel.Hand

end
-- ==== Proof.LstmRuns0W.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import proofs.«142131_j78597901517448_2_alg».proof.Proof.FrameLibW
import proofs.«142131_j78597901517448_2_alg».proof.Proof.LstmDefs0W
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs0
/-! ## The body's runs, one per gate coordinate -/

set_option maxHeartbeats 2000000 in
/-- The body at a point whose gate coordinate is 0 (not the last gate): it loads the two activations, the two weight
    tiles and the two bias tiles, and stores their gate tile into slab 0 of the scratch; nothing else is touched. The
    scratch is left at its contents with the pieces the body stores written. -/
noncomputable def kernelRun0_A0 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![0, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k0_off1 i) := ⟨![0, 0, 0], hl⟩
    simp only [cc0_kernel_eq_skeleton]; unfold cc0_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 2000000 in
/-- The body at a point whose gate coordinate is 1 (not the last gate): it loads the two activations, the two weight
    tiles and the two bias tiles, and stores their gate tile into slab 1 of the scratch; nothing else is touched. The
    scratch is left at its contents with the pieces the body stores written. -/
noncomputable def kernelRun0_A1 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![1, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k0_off1 i) := ⟨![1, 0, 0], hl⟩
    simp only [cc0_kernel_eq_skeleton]; unfold cc0_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 2000000 in
/-- The body at a point whose gate coordinate is 2 (not the last gate): it loads the two activations, the two weight
    tiles and the two bias tiles, and stores their gate tile into slab 2 of the scratch; nothing else is touched. The
    scratch is left at its contents with the pieces the body stores written. -/
noncomputable def kernelRun0_A2 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![2, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k0_off1 i) := ⟨![2, 0, 0], hl⟩
    simp only [cc0_kernel_eq_skeleton]; unfold cc0_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 4000000 in
/-- The body at a point whose gate coordinate is 3 (the last gate): it stores the fourth gate tile into slab 3 of the
    scratch, then reads the four slabs and the cell-state block and stores the new hidden state and the new cell state
    into the two output buffers. Slabs 0, 1, 2 of the scratch are taken at ANY contents whose reads are `ps0`, `ps1`,
    `ps2` (what the three points before stored there). -/
noncomputable def kernelRun0_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k0_cond1 i = 1#1) (hl : k0_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    Σ' (L9 : List (View.Piece (Elt F) S64x512 .f32)) (L10 : List (View.Piece (Elt F) S64x512 .f32)), { LS : List (View.Piece (Elt F) S4x64x512 .f32) //
      ∀ (xs : Vec F S4x64x512 .f32)
        (hps0 : View.readAt (Elt F) arg11.view (Rect.unit (s := S4x64x512) ![0, 0, 0] S1x64x512.size inb_S4x64x512_S1x64x512_0_0_0).toLoadRect (harg11.unread xs) = ps0)
        (hps1 : View.readAt (Elt F) arg11.view (Rect.unit (s := S4x64x512) ![1, 0, 0] S1x64x512.size inb_S4x64x512_S1x64x512_1_0_0).toLoadRect (harg11.unread xs) = ps1)
        (hps2 : View.readAt (Elt F) arg11.view (Rect.unit (s := S4x64x512) ![2, 0, 0] S1x64x512.size inb_S4x64x512_S1x64x512_2_0_0).toLoadRect (harg11.unread xs) = ps2)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)
                ∗ (arg11.view.loc (c : Thread nD τ) ↦[arg11.view.set]{fullShare} arg11.view.writes (Elt F) (harg11.unread xs) LS)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10 arg11 harg11) K } := by
  refine ⟨?_, ?_, ?_, fun xs hps0 hps1 hps2 E K => ?run⟩
  case run =>
    letI : ClosedOff (k0_off1 i) := ⟨![3, 0, 0], hl⟩
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]; · iexists _; iexact H10
    iexact HS

/-! ## The pieces the body stores -/

/-- At gate 0 the one piece the scratch gets is the gate tile of the six blocks, through the slab the offsets name. -/
theorem LS0_A0 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![0, 0, 0])
    (x0 x1 : Vec F S64x4096 .f32) (x3 x4 : Vec F S512x4096 .f32) (x5 x6 : Vec F S1x512 .f32) :
    (kernelRun0_A0 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k0_off1 i) S1x64x512.size (k0_off1_inb i), k0_pay1 x0 x3 x5 x1 x4 x6⟩ : View.Piece (Elt F) S4x64x512 .f32)] := by
  unfold kernelRun0_A0
  dsimp only
  rw [rdW_a, rdW_a, rdW_w, rdW_w, rdW_b, rdW_b]

/-- At gate 1 the one piece the scratch gets is the gate tile of the six blocks, through the slab the offsets name. -/
theorem LS0_A1 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![1, 0, 0])
    (x0 x1 : Vec F S64x4096 .f32) (x3 x4 : Vec F S512x4096 .f32) (x5 x6 : Vec F S1x512 .f32) :
    (kernelRun0_A1 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k0_off1 i) S1x64x512.size (k0_off1_inb i), k0_pay1 x0 x3 x5 x1 x4 x6⟩ : View.Piece (Elt F) S4x64x512 .f32)] := by
  unfold kernelRun0_A1
  dsimp only
  rw [rdW_a, rdW_a, rdW_w, rdW_w, rdW_b, rdW_b]

/-- At gate 2 the one piece the scratch gets is the gate tile of the six blocks, through the slab the offsets name. -/
theorem LS0_A2 (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k0_cond1 i = 1#1) (hl : k0_off1 i = ![2, 0, 0])
    (x0 x1 : Vec F S64x4096 .f32) (x3 x4 : Vec F S512x4096 .f32) (x5 x6 : Vec F S1x512 .f32) :
    (kernelRun0_A2 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k0_off1 i) S1x64x512.size (k0_off1_inb i), k0_pay1 x0 x3 x5 x1 x4 x6⟩ : View.Piece (Elt F) S4x64x512 .f32)] := by
  unfold kernelRun0_A2
  dsimp only
  rw [rdW_a, rdW_a, rdW_w, rdW_w, rdW_b, rdW_b]

/-- At the last gate the scratch gets the same kind of piece, -/
theorem LS0_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k0_cond1 i = 1#1) (hl : k0_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun0_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).2.2.1
      = [(⟨Rect.unit (s := S4x64x512) (k0_off1 i) S1x64x512.size (k0_off1_inb i), k0_pay1 x0 x3 x5 x1 x4 x6⟩ : View.Piece (Elt F) S4x64x512 .f32)] := by
  unfold kernelRun0_B
  dsimp only
  sl_unfold_words
  rw [rdW_a, rdW_a, rdW_w, rdW_w, rdW_b, rdW_b]

/-- the hidden-state buffer one store of the cell arithmetic over the three slabs it was handed, the tile it has just
    stored, and the cell-state block, -/
theorem L90_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k0_cond1 i = 1#1) (hl : k0_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun0_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).1
      = [(⟨r0_o, k0_pay3 ps0 ps1 ps2 (k0_pay1 x0 x3 x5 x1 x4 x6) x2⟩ : View.Piece (Elt F) S64x512 .f32)] := by
  unfold kernelRun0_B
  dsimp only
  sl_unfold_words
  rw [rdW_c, rdW_a, rdW_a, rdW_w, rdW_w, rdW_b, rdW_b]
  refine congrArg (fun p => [(⟨r0_o, k0_pay3 ps0 ps1 ps2 p x2⟩ : View.Piece (Elt F) S64x512 .f32)]) ?_
  exact readCov_own _ hl _ _ _

/-- and the cell-state buffer one store over the three slabs and the cell-state block. -/
theorem L100_B (c : Dev nD) (i : grid0.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k0_cond1 i = 1#1) (hl : k0_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun0_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).2.1
      = [(⟨r0_o, k0_pay2 ps0 ps1 ps2 x2⟩ : View.Piece (Elt F) S64x512 .f32)] := by
  unfold kernelRun0_B
  dsimp only
  rw [rdW_c]

end Runs0

end Cert.Kernel.Hand

end
-- ==== Proof.FrameL0W.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import proofs.«142131_j78597901517448_2_alg».proof.Proof.FrameLibW
import proofs.«142131_j78597901517448_2_alg».proof.Proof.LstmDefs0W
import proofs.«142131_j78597901517448_2_alg».proof.Proof.LstmRuns0W
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Oblig0
variable (V : (c : Dev nD) → (b : Ref sig .tc) → Buf (Elt F) ((c : Thread nD τ).loc b))

/-! ## The slab facts from point to point -/

/-- A store of point `t`'s gate tile into slab `g = t mod 4 < 3` keeps the earlier slabs of the group and puts the tile
    where the next positions look for it. -/
theorem slabOk0_A (c : Dev nD) (t : Fin cfg0.N) (g : ℕ) (hg3 : g < 3) (hg : t.val % 4 = g) (xs : Vec F S4x64x512 .f32)
    (hok : SlabOk0 V c t.val xs) {off : Fin 3 → ℕ} (hoff : off = ![g, 0, 0]) (inb : ∀ a, off a + S1x64x512.size a ≤ S4x64x512.size a) :
    SlabOk0 V c (t.val + 1) (scM0.view.read (Elt F) (scM0.view.writes (Elt F) (hsc0.unread xs)
      [(⟨Rect.unit (s := S4x64x512) off S1x64x512.size inb, gateAt0 V c t⟩ : View.Piece (Elt F) S4x64x512 .f32)])) := by
  intro t' hdiv hlt
  have hN : t.val < 32 := lt_of_lt_of_eq t.isLt (show cfg0.N = 32 from N_0)
  by_cases htt : t'.val = t.val
  · have e : t' = t := Fin.ext htt
    subst e
    rw [hg]
    have hgs : g = 0 ∨ g = 1 ∨ g = 2 := by omega
    rcases hgs with rfl | rfl | rfl <;> (unfold slabRd0; dsimp only; rw [unread_read]; exact slab_hit _ _ hoff _ _ _)
  · have hlt' : t'.val < t.val := by omega
    have hdiv' : t'.val / 4 = t.val / 4 := by omega
    rw [← hok t' hdiv' hlt']
    have hne : g ≠ t'.val % 4 := by omega
    have h4 : t'.val % 4 < 4 := Nat.mod_lt _ (by decide)
    generalize t'.val % 4 = g' at hne h4 ⊢
    have hgs : g' = 0 ∨ g' = 1 ∨ g' = 2 ∨ g' = 3 := by omega
    rcases hgs with rfl | rfl | rfl | rfl <;> (unfold slabRd0; dsimp only; rw [unread_read]; exact slab_miss _ _ g _ hoff hne _ _ _)

/-- After the last gate's point a new group begins: nothing is asked of the scratch. -/
theorem slabOk0_B (c : Dev nD) (t : Fin cfg0.N) (hg : t.val % 4 = 3) (xs : Vec F S4x64x512 .f32) : SlabOk0 V c (t.val + 1) xs := by
  intro t' hdiv hlt; omega

/-- At the last gate's point the three earlier slabs read as the group's first three gate tiles. -/
theorem hps0 (c : Dev nD) (t : Fin cfg0.N) (hg : t.val % 4 = 3) (xs : Vec F S4x64x512 .f32) (hok : SlabOk0 V c t.val xs) :
    View.readAt (Elt F) scM0.view sb0_0.toLoadRect (hsc0.unread xs) = gateAt0 V c (grp0 t 0 (by decide))
    ∧ View.readAt (Elt F) scM0.view sb0_1.toLoadRect (hsc0.unread xs) = gateAt0 V c (grp0 t 1 (by decide))
    ∧ View.readAt (Elt F) scM0.view sb0_2.toLoadRect (hsc0.unread xs) = gateAt0 V c (grp0 t 2 (by decide)) := by
  refine ⟨?_, ?_, ?_⟩
  · have h := hok (grp0 t 0 (by decide)) (by rw [grp0_val]; omega) (by rw [grp0_val]; omega)
    have e : (grp0 t 0 (by decide)).val % 4 = 0 := by rw [grp0_val]; omega
    rw [e] at h; unfold slabRd0 at h; dsimp only at h; exact h
  · have h := hok (grp0 t 1 (by decide)) (by rw [grp0_val]; omega) (by rw [grp0_val]; omega)
    have e : (grp0 t 1 (by decide)).val % 4 = 1 := by rw [grp0_val]; omega
    rw [e] at h; unfold slabRd0 at h; dsimp only at h; exact h
  · have h := hok (grp0 t 2 (by decide)) (by rw [grp0_val]; omega) (by rw [grp0_val]; omega)
    have e : (grp0 t 2 (by decide)).val % 4 = 2 := by rw [grp0_val]; omega
    rw [e] at h; unfold slabRd0 at h; dsimp only at h; exact h

theorem grp0_last (t : Fin cfg0.N) (hg : t.val % 4 = 3) : grp0 t 3 (by decide) = t :=
  Fin.ext (by rw [grp0_val]; omega)

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4800000 in
/-- The body at any point: the inputs' buffers hold their blocks; the gate coordinate says which run applies; the
    invariant hands the run the scratch with its earlier slabs at the group's gate tiles and takes it back with this
    point's tile stored; at the last gate the two output buffers end at the cell arithmetic over the four tiles. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.castSucc = PhiL0 V c t.val from rfl, show (dat0 V c).Φ t.succ = PhiL0 V c (t.val + 1) from rfl]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  rw [show (dat0 V c).leavesExact 6 t = owns (c : Thread nD τ) (ms0_6 t) fullShare ((dat0 V c).after 6 t) from by
    unfold Dat.leavesExact; rw [liveAt0_6 t], after0_6]
  have hN : t.val < 32 := lt_of_lt_of_eq t.isLt (show cfg0.N = 32 from N_0)
  by_cases h3 : t.val % 4 = 3
  · -- the last gate: the fourth tile goes into slab 3, then the cell arithmetic into the two output buffers
    rw [show (dat0 V c).leavesExact 7 t = owns (c : Thread nD τ) (ms0_7 t) fullShare ((dat0 V c).after 7 t) from by
      unfold Dat.leavesExact; rw [liveAt0_7 t h3], after0_7]
    rw [show (dat0 V c).leavesExact 8 t = owns (c : Thread nD τ) (ms0_8 t) fullShare ((dat0 V c).after 8 t) from by
      unfold Dat.leavesExact; rw [liveAt0_8 t h3], after0_8]
    unfold PhiL0
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain ⟨hp0, hp1, hp2⟩ := hps0 V c t h3 xs hok
    iapply ((kernelRun0_B c (grid0.coords t) _ _ _ _ _ _ _ _ _ _ _ _ _ _ _ _ _ _ _ _ ((hcond0 t).mpr h3) (hoff0_3 t h3) (iblk0 V c 0 t) (iblk0 V c 1 t) (iblk0 V c 2 t) (iblk0 V c 3 t) (iblk0 V c 4 t) (iblk0 V c 5 t) (iblk0 V c 6 t)
      (gateAt0 V c (grp0 t 0 (by decide))) (gateAt0 V c (grp0 t 1 (by decide))) (gateAt0 V c (grp0 t 2 (by decide)))).2.2.2 xs hp0 hp1 hp2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, HS⟩
    isplitl [HS Hrest Hg]
    · isplitl [HS]
      · iexists _; isplitl [HS]
        · unfold owns; iexists _; isplitr
          swap; · iexact HS
          ipureintro; rfl
        · ipureintro; exact slabOk0_B V c t h3 _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [L90_B]
      refine (View.read_writes_eq_canon _ _ _ (cover0_o _)).trans ?_
      unfold hOut0; rw [grp0_last t h3]; rfl
    · unfold owns; iexists _; isplitr
      swap; · iexact H8
      ipureintro
      rw [L100_B]
      exact View.read_writes_eq_canon _ _ _ (cover0_o _)
  have hcases : t.val % 4 = 0 ∨ t.val % 4 = 1 ∨ t.val % 4 = 2 := by omega
  rcases hcases with hg | hg | hg
  · -- gate 0: the gate tile goes into slab 0; the outputs are idle
    rw [Dat.leavesExact_idle (dat0 V c) 7 t (idleAt0_7 t h3) (noFlush0_7 t h3),
      Dat.leavesExact_idle (dat0 V c) 8 t (idleAt0_8 t h3) (noFlush0_8 t h3)]
    unfold PhiL0
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A0 c (grid0.coords t) _ _ _ _ _ _ _ _ _ _ _ _ _ _ _ _ _ _ _ _ (fun h => h3 ((hcond0 t).mp h)) (hoff0_0 t hg) (iblk0 V c 0 t) (iblk0 V c 1 t) (iblk0 V c 3 t) (iblk0 V c 4 t) (iblk0 V c 5 t) (iblk0 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS0_A0]
          exact slabOk0_A V c t 0 (by decide) hg xs hok (hoff0_0 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  · -- gate 1: the gate tile goes into slab 1; the outputs are idle
    rw [Dat.leavesExact_idle (dat0 V c) 7 t (idleAt0_7 t h3) (noFlush0_7 t h3),
      Dat.leavesExact_idle (dat0 V c) 8 t (idleAt0_8 t h3) (noFlush0_8 t h3)]
    unfold PhiL0
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A1 c (grid0.coords t) _ _ _ _ _ _ _ _ _ _ _ _ _ _ _ _ _ _ _ _ (fun h => h3 ((hcond0 t).mp h)) (hoff0_1 t hg) (iblk0 V c 0 t) (iblk0 V c 1 t) (iblk0 V c 3 t) (iblk0 V c 4 t) (iblk0 V c 5 t) (iblk0 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS0_A1]
          exact slabOk0_A V c t 1 (by decide) hg xs hok (hoff0_1 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  · -- gate 2: the gate tile goes into slab 2; the outputs are idle
    rw [Dat.leavesExact_idle (dat0 V c) 7 t (idleAt0_7 t h3) (noFlush0_7 t h3),
      Dat.leavesExact_idle (dat0 V c) 8 t (idleAt0_8 t h3) (noFlush0_8 t h3)]
    unfold PhiL0
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun0_A2 c (grid0.coords t) _ _ _ _ _ _ _ _ _ _ _ _ _ _ _ _ _ _ _ _ (fun h => h3 ((hcond0 t).mp h)) (hoff0_2 t hg) (iblk0 V c 0 t) (iblk0 V c 1 t) (iblk0 V c 3 t) (iblk0 V c 4 t) (iblk0 V c 5 t) (iblk0 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS0_A2]
          exact slabOk0_A V c t 2 (by decide) hg xs hok (hoff0_2 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's two ends -/

/-- What the launch hands the region — every scoped buffer no window stages at some contents, the generator register —
    is the invariant before the first point: nothing is asked of the scratch yet. -/
theorem hin0 (c : Dev nD) : Pipeline.ΦA spec0 c ⊢ (dat0 V c).Φ 0 := by
  rw [show (dat0 V c).Φ 0 = PhiL0 V c 0 from rfl]
  unfold Pipeline.ΦA PhiL0
  rw [scopedRest0_split]
  simp only [scM0, owns_whole]
  iintro ⟨⟨⟨%f, Hs⟩, Hrest⟩, Hg⟩
  isplitl [Hs]
  · iexists f; isplitl [Hs]; · iexact Hs
    ipureintro; intro t' _ h; exact absurd h (Nat.not_lt_zero _)
  isplitl [Hrest]; · iexact Hrest
  iexact Hg

/-- After the last point the invariant gives that back: the scratch's contents are forgotten. -/
theorem hout0 (c : Dev nD) : (dat0 V c).Φ (Fin.last cfg0.N) ⊢ Pipeline.ΦA spec0 c := by
  rw [show (dat0 V c).Φ (Fin.last cfg0.N) = PhiL0 V c cfg0.N from rfl]
  unfold Pipeline.ΦA PhiL0
  rw [scopedRest0_split]
  simp only [scM0, owns_whole]
  iintro ⟨⟨%xs, Hs, -⟩, Hrest, Hg⟩
  isplitl [Hs Hrest]
  · isplitl [Hs]; · iexists xs; iexact Hs
    iexact Hrest
  iexact Hg

end Oblig0

end Cert.Kernel.Hand

end
-- ==== Proof.LstmDefs1W.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # LSTM layer 1 (kernel region 1): 32 grid points, 8 hidden tiles of 512 columns × 4 gates

At point `t = 4·ht + g` the body computes gate `g`'s pre-activation tile for hidden tile `ht` — the two activations
times the two weight tiles (rows `g·4096 + ht·512 …` of each weight matrix) plus the two bias tiles — and stores it into
slab `g` of a scratch of four slabs. At `g = 3` it then reads the four slabs and the old cell-state block and stores the
new hidden-state and cell-state blocks of tile `ht`, which the pipeline writes back there. The output windows are
idle at the other three points. The scratch is carried from point to point: before point `t` its slabs `g' < g` hold
the gate tiles of the points `4·ht + g'`. -/

section Region1
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is the region-entry contents and whose body leaves the block in place: unfetched, the block index has
    not moved since the point before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is the region-entry contents and whose body leaves the block in place: unfetched, the block index has
    not moved since the point before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is the region-entry contents and whose body leaves the block in place: unfetched, the block index has
    not moved since the point before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is the region-entry contents and whose body leaves the block in place: unfetched, the block index has
    not moved since the point before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is the region-entry contents and whose body leaves the block in place: unfetched, the block index has
    not moved since the point before. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not, for any proof data
    whose array is the region-entry contents and whose body leaves the block in place: unfetched, the block index has
    not moved since the point before. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not, for any proof data
    whose array is the region-entry contents and whose body leaves the block in place: unfetched, the block index has
    not moved since the point before. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-! ## The branch condition, the scratch offset, the idle points: decided over the grid -/

/-- The body's `scf.if` is taken exactly at the last gate of each hidden tile. -/
theorem hcond1 : ∀ t : Fin cfg1.N, k1_cond1 (grid1.coords t) = 1#1 ↔ t.val % 4 = 3 :=
  (by decide +kernel : ∀ t : Fin grid1.N, k1_cond1 (grid1.coords t) = 1#1 ↔ t.val % 4 = 3)
/-- At the points of gate 0 the scratch store lands on slab 0. -/
theorem hoff1_0 : ∀ t : Fin cfg1.N, t.val % 4 = 0 → k1_off1 (grid1.coords t) = ![0, 0, 0] :=
  (by decide +kernel : ∀ t : Fin grid1.N, t.val % 4 = 0 → k1_off1 (grid1.coords t) = ![0, 0, 0])
/-- At the points of gate 1 the scratch store lands on slab 1. -/
theorem hoff1_1 : ∀ t : Fin cfg1.N, t.val % 4 = 1 → k1_off1 (grid1.coords t) = ![1, 0, 0] :=
  (by decide +kernel : ∀ t : Fin grid1.N, t.val % 4 = 1 → k1_off1 (grid1.coords t) = ![1, 0, 0])
/-- At the points of gate 2 the scratch store lands on slab 2. -/
theorem hoff1_2 : ∀ t : Fin cfg1.N, t.val % 4 = 2 → k1_off1 (grid1.coords t) = ![2, 0, 0] :=
  (by decide +kernel : ∀ t : Fin grid1.N, t.val % 4 = 2 → k1_off1 (grid1.coords t) = ![2, 0, 0])
/-- At the points of gate 3 the scratch store lands on slab 3. -/
theorem hoff1_3 : ∀ t : Fin cfg1.N, t.val % 4 = 3 → k1_off1 (grid1.coords t) = ![3, 0, 0] :=
  (by decide +kernel : ∀ t : Fin grid1.N, t.val % 4 = 3 → k1_off1 (grid1.coords t) = ![3, 0, 0])
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
theorem liveAt1_4 : ∀ t : Fin cfg1.N, cfg1.idle 4 (grid1.coords t) = false := fun _ => rfl
theorem liveAt1_5 : ∀ t : Fin cfg1.N, cfg1.idle 5 (grid1.coords t) = false := fun _ => rfl
theorem liveAt1_6 : ∀ t : Fin cfg1.N, cfg1.idle 6 (grid1.coords t) = false := fun _ => rfl
/-- Output window 7 is idle, and not written back, away from the last gate; live at it. -/
theorem idleAt1_7 : ∀ t : Fin cfg1.N, ¬ t.val % 4 = 3 → cfg1.idle 7 (grid1.coords t) = true :=
  (by decide +kernel : ∀ t : Fin grid1.N, ¬ t.val % 4 = 3 → cfg1.idle 7 (grid1.coords t) = true)
theorem noFlush1_7 : ∀ t : Fin cfg1.N, ¬ t.val % 4 = 3 → (cfg1.win 7).flush t = false :=
  (by decide +kernel : ∀ t : Fin grid1.N, ¬ t.val % 4 = 3 → (cfg1.win 7).flush t = false)
theorem liveAt1_7 : ∀ t : Fin cfg1.N, t.val % 4 = 3 → cfg1.idle 7 (grid1.coords t) = false :=
  (by decide +kernel : ∀ t : Fin grid1.N, t.val % 4 = 3 → cfg1.idle 7 (grid1.coords t) = false)
/-- Output window 8 is idle, and not written back, away from the last gate; live at it. -/
theorem idleAt1_8 : ∀ t : Fin cfg1.N, ¬ t.val % 4 = 3 → cfg1.idle 8 (grid1.coords t) = true :=
  (by decide +kernel : ∀ t : Fin grid1.N, ¬ t.val % 4 = 3 → cfg1.idle 8 (grid1.coords t) = true)
theorem noFlush1_8 : ∀ t : Fin cfg1.N, ¬ t.val % 4 = 3 → (cfg1.win 8).flush t = false :=
  (by decide +kernel : ∀ t : Fin grid1.N, ¬ t.val % 4 = 3 → (cfg1.win 8).flush t = false)
theorem liveAt1_8 : ∀ t : Fin cfg1.N, t.val % 4 = 3 → cfg1.idle 8 (grid1.coords t) = false :=
  (by decide +kernel : ∀ t : Fin grid1.N, t.val % 4 = 3 → cfg1.idle 8 (grid1.coords t) = false)

/-! ## The staging memrefs at a point, and the scratch -/
abbrev ms1_0 (t : Fin cfg1.N) : Memref sig .tc .vmem S64x4096 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x4096 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x4096 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x512 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S64x512 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S64x512 .f32 := win1_8.stage (cfg1.slots t 8)
abbrev hs1_8 (t : Fin cfg1.N) : (ms1_8 t).IsWhole := hstage1_8 ((cfg1.slots t 8).cast nbuf1_8)
/-- The gate scratch: a whole scoped buffer of the kernel's own. -/
abbrev scM1 : Memref sig .tc .vmem S4x64x512 .f32 := Memref.whole cc1_scratch0
abbrev hsc1 : scM1.IsWhole := Memref.isWhole_whole _

/-! ## The gate tiles, the output blocks, the slabs -/

/-- The gate tile point `t` computes: the body's arithmetic over the point's six input blocks. -/
def gateAt1 (c : Dev nD) (t : Fin cfg1.N) : Vec F S1x64x512 .f32 :=
  k1_pay1 (iblk1 V c 0 t) (iblk1 V c 3 t) (iblk1 V c 5 t) (iblk1 V c 1 t) (iblk1 V c 4 t) (iblk1 V c 6 t)

/-- The point of gate `j` in `t`'s group of four (one hidden tile). -/
def grp1 (t : Fin cfg1.N) (j : ℕ) (hj : j < 4) : Fin cfg1.N :=
  ⟨4 * (t.val / 4) + j, by
    have hN : t.val < 32 := lt_of_lt_of_eq t.isLt (show cfg1.N = 32 from N_1)
    exact lt_of_lt_of_eq (by omega : 4 * (t.val / 4) + j < 32) (show cfg1.N = 32 from N_1).symm⟩
theorem grp1_val (t : Fin cfg1.N) (j : ℕ) (hj : j < 4) : (grp1 t j hj).val = 4 * (t.val / 4) + j := rfl

abbrev r1_o : Rect S64x512 := Rect.unit (s := S64x512) ![0, 0] S64x512.size inb_S64x512_S64x512_0_0

/-- The new hidden-state block of `t`'s hidden tile: the one store of the last gate's point, over the four gate tiles
    of the group and the old cell-state block. -/
def hOut1 (c : Dev nD) (t : Fin cfg1.N) : Vec F S64x512 .f32 :=
  View.canon [⟨r1_o, k1_pay3 (gateAt1 V c (grp1 t 0 (by decide))) (gateAt1 V c (grp1 t 1 (by decide))) (gateAt1 V c (grp1 t 2 (by decide))) (gateAt1 V c (grp1 t 3 (by decide))) (iblk1 V c 2 t)⟩]
/-- The new cell-state block, likewise (it does not read the fourth gate). -/
def cOut1 (c : Dev nD) (t : Fin cfg1.N) : Vec F S64x512 .f32 :=
  View.canon [⟨r1_o, k1_pay2 (gateAt1 V c (grp1 t 0 (by decide))) (gateAt1 V c (grp1 t 1 (by decide))) (gateAt1 V c (grp1 t 2 (by decide))) (iblk1 V c 2 t)⟩]

theorem cover1_o (p0 : Vec F S64x512 .f32) (y : S64x512.Idx) :
    ∃ pc ∈ ([⟨r1_o, p0⟩] : List (View.Piece (Elt F) S64x512 .f32)), y ∈ pc.1.set :=
  View.cover_of_tiled [⟨r1_o, p0⟩] S64x512.size (by rfl) y

abbrev sb1_0 : Rect S4x64x512 := Rect.unit (s := S4x64x512) ![0, 0, 0] S1x64x512.size inb_S4x64x512_S1x64x512_0_0_0
abbrev sb1_1 : Rect S4x64x512 := Rect.unit (s := S4x64x512) ![1, 0, 0] S1x64x512.size inb_S4x64x512_S1x64x512_1_0_0
abbrev sb1_2 : Rect S4x64x512 := Rect.unit (s := S4x64x512) ![2, 0, 0] S1x64x512.size inb_S4x64x512_S1x64x512_2_0_0
abbrev sb1_3 : Rect S4x64x512 := Rect.unit (s := S4x64x512) ![3, 0, 0] S1x64x512.size inb_S4x64x512_S1x64x512_3_0_0
/-- Slab `j` of the scratch held at the contents that read `xs`. -/
def slabRd1 (j : ℕ) (xs : Vec F S4x64x512 .f32) : Vec F S1x64x512 .f32 :=
  match j with
  | 0 => View.readAt (Elt F) scM1.view sb1_0.toLoadRect (hsc1.unread xs)
  | 1 => View.readAt (Elt F) scM1.view sb1_1.toLoadRect (hsc1.unread xs)
  | 2 => View.readAt (Elt F) scM1.view sb1_2.toLoadRect (hsc1.unread xs)
  | _ => View.readAt (Elt F) scM1.view sb1_3.toLoadRect (hsc1.unread xs)

/-- Before position `n` the slabs of the earlier points of `n`'s group hold those points' gate tiles. -/
def SlabOk1 (c : Dev nD) (n : ℕ) (xs : Vec F S4x64x512 .f32) : Prop :=
  ∀ t' : Fin cfg1.N, t'.val / 4 = n / 4 → t'.val < n → slabRd1 (t'.val % 4) xs = gateAt1 V c t'

/-- The region's invariant before position `n`: the scratch at contents whose earlier slabs are the group's gate tiles,
    the rest of the scoped buffers and the generator register untouched. -/
def PhiL1 (c : Dev nD) (n : ℕ) : sProp 𝕄 :=
  iprop((∃ xs : Vec F S4x64x512 .f32, owns (c : Thread nD τ) scM1 fullShare xs ∗ ⌜SlabOk1 V c n xs⌝)
    ∗ Pipeline.scopedRestBut (Ix := Unit) (Name := ℕ) (U := UR sig nD τ) (Lvl := ℕ) (Val := Elt F) spec1 c [cc1_scratch0]
    ∗ (∃ r, prngReg c r))

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => hOut1 V c t
    | ⟨8, _⟩ => cOut1 V c t
  Φ u := PhiL1 V c u.val
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = hOut1 V c t := by dsimp only [dat1]
theorem after1_8 (c : Dev nD) (t : Fin cfg1.N) : (dat1 V c).after 8 t = cOut1 V c t := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

end Region1

end Cert.Kernel.Hand

end
-- ==== Proof.LstmRuns1W.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import proofs.«142131_j78597901517448_2_alg».proof.Proof.FrameLibW
import proofs.«142131_j78597901517448_2_alg».proof.Proof.LstmDefs1W
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Runs1
/-! ## The body's runs, one per gate coordinate -/

set_option maxHeartbeats 2000000 in
/-- The body at a point whose gate coordinate is 0 (not the last gate): it loads the two activations, the two weight
    tiles and the two bias tiles, and stores their gate tile into slab 0 of the scratch; nothing else is touched. The
    scratch is left at its contents with the pieces the body stores written. -/
noncomputable def kernelRun1_A0 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![0, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k1_off1 i) := ⟨![0, 0, 0], hl⟩
    simp only [cc1_kernel_eq_skeleton]; unfold cc1_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 2000000 in
/-- The body at a point whose gate coordinate is 1 (not the last gate): it loads the two activations, the two weight
    tiles and the two bias tiles, and stores their gate tile into slab 1 of the scratch; nothing else is touched. The
    scratch is left at its contents with the pieces the body stores written. -/
noncomputable def kernelRun1_A1 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![1, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k1_off1 i) := ⟨![1, 0, 0], hl⟩
    simp only [cc1_kernel_eq_skeleton]; unfold cc1_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 2000000 in
/-- The body at a point whose gate coordinate is 2 (not the last gate): it loads the two activations, the two weight
    tiles and the two bias tiles, and stores their gate tile into slab 2 of the scratch; nothing else is touched. The
    scratch is left at its contents with the pieces the body stores written. -/
noncomputable def kernelRun1_A2 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![2, 0, 0])
    (x0 x1 : Vec F S64x4096 .f32) (x3 x4 : Vec F S512x4096 .f32) (x5 x6 : Vec F S1x512 .f32) :
    { LS : List (View.Piece (Elt F) S4x64x512 .f32) //
      ∀ (xs : Vec F S4x64x512 .f32) (E : Set ℕ) (K : PUnit → sProp 𝕄),
        iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg11 fullShare xs
            ∗ (iprop(owns (c : Thread nD τ) arg2 fullShare x0 ∗ owns (c : Thread nD τ) arg3 fullShare x1 ∗ owns (c : Thread nD τ) arg5 fullShare x3 ∗ owns (c : Thread nD τ) arg6 fullShare x4 ∗ owns (c : Thread nD τ) arg7 fullShare x5 ∗ owns (c : Thread nD τ) arg8 fullShare x6 ∗ (arg11.view.loc (c : Thread nD τ) ↦[arg11.view.set]{fullShare} arg11.view.writes (Elt F) (harg11.unread xs) LS)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, fun xs E K => ?run⟩
  case run =>
    letI : ClosedOff (k1_off1 i) := ⟨![2, 0, 0], hl⟩
    simp only [cc1_kernel_eq_skeleton]; unfold cc1_kernel_skel
    unfold owns
    iintro ⟨⟨%f0, %hf0, H0⟩, ⟨%f1, %hf1, H1⟩, ⟨%f3, %hf3, H3⟩, ⟨%f4, %hf4, H4⟩, ⟨%f5, %hf5, H5⟩, ⟨%f6, %hf6, H6⟩, ⟨%fs, %hfs, HS⟩, Hk⟩
    obtain rfl := harg2.eq_unread hf0; obtain rfl := harg3.eq_unread hf1; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    iexact HS

set_option maxHeartbeats 4000000 in
/-- The body at a point whose gate coordinate is 3 (the last gate): it stores the fourth gate tile into slab 3 of the
    scratch, then reads the four slabs and the cell-state block and stores the new hidden state and the new cell state
    into the two output buffers. Slabs 0, 1, 2 of the scratch are taken at ANY contents whose reads are `ps0`, `ps1`,
    `ps2` (what the three points before stored there). -/
noncomputable def kernelRun1_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k1_cond1 i = 1#1) (hl : k1_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    Σ' (L9 : List (View.Piece (Elt F) S64x512 .f32)) (L10 : List (View.Piece (Elt F) S64x512 .f32)), { LS : List (View.Piece (Elt F) S4x64x512 .f32) //
      ∀ (xs : Vec F S4x64x512 .f32)
        (hps0 : View.readAt (Elt F) arg11.view (Rect.unit (s := S4x64x512) ![0, 0, 0] S1x64x512.size inb_S4x64x512_S1x64x512_0_0_0).toLoadRect (harg11.unread xs) = ps0)
        (hps1 : View.readAt (Elt F) arg11.view (Rect.unit (s := S4x64x512) ![1, 0, 0] S1x64x512.size inb_S4x64x512_S1x64x512_1_0_0).toLoadRect (harg11.unread xs) = ps1)
        (hps2 : View.readAt (Elt F) arg11.view (Rect.unit (s := S4x64x512) ![2, 0, 0] S1x64x512.size inb_S4x64x512_S1x64x512_2_0_0).toLoadRect (harg11.unread xs) = ps2)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
            ∗ (∃ d, owns (c : Thread nD τ) arg9 fullShare d) ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
                ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)
                ∗ (arg11.view.loc (c : Thread nD τ) ↦[arg11.view.set]{fullShare} arg11.view.writes (Elt F) (harg11.unread xs) LS)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11) K } := by
  refine ⟨?_, ?_, ?_, fun xs hps0 hps1 hps2 E K => ?run⟩
  case run =>
    letI : ClosedOff (k1_off1 i) := ⟨![3, 0, 0], hl⟩
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d9, %f9, -, H9⟩, ⟨%d10, %f10, -, H10⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg11.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H9]; · iexists _; iexact H9
    isplitl [H10]; · iexists _; iexact H10
    iexact HS

/-! ## The pieces the body stores -/

/-- At gate 0 the one piece the scratch gets is the gate tile of the six blocks, through the slab the offsets name. -/
theorem LS1_A0 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![0, 0, 0])
    (x0 x1 : Vec F S64x4096 .f32) (x3 x4 : Vec F S512x4096 .f32) (x5 x6 : Vec F S1x512 .f32) :
    (kernelRun1_A0 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k1_off1 i) S1x64x512.size (k1_off1_inb i), k1_pay1 x0 x3 x5 x1 x4 x6⟩ : View.Piece (Elt F) S4x64x512 .f32)] := by
  unfold kernelRun1_A0
  dsimp only
  rw [rdW_a, rdW_a, rdW_w, rdW_w, rdW_b, rdW_b]

/-- At gate 1 the one piece the scratch gets is the gate tile of the six blocks, through the slab the offsets name. -/
theorem LS1_A1 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![1, 0, 0])
    (x0 x1 : Vec F S64x4096 .f32) (x3 x4 : Vec F S512x4096 .f32) (x5 x6 : Vec F S1x512 .f32) :
    (kernelRun1_A1 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k1_off1 i) S1x64x512.size (k1_off1_inb i), k1_pay1 x0 x3 x5 x1 x4 x6⟩ : View.Piece (Elt F) S4x64x512 .f32)] := by
  unfold kernelRun1_A1
  dsimp only
  rw [rdW_a, rdW_a, rdW_w, rdW_w, rdW_b, rdW_b]

/-- At gate 2 the one piece the scratch gets is the gate tile of the six blocks, through the slab the offsets name. -/
theorem LS1_A2 (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : ¬ k1_cond1 i = 1#1) (hl : k1_off1 i = ![2, 0, 0])
    (x0 x1 : Vec F S64x4096 .f32) (x3 x4 : Vec F S512x4096 .f32) (x5 x6 : Vec F S1x512 .f32) :
    (kernelRun1_A2 (F := F) c i arg2 harg2 arg3 harg3 arg4 harg4 arg5 harg5 arg6 harg6 arg7 harg7 arg8 harg8 arg9 harg9 arg10 harg10 arg11 harg11 hc hl x0 x1 x3 x4 x5 x6).1
      = [(⟨Rect.unit (s := S4x64x512) (k1_off1 i) S1x64x512.size (k1_off1_inb i), k1_pay1 x0 x3 x5 x1 x4 x6⟩ : View.Piece (Elt F) S4x64x512 .f32)] := by
  unfold kernelRun1_A2
  dsimp only
  rw [rdW_a, rdW_a, rdW_w, rdW_w, rdW_b, rdW_b]

/-- At the last gate the scratch gets the same kind of piece, -/
theorem LS1_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k1_cond1 i = 1#1) (hl : k1_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun1_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).2.2.1
      = [(⟨Rect.unit (s := S4x64x512) (k1_off1 i) S1x64x512.size (k1_off1_inb i), k1_pay1 x0 x3 x5 x1 x4 x6⟩ : View.Piece (Elt F) S4x64x512 .f32)] := by
  unfold kernelRun1_B
  dsimp only
  sl_unfold_words
  rw [rdW_a, rdW_a, rdW_w, rdW_w, rdW_b, rdW_b]

/-- the hidden-state buffer one store of the cell arithmetic over the three slabs it was handed, the tile it has just
    stored, and the cell-state block, -/
theorem L91_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k1_cond1 i = 1#1) (hl : k1_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun1_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).1
      = [(⟨r1_o, k1_pay3 ps0 ps1 ps2 (k1_pay1 x0 x3 x5 x1 x4 x6) x2⟩ : View.Piece (Elt F) S64x512 .f32)] := by
  unfold kernelRun1_B
  dsimp only
  sl_unfold_words
  rw [rdW_c, rdW_a, rdW_a, rdW_w, rdW_w, rdW_b, rdW_b]
  refine congrArg (fun p => [(⟨r1_o, k1_pay3 ps0 ps1 ps2 p x2⟩ : View.Piece (Elt F) S64x512 .f32)]) ?_
  exact readCov_own _ hl _ _ _

/-- and the cell-state buffer one store over the three slabs and the cell-state block. -/
theorem L101_B (c : Dev nD) (i : grid1.Coords) (arg2 : Memref sig .tc .vmem S64x4096 .f32) (harg2 : arg2.IsWhole) (arg3 : Memref sig .tc .vmem S64x4096 .f32) (harg3 : arg3.IsWhole) (arg4 : Memref sig .tc .vmem S64x512 .f32) (harg4 : arg4.IsWhole) (arg5 : Memref sig .tc .vmem S512x4096 .f32) (harg5 : arg5.IsWhole) (arg6 : Memref sig .tc .vmem S512x4096 .f32) (harg6 : arg6.IsWhole) (arg7 : Memref sig .tc .vmem S1x512 .f32) (harg7 : arg7.IsWhole) (arg8 : Memref sig .tc .vmem S1x512 .f32) (harg8 : arg8.IsWhole) (arg9 : Memref sig .tc .vmem S64x512 .f32) (harg9 : arg9.IsWhole) (arg10 : Memref sig .tc .vmem S64x512 .f32) (harg10 : arg10.IsWhole) (arg11 : Memref sig .tc .vmem S4x64x512 .f32) (harg11 : arg11.IsWhole) (hc : k1_cond1 i = 1#1) (hl : k1_off1 i = ![3, 0, 0])
    (x0 x1 : Vec F S64x4096 .f32) (x2 : Vec F S64x512 .f32) (x3 x4 : Vec F S512x4096 .f32) (x5 x6 : Vec F S1x512 .f32) (ps0 ps1 ps2 : Vec F S1x64x512 .f32) :
    (kernelRun1_B (F := F) c i arg2 harg2 arg3 harg3 arg4 harg4 arg5 harg5 arg6 harg6 arg7 harg7 arg8 harg8 arg9 harg9 arg10 harg10 arg11 harg11 hc hl x0 x1 x2 x3 x4 x5 x6 ps0 ps1 ps2).2.1
      = [(⟨r1_o, k1_pay2 ps0 ps1 ps2 x2⟩ : View.Piece (Elt F) S64x512 .f32)] := by
  unfold kernelRun1_B
  dsimp only
  rw [rdW_c]

end Runs1

end Cert.Kernel.Hand

end
-- ==== Proof.FrameL1W.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import proofs.«142131_j78597901517448_2_alg».proof.Proof.FrameLibW
import proofs.«142131_j78597901517448_2_alg».proof.Proof.LstmDefs1W
import proofs.«142131_j78597901517448_2_alg».proof.Proof.LstmRuns1W
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Oblig1
variable (V : (c : Dev nD) → (b : Ref sig .tc) → Buf (Elt F) ((c : Thread nD τ).loc b))

/-! ## The slab facts from point to point -/

/-- A store of point `t`'s gate tile into slab `g = t mod 4 < 3` keeps the earlier slabs of the group and puts the tile
    where the next positions look for it. -/
theorem slabOk1_A (c : Dev nD) (t : Fin cfg1.N) (g : ℕ) (hg3 : g < 3) (hg : t.val % 4 = g) (xs : Vec F S4x64x512 .f32)
    (hok : SlabOk1 V c t.val xs) {off : Fin 3 → ℕ} (hoff : off = ![g, 0, 0]) (inb : ∀ a, off a + S1x64x512.size a ≤ S4x64x512.size a) :
    SlabOk1 V c (t.val + 1) (scM1.view.read (Elt F) (scM1.view.writes (Elt F) (hsc1.unread xs)
      [(⟨Rect.unit (s := S4x64x512) off S1x64x512.size inb, gateAt1 V c t⟩ : View.Piece (Elt F) S4x64x512 .f32)])) := by
  intro t' hdiv hlt
  have hN : t.val < 32 := lt_of_lt_of_eq t.isLt (show cfg1.N = 32 from N_1)
  by_cases htt : t'.val = t.val
  · have e : t' = t := Fin.ext htt
    subst e
    rw [hg]
    have hgs : g = 0 ∨ g = 1 ∨ g = 2 := by omega
    rcases hgs with rfl | rfl | rfl <;> (unfold slabRd1; dsimp only; rw [unread_read]; exact slab_hit _ _ hoff _ _ _)
  · have hlt' : t'.val < t.val := by omega
    have hdiv' : t'.val / 4 = t.val / 4 := by omega
    rw [← hok t' hdiv' hlt']
    have hne : g ≠ t'.val % 4 := by omega
    have h4 : t'.val % 4 < 4 := Nat.mod_lt _ (by decide)
    generalize t'.val % 4 = g' at hne h4 ⊢
    have hgs : g' = 0 ∨ g' = 1 ∨ g' = 2 ∨ g' = 3 := by omega
    rcases hgs with rfl | rfl | rfl | rfl <;> (unfold slabRd1; dsimp only; rw [unread_read]; exact slab_miss _ _ g _ hoff hne _ _ _)

/-- After the last gate's point a new group begins: nothing is asked of the scratch. -/
theorem slabOk1_B (c : Dev nD) (t : Fin cfg1.N) (hg : t.val % 4 = 3) (xs : Vec F S4x64x512 .f32) : SlabOk1 V c (t.val + 1) xs := by
  intro t' hdiv hlt; omega

/-- At the last gate's point the three earlier slabs read as the group's first three gate tiles. -/
theorem hps1 (c : Dev nD) (t : Fin cfg1.N) (hg : t.val % 4 = 3) (xs : Vec F S4x64x512 .f32) (hok : SlabOk1 V c t.val xs) :
    View.readAt (Elt F) scM1.view sb1_0.toLoadRect (hsc1.unread xs) = gateAt1 V c (grp1 t 0 (by decide))
    ∧ View.readAt (Elt F) scM1.view sb1_1.toLoadRect (hsc1.unread xs) = gateAt1 V c (grp1 t 1 (by decide))
    ∧ View.readAt (Elt F) scM1.view sb1_2.toLoadRect (hsc1.unread xs) = gateAt1 V c (grp1 t 2 (by decide)) := by
  refine ⟨?_, ?_, ?_⟩
  · have h := hok (grp1 t 0 (by decide)) (by rw [grp1_val]; omega) (by rw [grp1_val]; omega)
    have e : (grp1 t 0 (by decide)).val % 4 = 0 := by rw [grp1_val]; omega
    rw [e] at h; unfold slabRd1 at h; dsimp only at h; exact h
  · have h := hok (grp1 t 1 (by decide)) (by rw [grp1_val]; omega) (by rw [grp1_val]; omega)
    have e : (grp1 t 1 (by decide)).val % 4 = 1 := by rw [grp1_val]; omega
    rw [e] at h; unfold slabRd1 at h; dsimp only at h; exact h
  · have h := hok (grp1 t 2 (by decide)) (by rw [grp1_val]; omega) (by rw [grp1_val]; omega)
    have e : (grp1 t 2 (by decide)).val % 4 = 2 := by rw [grp1_val]; omega
    rw [e] at h; unfold slabRd1 at h; dsimp only at h; exact h

theorem grp1_last (t : Fin cfg1.N) (hg : t.val % 4 = 3) : grp1 t 3 (by decide) = t :=
  Fin.ext (by rw [grp1_val]; omega)

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point: the inputs' buffers hold their blocks; the gate coordinate says which run applies; the
    invariant hands the run the scratch with its earlier slabs at the group's gate tiles and takes it back with this
    point's tile stored; at the last gate the two output buffers end at the cell arithmetic over the four tiles. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).owesAt () t.succ = (dat1 V c).owesAt () t.castSucc from rfl]
  rw [show (dat1 V c).Φ t.castSucc = PhiL1 V c t.val from rfl, show (dat1 V c).Φ t.succ = PhiL1 V c (t.val + 1) from rfl]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  rw [show (dat1 V c).leavesExact 5 t = owns (c : Thread nD τ) (ms1_5 t) fullShare ((dat1 V c).after 5 t) from by
    unfold Dat.leavesExact; rw [liveAt1_5 t], after1_5]
  rw [show (dat1 V c).leavesExact 6 t = owns (c : Thread nD τ) (ms1_6 t) fullShare ((dat1 V c).after 6 t) from by
    unfold Dat.leavesExact; rw [liveAt1_6 t], after1_6]
  have hN : t.val < 32 := lt_of_lt_of_eq t.isLt (show cfg1.N = 32 from N_1)
  by_cases h3 : t.val % 4 = 3
  · -- the last gate: the fourth tile goes into slab 3, then the cell arithmetic into the two output buffers
    rw [show (dat1 V c).leavesExact 7 t = owns (c : Thread nD τ) (ms1_7 t) fullShare ((dat1 V c).after 7 t) from by
      unfold Dat.leavesExact; rw [liveAt1_7 t h3], after1_7]
    rw [show (dat1 V c).leavesExact 8 t = owns (c : Thread nD τ) (ms1_8 t) fullShare ((dat1 V c).after 8 t) from by
      unfold Dat.leavesExact; rw [liveAt1_8 t h3], after1_8]
    unfold PhiL1
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    obtain ⟨hp0, hp1, hp2⟩ := hps1 V c t h3 xs hok
    iapply ((kernelRun1_B c (grid1.coords t) _ _ _ _ _ _ _ _ _ _ _ _ _ _ _ _ _ _ _ _ ((hcond1 t).mpr h3) (hoff1_3 t h3) (iblk1 V c 0 t) (iblk1 V c 1 t) (iblk1 V c 2 t) (iblk1 V c 3 t) (iblk1 V c 4 t) (iblk1 V c 5 t) (iblk1 V c 6 t)
      (gateAt1 V c (grp1 t 0 (by decide))) (gateAt1 V c (grp1 t 1 (by decide))) (gateAt1 V c (grp1 t 2 (by decide)))).2.2.2 xs hp0 hp1 hp2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, ⟨%e7, H7⟩, ⟨%e8, H8⟩, HS⟩
    isplitl [HS Hrest Hg]
    · isplitl [HS]
      · iexists _; isplitl [HS]
        · unfold owns; iexists _; isplitr
          swap; · iexact HS
          ipureintro; rfl
        · ipureintro; exact slabOk1_B V c t h3 _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro
      rw [L91_B]
      refine (View.read_writes_eq_canon _ _ _ (cover1_o _)).trans ?_
      unfold hOut1; rw [grp1_last t h3]; rfl
    · unfold owns; iexists _; isplitr
      swap; · iexact H8
      ipureintro
      rw [L101_B]
      exact View.read_writes_eq_canon _ _ _ (cover1_o _)
  have hcases : t.val % 4 = 0 ∨ t.val % 4 = 1 ∨ t.val % 4 = 2 := by omega
  rcases hcases with hg | hg | hg
  · -- gate 0: the gate tile goes into slab 0; the outputs are idle
    rw [Dat.leavesExact_idle (dat1 V c) 7 t (idleAt1_7 t h3) (noFlush1_7 t h3),
      Dat.leavesExact_idle (dat1 V c) 8 t (idleAt1_8 t h3) (noFlush1_8 t h3)]
    unfold PhiL1
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A0 c (grid1.coords t) _ _ _ _ _ _ _ _ _ _ _ _ _ _ _ _ _ _ _ _ (fun h => h3 ((hcond1 t).mp h)) (hoff1_0 t hg) (iblk1 V c 0 t) (iblk1 V c 1 t) (iblk1 V c 3 t) (iblk1 V c 4 t) (iblk1 V c 5 t) (iblk1 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS1_A0]
          exact slabOk1_A V c t 0 (by decide) hg xs hok (hoff1_0 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  · -- gate 1: the gate tile goes into slab 1; the outputs are idle
    rw [Dat.leavesExact_idle (dat1 V c) 7 t (idleAt1_7 t h3) (noFlush1_7 t h3),
      Dat.leavesExact_idle (dat1 V c) 8 t (idleAt1_8 t h3) (noFlush1_8 t h3)]
    unfold PhiL1
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A1 c (grid1.coords t) _ _ _ _ _ _ _ _ _ _ _ _ _ _ _ _ _ _ _ _ (fun h => h3 ((hcond1 t).mp h)) (hoff1_1 t hg) (iblk1 V c 0 t) (iblk1 V c 1 t) (iblk1 V c 3 t) (iblk1 V c 4 t) (iblk1 V c 5 t) (iblk1 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS1_A1]
          exact slabOk1_A V c t 1 (by decide) hg xs hok (hoff1_1 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8
  · -- gate 2: the gate tile goes into slab 2; the outputs are idle
    rw [Dat.leavesExact_idle (dat1 V c) 7 t (idleAt1_7 t h3) (noFlush1_7 t h3),
      Dat.leavesExact_idle (dat1 V c) 8 t (idleAt1_8 t h3) (noFlush1_8 t h3)]
    unfold PhiL1
    iintro ⟨⟨⟨%xs, HS, %hok⟩, Hrest, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRun1_A2 c (grid1.coords t) _ _ _ _ _ _ _ _ _ _ _ _ _ _ _ _ _ _ _ _ (fun h => h3 ((hcond1 t).mp h)) (hoff1_2 t hg) (iblk1 V c 0 t) (iblk1 V c 1 t) (iblk1 V c 3 t) (iblk1 V c 4 t) (iblk1 V c 5 t) (iblk1 V c 6 t)).2 xs Set.univ _)
    isplitl [H0]; · iexact H0
    isplitl [H1]; · iexact H1
    isplitl [H3]; · iexact H3
    isplitl [H4]; · iexact H4
    isplitl [H5]; · iexact H5
    isplitl [H6]; · iexact H6
    isplitl [HS]; · iexact HS
    iintro ⟨H0, H1, H3, H4, H5, H6, HS⟩
    isplitl [HS Hrest Hg]
    · isplitl [HS]
      · iexists _; isplitl [HS]
        · unfold owns; iexists _; isplitr
          swap; · iexact HS
          ipureintro; rfl
        · ipureintro
          rw [LS1_A2]
          exact slabOk1_A V c t 2 (by decide) hg xs hok (hoff1_2 t hg) _
      isplitl [Hrest]; · iexact Hrest
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists d7; iexact H7
    iexists d8; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region — every scoped buffer no window stages at some contents, the generator register —
    is the invariant before the first point: nothing is asked of the scratch yet. -/
theorem hin1 (c : Dev nD) : Pipeline.ΦA spec1 c ⊢ (dat1 V c).Φ 0 := by
  rw [show (dat1 V c).Φ 0 = PhiL1 V c 0 from rfl]
  unfold Pipeline.ΦA PhiL1
  rw [scopedRest1_split]
  simp only [scM1, owns_whole]
  iintro ⟨⟨⟨%f, Hs⟩, Hrest⟩, Hg⟩
  isplitl [Hs]
  · iexists f; isplitl [Hs]; · iexact Hs
    ipureintro; intro t' _ h; exact absurd h (Nat.not_lt_zero _)
  isplitl [Hrest]; · iexact Hrest
  iexact Hg

/-- After the last point the invariant gives that back: the scratch's contents are forgotten. -/
theorem hout1 (c : Dev nD) : (dat1 V c).Φ (Fin.last cfg1.N) ⊢ Pipeline.ΦA spec1 c := by
  rw [show (dat1 V c).Φ (Fin.last cfg1.N) = PhiL1 V c cfg1.N from rfl]
  unfold Pipeline.ΦA PhiL1
  rw [scopedRest1_split]
  simp only [scM1, owns_whole]
  iintro ⟨⟨%xs, Hs, -⟩, Hrest, Hg⟩
  isplitl [Hs Hrest]
  · isplitl [Hs]; · iexists xs; iexact Hs
    iexact Hrest
  iexact Hg

end Oblig1

end Cert.Kernel.Hand

end
-- ==== Proof.FrameHeadW.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The count head's hidden layer (the third kernel region): one block of 1024 output columns per grid point

At a point the body loads the whole activation matrix, one tile of 1024 rows of the weight matrix and the matching
tile of the bias row, and stores `max (x · Wᵀ + b) 0` for those 1024 columns into the output block. Nothing is kept
between points, so the region's invariant is the scoped rest and the generator register, untouched. -/

section Region2
variable (V : (c : Dev nD) → (b : Ref sig .tc) → Buf (Elt F) ((c : Thread nD τ).loc b))

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is the region-entry contents and whose body leaves the block in place: unfetched, the block index has
    not moved since the point before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is the region-entry contents and whose body leaves the block in place: unfetched, the block index has
    not moved since the point before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is the region-entry contents and whose body leaves the block in place: unfetched, the block index has
    not moved since the point before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store go through the whole buffer -/

abbrev r2_x : Rect S64x4096 := Rect.unit (s := S64x4096) ![0, 0] S64x4096.size inb_S64x4096_S64x4096_0_0
abbrev r2_w : Rect S1024x4096 := Rect.unit (s := S1024x4096) ![0, 0] S1024x4096.size inb_S1024x4096_S1024x4096_0_0
abbrev r2_b : Rect S1x1024 := Rect.unit (s := S1x1024) ![0, 0] S1x1024.size inb_S1x1024_S1x1024_0_0
abbrev r2_o : Rect S64x1024 := Rect.unit (s := S64x1024) ![0, 0] S64x1024.size inb_S64x1024_S64x1024_0_0

/-- The output block after the body, from the three input blocks: its one store, over the body's arithmetic. -/
def out2_3 (x0 : Vec F S64x4096 .f32) (x1 : Vec F S1024x4096 .f32) (x2 : Vec F S1x1024 .f32) : Vec F S64x1024 .f32 :=
  View.canon [⟨r2_o, k2_pay1 (View.ld x0 r2_x) (View.ld x1 r2_w) (View.ld x2 r2_b)⟩]

/-- The one store covers the block. -/
theorem cover2_3 (p0 : Vec F S64x1024 .f32) (y : S64x1024.Idx) :
    ∃ pc ∈ ([⟨r2_o, p0⟩] : List (View.Piece (Elt F) S64x1024 .f32)), y ∈ pc.1.set :=
  View.cover_of_tiled [⟨r2_o, p0⟩] S64x1024.size (by rfl) y

set_option maxHeartbeats 1000000 in
/-- The body on whole staging buffers, the inputs' at contents `x·` and the output's at anything, runs to the
    continuation holding the inputs as they were and the output at `out2_3` of them. -/
theorem sound_kernel2 (c : Dev nD) (E : Set ℕ) (i : grid2.Coords) (arg1 : Memref sig .tc .vmem S64x4096 .f32) (harg1 : arg1.IsWhole) (arg2 : Memref sig .tc .vmem S1024x4096 .f32) (harg2 : arg2.IsWhole) (arg3 : Memref sig .tc .vmem S1x1024 .f32) (harg3 : arg3.IsWhole) (arg4 : Memref sig .tc .vmem S64x1024 .f32) (harg4 : arg4.IsWhole)
    (x0 : Vec F S64x4096 .f32) (x1 : Vec F S1024x4096 .f32) (x2 : Vec F S1x1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2_kernel i arg1 harg1 arg2 harg2 arg3 harg3 arg4 harg4) K := by
  simp only [cc2_kernel_eq_skeleton]; unfold cc2_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The region's proof data -/

/-- The arrays as the region finds them; after the body at point `t` each input's buffer at its block and the output's
    at `out2_3` of the three blocks; the invariant the scoped rest and the generator register; nothing owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so the body's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.FrameRunW.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import proofs.«142131_j78597901517448_2_alg».proof.Proof.Gen.Kernel.Regions
import proofs.«142131_j78597901517448_2_alg».proof.Proof.FrameL0W
import proofs.«142131_j78597901517448_2_alg».proof.Proof.FrameL1W
import proofs.«142131_j78597901517448_2_alg».proof.Proof.FrameHeadW
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of @main: five stretches of host operations around three kernel regions

Between two items a core holds every unscoped buffer at a valuation `WJ`: the launch memory, then each host stretch's
operations applied, and at a region's exit its output windows' arrays at what the write-backs leave. The regions are
entered and left through the records below; the run reads every unscoped buffer off the last valuation. -/

variable (m : (ℓ : Loc nD τ sig) → Buf (Elt F) ℓ) (ρ : Dev nD → PrngReg)

/-- Core `c`'s unscoped buffers at launch. -/
abbrev W0 (c : Dev nD) : Valuation τ sig (Elt F) := fun b => m (c, b)
/-- After the first host stretch (the slices and reshapes that feed layer 0). -/
abbrev W1 (c : Dev nD) : Valuation τ sig (Elt F) := StableHlo.after hostOps0 (W0 m c)
/-- The same read at a TensorCore reference: layer 0's entry contents. -/
abbrev Ve0 : (c : Dev nD) → (b : Ref sig .tc) → Buf (Elt F) ((c : Thread nD τ).loc b) := fun c b => W1 m c b

/-- At layer/region 0's exit: its windows' arrays at what the write-backs leave (an input's as entered), every other
    buffer as entered. -/
def W2 (c : Dev nD) : Valuation τ sig (Elt F) :=
  Pipeline.withArrays spec0 c (W1 m c) fun w => (dat0 (Ve0 m) c).arrAt w cfg0.N
theorem W2_arr (c : Dev nD) (w : Fin cfg0.W) :
    W2 m c (Proc.devRef .tc (Pipeline.arrRef spec0 w)) = (dat0 (Ve0 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (Ve0 m) c).arrAt w cfg0.N = W2 m c (Pipeline.arrRef spec0 w) :=
  (W2_arr m c w).symm
theorem hrest0 (c : Dev nD) : ∀ b, b ∉ Finset.univ.image (Pipeline.arrRef spec0) → W2 m c b = Ve0 m c b :=
  fun b hb => W2_of_ne m c b fun w e => hb (Finset.mem_image.mpr ⟨w, Finset.mem_univ _, e⟩)
/-- A buffer that is no OUTPUT array of region 0 leaves it as it entered: an input window's array is never written,
    and a buffer no window stages bypasses the region. -/
theorem W2_keep (c : Dev nD) (b : Ref sig .tc) (hin : ∀ w, Pipeline.arrRef spec0 w = b → (cfg0.win w).isOut = false) :
    W2 m c (Proc.devRef .tc b) = W1 m c (Proc.devRef .tc b) := by
  by_cases h : ∃ w, Pipeline.arrRef spec0 w = b
  · obtain ⟨w, rfl⟩ := h
    rw [W2_arr]
    exact ((dat0 (Ve0 m) c).arrAt_in w (hin w rfl) _).trans (A_eq0 (Ve0 m) c w)
  · exact W2_of_ne m c b (fun w e => h ⟨w, e⟩)

/-- After the second host stretch (the slices and reshapes that feed layer 1). -/
abbrev W3 (c : Dev nD) : Valuation τ sig (Elt F) := StableHlo.after hostOps1 (W2 m c)
abbrev Ve1 : (c : Dev nD) → (b : Ref sig .tc) → Buf (Elt F) ((c : Thread nD τ).loc b) := fun c b => W3 m c b

/-- At layer/region 1's exit: its windows' arrays at what the write-backs leave (an input's as entered), every other
    buffer as entered. -/
def W4 (c : Dev nD) : Valuation τ sig (Elt F) :=
  Pipeline.withArrays spec1 c (W3 m c) fun w => (dat1 (Ve1 m) c).arrAt w cfg1.N
theorem W4_arr (c : Dev nD) (w : Fin cfg1.W) :
    W4 m c (Proc.devRef .tc (Pipeline.arrRef spec1 w)) = (dat1 (Ve1 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) : (dat1 (Ve1 m) c).arrAt w cfg1.N = W4 m c (Pipeline.arrRef spec1 w) :=
  (W4_arr m c w).symm
theorem hrest1 (c : Dev nD) : ∀ b, b ∉ Finset.univ.image (Pipeline.arrRef spec1) → W4 m c b = Ve1 m c b :=
  fun b hb => W4_of_ne m c b fun w e => hb (Finset.mem_image.mpr ⟨w, Finset.mem_univ _, e⟩)
/-- A buffer that is no OUTPUT array of region 1 leaves it as it entered: an input window's array is never written,
    and a buffer no window stages bypasses the region. -/
theorem W4_keep (c : Dev nD) (b : Ref sig .tc) (hin : ∀ w, Pipeline.arrRef spec1 w = b → (cfg1.win w).isOut = false) :
    W4 m c (Proc.devRef .tc b) = W3 m c (Proc.devRef .tc b) := by
  by_cases h : ∃ w, Pipeline.arrRef spec1 w = b
  · obtain ⟨w, rfl⟩ := h
    rw [W4_arr]
    exact ((dat1 (Ve1 m) c).arrAt_in w (hin w rfl) _).trans (A_eq1 (Ve1 m) c w)
  · exact W4_of_ne m c b (fun w e => h ⟨w, e⟩)

/-- After the third host stretch (the two stacks and the head's bias row). -/
abbrev W5 (c : Dev nD) : Valuation τ sig (Elt F) := StableHlo.after hostOps2 (W4 m c)
abbrev Ve2 : (c : Dev nD) → (b : Ref sig .tc) → Buf (Elt F) ((c : Thread nD τ).loc b) := fun c b => W5 m c b

/-- At layer/region 2's exit: its windows' arrays at what the write-backs leave (an input's as entered), every other
    buffer as entered. -/
def W6 (c : Dev nD) : Valuation τ sig (Elt F) :=
  Pipeline.withArrays spec2 c (W5 m c) fun w => (dat2 (Ve2 m) c).arrAt w cfg2.N
theorem W6_arr (c : Dev nD) (w : Fin cfg2.W) :
    W6 m c (Proc.devRef .tc (Pipeline.arrRef spec2 w)) = (dat2 (Ve2 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) : (dat2 (Ve2 m) c).arrAt w cfg2.N = W6 m c (Pipeline.arrRef spec2 w) :=
  (W6_arr m c w).symm
theorem hrest2 (c : Dev nD) : ∀ b, b ∉ Finset.univ.image (Pipeline.arrRef spec2) → W6 m c b = Ve2 m c b :=
  fun b hb => W6_of_ne m c b fun w e => hb (Finset.mem_image.mpr ⟨w, Finset.mem_univ _, e⟩)
/-- A buffer that is no OUTPUT array of region 2 leaves it as it entered: an input window's array is never written,
    and a buffer no window stages bypasses the region. -/
theorem W6_keep (c : Dev nD) (b : Ref sig .tc) (hin : ∀ w, Pipeline.arrRef spec2 w = b → (cfg2.win w).isOut = false) :
    W6 m c (Proc.devRef .tc b) = W5 m c (Proc.devRef .tc b) := by
  by_cases h : ∃ w, Pipeline.arrRef spec2 w = b
  · obtain ⟨w, rfl⟩ := h
    rw [W6_arr]
    exact ((dat2 (Ve2 m) c).arrAt_in w (hin w rfl) _).trans (A_eq2 (Ve2 m) c w)
  · exact W6_of_ne m c b (fun w e => h ⟨w, e⟩)

/-- After the fourth host stretch (the head's last linear layer). -/
abbrev W7 (c : Dev nD) : Valuation τ sig (Elt F) := StableHlo.after hostOps3 (W6 m c)
/-- After the last host stretch (the final rectifier): what @main returns from. -/
abbrev W8 (c : Dev nD) : Valuation τ sig (Elt F) := StableHlo.after hostOps3_1 (W7 m c)

/-! ## The proof data family and the thread state -/

/-- Every region's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (Ve0 m) c
  | ⟨1, _⟩ => fun c => dat1 (Ve1 m) c
  | ⟨2, _⟩ => fun c => dat2 (Ve2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing
    nothing. -/
abbrev R (c : Dev nD) : sProp 𝕄 := iprop((∃ r, prngReg c r) ∗ ∃ W, owes (c : Thread nD τ) (0 : CellTallies nD τ sig Unit) W)
/-- A host stretch as a segment over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

set_option backward.isDefEq.respectTransparency.types false in
/-- LSTM layer 0 as a segment: entered from every unscoped buffer at `W1`, left at `W2`. Its windows' arrays are
    split out of the unscoped buffers and put back at the contents the write-backs leave; the generator register and the
    scoped rest enter the region's invariant (which tracks the gate scratch from point to point) and come back; nothing is
    owed and the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (Ve0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Ve0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (Ve0 m) c).Φ 0 from rfl]
    exact (show _ ⊢ (Pipeline.ΦA spec0 c : sProp 𝕄) by
      unfold Pipeline.ΦA
      iintro ⟨Hp, -, Hr⟩
      isplitl [Hr]; · iexact Hr
      iexact Hp).trans (hin0 (Ve0 m) c)
  hout c := by
    rw [Pipeline.ownSems0_none, show (pdats m 0 c).Φ (Fin.last _) = (dat0 (Ve0 m) c).Φ (Fin.last _) from rfl]
    exact (hout0 (Ve0 m) c).trans (show (Pipeline.ΦA spec0 c : sProp 𝕄) ⊢ _ by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Ve0 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- LSTM layer 1 as a segment: entered from every unscoped buffer at `W3`, left at `W4`. Its windows' arrays are
    split out of the unscoped buffers and put back at the contents the write-backs leave; the generator register and the
    scoped rest enter the region's invariant (which tracks the gate scratch from point to point) and come back; nothing is
    owed and the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (Ve1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Ve1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (Ve1 m) c).Φ 0 from rfl]
    exact (show _ ⊢ (Pipeline.ΦA spec1 c : sProp 𝕄) by
      unfold Pipeline.ΦA
      iintro ⟨Hp, -, Hr⟩
      isplitl [Hr]; · iexact Hr
      iexact Hp).trans (hin1 (Ve1 m) c)
  hout c := by
    rw [Pipeline.ownSems0_none, show (pdats m 1 c).Φ (Fin.last _) = (dat1 (Ve1 m) c).Φ (Fin.last _) from rfl]
    exact (hout1 (Ve1 m) c).trans (show (Pipeline.ΦA spec1 c : sProp 𝕄) ⊢ _ by
      unfold Pipeline.ΦA
      iintro ⟨Hr, Hp⟩
      isplitl [Hp]; · iexact Hp
      isplitr; · iempintro
      iexact Hr)
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Ve1 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The count head's hidden layer as a segment: entered from every unscoped buffer at `W5`, left at `W6`; the class
    invariant (scoped rest and generator register) in and out. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (Ve2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (Ve2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Ve2 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .host (hseg hostOps3_1 hostOps3_1_sub hostOps3_1_fresh (W7 m)) ]

/-- @main is the run of the segments. -/
theorem main_run (c : Dev nD) : main (F := F) c = Pipeline.Seg.run (segs m) :=
  (main_chain c).trans (by rw [Pipeline.Seg.run_eq_chain]; rfl)

set_option backward.isDefEq.respectTransparency.types false in
/-- THE RUN. From any memory with zero counters every weakly fair execution of @main on the TensorCores terminates,
    nothing faulting, and every final memory holds each unscoped buffer at the last valuation `W8`. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => StableHlo.held (c : Thread nD τ) (Pipeline.ucRefs τ sig) (W8 m c))
    (hch := ⟨fun _ => .rfl, fun _ => .rfl, fun _ => .rfl, fun _ => .rfl, fun _ => .rfl, fun _ => .rfl, fun _ => .rfl, fun _ => .rfl,
      fun c => sep_mono .rfl (show R c ⊢ _ by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨Hh, HSI⟩
      unfold StableHlo.held
      imodintro
      iapply (pointsTo_read_all (Pipeline.ucRefs τ sig) (fun b => (((c : Thread nD τ)).1, b)) (W8 m c) s')
      isplitl [Hh] <;> iassumption)
    (hQ := fun s h c => h c)

end Cert.Kernel.Hand

end
-- ==== Proof.FrameArgsW.lean ====
import proofs.«142131_j78597901517448_2_alg».proof.Proof.Gen.Kernel.Launch
import proofs.«142131_j78597901517448_2_alg».proof.Proof.Gen.Kernel.Skeleton
import proofs.«142131_j78597901517448_2_alg».proof.Proof.Gen.Kernel.Points
import proofs.«142131_j78597901517448_2_alg».proof.Proof.Gen.Kernel.Regions
import proofs.«142131_j78597901517448_2_alg».proof.Proof.FrameRunW
import Idealize.ShloMosaic.Lib.Pipeline.Value
import Idealize.ShloMosaic.Lib.WholeRead
import Idealize.ShloMosaic.Lib.Pipeline.FrameBody
import Idealize.ShloMosaic.Lib.Pipeline.RegionsLoop
import Idealize.ShloMosaic.Lib.Pipeline.FrameSuffix
import Idealize.ShloMosaic.Lib.WritesUnit
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The arguments end as launched

No host stretch writes an argument of @main and no region has one as an output window's array, so the last valuation
at an argument's buffer walks back, item by item, to the launch memory. -/

variable (m : (ℓ : Loc nD τ sig) → Buf (Elt F) ℓ)

/-- A buffer no host stretch writes and no region outputs holds at the end what it held at launch. -/
theorem W8_keep (c : Dev nD) (b : Ref sig .tc)
    (h0 : b ∉ hostOps0_W) (h1 : b ∉ hostOps1_W) (h2 : b ∉ hostOps2_W) (h3 : b ∉ hostOps3_W) (h31 : b ∉ hostOps3_1_W)
    (k0 : ∀ w, Pipeline.arrRef spec0 w = b → (cfg0.win w).isOut = false)
    (k1 : ∀ w, Pipeline.arrRef spec1 w = b → (cfg1.win w).isOut = false)
    (k2 : ∀ w, Pipeline.arrRef spec2 w = b → (cfg2.win w).isOut = false) :
    W8 m c (Proc.devRef .tc b) = m (c, Proc.devRef .tc b) :=
  calc W8 m c (Proc.devRef .tc b)
    _ = W7 m c (Proc.devRef .tc b) := StableHlo.after_of_writes_sub hostOps3_1 _ hostOps3_1_writes h31
    _ = W6 m c (Proc.devRef .tc b) := StableHlo.after_of_writes_sub hostOps3 _ hostOps3_writes h3
    _ = W5 m c (Proc.devRef .tc b) := W6_keep m c b k2
    _ = W4 m c (Proc.devRef .tc b) := StableHlo.after_of_writes_sub hostOps2 _ hostOps2_writes h2
    _ = W3 m c (Proc.devRef .tc b) := W4_keep m c b k1
    _ = W2 m c (Proc.devRef .tc b) := StableHlo.after_of_writes_sub hostOps1 _ hostOps1_writes h1
    _ = W1 m c (Proc.devRef .tc b) := W2_keep m c b k0
    _ = W0 m c (Proc.devRef .tc b) := StableHlo.after_of_writes_sub hostOps0 _ hostOps0_writes h0
    _ = m (c, Proc.devRef .tc b) := rfl

theorem W8_main_arg0 (c : Dev nD) : W8 m c (Proc.devRef .tc main_arg0) = m ((c : Thread nD τ).loc main_arg0) :=
  W8_keep m c main_arg0 (by decide) (by decide) (by decide) (by decide) (by decide) (by decide) (by decide) (by decide)
theorem W8_main_arg1 (c : Dev nD) : W8 m c (Proc.devRef .tc main_arg1) = m ((c : Thread nD τ).loc main_arg1) :=
  W8_keep m c main_arg1 (by decide) (by decide) (by decide) (by decide) (by decide) (by decide) (by decide) (by decide)
theorem W8_main_arg2 (c : Dev nD) : W8 m c (Proc.devRef .tc main_arg2) = m ((c : Thread nD τ).loc main_arg2) :=
  W8_keep m c main_arg2 (by decide) (by decide) (by decide) (by decide) (by decide) (by decide) (by decide) (by decide)
theorem W8_main_arg3 (c : Dev nD) : W8 m c (Proc.devRef .tc main_arg3) = m ((c : Thread nD τ).loc main_arg3) :=
  W8_keep m c main_arg3 (by decide) (by decide) (by decide) (by decide) (by decide) (by decide) (by decide) (by decide)
theorem W8_main_arg4 (c : Dev nD) : W8 m c (Proc.devRef .tc main_arg4) = m ((c : Thread nD τ).loc main_arg4) :=
  W8_keep m c main_arg4 (by decide) (by decide) (by decide) (by decide) (by decide) (by decide) (by decide) (by decide)
theorem W8_main_arg5 (c : Dev nD) : W8 m c (Proc.devRef .tc main_arg5) = m ((c : Thread nD τ).loc main_arg5) :=
  W8_keep m c main_arg5 (by decide) (by decide) (by decide) (by decide) (by decide) (by decide) (by decide) (by decide)
theorem W8_main_arg6 (c : Dev nD) : W8 m c (Proc.devRef .tc main_arg6) = m ((c : Thread nD τ).loc main_arg6) :=
  W8_keep m c main_arg6 (by decide) (by decide) (by decide) (by decide) (by decide) (by decide) (by decide) (by decide)
theorem W8_main_arg7 (c : Dev nD) : W8 m c (Proc.devRef .tc main_arg7) = m ((c : Thread nD τ).loc main_arg7) :=
  W8_keep m c main_arg7 (by decide) (by decide) (by decide) (by decide) (by decide) (by decide) (by decide) (by decide)
theorem W8_main_arg8 (c : Dev nD) : W8 m c (Proc.devRef .tc main_arg8) = m ((c : Thread nD τ).loc main_arg8) :=
  W8_keep m c main_arg8 (by decide) (by decide) (by decide) (by decide) (by decide) (by decide) (by decide) (by decide)
theorem W8_main_arg9 (c : Dev nD) : W8 m c (Proc.devRef .tc main_arg9) = m ((c : Thread nD τ).loc main_arg9) :=
  W8_keep m c main_arg9 (by decide) (by decide) (by decide) (by decide) (by decide) (by decide) (by decide) (by decide)
theorem W8_main_arg10 (c : Dev nD) : W8 m c (Proc.devRef .tc main_arg10) = m ((c : Thread nD τ).loc main_arg10) :=
  W8_keep m c main_arg10 (by decide) (by decide) (by decide) (by decide) (by decide) (by decide) (by decide) (by decide)
theorem W8_main_arg11 (c : Dev nD) : W8 m c (Proc.devRef .tc main_arg11) = m ((c : Thread nD τ).loc main_arg11) :=
  W8_keep m c main_arg11 (by decide) (by decide) (by decide) (by decide) (by decide) (by decide) (by decide) (by decide)
theorem W8_main_arg12 (c : Dev nD) : W8 m c (Proc.devRef .tc main_arg12) = m ((c : Thread nD τ).loc main_arg12) :=
  W8_keep m c main_arg12 (by decide) (by decide) (by decide) (by decide) (by decide) (by decide) (by decide) (by decide)
theorem W8_main_arg13 (c : Dev nD) : W8 m c (Proc.devRef .tc main_arg13) = m ((c : Thread nD τ).loc main_arg13) :=
  W8_keep m c main_arg13 (by decide) (by decide) (by decide) (by decide) (by decide) (by decide) (by decide) (by decide)
theorem W8_main_arg14 (c : Dev nD) : W8 m c (Proc.devRef .tc main_arg14) = m ((c : Thread nD τ).loc main_arg14) :=
  W8_keep m c main_arg14 (by decide) (by decide) (by decide) (by decide) (by decide) (by decide) (by decide) (by decide)

/-- THE FRAME, at any `F`: every weakly fair execution of @main terminates, nothing faulting, and every argument array
    ends holding its launch contents — the run's post read at the fifteen arguments. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)
      ∧       r.2.mem ((c.tc : Thread nD τ).loc main_arg10) = m ((c.tc : Thread nD τ).loc main_arg10)
      ∧       r.2.mem ((c.tc : Thread nD τ).loc main_arg11) = m ((c.tc : Thread nD τ).loc main_arg11)
      ∧       r.2.mem ((c.tc : Thread nD τ).loc main_arg12) = m ((c.tc : Thread nD τ).loc main_arg12)
      ∧       r.2.mem ((c.tc : Thread nD τ).loc main_arg13) = m ((c.tc : Thread nD τ).loc main_arg13)
      ∧       r.2.mem ((c.tc : Thread nD τ).loc main_arg14) = m ((c.tc : Thread nD τ).loc main_arg14)) :=
  (θ_run defs _ _).mono (fun r h c =>
    ⟨(h c _ (mem_uc main_arg0 (by decide))).trans (W8_main_arg0 m c),
     (h c _ (mem_uc main_arg1 (by decide))).trans (W8_main_arg1 m c),
     (h c _ (mem_uc main_arg2 (by decide))).trans (W8_main_arg2 m c),
     (h c _ (mem_uc main_arg3 (by decide))).trans (W8_main_arg3 m c),
     (h c _ (mem_uc main_arg4 (by decide))).trans (W8_main_arg4 m c),
     (h c _ (mem_uc main_arg5 (by decide))).trans (W8_main_arg5 m c),
     (h c _ (mem_uc main_arg6 (by decide))).trans (W8_main_arg6 m c),
     (h c _ (mem_uc main_arg7 (by decide))).trans (W8_main_arg7 m c),
     (h c _ (mem_uc main_arg8 (by decide))).trans (W8_main_arg8 m c),
     (h c _ (mem_uc main_arg9 (by decide))).trans (W8_main_arg9 m c),
     (h c _ (mem_uc main_arg10 (by decide))).trans (W8_main_arg10 m c),
     (h c _ (mem_uc main_arg11 (by decide))).trans (W8_main_arg11 m c),
     (h c _ (mem_uc main_arg12 (by decide))).trans (W8_main_arg12 m c),
     (h c _ (mem_uc main_arg13 (by decide))).trans (W8_main_arg13 m c),
     (h c _ (mem_uc main_arg14 (by decide))).trans (W8_main_arg14 m c)⟩)
    (run_main m ρ)

end Cert.Kernel.Hand

end
-- ==== Proof.LibTransposedDot.lean ====
/-
  A general lemma file: the matrix product M×K by N×K, the right operand contracted on its LAST axis, read at an entry,
  at the ideal values.

  A `tpu.matmul` into the zero accumulator whose dimension numbers contract the left operand's second axis with the
  right operand's second axis (no batch axis) — the product of a matrix with the transpose of another, as in the
  scores `q · Cᵀ` of an attention head — is, at entry `(i, j)`, the sum over `k : Fin K` of `L (i, k) * R (j, k)`.
  Stated for any dimension record EQUAL to the library's `DotDims.transposedRhs M K N` (a printed program's record
  with these dimension numbers is, by `rfl`), for any extents and operand formats.
-/
import Idealize.ShloMosaic.Lib.ValueIdx
import Idealize.ShloMosaic.PureOps.Ideal.Laws

noncomputable section

open scoped BigOperators

namespace Cert.TransposedDot

open Idealize.ShloMosaic Idealize.ShloMosaic.ValueIdx

variable (M K N : ℕ)

/-- The left operand's index at result index `j` and contraction index `q` has `j`'s row … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- … and the contraction coordinate as its column. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's index has `j`'s column as its ROW … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- … and the contraction coordinate as its column. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

variable {M K N}

/-- The contraction's sum over its index type is the sum over `k : Fin K` of the operands at `(i, k)` and `(j, k)`. -/
theorem sum_contr {φ₁ φ₂ : FTy} (L : FVec Ideal ⟨2, ![M, K]⟩ φ₁) (R : FVec Ideal ⟨2, ![N, K]⟩ φ₂) (i : Fin M) (j : Fin N) :
    ∑ q : (DotDims.transposedRhs M K N).contr.Idx,
        L ((DotDims.transposedRhs M K N).lhsIdx (ix2 i j) q) * R ((DotDims.transposedRhs M K N).rhsIdx (ix2 i j) q)
      = ∑ k : Fin K, L (ix2 i k) * R (ix2 j k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => exact lhs0 M K N _ _
      | ⟨1, _⟩ => exact (lhs1 M K N _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => exact rhs0 M K N _ _
      | ⟨1, _⟩ => exact (rhs1 M K N _ _).trans hk)
  rw [el, er]

/-- A `tpu.matmul` with these dimension numbers into the zero splat, read at `(i, j)`. -/
theorem matmul_zero_apply {φ₁ φ₂ : FTy} (d : DotDims ⟨2, ![M, K]⟩ ⟨2, ![N, K]⟩ ⟨2, ![M, N]⟩) (hd : d = DotDims.transposedRhs M K N)
    (prec : Option ContractPrecision) (L : FVec Ideal ⟨2, ![M, K]⟩ φ₁) (R : FVec Ideal ⟨2, ![N, K]⟩ φ₂) (i : Fin M) (j : Fin N) :
    matmul d prec L R (constant (F := Ideal) ⟨2, ![M, N]⟩ .f32 0x00000000#32) (ix2 i j) = ∑ k : Fin K, L (ix2 i k) * R (ix2 j k) := by
  subst hd
  show FloatOps.matmul (DotDims.transposedRhs M K N) prec L R (constant ⟨2, ![M, N]⟩ .f32 0x00000000#32) (ix2 i j) = _
  rw [Ideal.matmul_constant_zero_apply]
  exact sum_contr L R i j

end Cert.TransposedDot

end
-- ==== Proof.PayGate.lean ====
/-
  The gate pre-activations of one LSTM layer on a block of 512 gate columns, read at one entry.

  Each of the two layer kernels computes, for a batch row `b` and a gate column `r` of its block,
      ((Σ_k x(b,k) · W_ih(r,k) + b_ih(r)) + Σ_k h(b,k) · W_hh(r,k)) + b_hh(r)
  in exactly this grouping: the input product into a zero accumulator, plus the input bias row spread over the batch,
  plus the hidden product into a zero accumulator, plus the hidden bias row. Both products contract the SECOND axis of
  each operand (a [64, 4096] matrix against the transpose of a [512, 4096] block of weight rows), so entry (b, r) is
  the sum over k of the left operand at (b, k) times the right operand at (r, k). The block is stored under a leading
  unit axis; the index (0, b, r) reads through it. Casts of an array to its own shape are the identity.
-/
import proofs.«142131_j78597901517448_2_alg».proof.Proof.Gen.KernelIdeal.Skeleton
import proofs.«142131_j78597901517448_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe
open Idealize.ShloMosaic.ValueIdx
open scoped BigOperators

namespace Cert.KernelSide

open Cert.KernelIdeal Cert.KernelIdeal.Gen

/-- The layer kernels' product record — contract axis 1 of both operands, no batch axis — is the product of a
    [64, 4096] matrix with the transpose of a [512, 4096] one. -/
theorem dot512_eq : dot_S64x4096_S512x4096_S64x512_1_1_0_0_n_n = DotDims.transposedRhs 64 4096 512 := rfl

/-- One such product into the zero accumulator, at entry (b, r): the sum over k of L(b,k) · R(r,k). -/
theorem dot512_apply (L : FVec Ideal S64x4096 .f32) (R : FVec Ideal S512x4096 .f32) (b : Fin 64) (r : Fin 512) :
    matmul dot_S64x4096_S512x4096_S64x512_1_1_0_0_n_n none L R (constant (F := Ideal) S64x512 .f32 0x00000000#32) (ix2 b r)
      = ∑ k : Fin 4096, L (ix2 b k) * R (ix2 r k) :=
  Cert.TransposedDot.matmul_zero_apply (M := 64) (K := 4096) (N := 512) _ dot512_eq none L R b r

/-- A bias row [1, 512] spread over the 64 batch rows, at (b, r): the row's entry r. -/
theorem biasRow512_apply (v : FVec Ideal S1x512 .f32) (b : Fin 64) (r : Fin 512) :
    broadcastTo S64x512 (shapeCast S1x512 v shapeCasts_S1x512_S1x512) broadcasts_S1x512_S64x512 (ix2 b r)
      = v (ix2 (0 : Fin 1) r) := by
  rw [shapeCast_self]
  exact broadcastTo_1b_ab_apply v _ b r

/-- The common form of the two layers' gate blocks: input product, input bias, hidden product, hidden bias, added in
    that order, stored under a leading unit axis. -/
theorem gate_apply (x h : FVec Ideal S64x4096 .f32) (wx wh : FVec Ideal S512x4096 .f32) (bx bh : FVec Ideal S1x512 .f32)
    (b : Fin 64) (r : Fin 512) :
    shapeCast S1x64x512
        (addf
          (addf
            (addf (matmul dot_S64x4096_S512x4096_S64x512_1_1_0_0_n_n none x wx (constant (F := Ideal) S64x512 .f32 0x00000000#32))
              (broadcastTo S64x512 (shapeCast S1x512 bx shapeCasts_S1x512_S1x512) broadcasts_S1x512_S64x512))
            (matmul dot_S64x4096_S512x4096_S64x512_1_1_0_0_n_n none h wh (constant (F := Ideal) S64x512 .f32 0x00000000#32)))
          (broadcastTo S64x512 (shapeCast S1x512 bh shapeCasts_S1x512_S1x512) broadcasts_S1x512_S64x512))
        shapeCasts_S64x512_S1x64x512 (ix3 (0 : Fin 1) b r)
      = ((∑ k : Fin 4096, x (ix2 b k) * wx (ix2 r k) + bx (ix2 (0 : Fin 1) r))
          + ∑ k : Fin 4096, h (ix2 b k) * wh (ix2 r k)) + bh (ix2 (0 : Fin 1) r) := by
  refine (shapeCast_ab_1ab_apply _ _ (0 : Fin 1) b r).trans ?_
  simp only [addf_apply]
  rw [dot512_apply x wx b r, dot512_apply h wh b r, biasRow512_apply bx b r, biasRow512_apply bh b r]

/-- The first layer's gate block at (0, b, r). -/
theorem k0_pay1_apply (v0 v7 : Vec Ideal S64x4096 .f32) (v1 v9 : Vec Ideal S512x4096 .f32) (v3 v12 : Vec Ideal S1x512 .f32)
    (b : Fin 64) (r : Fin 512) :
    k0_pay1 (F := Ideal) v0 v1 v3 v7 v9 v12 (ix3 (0 : Fin 1) b r)
      = ((∑ k : Fin 4096, v0 (ix2 b k) * v1 (ix2 r k) + v3 (ix2 (0 : Fin 1) r))
          + ∑ k : Fin 4096, v7 (ix2 b k) * v9 (ix2 r k)) + v12 (ix2 (0 : Fin 1) r) := by
  unfold k0_pay1
  refine (gate_apply v0 (shapeCast S64x4096 v7 shapeCasts_S64x4096_S64x4096) v1 v9 v3 v12 b r).trans ?_
  rw [shapeCast_self]

/-- The second layer's gate block at (0, b, r). -/
theorem k1_pay1_apply (v0 v8 : Vec Ideal S64x4096 .f32) (v2 v10 : Vec Ideal S512x4096 .f32) (v4 v13 : Vec Ideal S1x512 .f32)
    (b : Fin 64) (r : Fin 512) :
    k1_pay1 (F := Ideal) v0 v2 v4 v8 v10 v13 (ix3 (0 : Fin 1) b r)
      = ((∑ k : Fin 4096, v0 (ix2 b k) * v2 (ix2 r k) + v4 (ix2 (0 : Fin 1) r))
          + ∑ k : Fin 4096, v8 (ix2 b k) * v10 (ix2 r k)) + v13 (ix2 (0 : Fin 1) r) := by
  unfold k1_pay1
  refine (gate_apply (shapeCast S64x4096 v0 shapeCasts_S64x4096_S64x4096) (shapeCast S64x4096 v8 shapeCasts_S64x4096_S64x4096)
    v2 v10 v4 v13 b r).trans ?_
  rw [shapeCast_self, shapeCast_self]

end Cert.KernelSide

end
-- ==== Proof.PayCell.lean ====
/-
  The cell update of one LSTM layer on a block of 512 hidden units, read at one entry.

  The four gate blocks i, f, g, o (each stored under a leading unit axis, [1, 64, 512]) and the old cell block c give
      c'(b,u) = σ(f(b,u)) · c(b,u) + σ(i(b,u)) · tanh(g(b,u)),      h'(b,u) = σ(o(b,u)) · tanh(c'(b,u)),
  with σ the logistic function 1 / (1 + e^(-x)) on the extended reals. Every operation acts entry by entry; the only
  re-indexing is dropping the gates' unit axis, which reads (0, b, u) at (b, u). Casts of an array to its own shape
  are the identity.
-/
import proofs.«142131_j78597901517448_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe
open Idealize.ShloMosaic.ValueIdx
open scoped BigOperators

namespace Cert.KernelSide

open Cert.KernelIdeal Cert.KernelIdeal.Gen

/-- A gate block [1, 64, 512] viewed as [64, 512], at (b, r): the block at (0, b, r). -/
theorem gateView_apply (g : FVec Ideal S1x64x512 .f32) (b : Fin 64) (r : Fin 512) :
    shapeCast S64x512 g shapeCasts_S1x64x512_S64x512 (ix2 b r) = g (ix3 (0 : Fin 1) b r) :=
  shapeCast_1ab_ab_apply g _ b r

/-- The common form of the two layers' new cell state: σ(f) · c + σ(i) · tanh(g), entry by entry. -/
theorem cell_apply (gi gf gg : FVec Ideal S1x64x512 .f32) (c : FVec Ideal S64x512 .f32) (b : Fin 64) (r : Fin 512) :
    addf
        (mulf (logistic (shapeCast S64x512 gf shapeCasts_S1x64x512_S64x512)) (shapeCast S64x512 c shapeCasts_S64x512_S64x512))
        (mulf (logistic (shapeCast S64x512 gi shapeCasts_S1x64x512_S64x512)) (tanh (shapeCast S64x512 gg shapeCasts_S1x64x512_S64x512)))
        (ix2 b r)
      = Ideal.logistic (gf (ix3 (0 : Fin 1) b r)) * c (ix2 b r)
        + Ideal.logistic (gi (ix3 (0 : Fin 1) b r)) * Ideal.tanh (gg (ix3 (0 : Fin 1) b r)) := by
  show Ideal.logistic (shapeCast S64x512 gf shapeCasts_S1x64x512_S64x512 (ix2 b r))
        * shapeCast S64x512 c shapeCasts_S64x512_S64x512 (ix2 b r)
      + Ideal.logistic (shapeCast S64x512 gi shapeCasts_S1x64x512_S64x512 (ix2 b r))
        * Ideal.tanh (shapeCast S64x512 gg shapeCasts_S1x64x512_S64x512 (ix2 b r)) = _
  rw [gateView_apply gf b r, gateView_apply gi b r, gateView_apply gg b r, shapeCast_self]

/-- The common form of the two layers' new hidden state: σ(o) · tanh(c'), entry by entry, for any new cell block. -/
theorem hidden_apply (go : FVec Ideal S1x64x512 .f32) (c' : FVec Ideal S64x512 .f32) (b : Fin 64) (r : Fin 512) :
    mulf (logistic (shapeCast S64x512 go shapeCasts_S1x64x512_S64x512)) (tanh c') (ix2 b r)
      = Ideal.logistic (go (ix3 (0 : Fin 1) b r)) * Ideal.tanh (c' (ix2 b r)) := by
  show Ideal.logistic (shapeCast S64x512 go shapeCasts_S1x64x512_S64x512 (ix2 b r)) * Ideal.tanh (c' (ix2 b r)) = _
  rw [gateView_apply go b r]

/-- The first layer's new cell block at (b, r). -/
theorem k0_pay2_apply (v23 v26 v29 : Vec Ideal S1x64x512 .f32) (v35 : Vec Ideal S64x512 .f32) (b : Fin 64) (r : Fin 512) :
    k0_pay2 (F := Ideal) v23 v26 v29 v35 (ix2 b r)
      = Ideal.logistic (v26 (ix3 (0 : Fin 1) b r)) * v35 (ix2 b r)
        + Ideal.logistic (v23 (ix3 (0 : Fin 1) b r)) * Ideal.tanh (v29 (ix3 (0 : Fin 1) b r)) := by
  unfold k0_pay2
  exact cell_apply v23 v26 v29 v35 b r

/-- The first layer's new hidden block at (b, r), over its new cell block. -/
theorem k0_pay3_apply (v23 v26 v29 v32 : Vec Ideal S1x64x512 .f32) (v35 : Vec Ideal S64x512 .f32) (b : Fin 64) (r : Fin 512) :
    k0_pay3 (F := Ideal) v23 v26 v29 v32 v35 (ix2 b r)
      = Ideal.logistic (v32 (ix3 (0 : Fin 1) b r)) * Ideal.tanh (k0_pay2 (F := Ideal) v23 v26 v29 v35 (ix2 b r)) := by
  unfold k0_pay3
  exact hidden_apply v32 (k0_pay2 (F := Ideal) v23 v26 v29 v35) b r

/-- The same with the new cell block written out. -/
theorem k0_pay3_apply' (v23 v26 v29 v32 : Vec Ideal S1x64x512 .f32) (v35 : Vec Ideal S64x512 .f32) (b : Fin 64) (r : Fin 512) :
    k0_pay3 (F := Ideal) v23 v26 v29 v32 v35 (ix2 b r)
      = Ideal.logistic (v32 (ix3 (0 : Fin 1) b r))
        * Ideal.tanh (Ideal.logistic (v26 (ix3 (0 : Fin 1) b r)) * v35 (ix2 b r)
            + Ideal.logistic (v23 (ix3 (0 : Fin 1) b r)) * Ideal.tanh (v29 (ix3 (0 : Fin 1) b r))) := by
  rw [k0_pay3_apply, k0_pay2_apply]

/-- The second layer's new cell block at (b, r). -/
theorem k1_pay2_apply (v24 v27 v30 : Vec Ideal S1x64x512 .f32) (v36 : Vec Ideal S64x512 .f32) (b : Fin 64) (r : Fin 512) :
    k1_pay2 (F := Ideal) v24 v27 v30 v36 (ix2 b r)
      = Ideal.logistic (v27 (ix3 (0 : Fin 1) b r)) * v36 (ix2 b r)
        + Ideal.logistic (v24 (ix3 (0 : Fin 1) b r)) * Ideal.tanh (v30 (ix3 (0 : Fin 1) b r)) := by
  unfold k1_pay2
  exact cell_apply v24 v27 v30 v36 b r

/-- The second layer's new hidden block at (b, r), over its new cell block. -/
theorem k1_pay3_apply (v24 v27 v30 v33 : Vec Ideal S1x64x512 .f32) (v36 : Vec Ideal S64x512 .f32) (b : Fin 64) (r : Fin 512) :
    k1_pay3 (F := Ideal) v24 v27 v30 v33 v36 (ix2 b r)
      = Ideal.logistic (v33 (ix3 (0 : Fin 1) b r)) * Ideal.tanh (k1_pay2 (F := Ideal) v24 v27 v30 v36 (ix2 b r)) := by
  unfold k1_pay3
  exact hidden_apply v33 (k1_pay2 (F := Ideal) v24 v27 v30 v36) b r

/-- The same with the new cell block written out. -/
theorem k1_pay3_apply' (v24 v27 v30 v33 : Vec Ideal S1x64x512 .f32) (v36 : Vec Ideal S64x512 .f32) (b : Fin 64) (r : Fin 512) :
    k1_pay3 (F := Ideal) v24 v27 v30 v33 v36 (ix2 b r)
      = Ideal.logistic (v33 (ix3 (0 : Fin 1) b r))
        * Ideal.tanh (Ideal.logistic (v27 (ix3 (0 : Fin 1) b r)) * v36 (ix2 b r)
            + Ideal.logistic (v24 (ix3 (0 : Fin 1) b r)) * Ideal.tanh (v30 (ix3 (0 : Fin 1) b r))) := by
  rw [k1_pay3_apply, k1_pay2_apply]

end Cert.KernelSide

end
-- ==== Proof.LayerBlock.lean ====
/-
  One hidden tile of one LSTM layer, against the specification. A layer kernel works on tiles of 512 hidden units:
  the gate tile of gate g and tile q reads rows (8 g + q)·512 … of the two weight matrices and the same columns of the
  two bias rows, and the whole input and hidden-state matrices. Row (8 g + q)·512 + r of a weight matrix is gate
  column g·4096 + (q·512 + r), which is unit q·512 + r's column in gate g's group. So the tile's entry (b, r) is the
  specification's gate pre-activation at row b and that column, and the cell and hidden blocks built from the four gate
  tiles and the old cell-state block are the specification's new cell and hidden state at unit q·512 + r.

  The biases reach the kernels as rows [1, 16384]; `rowOf` reads such a row as the specification's bias vector.
  Nothing here mentions a program.
-/
import proofs.«142131_j78597901517448_2_alg».proof.Proof.Spec

noncomputable section

open Idealize.ShloMosaic Idealize.ShloMosaic.TcCoe
open Idealize.ShloMosaic.ValueIdx (ix1 ix2 ix3)
open scoped BigOperators

namespace Cert.KernelSide

/-- A bias as the kernels hold it: one row of 16384 entries. -/
abbrev Row16384 : Type := (⟨2, ![1, 16384]⟩ : Shape).Idx → EReal
/-- A tile of 512 rows of a weight matrix. -/
abbrev W512x4096 : Type := (⟨2, ![512, 4096]⟩ : Shape).Idx → EReal
/-- A tile of 512 columns of a bias row. -/
abbrev Row512 : Type := (⟨2, ![1, 512]⟩ : Shape).Idx → EReal
/-- One gate's tile: 64 rows, 512 units, under a leading axis of extent one. -/
abbrev Gate512 : Type := (⟨3, ![1, 64, 512]⟩ : Shape).Idx → EReal
/-- A block of 512 columns of a state matrix. -/
abbrev State512 : Type := (⟨2, ![64, 512]⟩ : Shape).Idx → EReal

/-- A bias row read as a bias vector. -/
def rowOf (v : Row16384) : Lstm.V16384 := fun i => v (ix2 (0 : Fin 1) ⟨(i 0).val, (i 0).isLt⟩)

theorem rowOf_apply (v : Row16384) (j : Fin 16384) : rowOf v (ix1 j) = v (ix2 (0 : Fin 1) j) := rfl

/-- A gate tile's entry (b, r), computed from blocks that are: all of the input `x` and of the hidden state `h`; rows
    `Q·512 + r` of the two weight matrices; columns `Q·512 + r` of the two bias rows — is the specification's gate
    pre-activation at row `b`, column `Q·512 + r`. -/
theorem gate_block (x h : Lstm.M64x4096) (Wih Whh : Lstm.M16384x4096) (bih bhh : Row16384)
    (x0 x7 : Lstm.M64x4096) (x1 x9 : W512x4096) (x3 x12 : Row512) (Q : Nat) (hQ : Q < 32)
    (h0 : ∀ (b : Fin 64) (k : Fin 4096), x0 (ix2 b k) = x (ix2 b k))
    (h7 : ∀ (b : Fin 64) (k : Fin 4096), x7 (ix2 b k) = h (ix2 b k))
    (h1 : ∀ (r : Fin 512) (k : Fin 4096), x1 (ix2 r k) = Wih (ix2 (⟨Q * 512 + r.val, by omega⟩ : Fin 16384) k))
    (h9 : ∀ (r : Fin 512) (k : Fin 4096), x9 (ix2 r k) = Whh (ix2 (⟨Q * 512 + r.val, by omega⟩ : Fin 16384) k))
    (h3 : ∀ r : Fin 512, x3 (ix2 (0 : Fin 1) r) = bih (ix2 (0 : Fin 1) (⟨Q * 512 + r.val, by omega⟩ : Fin 16384)))
    (h12 : ∀ r : Fin 512, x12 (ix2 (0 : Fin 1) r) = bhh (ix2 (0 : Fin 1) (⟨Q * 512 + r.val, by omega⟩ : Fin 16384)))
    (b : Fin 64) (r : Fin 512) :
    ((∑ k : Fin 4096, x0 (ix2 b k) * x1 (ix2 r k) + x3 (ix2 (0 : Fin 1) r))
        + ∑ k : Fin 4096, x7 (ix2 b k) * x9 (ix2 r k)) + x12 (ix2 (0 : Fin 1) r)
      = Lstm.gate x h Wih Whh (rowOf bih) (rowOf bhh) b (⟨Q * 512 + r.val, by omega⟩ : Fin 16384) := by
  unfold Lstm.gate
  simp only [h0, h7, h1, h9, h3, h12, rowOf_apply]

/-- Unit `q·512 + r` of hidden tile `q`. -/
abbrev unitOf (q : Nat) (hq : q < 8) (r : Fin 512) : Fin 4096 := ⟨q * 512 + r.val, by omega⟩

/-- The new cell-state block of hidden tile `q` at (b, r), from the tile's input, forget and cell gate tiles and the
    old cell-state block: the specification's new cell state at unit `q·512 + r`. -/
theorem cellC_block (x h cst : Lstm.M64x4096) (Wih Whh : Lstm.M16384x4096) (bih bhh : Lstm.V16384)
    (gi gf gg : Gate512) (cb : State512) (q : Nat) (hq : q < 8)
    (hi : ∀ (b : Fin 64) (r : Fin 512), gi (ix3 (0 : Fin 1) b r) = Lstm.gate x h Wih Whh bih bhh b (Lstm.colI (unitOf q hq r)))
    (hf : ∀ (b : Fin 64) (r : Fin 512), gf (ix3 (0 : Fin 1) b r) = Lstm.gate x h Wih Whh bih bhh b (Lstm.colF (unitOf q hq r)))
    (hg : ∀ (b : Fin 64) (r : Fin 512), gg (ix3 (0 : Fin 1) b r) = Lstm.gate x h Wih Whh bih bhh b (Lstm.colG (unitOf q hq r)))
    (hc : ∀ (b : Fin 64) (r : Fin 512), cb (ix2 b r) = cst (ix2 b (unitOf q hq r)))
    (b : Fin 64) (r : Fin 512) :
    Ideal.logistic (gf (ix3 (0 : Fin 1) b r)) * cb (ix2 b r)
        + Ideal.logistic (gi (ix3 (0 : Fin 1) b r)) * Ideal.tanh (gg (ix3 (0 : Fin 1) b r))
      = Lstm.cellC x h cst Wih Whh bih bhh b (unitOf q hq r) := by
  rw [hi, hf, hg, hc]
  rfl

/-- The new hidden-state block of hidden tile `q` at (b, r), from the tile's four gate tiles and the old cell-state
    block: the specification's new hidden state at unit `q·512 + r`. -/
theorem cellH_block (x h cst : Lstm.M64x4096) (Wih Whh : Lstm.M16384x4096) (bih bhh : Lstm.V16384)
    (gi gf gg go : Gate512) (cb : State512) (q : Nat) (hq : q < 8)
    (hi : ∀ (b : Fin 64) (r : Fin 512), gi (ix3 (0 : Fin 1) b r) = Lstm.gate x h Wih Whh bih bhh b (Lstm.colI (unitOf q hq r)))
    (hf : ∀ (b : Fin 64) (r : Fin 512), gf (ix3 (0 : Fin 1) b r) = Lstm.gate x h Wih Whh bih bhh b (Lstm.colF (unitOf q hq r)))
    (hg : ∀ (b : Fin 64) (r : Fin 512), gg (ix3 (0 : Fin 1) b r) = Lstm.gate x h Wih Whh bih bhh b (Lstm.colG (unitOf q hq r)))
    (ho : ∀ (b : Fin 64) (r : Fin 512), go (ix3 (0 : Fin 1) b r) = Lstm.gate x h Wih Whh bih bhh b (Lstm.colO (unitOf q hq r)))
    (hc : ∀ (b : Fin 64) (r : Fin 512), cb (ix2 b r) = cst (ix2 b (unitOf q hq r)))
    (b : Fin 64) (r : Fin 512) :
    Ideal.logistic (go (ix3 (0 : Fin 1) b r))
        * Ideal.tanh (Ideal.logistic (gf (ix3 (0 : Fin 1) b r)) * cb (ix2 b r)
            + Ideal.logistic (gi (ix3 (0 : Fin 1) b r)) * Ideal.tanh (gg (ix3 (0 : Fin 1) b r)))
      = Lstm.cellH x h cst Wih Whh bih bhh b (unitOf q hq r) := by
  rw [cellC_block x h cst Wih Whh bih bhh gi gf gg cb q hq hi hf hg hc b r, ho]
  rfl

end Cert.KernelSide

end
-- ==== Proof.LayerValue0.lean ====
/-
  The first LSTM layer's two results as whole arrays: what the first kernel region leaves in its two result arrays.

  The region has 32 grid points, t = 4·q + g for hidden tile q (0 … 7) and gate g (0 … 3). Point t loads the whole
  input and hidden-state matrices, rows (8 g + q)·512 … of the two weight matrices and the same columns of the two bias
  rows, and columns q·512 … of the old cell state; it computes gate g's tile of hidden tile q. The last point of each
  group of four, g = 3, combines the group's four gate tiles with the old cell-state block into the new hidden-state
  and cell-state blocks of tile q, and only there are the two result blocks (columns q·512 …) written back. Entry (b, r)
  of those blocks is the specification's new hidden state and new cell state at row b, unit q·512 + r, so each block is
  the restriction to its columns of one function of the whole arrays; the eight written blocks tile the 4096 columns
  (unit u lies in the block written at point 4·(u / 512) + 3), so after the last point each result array holds that
  function everywhere.
-/
import proofs.«142131_j78597901517448_2_alg».proof.Proof.LstmDefs0
import proofs.«142131_j78597901517448_2_alg».proof.Proof.PayGate
import proofs.«142131_j78597901517448_2_alg».proof.Proof.PayCell
import proofs.«142131_j78597901517448_2_alg».proof.Proof.LayerBlock
import Idealize.ShloMosaic.Lib.Pipeline.Value
import Idealize.ShloMosaic.Lib.ValueIdx

noncomputable section

open Idealize.ShloMosaic Idealize.ShloMosaic.TcCoe Idealize.SL.Sem
open Idealize.ShloMosaic.ValueIdx
open Idealize.ShloMosaic.Pipeline (Dat)
open scoped BigOperators

namespace Cert.KernelSide

open Cert.KernelIdeal Cert.KernelIdeal.Gen Cert.KernelIdeal.Hand

section Region
variable (V : (c : Dev nD) → (b : Ref sig .tc) → Buf (Elt Ideal) ((c : Thread nD τ).loc b))

theorem zeroOffsets0 : (![0, 0] : Fin 2 → Nat) = fun _ => 0 := funext fun a => by fin_cases a <;> rfl

/-- The printed index maps over the 32 grid points, in terms of the point's hidden tile `t / 4` and gate `t % 4`: the
    input and hidden-state windows stay at block (0, 0); the old cell state's and the two results' column block is the
    hidden tile; the weight windows' row block and the bias windows' column block is 8·gate + tile. -/
theorem blockIndex_facts0 : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val / 4
    ∧ win0_3.index t (0 : Fin 2) = 8 * (t.val % 4) + t.val / 4 ∧ win0_3.index t (1 : Fin 2) = 0
    ∧ win0_4.index t (0 : Fin 2) = 8 * (t.val % 4) + t.val / 4 ∧ win0_4.index t (1 : Fin 2) = 0
    ∧ win0_5.index t (0 : Fin 2) = 0 ∧ win0_5.index t (1 : Fin 2) = 8 * (t.val % 4) + t.val / 4
    ∧ win0_6.index t (0 : Fin 2) = 0 ∧ win0_6.index t (1 : Fin 2) = 8 * (t.val % 4) + t.val / 4
    ∧ win0_7.index t (0 : Fin 2) = 0 ∧ win0_7.index t (1 : Fin 2) = t.val / 4
    ∧ win0_8.index t (0 : Fin 2) = 0 ∧ win0_8.index t (1 : Fin 2) = t.val / 4 :=
  (by decide +kernel : ∀ t : Fin grid0.N, _)

theorem lt32 (t : Fin cfg0.N) : t.val < 32 := lt_of_lt_of_eq t.isLt (show cfg0.N = 32 from N_0)

/-! ## The input blocks at a point, read off the arrays -/

/-- The input's block at any point is the whole matrix. -/
theorem xBlock0_apply (c : Dev nD) (t : Fin cfg0.N) (b : Fin 64) (k : Fin 4096) :
    (iblk0 V c 0 t : Vec Ideal S64x4096 .f32) (ix2 b k) = (V c main_arg0 : S64x4096.Idx → Elt Ideal .f32) (ix2 b k) := by
  obtain ⟨e0, e1, -⟩ := blockIndex_facts0 t
  unfold iblk0
  rw [View.read_apply]
  show V c main_arg0 (((cfg0.win 0).blk t).view.emb (ix2 b k)) = V c main_arg0 (ix2 b k)
  refine congrArg (V c main_arg0) (funext fun a => Fin.ext ?_)
  match a with
  | ⟨0, _⟩ => show win0_0.index t (0 : Fin 2) * 64 + 1 * b.val = b.val; omega
  | ⟨1, _⟩ => show win0_0.index t (1 : Fin 2) * 4096 + 1 * k.val = k.val; omega

/-- The hidden state's block at any point is the whole matrix. -/
theorem hBlock0_apply (c : Dev nD) (t : Fin cfg0.N) (b : Fin 64) (k : Fin 4096) :
    (iblk0 V c 1 t : Vec Ideal S64x4096 .f32) (ix2 b k) = (V c main_v1 : S64x4096.Idx → Elt Ideal .f32) (ix2 b k) := by
  obtain ⟨-, -, e0, e1, -⟩ := blockIndex_facts0 t
  unfold iblk0
  rw [View.read_apply]
  show V c main_v1 (((cfg0.win 1).blk t).view.emb (ix2 b k)) = V c main_v1 (ix2 b k)
  refine congrArg (V c main_v1) (funext fun a => Fin.ext ?_)
  match a with
  | ⟨0, _⟩ => show win0_1.index t (0 : Fin 2) * 64 + 1 * b.val = b.val; omega
  | ⟨1, _⟩ => show win0_1.index t (1 : Fin 2) * 4096 + 1 * k.val = k.val; omega

/-- The old cell state's block at a point of hidden tile `q`: column `r` of the block is column `q·512 + r`. -/
theorem cBlock0_apply (c : Dev nD) (t : Fin cfg0.N) (q : Nat) (hq : t.val / 4 = q) (b : Fin 64) (r : Fin 512)
    (hlt : q * 512 + r.val < 4096) :
    (iblk0 V c 2 t : Vec Ideal S64x512 .f32) (ix2 b r)
      = (V c main_v3 : S64x4096.Idx → Elt Ideal .f32) (ix2 b (⟨q * 512 + r.val, hlt⟩ : Fin 4096)) := by
  obtain ⟨-, -, -, -, e0, e1, -⟩ := blockIndex_facts0 t
  unfold iblk0
  rw [View.read_apply]
  show V c main_v3 (((cfg0.win 2).blk t).view.emb (ix2 b r)) = V c main_v3 (ix2 b (⟨q * 512 + r.val, hlt⟩ : Fin 4096))
  refine congrArg (V c main_v3) (funext fun a => Fin.ext ?_)
  match a with
  | ⟨0, _⟩ => show win0_2.index t (0 : Fin 2) * 64 + 1 * b.val = b.val; omega
  | ⟨1, _⟩ => show win0_2.index t (1 : Fin 2) * 512 + 1 * r.val = q * 512 + r.val; omega

/-- The input weights' block at a point whose row block is `Q`: row `r` of the block is row `Q·512 + r`. -/
theorem wihBlock0_apply (c : Dev nD) (t : Fin cfg0.N) (Q : Nat) (hQ : 8 * (t.val % 4) + t.val / 4 = Q) (r : Fin 512)
    (k : Fin 4096) (hlt : Q * 512 + r.val < 16384) :
    (iblk0 V c 3 t : Vec Ideal S512x4096 .f32) (ix2 r k)
      = (V c main_arg3 : S16384x4096.Idx → Elt Ideal .f32) (ix2 (⟨Q * 512 + r.val, hlt⟩ : Fin 16384) k) := by
  obtain ⟨-, -, -, -, -, -, e0, e1, -⟩ := blockIndex_facts0 t
  unfold iblk0
  rw [View.read_apply]
  show V c main_arg3 (((cfg0.win 3).blk t).view.emb (ix2 r k)) = V c main_arg3 (ix2 (⟨Q * 512 + r.val, hlt⟩ : Fin 16384) k)
  refine congrArg (V c main_arg3) (funext fun a => Fin.ext ?_)
  match a with
  | ⟨0, _⟩ => show win0_3.index t (0 : Fin 2) * 512 + 1 * r.val = Q * 512 + r.val; omega
  | ⟨1, _⟩ => show win0_3.index t (1 : Fin 2) * 4096 + 1 * k.val = k.val; omega

/-- The hidden weights' block at a point whose row block is `Q`: row `r` of the block is row `Q·512 + r`. -/
theorem whhBlock0_apply (c : Dev nD) (t : Fin cfg0.N) (Q : Nat) (hQ : 8 * (t.val % 4) + t.val / 4 = Q) (r : Fin 512)
    (k : Fin 4096) (hlt : Q * 512 + r.val < 16384) :
    (iblk0 V c 4 t : Vec Ideal S512x4096 .f32) (ix2 r k)
      = (V c main_arg4 : S16384x4096.Idx → Elt Ideal .f32) (ix2 (⟨Q * 512 + r.val, hlt⟩ : Fin 16384) k) := by
  obtain ⟨-, -, -, -, -, -, -, -, e0, e1, -⟩ := blockIndex_facts0 t
  unfold iblk0
  rw [View.read_apply]
  show V c main_arg4 (((cfg0.win 4).blk t).view.emb (ix2 r k)) = V c main_arg4 (ix2 (⟨Q * 512 + r.val, hlt⟩ : Fin 16384) k)
  refine congrArg (V c main_arg4) (funext fun a => Fin.ext ?_)
  match a with
  | ⟨0, _⟩ => show win0_4.index t (0 : Fin 2) * 512 + 1 * r.val = Q * 512 + r.val; omega
  | ⟨1, _⟩ => show win0_4.index t (1 : Fin 2) * 4096 + 1 * k.val = k.val; omega

/-- The input bias row's block at a point whose column block is `Q`: column `r` of the block is column `Q·512 + r`. -/
theorem bihBlock0_apply (c : Dev nD) (t : Fin cfg0.N) (Q : Nat) (hQ : 8 * (t.val % 4) + t.val / 4 = Q) (r : Fin 512)
    (hlt : Q * 512 + r.val < 16384) :
    (iblk0 V c 5 t : Vec Ideal S1x512 .f32) (ix2 (0 : Fin 1) r)
      = (V c main_v4 : S1x16384.Idx → Elt Ideal .f32) (ix2 (0 : Fin 1) (⟨Q * 512 + r.val, hlt⟩ : Fin 16384)) := by
  obtain ⟨-, -, -, -, -, -, -, -, -, -, e0, e1, -⟩ := blockIndex_facts0 t
  unfold iblk0
  rw [View.read_apply]
  show V c main_v4 (((cfg0.win 5).blk t).view.emb (ix2 (0 : Fin 1) r)) = V c main_v4 (ix2 (0 : Fin 1) (⟨Q * 512 + r.val, hlt⟩ : Fin 16384))
  refine congrArg (V c main_v4) (funext fun a => Fin.ext ?_)
  match a with
  | ⟨0, _⟩ => show win0_5.index t (0 : Fin 2) * 1 + 1 * 0 = 0; omega
  | ⟨1, _⟩ => show win0_5.index t (1 : Fin 2) * 512 + 1 * r.val = Q * 512 + r.val; omega

/-- The hidden bias row's block at a point whose column block is `Q`: column `r` of the block is column `Q·512 + r`. -/
theorem bhhBlock0_apply (c : Dev nD) (t : Fin cfg0.N) (Q : Nat) (hQ : 8 * (t.val % 4) + t.val / 4 = Q) (r : Fin 512)
    (hlt : Q * 512 + r.val < 16384) :
    (iblk0 V c 6 t : Vec Ideal S1x512 .f32) (ix2 (0 : Fin 1) r)
      = (V c main_v5 : S1x16384.Idx → Elt Ideal .f32) (ix2 (0 : Fin 1) (⟨Q * 512 + r.val, hlt⟩ : Fin 16384)) := by
  obtain ⟨-, -, -, -, -, -, -, -, -, -, -, -, e0, e1, -⟩ := blockIndex_facts0 t
  unfold iblk0
  rw [View.read_apply]
  show V c main_v5 (((cfg0.win 6).blk t).view.emb (ix2 (0 : Fin 1) r)) = V c main_v5 (ix2 (0 : Fin 1) (⟨Q * 512 + r.val, hlt⟩ : Fin 16384))
  refine congrArg (V c main_v5) (funext fun a => Fin.ext ?_)
  match a with
  | ⟨0, _⟩ => show win0_6.index t (0 : Fin 2) * 1 + 1 * 0 = 0; omega
  | ⟨1, _⟩ => show win0_6.index t (1 : Fin 2) * 512 + 1 * r.val = Q * 512 + r.val; omega

/-! ## The gate tile a point computes -/

/-- The gate tile of point `t` at (b, r) is the specification's gate pre-activation at row `b` and the column `j`
    whose number is (8·gate + tile)·512 + r. -/
theorem gateAt0_apply (c : Dev nD) (t : Fin cfg0.N) (b : Fin 64) (r : Fin 512) (j : Fin 16384)
    (hj : j.val = (8 * (t.val % 4) + t.val / 4) * 512 + r.val) :
    gateAt0 (F := Ideal) V c t (ix3 (0 : Fin 1) b r)
      = Lstm.gate (V c main_arg0) (V c main_v1) (V c main_arg3) (V c main_arg4) (rowOf (V c main_v4)) (rowOf (V c main_v5)) b j := by
  have ht := lt32 t
  have hQ : 8 * (t.val % 4) + t.val / 4 < 32 := by omega
  have ej : j = (⟨(8 * (t.val % 4) + t.val / 4) * 512 + r.val, by omega⟩ : Fin 16384) := Fin.ext hj
  unfold gateAt0
  rw [k0_pay1_apply, ej]
  exact gate_block (V c main_arg0) (V c main_v1) (V c main_arg3) (V c main_arg4) (V c main_v4) (V c main_v5)
    (iblk0 V c 0 t) (iblk0 V c 1 t) (iblk0 V c 3 t) (iblk0 V c 4 t) (iblk0 V c 5 t) (iblk0 V c 6 t)
    (8 * (t.val % 4) + t.val / 4) hQ
    (fun b k => xBlock0_apply V c t b k)
    (fun b k => hBlock0_apply V c t b k)
    (fun r k => wihBlock0_apply V c t _ rfl r k _)
    (fun r k => whhBlock0_apply V c t _ rfl r k _)
    (fun r => bihBlock0_apply V c t _ rfl r _)
    (fun r => bhhBlock0_apply V c t _ rfl r _)
    b r

/-- The gate tile of gate `g` in `t`'s group at (b, r), when the specification's column `j` is `g·4096` plus the unit
    `(t / 4)·512 + r`. -/
theorem gateGrp0_apply (c : Dev nD) (t : Fin cfg0.N) (g : ℕ) (hg : g < 4) (b : Fin 64) (r : Fin 512) (j : Fin 16384)
    (hj : j.val = g * 4096 + ((t.val / 4) * 512 + r.val)) :
    gateAt0 (F := Ideal) V c (grp0 t g hg) (ix3 (0 : Fin 1) b r)
      = Lstm.gate (V c main_arg0) (V c main_v1) (V c main_arg3) (V c main_arg4) (rowOf (V c main_v4)) (rowOf (V c main_v5)) b j := by
  refine gateAt0_apply V c (grp0 t g hg) b r j ?_
  rw [grp0_val, hj]
  have ht := lt32 t
  omega

/-! ## What a flushing point writes back -/

/-- The layer's new hidden state as one array of the region-entry contents. -/
def hNew0 (c : Dev nD) : FVec Ideal S64x4096 .f32 :=
  Lstm.asMat (fun b u => Lstm.cellH (V c main_arg0) (V c main_v1) (V c main_v3) (V c main_arg3) (V c main_arg4)
    (rowOf (V c main_v4)) (rowOf (V c main_v5)) b u)

/-- The layer's new cell state as one array of the region-entry contents. -/
def cNew0 (c : Dev nD) : FVec Ideal S64x4096 .f32 :=
  Lstm.asMat (fun b u => Lstm.cellC (V c main_arg0) (V c main_v1) (V c main_v3) (V c main_arg3) (V c main_arg4)
    (rowOf (V c main_v4)) (rowOf (V c main_v5)) b u)

/-- The new hidden-state block of `t`'s hidden tile at (b, r) is the specification's at unit `(t / 4)·512 + r`. -/
theorem hOut0_apply (c : Dev nD) (t : Fin cfg0.N) (b : Fin 64) (r : Fin 512) (hlt : t.val / 4 < 8) :
    hOut0 (F := Ideal) V c t (ix2 b r) = hNew0 V c (ix2 b (unitOf (t.val / 4) hlt r)) := by
  unfold hOut0
  rw [View.canon_unit_zero zeroOffsets0, k0_pay3_apply']
  exact cellH_block (V c main_arg0) (V c main_v1) (V c main_v3) (V c main_arg3) (V c main_arg4)
    (rowOf (V c main_v4)) (rowOf (V c main_v5))
    (gateAt0 V c (grp0 t 0 (by decide))) (gateAt0 V c (grp0 t 1 (by decide))) (gateAt0 V c (grp0 t 2 (by decide)))
    (gateAt0 V c (grp0 t 3 (by decide))) (iblk0 V c 2 t) (t.val / 4) hlt
    (fun b r => gateGrp0_apply V c t 0 (by decide) b r _ (by show (t.val / 4) * 512 + r.val = 0 * 4096 + _; omega))
    (fun b r => gateGrp0_apply V c t 1 (by decide) b r _ (by show 4096 + ((t.val / 4) * 512 + r.val) = 1 * 4096 + _; omega))
    (fun b r => gateGrp0_apply V c t 2 (by decide) b r _ (by show 8192 + ((t.val / 4) * 512 + r.val) = 2 * 4096 + _; omega))
    (fun b r => gateGrp0_apply V c t 3 (by decide) b r _ (by show 12288 + ((t.val / 4) * 512 + r.val) = 3 * 4096 + _; omega))
    (fun b r => cBlock0_apply V c t _ rfl b r _)
    b r

/-- The new cell-state block of `t`'s hidden tile at (b, r) is the specification's at unit `(t / 4)·512 + r`. -/
theorem cOut0_apply (c : Dev nD) (t : Fin cfg0.N) (b : Fin 64) (r : Fin 512) (hlt : t.val / 4 < 8) :
    cOut0 (F := Ideal) V c t (ix2 b r) = cNew0 V c (ix2 b (unitOf (t.val / 4) hlt r)) := by
  unfold cOut0
  rw [View.canon_unit_zero zeroOffsets0, k0_pay2_apply]
  exact cellC_block (V c main_arg0) (V c main_v1) (V c main_v3) (V c main_arg3) (V c main_arg4)
    (rowOf (V c main_v4)) (rowOf (V c main_v5))
    (gateAt0 V c (grp0 t 0 (by decide))) (gateAt0 V c (grp0 t 1 (by decide))) (gateAt0 V c (grp0 t 2 (by decide)))
    (iblk0 V c 2 t) (t.val / 4) hlt
    (fun b r => gateGrp0_apply V c t 0 (by decide) b r _ (by show (t.val / 4) * 512 + r.val = 0 * 4096 + _; omega))
    (fun b r => gateGrp0_apply V c t 1 (by decide) b r _ (by show 4096 + ((t.val / 4) * 512 + r.val) = 1 * 4096 + _; omega))
    (fun b r => gateGrp0_apply V c t 2 (by decide) b r _ (by show 8192 + ((t.val / 4) * 512 + r.val) = 2 * 4096 + _; omega))
    (fun b r => cBlock0_apply V c t _ rfl b r _)
    b r

/-- WHAT POINT `t` WRITES BACK into the new hidden state is its block of `hNew0`. -/
theorem flushedH0_eq (c : Dev nD) (t : Fin cfg0.N) :
    (dat0 (F := Ideal) V c).flushed 7 t = ((cfg0.win 7).blk t).view.read (Elt Ideal) (hNew0 V c) := by
  obtain ⟨-, -, -, -, -, -, -, -, -, -, -, -, -, -, e0, e1, -⟩ := blockIndex_facts0 t
  have ht := lt32 t
  have hq : t.val / 4 < 8 := by omega
  show (cfg0.win 7).cut (grid0.coords t) ((dat0 V c).after 7 t) = _
  rw [after0_7]
  funext j
  have hj0 : (j 0).val < 64 := (j 0).isLt
  have hj1 : (j 1).val < 512 := (j 1).isLt
  have ej : (cfg0.win 7).xinj (grid0.coords t) j = ix2 (⟨(j 0).val, hj0⟩ : Fin 64) (⟨(j 1).val, hj1⟩ : Fin 512) :=
    funext fun a => by
      match a with
      | ⟨0, _⟩ => rfl
      | ⟨1, _⟩ => rfl
  have ei : ((cfg0.win 7).blk t).view.emb j
      = ix2 (⟨(j 0).val, hj0⟩ : Fin 64) (unitOf (t.val / 4) hq ⟨(j 1).val, hj1⟩) :=
    funext fun a => Fin.ext (by
      match a with
      | ⟨0, _⟩ => show win0_7.index t (0 : Fin 2) * 64 + 1 * (j 0).val = (j 0).val; omega
      | ⟨1, _⟩ => show win0_7.index t (1 : Fin 2) * 512 + 1 * (j 1).val = (t.val / 4) * 512 + (j 1).val; omega)
  show hOut0 (F := Ideal) V c t ((cfg0.win 7).xinj (grid0.coords t) j) = hNew0 V c (((cfg0.win 7).blk t).view.emb j)
  rw [ej, ei]
  exact hOut0_apply V c t _ _ hq

/-- WHAT POINT `t` WRITES BACK into the new cell state is its block of `cNew0`. -/
theorem flushedC0_eq (c : Dev nD) (t : Fin cfg0.N) :
    (dat0 (F := Ideal) V c).flushed 8 t = ((cfg0.win 8).blk t).view.read (Elt Ideal) (cNew0 V c) := by
  obtain ⟨-, -, -, -, -, -, -, -, -, -, -, -, -, -, -, -, e0, e1⟩ := blockIndex_facts0 t
  have ht := lt32 t
  have hq : t.val / 4 < 8 := by omega
  show (cfg0.win 8).cut (grid0.coords t) ((dat0 V c).after 8 t) = _
  rw [after0_8]
  funext j
  have hj0 : (j 0).val < 64 := (j 0).isLt
  have hj1 : (j 1).val < 512 := (j 1).isLt
  have ej : (cfg0.win 8).xinj (grid0.coords t) j = ix2 (⟨(j 0).val, hj0⟩ : Fin 64) (⟨(j 1).val, hj1⟩ : Fin 512) :=
    funext fun a => by
      match a with
      | ⟨0, _⟩ => rfl
      | ⟨1, _⟩ => rfl
  have ei : ((cfg0.win 8).blk t).view.emb j
      = ix2 (⟨(j 0).val, hj0⟩ : Fin 64) (unitOf (t.val / 4) hq ⟨(j 1).val, hj1⟩) :=
    funext fun a => Fin.ext (by
      match a with
      | ⟨0, _⟩ => show win0_8.index t (0 : Fin 2) * 64 + 1 * (j 0).val = (j 0).val; omega
      | ⟨1, _⟩ => show win0_8.index t (1 : Fin 2) * 512 + 1 * (j 1).val = (t.val / 4) * 512 + (j 1).val; omega)
  show cOut0 (F := Ideal) V c t ((cfg0.win 8).xinj (grid0.coords t) j) = cNew0 V c (((cfg0.win 8).blk t).view.emb j)
  rw [ej, ei]
  exact cOut0_apply V c t _ _ hq

/-! ## The written blocks tile the result arrays -/

/-- An index of the new hidden state is in point `t`'s block iff each coordinate is in the block's range on its axis. -/
theorem mem_blockH0 (t : Fin cfg0.N) (i : S64x4096.Idx) :
    i ∈ ((cfg0.win 7).blk t).view.set
      ↔ ∀ a : Fin 2, win0_7.index t a * S64x512.size a ≤ (i a).val ∧ (i a).val < win0_7.index t a * S64x512.size a + S64x512.size a := by
  show i ∈ ((View.whole main_v6_0).slice (win0_7.rect t)).set ↔ _
  rw [View.set_slice_whole, Rect.mem_set_unit]
  exact Iff.rfl

/-- The same for the new cell state. -/
theorem mem_blockC0 (t : Fin cfg0.N) (i : S64x4096.Idx) :
    i ∈ ((cfg0.win 8).blk t).view.set
      ↔ ∀ a : Fin 2, win0_8.index t a * S64x512.size a ≤ (i a).val ∧ (i a).val < win0_8.index t a * S64x512.size a + S64x512.size a := by
  show i ∈ ((View.whole main_v6_1).slice (win0_8.rect t)).set ↔ _
  rw [View.set_slice_whole, Rect.mem_set_unit]
  exact Iff.rfl

/-- The last point of the group of the hidden tile that holds unit `n`. -/
def lastOf0 (n : Nat) (hn : n < 4096) : Fin cfg0.N :=
  ⟨4 * (n / 512) + 3, lt_of_lt_of_eq (by omega : 4 * (n / 512) + 3 < 32) (show cfg0.N = 32 from N_0).symm⟩

/-- Every index of the new hidden state is in the block written at the last point of its hidden tile's group. -/
theorem coveredH0 (i : S64x4096.Idx) :
    ∃ t : Fin cfg0.N, (cfg0.win 7).flush t = true ∧ i ∈ ((cfg0.win 7).blk t).view.set := by
  have hi0 : (i 0).val < 64 := (i 0).isLt
  have hi1 : (i 1).val < 4096 := (i 1).isLt
  obtain ⟨-, -, -, -, -, -, -, -, -, -, -, -, -, -, e0, e1, -⟩ := blockIndex_facts0 (lastOf0 (i 1).val hi1)
  have hv : (lastOf0 (i 1).val hi1).val = 4 * ((i 1).val / 512) + 3 := rfl
  refine ⟨lastOf0 (i 1).val hi1, (flush0_7 _).2 (by rw [hv]; omega), ?_⟩
  rw [mem_blockH0]
  intro a
  match a with
  | ⟨0, _⟩ =>
    show win0_7.index (lastOf0 (i 1).val hi1) (0 : Fin 2) * 64 ≤ (i 0).val
      ∧ (i 0).val < win0_7.index (lastOf0 (i 1).val hi1) (0 : Fin 2) * 64 + 64
    omega
  | ⟨1, _⟩ =>
    show win0_7.index (lastOf0 (i 1).val hi1) (1 : Fin 2) * 512 ≤ (i 1).val
      ∧ (i 1).val < win0_7.index (lastOf0 (i 1).val hi1) (1 : Fin 2) * 512 + 512
    omega

/-- Every index of the new cell state is in the block written at the last point of its hidden tile's group. -/
theorem coveredC0 (i : S64x4096.Idx) :
    ∃ t : Fin cfg0.N, (cfg0.win 8).flush t = true ∧ i ∈ ((cfg0.win 8).blk t).view.set := by
  have hi0 : (i 0).val < 64 := (i 0).isLt
  have hi1 : (i 1).val < 4096 := (i 1).isLt
  obtain ⟨-, -, -, -, -, -, -, -, -, -, -, -, -, -, -, -, e0, e1⟩ := blockIndex_facts0 (lastOf0 (i 1).val hi1)
  have hv : (lastOf0 (i 1).val hi1).val = 4 * ((i 1).val / 512) + 3 := rfl
  refine ⟨lastOf0 (i 1).val hi1, (flush0_8 _).2 (by rw [hv]; omega), ?_⟩
  rw [mem_blockC0]
  intro a
  match a with
  | ⟨0, _⟩ =>
    show win0_8.index (lastOf0 (i 1).val hi1) (0 : Fin 2) * 64 ≤ (i 0).val
      ∧ (i 0).val < win0_8.index (lastOf0 (i 1).val hi1) (0 : Fin 2) * 64 + 64
    omega
  | ⟨1, _⟩ =>
    show win0_8.index (lastOf0 (i 1).val hi1) (1 : Fin 2) * 512 ≤ (i 1).val
      ∧ (i 1).val < win0_8.index (lastOf0 (i 1).val hi1) (1 : Fin 2) * 512 + 512
    omega

/-! ## The result arrays after the region's last point -/

/-- THE NEW HIDDEN STATE after the region's last point: the specification's, of the arrays as the region finds them. -/
theorem finalH0 (c : Dev nD) :
    (dat0 (F := Ideal) V c).arrAt 7 cfg0.N
      = Lstm.asMat (fun b u => Lstm.cellH (V c main_arg0) (V c main_v1) (V c main_v3) (V c main_arg3) (V c main_arg4)
          (rowOf (V c main_v4)) (rowOf (V c main_v5)) b u) :=
  (dat0 (F := Ideal) V c).arrAt_eq_of_cover 7 (hNew0 V c) (fun t _ => flushedH0_eq V c t) coveredH0

/-- THE NEW CELL STATE after the region's last point: the specification's, of the arrays as the region finds them. -/
theorem finalC0 (c : Dev nD) :
    (dat0 (F := Ideal) V c).arrAt 8 cfg0.N
      = Lstm.asMat (fun b u => Lstm.cellC (V c main_arg0) (V c main_v1) (V c main_v3) (V c main_arg3) (V c main_arg4)
          (rowOf (V c main_v4)) (rowOf (V c main_v5)) b u) :=
  (dat0 (F := Ideal) V c).arrAt_eq_of_cover 8 (cNew0 V c) (fun t _ => flushedC0_eq V c t) coveredC0

end Region

end Cert.KernelSide

end
-- ==== Proof.LayerValue1.lean ====
/-
  The second LSTM layer's two results as whole arrays: what the second kernel region leaves in its two result arrays.
  Its input matrix is the first layer's new hidden state, as the region finds it.

  The region has 32 grid points, t = 4·q + g for hidden tile q (0 … 7) and gate g (0 … 3). Point t loads the whole
  input and hidden-state matrices, rows (8 g + q)·512 … of the two weight matrices and the same columns of the two bias
  rows, and columns q·512 … of the old cell state; it computes gate g's tile of hidden tile q. The last point of each
  group of four, g = 3, combines the group's four gate tiles with the old cell-state block into the new hidden-state
  and cell-state blocks of tile q, and only there are the two result blocks (columns q·512 …) written back. Entry (b, r)
  of those blocks is the specification's new hidden state and new cell state at row b, unit q·512 + r, so each block is
  the restriction to its columns of one function of the whole arrays; the eight written blocks tile the 4096 columns
  (unit u lies in the block written at point 4·(u / 512) + 3), so after the last point each result array holds that
  function everywhere.
-/
import proofs.«142131_j78597901517448_2_alg».proof.Proof.LstmDefs1
import proofs.«142131_j78597901517448_2_alg».proof.Proof.PayGate
import proofs.«142131_j78597901517448_2_alg».proof.Proof.PayCell
import proofs.«142131_j78597901517448_2_alg».proof.Proof.LayerBlock
import Idealize.ShloMosaic.Lib.Pipeline.Value
import Idealize.ShloMosaic.Lib.ValueIdx

noncomputable section

open Idealize.ShloMosaic Idealize.ShloMosaic.TcCoe Idealize.SL.Sem
open Idealize.ShloMosaic.ValueIdx
open Idealize.ShloMosaic.Pipeline (Dat)
open scoped BigOperators

namespace Cert.KernelSide

open Cert.KernelIdeal Cert.KernelIdeal.Gen Cert.KernelIdeal.Hand

section Region
variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the 32 grid points, in terms of the point's hidden tile `t / 4` and gate `t % 4`: the
    input and hidden-state windows stay at block (0, 0); the old cell state's and the two results' column block is the
    hidden tile; the weight windows' row block and the bias windows' column block is 8·gate + tile. -/
theorem blockIndex_facts1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = t.val / 4
    ∧ win1_3.index t (0 : Fin 2) = 8 * (t.val % 4) + t.val / 4 ∧ win1_3.index t (1 : Fin 2) = 0
    ∧ win1_4.index t (0 : Fin 2) = 8 * (t.val % 4) + t.val / 4 ∧ win1_4.index t (1 : Fin 2) = 0
    ∧ win1_5.index t (0 : Fin 2) = 0 ∧ win1_5.index t (1 : Fin 2) = 8 * (t.val % 4) + t.val / 4
    ∧ win1_6.index t (0 : Fin 2) = 0 ∧ win1_6.index t (1 : Fin 2) = 8 * (t.val % 4) + t.val / 4
    ∧ win1_7.index t (0 : Fin 2) = 0 ∧ win1_7.index t (1 : Fin 2) = t.val / 4
    ∧ win1_8.index t (0 : Fin 2) = 0 ∧ win1_8.index t (1 : Fin 2) = t.val / 4 :=
  (by decide +kernel : ∀ t : Fin grid1.N, _)

theorem lt32_1 (t : Fin cfg1.N) : t.val < 32 := lt_of_lt_of_eq t.isLt (show cfg1.N = 32 from N_1)

/-! ## The input blocks at a point, read off the arrays -/

/-- The input's block at any point is the whole matrix. -/
theorem xBlock1_apply (c : Dev nD) (t : Fin cfg1.N) (b : Fin 64) (k : Fin 4096) :
    (iblk1 V c 0 t : Vec Ideal S64x4096 .f32) (ix2 b k) = (V c main_v6_0 : S64x4096.Idx → Elt Ideal .f32) (ix2 b k) := by
  obtain ⟨e0, e1, -⟩ := blockIndex_facts1 t
  unfold iblk1
  rw [View.read_apply]
  show V c main_v6_0 (((cfg1.win 0).blk t).view.emb (ix2 b k)) = V c main_v6_0 (ix2 b k)
  refine congrArg (V c main_v6_0) (funext fun a => Fin.ext ?_)
  match a with
  | ⟨0, _⟩ => show win1_0.index t (0 : Fin 2) * 64 + 1 * b.val = b.val; omega
  | ⟨1, _⟩ => show win1_0.index t (1 : Fin 2) * 4096 + 1 * k.val = k.val; omega

/-- The hidden state's block at any point is the whole matrix. -/
theorem hBlock1_apply (c : Dev nD) (t : Fin cfg1.N) (b : Fin 64) (k : Fin 4096) :
    (iblk1 V c 1 t : Vec Ideal S64x4096 .f32) (ix2 b k) = (V c main_v8 : S64x4096.Idx → Elt Ideal .f32) (ix2 b k) := by
  obtain ⟨-, -, e0, e1, -⟩ := blockIndex_facts1 t
  unfold iblk1
  rw [View.read_apply]
  show V c main_v8 (((cfg1.win 1).blk t).view.emb (ix2 b k)) = V c main_v8 (ix2 b k)
  refine congrArg (V c main_v8) (funext fun a => Fin.ext ?_)
  match a with
  | ⟨0, _⟩ => show win1_1.index t (0 : Fin 2) * 64 + 1 * b.val = b.val; omega
  | ⟨1, _⟩ => show win1_1.index t (1 : Fin 2) * 4096 + 1 * k.val = k.val; omega

/-- The old cell state's block at a point of hidden tile `q`: column `r` of the block is column `q·512 + r`. -/
theorem cBlock1_apply (c : Dev nD) (t : Fin cfg1.N) (q : Nat) (hq : t.val / 4 = q) (b : Fin 64) (r : Fin 512)
    (hlt : q * 512 + r.val < 4096) :
    (iblk1 V c 2 t : Vec Ideal S64x512 .f32) (ix2 b r)
      = (V c main_v10 : S64x4096.Idx → Elt Ideal .f32) (ix2 b (⟨q * 512 + r.val, hlt⟩ : Fin 4096)) := by
  obtain ⟨-, -, -, -, e0, e1, -⟩ := blockIndex_facts1 t
  unfold iblk1
  rw [View.read_apply]
  show V c main_v10 (((cfg1.win 2).blk t).view.emb (ix2 b r)) = V c main_v10 (ix2 b (⟨q * 512 + r.val, hlt⟩ : Fin 4096))
  refine congrArg (V c main_v10) (funext fun a => Fin.ext ?_)
  match a with
  | ⟨0, _⟩ => show win1_2.index t (0 : Fin 2) * 64 + 1 * b.val = b.val; omega
  | ⟨1, _⟩ => show win1_2.index t (1 : Fin 2) * 512 + 1 * r.val = q * 512 + r.val; omega

/-- The input weights' block at a point whose row block is `Q`: row `r` of the block is row `Q·512 + r`. -/
theorem wihBlock1_apply (c : Dev nD) (t : Fin cfg1.N) (Q : Nat) (hQ : 8 * (t.val % 4) + t.val / 4 = Q) (r : Fin 512)
    (k : Fin 4096) (hlt : Q * 512 + r.val < 16384) :
    (iblk1 V c 3 t : Vec Ideal S512x4096 .f32) (ix2 r k)
      = (V c main_arg7 : S16384x4096.Idx → Elt Ideal .f32) (ix2 (⟨Q * 512 + r.val, hlt⟩ : Fin 16384) k) := by
  obtain ⟨-, -, -, -, -, -, e0, e1, -⟩ := blockIndex_facts1 t
  unfold iblk1
  rw [View.read_apply]
  show V c main_arg7 (((cfg1.win 3).blk t).view.emb (ix2 r k)) = V c main_arg7 (ix2 (⟨Q * 512 + r.val, hlt⟩ : Fin 16384) k)
  refine congrArg (V c main_arg7) (funext fun a => Fin.ext ?_)
  match a with
  | ⟨0, _⟩ => show win1_3.index t (0 : Fin 2) * 512 + 1 * r.val = Q * 512 + r.val; omega
  | ⟨1, _⟩ => show win1_3.index t (1 : Fin 2) * 4096 + 1 * k.val = k.val; omega

/-- The hidden weights' block at a point whose row block is `Q`: row `r` of the block is row `Q·512 + r`. -/
theorem whhBlock1_apply (c : Dev nD) (t : Fin cfg1.N) (Q : Nat) (hQ : 8 * (t.val % 4) + t.val / 4 = Q) (r : Fin 512)
    (k : Fin 4096) (hlt : Q * 512 + r.val < 16384) :
    (iblk1 V c 4 t : Vec Ideal S512x4096 .f32) (ix2 r k)
      = (V c main_arg8 : S16384x4096.Idx → Elt Ideal .f32) (ix2 (⟨Q * 512 + r.val, hlt⟩ : Fin 16384) k) := by
  obtain ⟨-, -, -, -, -, -, -, -, e0, e1, -⟩ := blockIndex_facts1 t
  unfold iblk1
  rw [View.read_apply]
  show V c main_arg8 (((cfg1.win 4).blk t).view.emb (ix2 r k)) = V c main_arg8 (ix2 (⟨Q * 512 + r.val, hlt⟩ : Fin 16384) k)
  refine congrArg (V c main_arg8) (funext fun a => Fin.ext ?_)
  match a with
  | ⟨0, _⟩ => show win1_4.index t (0 : Fin 2) * 512 + 1 * r.val = Q * 512 + r.val; omega
  | ⟨1, _⟩ => show win1_4.index t (1 : Fin 2) * 4096 + 1 * k.val = k.val; omega

/-- The input bias row's block at a point whose column block is `Q`: column `r` of the block is column `Q·512 + r`. -/
theorem bihBlock1_apply (c : Dev nD) (t : Fin cfg1.N) (Q : Nat) (hQ : 8 * (t.val % 4) + t.val / 4 = Q) (r : Fin 512)
    (hlt : Q * 512 + r.val < 16384) :
    (iblk1 V c 5 t : Vec Ideal S1x512 .f32) (ix2 (0 : Fin 1) r)
      = (V c main_v11 : S1x16384.Idx → Elt Ideal .f32) (ix2 (0 : Fin 1) (⟨Q * 512 + r.val, hlt⟩ : Fin 16384)) := by
  obtain ⟨-, -, -, -, -, -, -, -, -, -, e0, e1, -⟩ := blockIndex_facts1 t
  unfold iblk1
  rw [View.read_apply]
  show V c main_v11 (((cfg1.win 5).blk t).view.emb (ix2 (0 : Fin 1) r)) = V c main_v11 (ix2 (0 : Fin 1) (⟨Q * 512 + r.val, hlt⟩ : Fin 16384))
  refine congrArg (V c main_v11) (funext fun a => Fin.ext ?_)
  match a with
  | ⟨0, _⟩ => show win1_5.index t (0 : Fin 2) * 1 + 1 * 0 = 0; omega
  | ⟨1, _⟩ => show win1_5.index t (1 : Fin 2) * 512 + 1 * r.val = Q * 512 + r.val; omega

/-- The hidden bias row's block at a point whose column block is `Q`: column `r` of the block is column `Q·512 + r`. -/
theorem bhhBlock1_apply (c : Dev nD) (t : Fin cfg1.N) (Q : Nat) (hQ : 8 * (t.val % 4) + t.val / 4 = Q) (r : Fin 512)
    (hlt : Q * 512 + r.val < 16384) :
    (iblk1 V c 6 t : Vec Ideal S1x512 .f32) (ix2 (0 : Fin 1) r)
      = (V c main_v12 : S1x16384.Idx → Elt Ideal .f32) (ix2 (0 : Fin 1) (⟨Q * 512 + r.val, hlt⟩ : Fin 16384)) := by
  obtain ⟨-, -, -, -, -, -, -, -, -, -, -, -, e0, e1, -⟩ := blockIndex_facts1 t
  unfold iblk1
  rw [View.read_apply]
  show V c main_v12 (((cfg1.win 6).blk t).view.emb (ix2 (0 : Fin 1) r)) = V c main_v12 (ix2 (0 : Fin 1) (⟨Q * 512 + r.val, hlt⟩ : Fin 16384))
  refine congrArg (V c main_v12) (funext fun a => Fin.ext ?_)
  match a with
  | ⟨0, _⟩ => show win1_6.index t (0 : Fin 2) * 1 + 1 * 0 = 0; omega
  | ⟨1, _⟩ => show win1_6.index t (1 : Fin 2) * 512 + 1 * r.val = Q * 512 + r.val; omega

/-! ## The gate tile a point computes -/

/-- The gate tile of point `t` at (b, r) is the specification's gate pre-activation at row `b` and the column `j`
    whose number is (8·gate + tile)·512 + r. -/
theorem gateAt1_apply (c : Dev nD) (t : Fin cfg1.N) (b : Fin 64) (r : Fin 512) (j : Fin 16384)
    (hj : j.val = (8 * (t.val % 4) + t.val / 4) * 512 + r.val) :
    gateAt1 (F := Ideal) V c t (ix3 (0 : Fin 1) b r)
      = Lstm.gate (V c main_v6_0) (V c main_v8) (V c main_arg7) (V c main_arg8) (rowOf (V c main_v11)) (rowOf (V c main_v12)) b j := by
  have ht := lt32_1 t
  have hQ : 8 * (t.val % 4) + t.val / 4 < 32 := by omega
  have ej : j = (⟨(8 * (t.val % 4) + t.val / 4) * 512 + r.val, by omega⟩ : Fin 16384) := Fin.ext hj
  unfold gateAt1
  rw [k1_pay1_apply, ej]
  exact gate_block (V c main_v6_0) (V c main_v8) (V c main_arg7) (V c main_arg8) (V c main_v11) (V c main_v12)
    (iblk1 V c 0 t) (iblk1 V c 1 t) (iblk1 V c 3 t) (iblk1 V c 4 t) (iblk1 V c 5 t) (iblk1 V c 6 t)
    (8 * (t.val % 4) + t.val / 4) hQ
    (fun b k => xBlock1_apply V c t b k)
    (fun b k => hBlock1_apply V c t b k)
    (fun r k => wihBlock1_apply V c t _ rfl r k _)
    (fun r k => whhBlock1_apply V c t _ rfl r k _)
    (fun r => bihBlock1_apply V c t _ rfl r _)
    (fun r => bhhBlock1_apply V c t _ rfl r _)
    b r

/-- The gate tile of gate `g` in `t`'s group at (b, r), when the specification's column `j` is `g·4096` plus the unit
    `(t / 4)·512 + r`. -/
theorem gateGrp1_apply (c : Dev nD) (t : Fin cfg1.N) (g : ℕ) (hg : g < 4) (b : Fin 64) (r : Fin 512) (j : Fin 16384)
    (hj : j.val = g * 4096 + ((t.val / 4) * 512 + r.val)) :
    gateAt1 (F := Ideal) V c (grp1 t g hg) (ix3 (0 : Fin 1) b r)
      = Lstm.gate (V c main_v6_0) (V c main_v8) (V c main_arg7) (V c main_arg8) (rowOf (V c main_v11)) (rowOf (V c main_v12)) b j := by
  refine gateAt1_apply V c (grp1 t g hg) b r j ?_
  rw [grp1_val, hj]
  have ht := lt32_1 t
  omega

/-! ## What a flushing point writes back -/

/-- The layer's new hidden state as one array of the region-entry contents. -/
def hNew1 (c : Dev nD) : FVec Ideal S64x4096 .f32 :=
  Lstm.asMat (fun b u => Lstm.cellH (V c main_v6_0) (V c main_v8) (V c main_v10) (V c main_arg7) (V c main_arg8)
    (rowOf (V c main_v11)) (rowOf (V c main_v12)) b u)

/-- The layer's new cell state as one array of the region-entry contents. -/
def cNew1 (c : Dev nD) : FVec Ideal S64x4096 .f32 :=
  Lstm.asMat (fun b u => Lstm.cellC (V c main_v6_0) (V c main_v8) (V c main_v10) (V c main_arg7) (V c main_arg8)
    (rowOf (V c main_v11)) (rowOf (V c main_v12)) b u)

/-- The new hidden-state block of `t`'s hidden tile at (b, r) is the specification's at unit `(t / 4)·512 + r`. -/
theorem hOut1_apply (c : Dev nD) (t : Fin cfg1.N) (b : Fin 64) (r : Fin 512) (hlt : t.val / 4 < 8) :
    hOut1 (F := Ideal) V c t (ix2 b r) = hNew1 V c (ix2 b (unitOf (t.val / 4) hlt r)) := by
  unfold hOut1
  rw [View.canon_unit_zero zeroOffsets1, k1_pay3_apply']
  exact cellH_block (V c main_v6_0) (V c main_v8) (V c main_v10) (V c main_arg7) (V c main_arg8)
    (rowOf (V c main_v11)) (rowOf (V c main_v12))
    (gateAt1 V c (grp1 t 0 (by decide))) (gateAt1 V c (grp1 t 1 (by decide))) (gateAt1 V c (grp1 t 2 (by decide)))
    (gateAt1 V c (grp1 t 3 (by decide))) (iblk1 V c 2 t) (t.val / 4) hlt
    (fun b r => gateGrp1_apply V c t 0 (by decide) b r _ (by show (t.val / 4) * 512 + r.val = 0 * 4096 + _; omega))
    (fun b r => gateGrp1_apply V c t 1 (by decide) b r _ (by show 4096 + ((t.val / 4) * 512 + r.val) = 1 * 4096 + _; omega))
    (fun b r => gateGrp1_apply V c t 2 (by decide) b r _ (by show 8192 + ((t.val / 4) * 512 + r.val) = 2 * 4096 + _; omega))
    (fun b r => gateGrp1_apply V c t 3 (by decide) b r _ (by show 12288 + ((t.val / 4) * 512 + r.val) = 3 * 4096 + _; omega))
    (fun b r => cBlock1_apply V c t _ rfl b r _)
    b r

/-- The new cell-state block of `t`'s hidden tile at (b, r) is the specification's at unit `(t / 4)·512 + r`. -/
theorem cOut1_apply (c : Dev nD) (t : Fin cfg1.N) (b : Fin 64) (r : Fin 512) (hlt : t.val / 4 < 8) :
    cOut1 (F := Ideal) V c t (ix2 b r) = cNew1 V c (ix2 b (unitOf (t.val / 4) hlt r)) := by
  unfold cOut1
  rw [View.canon_unit_zero zeroOffsets1, k1_pay2_apply]
  exact cellC_block (V c main_v6_0) (V c main_v8) (V c main_v10) (V c main_arg7) (V c main_arg8)
    (rowOf (V c main_v11)) (rowOf (V c main_v12))
    (gateAt1 V c (grp1 t 0 (by decide))) (gateAt1 V c (grp1 t 1 (by decide))) (gateAt1 V c (grp1 t 2 (by decide)))
    (iblk1 V c 2 t) (t.val / 4) hlt
    (fun b r => gateGrp1_apply V c t 0 (by decide) b r _ (by show (t.val / 4) * 512 + r.val = 0 * 4096 + _; omega))
    (fun b r => gateGrp1_apply V c t 1 (by decide) b r _ (by show 4096 + ((t.val / 4) * 512 + r.val) = 1 * 4096 + _; omega))
    (fun b r => gateGrp1_apply V c t 2 (by decide) b r _ (by show 8192 + ((t.val / 4) * 512 + r.val) = 2 * 4096 + _; omega))
    (fun b r => cBlock1_apply V c t _ rfl b r _)
    b r

/-- WHAT POINT `t` WRITES BACK into the new hidden state is its block of `hNew1`. -/
theorem flushedH1_eq (c : Dev nD) (t : Fin cfg1.N) :
    (dat1 (F := Ideal) V c).flushed 7 t = ((cfg1.win 7).blk t).view.read (Elt Ideal) (hNew1 V c) := by
  obtain ⟨-, -, -, -, -, -, -, -, -, -, -, -, -, -, e0, e1, -⟩ := blockIndex_facts1 t
  have ht := lt32_1 t
  have hq : t.val / 4 < 8 := by omega
  show (cfg1.win 7).cut (grid1.coords t) ((dat1 V c).after 7 t) = _
  rw [after1_7]
  funext j
  have hj0 : (j 0).val < 64 := (j 0).isLt
  have hj1 : (j 1).val < 512 := (j 1).isLt
  have ej : (cfg1.win 7).xinj (grid1.coords t) j = ix2 (⟨(j 0).val, hj0⟩ : Fin 64) (⟨(j 1).val, hj1⟩ : Fin 512) :=
    funext fun a => by
      match a with
      | ⟨0, _⟩ => rfl
      | ⟨1, _⟩ => rfl
  have ei : ((cfg1.win 7).blk t).view.emb j
      = ix2 (⟨(j 0).val, hj0⟩ : Fin 64) (unitOf (t.val / 4) hq ⟨(j 1).val, hj1⟩) :=
    funext fun a => Fin.ext (by
      match a with
      | ⟨0, _⟩ => show win1_7.index t (0 : Fin 2) * 64 + 1 * (j 0).val = (j 0).val; omega
      | ⟨1, _⟩ => show win1_7.index t (1 : Fin 2) * 512 + 1 * (j 1).val = (t.val / 4) * 512 + (j 1).val; omega)
  show hOut1 (F := Ideal) V c t ((cfg1.win 7).xinj (grid1.coords t) j) = hNew1 V c (((cfg1.win 7).blk t).view.emb j)
  rw [ej, ei]
  exact hOut1_apply V c t _ _ hq

/-- WHAT POINT `t` WRITES BACK into the new cell state is its block of `cNew1`. -/
theorem flushedC1_eq (c : Dev nD) (t : Fin cfg1.N) :
    (dat1 (F := Ideal) V c).flushed 8 t = ((cfg1.win 8).blk t).view.read (Elt Ideal) (cNew1 V c) := by
  obtain ⟨-, -, -, -, -, -, -, -, -, -, -, -, -, -, -, -, e0, e1⟩ := blockIndex_facts1 t
  have ht := lt32_1 t
  have hq : t.val / 4 < 8 := by omega
  show (cfg1.win 8).cut (grid1.coords t) ((dat1 V c).after 8 t) = _
  rw [after1_8]
  funext j
  have hj0 : (j 0).val < 64 := (j 0).isLt
  have hj1 : (j 1).val < 512 := (j 1).isLt
  have ej : (cfg1.win 8).xinj (grid1.coords t) j = ix2 (⟨(j 0).val, hj0⟩ : Fin 64) (⟨(j 1).val, hj1⟩ : Fin 512) :=
    funext fun a => by
      match a with
      | ⟨0, _⟩ => rfl
      | ⟨1, _⟩ => rfl
  have ei : ((cfg1.win 8).blk t).view.emb j
      = ix2 (⟨(j 0).val, hj0⟩ : Fin 64) (unitOf (t.val / 4) hq ⟨(j 1).val, hj1⟩) :=
    funext fun a => Fin.ext (by
      match a with
      | ⟨0, _⟩ => show win1_8.index t (0 : Fin 2) * 64 + 1 * (j 0).val = (j 0).val; omega
      | ⟨1, _⟩ => show win1_8.index t (1 : Fin 2) * 512 + 1 * (j 1).val = (t.val / 4) * 512 + (j 1).val; omega)
  show cOut1 (F := Ideal) V c t ((cfg1.win 8).xinj (grid1.coords t) j) = cNew1 V c (((cfg1.win 8).blk t).view.emb j)
  rw [ej, ei]
  exact cOut1_apply V c t _ _ hq

/-! ## The written blocks tile the result arrays -/

/-- An index of the new hidden state is in point `t`'s block iff each coordinate is in the block's range on its axis. -/
theorem mem_blockH1 (t : Fin cfg1.N) (i : S64x4096.Idx) :
    i ∈ ((cfg1.win 7).blk t).view.set
      ↔ ∀ a : Fin 2, win1_7.index t a * S64x512.size a ≤ (i a).val ∧ (i a).val < win1_7.index t a * S64x512.size a + S64x512.size a := by
  show i ∈ ((View.whole main_v13_0).slice (win1_7.rect t)).set ↔ _
  rw [View.set_slice_whole, Rect.mem_set_unit]
  exact Iff.rfl

/-- The same for the new cell state. -/
theorem mem_blockC1 (t : Fin cfg1.N) (i : S64x4096.Idx) :
    i ∈ ((cfg1.win 8).blk t).view.set
      ↔ ∀ a : Fin 2, win1_8.index t a * S64x512.size a ≤ (i a).val ∧ (i a).val < win1_8.index t a * S64x512.size a + S64x512.size a := by
  show i ∈ ((View.whole main_v13_1).slice (win1_8.rect t)).set ↔ _
  rw [View.set_slice_whole, Rect.mem_set_unit]
  exact Iff.rfl

/-- The last point of the group of the hidden tile that holds unit `n`. -/
def lastOf1 (n : Nat) (hn : n < 4096) : Fin cfg1.N :=
  ⟨4 * (n / 512) + 3, lt_of_lt_of_eq (by omega : 4 * (n / 512) + 3 < 32) (show cfg1.N = 32 from N_1).symm⟩

/-- Every index of the new hidden state is in the block written at the last point of its hidden tile's group. -/
theorem coveredH1 (i : S64x4096.Idx) :
    ∃ t : Fin cfg1.N, (cfg1.win 7).flush t = true ∧ i ∈ ((cfg1.win 7).blk t).view.set := by
  have hi0 : (i 0).val < 64 := (i 0).isLt
  have hi1 : (i 1).val < 4096 := (i 1).isLt
  obtain ⟨-, -, -, -, -, -, -, -, -, -, -, -, -, -, e0, e1, -⟩ := blockIndex_facts1 (lastOf1 (i 1).val hi1)
  have hv : (lastOf1 (i 1).val hi1).val = 4 * ((i 1).val / 512) + 3 := rfl
  refine ⟨lastOf1 (i 1).val hi1, (flush1_7 _).2 (by rw [hv]; omega), ?_⟩
  rw [mem_blockH1]
  intro a
  match a with
  | ⟨0, _⟩ =>
    show win1_7.index (lastOf1 (i 1).val hi1) (0 : Fin 2) * 64 ≤ (i 0).val
      ∧ (i 0).val < win1_7.index (lastOf1 (i 1).val hi1) (0 : Fin 2) * 64 + 64
    omega
  | ⟨1, _⟩ =>
    show win1_7.index (lastOf1 (i 1).val hi1) (1 : Fin 2) * 512 ≤ (i 1).val
      ∧ (i 1).val < win1_7.index (lastOf1 (i 1).val hi1) (1 : Fin 2) * 512 + 512
    omega

/-- Every index of the new cell state is in the block written at the last point of its hidden tile's group. -/
theorem coveredC1 (i : S64x4096.Idx) :
    ∃ t : Fin cfg1.N, (cfg1.win 8).flush t = true ∧ i ∈ ((cfg1.win 8).blk t).view.set := by
  have hi0 : (i 0).val < 64 := (i 0).isLt
  have hi1 : (i 1).val < 4096 := (i 1).isLt
  obtain ⟨-, -, -, -, -, -, -, -, -, -, -, -, -, -, -, -, e0, e1⟩ := blockIndex_facts1 (lastOf1 (i 1).val hi1)
  have hv : (lastOf1 (i 1).val hi1).val = 4 * ((i 1).val / 512) + 3 := rfl
  refine ⟨lastOf1 (i 1).val hi1, (flush1_8 _).2 (by rw [hv]; omega), ?_⟩
  rw [mem_blockC1]
  intro a
  match a with
  | ⟨0, _⟩ =>
    show win1_8.index (lastOf1 (i 1).val hi1) (0 : Fin 2) * 64 ≤ (i 0).val
      ∧ (i 0).val < win1_8.index (lastOf1 (i 1).val hi1) (0 : Fin 2) * 64 + 64
    omega
  | ⟨1, _⟩ =>
    show win1_8.index (lastOf1 (i 1).val hi1) (1 : Fin 2) * 512 ≤ (i 1).val
      ∧ (i 1).val < win1_8.index (lastOf1 (i 1).val hi1) (1 : Fin 2) * 512 + 512
    omega

/-! ## The result arrays after the region's last point -/

/-- THE NEW HIDDEN STATE after the region's last point: the specification's, of the arrays as the region finds them. -/
theorem finalH1 (c : Dev nD) :
    (dat1 (F := Ideal) V c).arrAt 7 cfg1.N
      = Lstm.asMat (fun b u => Lstm.cellH (V c main_v6_0) (V c main_v8) (V c main_v10) (V c main_arg7) (V c main_arg8)
          (rowOf (V c main_v11)) (rowOf (V c main_v12)) b u) :=
  (dat1 (F := Ideal) V c).arrAt_eq_of_cover 7 (hNew1 V c) (fun t _ => flushedH1_eq V c t) coveredH1

/-- THE NEW CELL STATE after the region's last point: the specification's, of the arrays as the region finds them. -/
theorem finalC1 (c : Dev nD) :
    (dat1 (F := Ideal) V c).arrAt 8 cfg1.N
      = Lstm.asMat (fun b u => Lstm.cellC (V c main_v6_0) (V c main_v8) (V c main_v10) (V c main_arg7) (V c main_arg8)
          (rowOf (V c main_v11)) (rowOf (V c main_v12)) b u) :=
  (dat1 (F := Ideal) V c).arrAt_eq_of_cover 8 (cNew1 V c) (fun t _ => flushedC1_eq V c t) coveredC1

end Region

end Cert.KernelSide

end
-- ==== Proof.PayHead.lean ====
/-
  The hidden layer of the count head on a block of 1024 units, read at one entry.

  For a batch row `b` and a unit `r` of the block the kernel computes
      max (Σ_k y(b,k) · W(r,k) + bias(r)) 0,
  the product contracting the SECOND axis of both operands (a [64, 4096] matrix against the transpose of a
  [1024, 4096] block of weight rows) into a zero accumulator, the bias row spread over the batch, and a maximum
  against the zero word spread over the block. Casts of an array to its own shape are the identity.
-/
import proofs.«142131_j78597901517448_2_alg».proof.Proof.Gen.KernelIdeal.Skeleton
import proofs.«142131_j78597901517448_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe
open Idealize.ShloMosaic.ValueIdx
open scoped BigOperators

namespace Cert.KernelSide

open Cert.KernelIdeal Cert.KernelIdeal.Gen

/-- The head kernel's product record — contract axis 1 of both operands, no batch axis — is the product of a
    [64, 4096] matrix with the transpose of a [1024, 4096] one. -/
theorem dot1024_eq : dot_S64x4096_S1024x4096_S64x1024_1_1_0_0_n_n = DotDims.transposedRhs 64 4096 1024 := rfl

/-- That product into the zero accumulator, at entry (b, r): the sum over k of L(b,k) · R(r,k). -/
theorem dot1024_apply (L : FVec Ideal S64x4096 .f32) (R : FVec Ideal S1024x4096 .f32) (b : Fin 64) (r : Fin 1024) :
    matmul dot_S64x4096_S1024x4096_S64x1024_1_1_0_0_n_n none L R (constant (F := Ideal) S64x1024 .f32 0x00000000#32) (ix2 b r)
      = ∑ k : Fin 4096, L (ix2 b k) * R (ix2 r k) :=
  Cert.TransposedDot.matmul_zero_apply (M := 64) (K := 4096) (N := 1024) _ dot1024_eq none L R b r

/-- The bias row [1, 1024] spread over the 64 batch rows, at (b, r): the row's entry r. -/
theorem biasRow1024_apply (v : FVec Ideal S1x1024 .f32) (b : Fin 64) (r : Fin 1024) :
    broadcastTo S64x1024 (shapeCast S1x1024 v shapeCasts_S1x1024_S1x1024) broadcasts_S1x1024_S64x1024 (ix2 b r)
      = v (ix2 (0 : Fin 1) r) := by
  rw [shapeCast_self]
  exact broadcastTo_1b_ab_apply v _ b r

/-- The head's hidden block at (b, r). -/
theorem k2_pay1_apply (v0 : Vec Ideal S64x4096 .f32) (v2 : Vec Ideal S1024x4096 .f32) (v4 : Vec Ideal S1x1024 .f32)
    (b : Fin 64) (r : Fin 1024) :
    k2_pay1 (F := Ideal) v0 v2 v4 (ix2 b r)
      = max ((∑ k : Fin 4096, v0 (ix2 b k) * v2 (ix2 r k)) + v4 (ix2 (0 : Fin 1) r)) 0 := by
  unfold k2_pay1
  show max
      (matmul dot_S64x4096_S1024x4096_S64x1024_1_1_0_0_n_n none (shapeCast S64x4096 v0 shapeCasts_S64x4096_S64x4096) v2
          (constant (F := Ideal) S64x1024 .f32 0x00000000#32) (ix2 b r)
        + broadcastTo S64x1024 (shapeCast S1x1024 v4 shapeCasts_S1x1024_S1x1024) broadcasts_S1x1024_S64x1024 (ix2 b r))
      (Ideal.ofBits .f32 0x00000000#32) = _
  rw [dot1024_apply, biasRow1024_apply v4 b r, shapeCast_self, Ideal.ofBits_zero_f32]

end Cert.KernelSide

end
-- ==== Proof.HeadValue.lean ====
/-
  The count head's hidden layer as ONE array: what the third kernel region leaves in its result array.

  The region has two grid points. Point t loads the whole activation matrix y [64, 4096], rows [1024 t, 1024 t + 1024)
  of the weight matrix W [2048, 4096] and columns [1024 t, 1024 t + 1024) of the bias row [1, 2048], and writes back
  columns [1024 t, 1024 t + 1024) of the result [64, 2048]. Entry (b, r) of the block it writes is
  max (Σ_k y(b,k) · Wblock(r,k) + biasblock(r)) 0, and Wblock(r, ·) is row 1024 t + r of W, so the block is the
  restriction to those columns of the single function
      hidden(b, j) = max (Σ_k y(b,k) · W(j,k) + bias(j)) 0
  of the three whole arrays. The two blocks tile the 2048 columns (column j lies in the block of point j / 1024), so
  after the last point the array holds that function everywhere.
-/
import proofs.«142131_j78597901517448_2_alg».proof.Proof.FrameHead
import proofs.«142131_j78597901517448_2_alg».proof.Proof.PayHead
import Idealize.ShloMosaic.Lib.Pipeline.Value
import Idealize.ShloMosaic.Lib.ValueIdx

noncomputable section

open Idealize.ShloMosaic Idealize.ShloMosaic.TcCoe Idealize.SL.Sem
open Idealize.ShloMosaic.ValueIdx
open Idealize.ShloMosaic.Pipeline (Dat)
open scoped BigOperators

namespace Cert.KernelSide

open Cert.KernelIdeal Cert.KernelIdeal.Gen Cert.KernelIdeal.Hand

/-- The hidden layer of the count head as a function of the whole activation matrix, weight matrix and bias row:
    entry (b, j) is `max (Σ_k x(b,k) · W(j,k) + bias(j)) 0`. -/
def hiddenOf (x : FVec Ideal S64x4096 .f32) (W : FVec Ideal S2048x4096 .f32) (bias : FVec Ideal S1x2048 .f32) :
    FVec Ideal S64x2048 .f32 := fun i =>
  max ((∑ k : Fin 4096, x (ix2 (⟨(i 0).val, (i 0).isLt⟩ : Fin 64) k) * W (ix2 (⟨(i 1).val, (i 1).isLt⟩ : Fin 2048) k))
    + bias (ix2 (0 : Fin 1) (⟨(i 1).val, (i 1).isLt⟩ : Fin 2048))) 0

/-- `hiddenOf` at an index written by its coordinates. -/
theorem hiddenOf_apply (x : FVec Ideal S64x4096 .f32) (W : FVec Ideal S2048x4096 .f32) (bias : FVec Ideal S1x2048 .f32)
    (b : Fin 64) (j : Fin 2048) :
    hiddenOf x W bias (ix2 b j) = max ((∑ k : Fin 4096, x (ix2 b k) * W (ix2 j k)) + bias (ix2 (0 : Fin 1) j)) 0 := rfl

/-- The body's result on blocks that are: all of `x`; rows `1024 q + r` of `W`; columns `1024 q + r` of `bias` —
    is, at (b, r), `hiddenOf` at (b, 1024 q + r). -/
theorem head_block (x : FVec Ideal S64x4096 .f32) (W : FVec Ideal S2048x4096 .f32) (bias : FVec Ideal S1x2048 .f32)
    (x0 : Vec Ideal S64x4096 .f32) (x1 : Vec Ideal S1024x4096 .f32) (x2 : Vec Ideal S1x1024 .f32) (q : Nat) (hq : q ≤ 1)
    (h0 : ∀ (b : Fin 64) (k : Fin 4096), x0 (ix2 b k) = x (ix2 b k))
    (h1 : ∀ (r : Fin 1024) (k : Fin 4096), x1 (ix2 r k) = W (ix2 (⟨q * 1024 + r.val, by omega⟩ : Fin 2048) k))
    (h2 : ∀ r : Fin 1024, x2 (ix2 (0 : Fin 1) r) = bias (ix2 (0 : Fin 1) (⟨q * 1024 + r.val, by omega⟩ : Fin 2048)))
    (b : Fin 64) (r : Fin 1024) :
    k2_pay1 (F := Ideal) x0 x1 x2 (ix2 b r) = hiddenOf x W bias (ix2 b (⟨q * 1024 + r.val, by omega⟩ : Fin 2048)) := by
  rw [k2_pay1_apply, hiddenOf_apply, h2 r]
  simp only [h0, h1]

section Region
variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the two grid points: the activations' window stays at block (0, 0); the weight
    window's row block, the bias window's column block and the result window's column block are one number, at most 1;
    every other block coordinate is 0. -/
theorem blockIndex_facts : ∀ t : Fin cfg2.N,
    win2_0.index t (0 : Fin 2) = 0 ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2)
    ∧ win2_3.index t (0 : Fin 2) = 0 ∧ win2_3.index t (1 : Fin 2) ≤ 1 :=
  (by decide +kernel : ∀ t : Fin grid2.N, _)

/-- Each of the two column blocks of the result is some point's. -/
theorem blockIndex_onto : ∀ q : Fin 2, ∃ t : Fin cfg2.N, win2_3.index t = ![0, q.val] :=
  (by decide +kernel : ∀ q : Fin 2, ∃ t : Fin grid2.N, win2_3.index t = ![0, q.val])

/-- The activations' block at any point is the whole matrix. -/
theorem actBlock_apply (c : Dev nD) (t : Fin cfg2.N) (b : Fin 64) (k : Fin 4096) :
    (iblk2 V c 0 t : Vec Ideal S64x4096 .f32) (ix2 b k) = (V c main_v13_0 : S64x4096.Idx → Elt Ideal .f32) (ix2 b k) := by
  obtain ⟨e00, e01, -⟩ := blockIndex_facts t
  unfold iblk2
  rw [View.read_apply]
  show V c main_v13_0 (((cfg2.win 0).blk t).view.emb (ix2 b k)) = V c main_v13_0 (ix2 b k)
  refine congrArg (V c main_v13_0) (funext fun a => Fin.ext ?_)
  match a with
  | ⟨0, _⟩ => show win2_0.index t (0 : Fin 2) * 64 + 1 * b.val = b.val; omega
  | ⟨1, _⟩ => show win2_0.index t (1 : Fin 2) * 4096 + 1 * k.val = k.val; omega

/-- The weight block at a point whose result block is column block `q`: row `r` of the block is row `1024 q + r` of the
    matrix. -/
theorem weightBlock_apply (c : Dev nD) (t : Fin cfg2.N) (q : Nat) (hq : win2_3.index t (1 : Fin 2) = q) (r : Fin 1024)
    (k : Fin 4096) (hlt : q * 1024 + r.val < 2048) :
    (iblk2 V c 1 t : Vec Ideal S1024x4096 .f32) (ix2 r k)
      = (V c main_arg11 : S2048x4096.Idx → Elt Ideal .f32) (ix2 (⟨q * 1024 + r.val, hlt⟩ : Fin 2048) k) := by
  obtain ⟨-, -, e10, e11, -⟩ := blockIndex_facts t
  unfold iblk2
  rw [View.read_apply]
  show V c main_arg11 (((cfg2.win 1).blk t).view.emb (ix2 r k)) = V c main_arg11 (ix2 (⟨q * 1024 + r.val, hlt⟩ : Fin 2048) k)
  refine congrArg (V c main_arg11) (funext fun a => Fin.ext ?_)
  match a with
  | ⟨0, _⟩ => show win2_1.index t (0 : Fin 2) * 1024 + 1 * r.val = q * 1024 + r.val; omega
  | ⟨1, _⟩ => show win2_1.index t (1 : Fin 2) * 4096 + 1 * k.val = k.val; omega

/-- The bias block at such a point: column `r` of the block is column `1024 q + r` of the row. -/
theorem biasBlock_apply (c : Dev nD) (t : Fin cfg2.N) (q : Nat) (hq : win2_3.index t (1 : Fin 2) = q) (r : Fin 1024)
    (hlt : q * 1024 + r.val < 2048) :
    (iblk2 V c 2 t : Vec Ideal S1x1024 .f32) (ix2 (0 : Fin 1) r)
      = (V c main_v20 : S1x2048.Idx → Elt Ideal .f32) (ix2 (0 : Fin 1) (⟨q * 1024 + r.val, hlt⟩ : Fin 2048)) := by
  obtain ⟨-, -, -, -, e20, e21, -⟩ := blockIndex_facts t
  unfold iblk2
  rw [View.read_apply]
  show V c main_v20 (((cfg2.win 2).blk t).view.emb (ix2 (0 : Fin 1) r)) = V c main_v20 (ix2 (0 : Fin 1) (⟨q * 1024 + r.val, hlt⟩ : Fin 2048))
  refine congrArg (V c main_v20) (funext fun a => Fin.ext ?_)
  match a with
  | ⟨0, _⟩ => show win2_2.index t (0 : Fin 2) * 1 + 1 * 0 = 0; omega
  | ⟨1, _⟩ => show win2_2.index t (1 : Fin 2) * 1024 + 1 * r.val = q * 1024 + r.val; omega

/-- WHAT POINT `t` WRITES BACK is its block of `hiddenOf` of the three arrays as the region finds them. -/
theorem flushed_eq (c : Dev nD) (t : Fin cfg2.N) :
    (dat2 (F := Ideal) V c).flushed 3 t
      = ((cfg2.win 3).blk t).view.read (Elt Ideal) (hiddenOf (V c main_v13_0) (V c main_arg11) (V c main_v20)) := by
  obtain ⟨-, -, -, -, -, -, e30, e31⟩ := blockIndex_facts t
  show (cfg2.win 3).cut (grid2.coords t) ((dat2 V c).after 3 t) = _
  rw [after2_3]
  unfold out2_3
  rw [View.canon_unit_zero zeroOffsets]
  simp only [View.ld_unit_zero (S := S64x4096) zeroOffsets, View.ld_unit_zero (S := S1024x4096) zeroOffsets,
    View.ld_unit_zero (S := S1x1024) zeroOffsets]
  funext j
  have hj0 : (j 0).val < 64 := (j 0).isLt
  have hj1 : (j 1).val < 1024 := (j 1).isLt
  have hlt : win2_3.index t (1 : Fin 2) * 1024 + (j 1).val < 2048 := by omega
  have ej : (cfg2.win 3).xinj (grid2.coords t) j = ix2 (⟨(j 0).val, hj0⟩ : Fin 64) (⟨(j 1).val, hj1⟩ : Fin 1024) :=
    funext fun a => by
      match a with
      | ⟨0, _⟩ => rfl
      | ⟨1, _⟩ => rfl
  have ei : ((cfg2.win 3).blk t).view.emb j
      = ix2 (⟨(j 0).val, hj0⟩ : Fin 64) (⟨win2_3.index t (1 : Fin 2) * 1024 + (j 1).val, hlt⟩ : Fin 2048) :=
    funext fun a => Fin.ext (by
      match a with
      | ⟨0, _⟩ => show win2_3.index t (0 : Fin 2) * 64 + 1 * (j 0).val = (j 0).val; omega
      | ⟨1, _⟩ => show win2_3.index t (1 : Fin 2) * 1024 + 1 * (j 1).val = win2_3.index t (1 : Fin 2) * 1024 + (j 1).val; omega)
  show k2_pay1 (F := Ideal) (iblk2 V c 0 t) (iblk2 V c 1 t) (iblk2 V c 2 t) ((cfg2.win 3).xinj (grid2.coords t) j)
    = hiddenOf (V c main_v13_0) (V c main_arg11) (V c main_v20) (((cfg2.win 3).blk t).view.emb j)
  rw [ej, ei]
  exact head_block (V c main_v13_0) (V c main_arg11) (V c main_v20) (iblk2 V c 0 t) (iblk2 V c 1 t) (iblk2 V c 2 t)
    (win2_3.index t (1 : Fin 2)) e31
    (fun b k => actBlock_apply V c t b k)
    (fun r k => weightBlock_apply V c t _ rfl r k _)
    (fun r => biasBlock_apply V c t _ rfl r _)
    ⟨(j 0).val, hj0⟩ ⟨(j 1).val, hj1⟩

/-- An index of the result array is in point `t`'s block iff each coordinate is in the block's range on its axis. -/
theorem mem_block (t : Fin cfg2.N) (i : S64x2048.Idx) :
    i ∈ ((cfg2.win 3).blk t).view.set
      ↔ ∀ a : Fin 2, win2_3.index t a * S64x1024.size a ≤ (i a).val ∧ (i a).val < win2_3.index t a * S64x1024.size a + S64x1024.size a := by
  show i ∈ ((View.whole main_v21).slice (win2_3.rect t)).set ↔ _
  rw [View.set_slice_whole, Rect.mem_set_unit]
  exact Iff.rfl

/-- Every index of the result array is in the block of the point whose column block holds its column. -/
theorem covered (i : S64x2048.Idx) :
    ∃ t : Fin cfg2.N, (cfg2.win 3).flush t = true ∧ i ∈ ((cfg2.win 3).blk t).view.set := by
  have hi0 : (i 0).val < 64 := (i 0).isLt
  have hi1 : (i 1).val < 2048 := (i 1).isLt
  obtain ⟨t, ht⟩ := blockIndex_onto ⟨(i 1).val / 1024, by omega⟩
  have q0 : win2_3.index t (0 : Fin 2) = 0 := congrFun ht 0
  have q1 : win2_3.index t (1 : Fin 2) = (i 1).val / 1024 := congrFun ht 1
  refine ⟨t, flush2_3 t, ?_⟩
  rw [mem_block]
  intro a
  match a with
  | ⟨0, _⟩ => show win2_3.index t (0 : Fin 2) * 64 ≤ (i 0).val ∧ (i 0).val < win2_3.index t (0 : Fin 2) * 64 + 64; omega
  | ⟨1, _⟩ => show win2_3.index t (1 : Fin 2) * 1024 ≤ (i 1).val ∧ (i 1).val < win2_3.index t (1 : Fin 2) * 1024 + 1024; omega

/-- THE RESULT ARRAY after the region's last point: `hiddenOf` of the activations, the weight matrix and the bias row as
    the region finds them. -/
theorem final2 (c : Dev nD) :
    (dat2 (F := Ideal) V c).arrAt 3 cfg2.N = hiddenOf (V c main_v13_0) (V c main_arg11) (V c main_v20) :=
  (dat2 (F := Ideal) V c).arrAt_eq_of_cover 3 (hiddenOf (V c main_v13_0) (V c main_arg11) (V c main_v20))
    (fun t _ => flushed_eq V c t) covered

end Region

end Cert.KernelSide

end
-- ==== Proof.HostIn.lean ====
/-
  The first two stretches of host operations of the kernel program, read at an index.

  Before each of the two LSTM regions the program prepares that layer's operands: it cuts the layer's slice out of the
  stacked hidden states and out of the stacked cell states (a slice of extent one along the leading axis, then a
  reshape that drops that axis), and it gives each of the layer's two bias vectors a leading axis of extent one. A
  slice of extent one followed by the reshape reads the stacked array at that layer; the row form of a bias vector
  read in its one row at column j is the vector at j. Both facts are proved once for any array and then used for the
  two stretches, each over an arbitrary valuation of the buffers it starts from. A buffer a stretch does not write
  keeps the contents it had.
-/
import proofs.«142131_j78597901517448_2_alg».proof.Proof.Gen.KernelIdeal.Regions
import proofs.«142131_j78597901517448_2_alg».proof.Proof.Spec
import Idealize.ShloMosaic.Lib.ValueIdx
import Idealize.ShloMosaic.Lib.Pipeline.Value
import Idealize.ShloMosaic.Lib.ValueLayout
import Idealize.ShloMosaic.Lib.StableHlo.Run

noncomputable section

open Idealize.ShloMosaic Idealize.ShloMosaic.TcCoe
open Idealize.ShloMosaic.ValueIdx (ix1 ix2 ix3)

namespace Cert.KernelSide

open Cert.KernelIdeal Cert.KernelIdeal.Gen

/-! ## A layer's slice of a stacked array, and a bias vector as a row -/

/-- Slice 0 of a 2 × 64 × 4096 array with its leading axis dropped, read at row `b`, unit `u`. -/
theorem sliceLayer0_apply (p : (⟨S2x64x4096, .f32⟩ : BufTy).Contents (Elt Ideal)) (b : Fin 64) (u : Fin 4096) :
    shapeCast S64x4096 (extractStridedSlice S1x64x4096 ![0, 0, 0] p slices_S2x64x4096_S1x64x4096_0_0_0)
        shapeCasts_S1x64x4096_S64x4096 (ix2 b u)
      = p (ix3 (0 : Fin 2) b u) := by
  refine (shapeCast_apply _ shapeCasts_S1x64x4096_S64x4096 (ix2 b u) (ix3 (0 : Fin 1) b u) ?_).trans ?_
  · rewrite [Shape.rowMajor_val_three, Shape.rowMajor_val_two]
    show (0 * 64 + b.val) * 4096 + u.val = b.val * 4096 + u.val
    omega
  · exact extractStridedSlice_apply ![0, 0, 0] p slices_S2x64x4096_S1x64x4096_0_0_0 (ix3 (0 : Fin 1) b u)
      (ix3 (0 : Fin 2) b u) (fun a => match a with
        | ⟨0, _⟩ => by show (0 : Nat) = 0 + 0; omega
        | ⟨1, _⟩ => by show b.val = 0 + b.val; omega
        | ⟨2, _⟩ => by show u.val = 0 + u.val; omega)

/-- Slice 1 of a 2 × 64 × 4096 array with its leading axis dropped, read at row `b`, unit `u`. -/
theorem sliceLayer1_apply (p : (⟨S2x64x4096, .f32⟩ : BufTy).Contents (Elt Ideal)) (b : Fin 64) (u : Fin 4096) :
    shapeCast S64x4096 (extractStridedSlice S1x64x4096 ![1, 0, 0] p slices_S2x64x4096_S1x64x4096_1_0_0)
        shapeCasts_S1x64x4096_S64x4096 (ix2 b u)
      = p (ix3 (1 : Fin 2) b u) := by
  refine (shapeCast_apply _ shapeCasts_S1x64x4096_S64x4096 (ix2 b u) (ix3 (0 : Fin 1) b u) ?_).trans ?_
  · rewrite [Shape.rowMajor_val_three, Shape.rowMajor_val_two]
    show (0 * 64 + b.val) * 4096 + u.val = b.val * 4096 + u.val
    omega
  · exact extractStridedSlice_apply ![1, 0, 0] p slices_S2x64x4096_S1x64x4096_1_0_0 (ix3 (0 : Fin 1) b u)
      (ix3 (1 : Fin 2) b u) (fun a => match a with
        | ⟨0, _⟩ => by show (1 : Nat) = 1 + 0; omega
        | ⟨1, _⟩ => by show b.val = 0 + b.val; omega
        | ⟨2, _⟩ => by show u.val = 0 + u.val; omega)

/-- Slice 0 with its leading axis dropped is layer 0 of the stacked array. -/
theorem sliceLayer0_eq (p : (⟨S2x64x4096, .f32⟩ : BufTy).Contents (Elt Ideal)) :
    shapeCast S64x4096 (extractStridedSlice S1x64x4096 ![0, 0, 0] p slices_S2x64x4096_S1x64x4096_0_0_0)
        shapeCasts_S1x64x4096_S64x4096
      = Lstm.layerOf 0 p := by
  funext i
  rw [ValueIdx.eq_ix2 i]
  exact sliceLayer0_apply p _ _

/-- Slice 1 with its leading axis dropped is layer 1 of the stacked array. -/
theorem sliceLayer1_eq (p : (⟨S2x64x4096, .f32⟩ : BufTy).Contents (Elt Ideal)) :
    shapeCast S64x4096 (extractStridedSlice S1x64x4096 ![1, 0, 0] p slices_S2x64x4096_S1x64x4096_1_0_0)
        shapeCasts_S1x64x4096_S64x4096
      = Lstm.layerOf 1 p := by
  funext i
  rw [ValueIdx.eq_ix2 i]
  exact sliceLayer1_apply p _ _

/-- A 16384-vector given a leading axis of extent one, read in its one row `z` at column `j`. -/
theorem biasRow_apply (v : (⟨S16384, .f32⟩ : BufTy).Contents (Elt Ideal)) (z : Fin 1) (j : Fin 16384) :
    shapeCast S1x16384 v shapeCasts_S16384_S1x16384 (ix2 z j) = v (ix1 j) := by
  refine shapeCast_apply v shapeCasts_S16384_S1x16384 (ix2 z j) (ix1 j) ?_
  rewrite [Shape.rowMajor_val_one, Shape.rowMajor_val_two]
  have hz := z.isLt
  show j.val = z.val * 16384 + j.val
  omega

/-! ## The stretch before the first LSTM region -/

/-- What the first stretch does not write it leaves as it found it. -/
theorem ops0_keeps (W : Valuation τ sig (Elt Ideal)) (r : Ref sig .tc) (h : r ∉ hostOps0_W) :
    StableHlo.after (hostOps0 (F := Ideal)) W (Proc.devRef .tc r) = W (Proc.devRef .tc r) :=
  StableHlo.after_of_writes_sub hostOps0 W hostOps0_writes h

/-- Layer 0's hidden state as the first region finds it. -/
theorem ops0_v1 (W : Valuation τ sig (Elt Ideal)) :
    (StableHlo.after (hostOps0 (F := Ideal)) W (Proc.devRef .tc main_v1) : (⟨S64x4096, .f32⟩ : BufTy).Contents (Elt Ideal))
      = Lstm.layerOf 0 (W (Proc.devRef .tc main_arg1) : (⟨S2x64x4096, .f32⟩ : BufTy).Contents (Elt Ideal)) := by
  refine Eq.trans ?_ (sliceLayer0_eq _)
  show StableHlo.after hostOps0 W (Proc.devRef .tc main_v1) = _
  after_results
  rfl

/-- Layer 0's cell state as the first region finds it. -/
theorem ops0_v3 (W : Valuation τ sig (Elt Ideal)) :
    (StableHlo.after (hostOps0 (F := Ideal)) W (Proc.devRef .tc main_v3) : (⟨S64x4096, .f32⟩ : BufTy).Contents (Elt Ideal))
      = Lstm.layerOf 0 (W (Proc.devRef .tc main_arg2) : (⟨S2x64x4096, .f32⟩ : BufTy).Contents (Elt Ideal)) := by
  refine Eq.trans ?_ (sliceLayer0_eq _)
  show StableHlo.after hostOps0 W (Proc.devRef .tc main_v3) = _
  after_results
  rfl

/-- Layer 0's input bias as a row, read at column `j`. -/
theorem ops0_v4 (W : Valuation τ sig (Elt Ideal)) (z : Fin 1) (j : Fin 16384) :
    (StableHlo.after (hostOps0 (F := Ideal)) W (Proc.devRef .tc main_v4) : (⟨S1x16384, .f32⟩ : BufTy).Contents (Elt Ideal)) (ix2 z j)
      = (W (Proc.devRef .tc main_arg5) : (⟨S16384, .f32⟩ : BufTy).Contents (Elt Ideal)) (ix1 j) := by
  refine Eq.trans ?_ (biasRow_apply _ z j)
  refine congrFun ?_ (ix2 z j)
  show StableHlo.after hostOps0 W (Proc.devRef .tc main_v4) = _
  after_results
  rfl

/-- Layer 0's hidden bias as a row, read at column `j`. -/
theorem ops0_v5 (W : Valuation τ sig (Elt Ideal)) (z : Fin 1) (j : Fin 16384) :
    (StableHlo.after (hostOps0 (F := Ideal)) W (Proc.devRef .tc main_v5) : (⟨S1x16384, .f32⟩ : BufTy).Contents (Elt Ideal)) (ix2 z j)
      = (W (Proc.devRef .tc main_arg6) : (⟨S16384, .f32⟩ : BufTy).Contents (Elt Ideal)) (ix1 j) := by
  refine Eq.trans ?_ (biasRow_apply _ z j)
  refine congrFun ?_ (ix2 z j)
  show StableHlo.after hostOps0 W (Proc.devRef .tc main_v5) = _
  after_results
  rfl

/-! ## The stretch between the two LSTM regions -/

/-- What the second stretch does not write it leaves as it found it. -/
theorem ops1_keeps (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 W hostOps1_writes h

/-- Layer 1's hidden state as the second region finds it. -/
theorem ops1_v8 (W : Valuation τ sig (Elt Ideal)) :
    (StableHlo.after (hostOps1 (F := Ideal)) W (Proc.devRef .tc main_v8) : (⟨S64x4096, .f32⟩ : BufTy).Contents (Elt Ideal))
      = Lstm.layerOf 1 (W (Proc.devRef .tc main_arg1) : (⟨S2x64x4096, .f32⟩ : BufTy).Contents (Elt Ideal)) := by
  refine Eq.trans ?_ (sliceLayer1_eq _)
  show StableHlo.after hostOps1 W (Proc.devRef .tc main_v8) = _
  after_results
  rfl

/-- Layer 1's cell state as the second region finds it. -/
theorem ops1_v10 (W : Valuation τ sig (Elt Ideal)) :
    (StableHlo.after (hostOps1 (F := Ideal)) W (Proc.devRef .tc main_v10) : (⟨S64x4096, .f32⟩ : BufTy).Contents (Elt Ideal))
      = Lstm.layerOf 1 (W (Proc.devRef .tc main_arg2) : (⟨S2x64x4096, .f32⟩ : BufTy).Contents (Elt Ideal)) := by
  refine Eq.trans ?_ (sliceLayer1_eq _)
  show StableHlo.after hostOps1 W (Proc.devRef .tc main_v10) = _
  after_results
  rfl

/-- Layer 1's input bias as a row, read at column `j`. -/
theorem ops1_v11 (W : Valuation τ sig (Elt Ideal)) (z : Fin 1) (j : Fin 16384) :
    (StableHlo.after (hostOps1 (F := Ideal)) W (Proc.devRef .tc main_v11) : (⟨S1x16384, .f32⟩ : BufTy).Contents (Elt Ideal)) (ix2 z j)
      = (W (Proc.devRef .tc main_arg9) : (⟨S16384, .f32⟩ : BufTy).Contents (Elt Ideal)) (ix1 j) := by
  refine Eq.trans ?_ (biasRow_apply _ z j)
  refine congrFun ?_ (ix2 z j)
  show StableHlo.after hostOps1 W (Proc.devRef .tc main_v11) = _
  after_results
  rfl

/-- Layer 1's hidden bias as a row, read at column `j`. -/
theorem ops1_v12 (W : Valuation τ sig (Elt Ideal)) (z : Fin 1) (j : Fin 16384) :
    (StableHlo.after (hostOps1 (F := Ideal)) W (Proc.devRef .tc main_v12) : (⟨S1x16384, .f32⟩ : BufTy).Contents (Elt Ideal)) (ix2 z j)
      = (W (Proc.devRef .tc main_arg10) : (⟨S16384, .f32⟩ : BufTy).Contents (Elt Ideal)) (ix1 j) := by
  refine Eq.trans ?_ (biasRow_apply _ z j)
  refine congrFun ?_ (ix2 z j)
  show StableHlo.after hostOps1 W (Proc.devRef .tc main_v12) = _
  after_results
  rfl

/-- The first region's two results pass the second stretch unchanged. -/
theorem ops1_v6_0 (W : Valuation τ sig (Elt Ideal)) :
    StableHlo.after (hostOps1 (F := Ideal)) W (Proc.devRef .tc main_v6_0) = W (Proc.devRef .tc main_v6_0) :=
  ops1_keeps W main_v6_0 (by decide)
theorem ops1_v6_1 (W : Valuation τ sig (Elt Ideal)) :
    StableHlo.after (hostOps1 (F := Ideal)) W (Proc.devRef .tc main_v6_1) = W (Proc.devRef .tc main_v6_1) :=
  ops1_keeps W main_v6_1 (by decide)

end Cert.KernelSide

end
-- ==== Proof.HostStack.lean ====
/-
  The stretch of host operations between the second LSTM region and the head's region, read at an index.

  The program stacks the two layers' new hidden states, and the two layers' new cell states, along a new leading axis:
  each 64 × 4096 array is given a leading axis of extent one and the two are joined along it, so an element of the join
  with leading coordinate 0 is the first array's and with leading coordinate 1 the second's. It also gives the head's
  first bias vector a leading axis of extent one. All of this is stated over an arbitrary valuation of the buffers the
  stretch starts from; a buffer the stretch does not write keeps the contents it had.
-/
import proofs.«142131_j78597901517448_2_alg».proof.Proof.Gen.KernelIdeal.Regions
import Idealize.ShloMosaic.Lib.ValueIdx
import Idealize.ShloMosaic.Lib.Pipeline.Value
import Idealize.ShloMosaic.Lib.ValueLayout
import Idealize.ShloMosaic.Lib.StableHlo.Run

noncomputable section

open Idealize.ShloMosaic Idealize.ShloMosaic.TcCoe
open Idealize.ShloMosaic.ValueIdx (ix1 ix2 ix3)

namespace Cert.KernelSide

open Cert.KernelIdeal Cert.KernelIdeal.Gen

/-! ## Two arrays stacked along a new leading axis, and a bias vector as a row -/

/-- A 64 × 4096 array given a leading axis of extent one, read at leading coordinate `z`, row `b`, unit `u`. -/
theorem lead_apply (p : (⟨S64x4096, .f32⟩ : BufTy).Contents (Elt Ideal)) (z : Fin 1) (b : Fin 64) (u : Fin 4096) :
    broadcastInDim S1x64x4096 ![1, 2] bcast_S64x4096_S1x64x4096_1_2 p (ix3 z b u) = p (ix2 b u) :=
  broadcastInDim_apply _ bcast_S64x4096_S1x64x4096_1_2 p (ix3 z b u) (ix2 b u) (fun a => match a with
    | ⟨0, _⟩ => by show b.val = if (64 : Nat) = 1 then 0 else b.val; rw [if_neg (by decide)]
    | ⟨1, _⟩ => by show u.val = if (4096 : Nat) = 1 then 0 else u.val; rw [if_neg (by decide)])

/-- Two 64 × 4096 arrays stacked along a new leading axis, read at layer `s`, row `b`, unit `u`: the first array at
    layer 0, the second at layer 1. -/
theorem stack_apply (p q : (⟨S64x4096, .f32⟩ : BufTy).Contents (Elt Ideal)) (s : Fin 2) (b : Fin 64) (u : Fin 4096) :
    concatenate S2x64x4096 0
        [⟨S1x64x4096, broadcastInDim S1x64x4096 ![1, 2] bcast_S64x4096_S1x64x4096_1_2 p⟩,
         ⟨S1x64x4096, broadcastInDim S1x64x4096 ![1, 2] bcast_S64x4096_S1x64x4096_1_2 q⟩]
        concatenates_S1x64x4096_S1x64x4096_S2x64x4096_d0 (ix3 s b u)
      = if s.val = 0 then p (ix2 b u) else q (ix2 b u) := by
  match s with
  | ⟨0, _⟩ =>
    rw [if_pos rfl]
    refine (concatenate_pair_apply_left (0 : Fin S2x64x4096.rank) _ _ concatenates_S1x64x4096_S1x64x4096_S2x64x4096_d0
      (ix3 (⟨0, by decide⟩ : Fin 2) b u) rfl (ix3 (0 : Fin 1) b u) (fun a => by
        match a with
        | ⟨0, _⟩ => rfl
        | ⟨1, _⟩ => rfl
        | ⟨2, _⟩ => rfl)).trans ?_
    exact lead_apply p 0 b u
  | ⟨1, _⟩ =>
    rw [if_neg (show ¬ (1 : Nat) = 0 by decide)]
    refine (concatenate_pair_apply_right (0 : Fin S2x64x4096.rank) _ _ concatenates_S1x64x4096_S1x64x4096_S2x64x4096_d0
      (ix3 (⟨1, by decide⟩ : Fin 2) b u) rfl rfl (ix3 (0 : Fin 1) b u) (fun a => by
        match a with
        | ⟨0, _⟩ => exact fun h => absurd rfl h
        | ⟨1, _⟩ => exact fun _ => rfl
        | ⟨2, _⟩ => exact fun _ => rfl) rfl).trans ?_
    exact lead_apply q 0 b u

/-- A 2048-vector given a leading axis of extent one, read in its one row `z` at column `j`. -/
theorem headBiasRow_apply (v : (⟨S2048, .f32⟩ : BufTy).Contents (Elt Ideal)) (z : Fin 1) (j : Fin 2048) :
    shapeCast S1x2048 v shapeCasts_S2048_S1x2048 (ix2 z j) = v (ix1 j) := by
  refine shapeCast_apply v shapeCasts_S2048_S1x2048 (ix2 z j) (ix1 j) ?_
  rewrite [Shape.rowMajor_val_one, Shape.rowMajor_val_two]
  have hz := z.isLt
  show j.val = z.val * 2048 + j.val
  omega

/-! ## The stretch -/

/-- What the stretch does not write it leaves as it found it. -/
theorem ops2_keeps (W : Valuation τ sig (Elt Ideal)) (r : Ref sig .tc) (h : r ∉ hostOps2_W) :
    StableHlo.after (hostOps2 (F := Ideal)) W (Proc.devRef .tc r) = W (Proc.devRef .tc r) :=
  StableHlo.after_of_writes_sub hostOps2 W hostOps2_writes h

/-- The stacked hidden states at layer `s`, row `b`, unit `u`: the first region's first result at layer 0, the second
    region's first result at layer 1. -/
theorem ops2_v16 (W : Valuation τ sig (Elt Ideal)) (s : Fin 2) (b : Fin 64) (u : Fin 4096) :
    (StableHlo.after (hostOps2 (F := Ideal)) W (Proc.devRef .tc main_v16) : (⟨S2x64x4096, .f32⟩ : BufTy).Contents (Elt Ideal)) (ix3 s b u)
      = if s.val = 0 then (W (Proc.devRef .tc main_v6_0) : (⟨S64x4096, .f32⟩ : BufTy).Contents (Elt Ideal)) (ix2 b u)
        else (W (Proc.devRef .tc main_v13_0) : (⟨S64x4096, .f32⟩ : BufTy).Contents (Elt Ideal)) (ix2 b u) := by
  refine Eq.trans ?_ (stack_apply _ _ s b u)
  refine congrFun ?_ (ix3 s b u)
  show StableHlo.after hostOps2 W (Proc.devRef .tc main_v16) = _
  after_results

/-- The stacked cell states at layer `s`, row `b`, unit `u`: the first region's second result at layer 0, the second
    region's second result at layer 1. -/
theorem ops2_v19 (W : Valuation τ sig (Elt Ideal)) (s : Fin 2) (b : Fin 64) (u : Fin 4096) :
    (StableHlo.after (hostOps2 (F := Ideal)) W (Proc.devRef .tc main_v19) : (⟨S2x64x4096, .f32⟩ : BufTy).Contents (Elt Ideal)) (ix3 s b u)
      = if s.val = 0 then (W (Proc.devRef .tc main_v6_1) : (⟨S64x4096, .f32⟩ : BufTy).Contents (Elt Ideal)) (ix2 b u)
        else (W (Proc.devRef .tc main_v13_1) : (⟨S64x4096, .f32⟩ : BufTy).Contents (Elt Ideal)) (ix2 b u) := by
  refine Eq.trans ?_ (stack_apply _ _ s b u)
  refine congrFun ?_ (ix3 s b u)
  show StableHlo.after hostOps2 W (Proc.devRef .tc main_v19) = _
  after_results

/-- The head's first bias as a row, read at column `j`. -/
theorem ops2_v20 (W : Valuation τ sig (Elt Ideal)) (z : Fin 1) (j : Fin 2048) :
    (StableHlo.after (hostOps2 (F := Ideal)) W (Proc.devRef .tc main_v20) : (⟨S1x2048, .f32⟩ : BufTy).Contents (Elt Ideal)) (ix2 z j)
      = (W (Proc.devRef .tc main_arg12) : (⟨S2048, .f32⟩ : BufTy).Contents (Elt Ideal)) (ix1 j) := by
  refine Eq.trans ?_ (headBiasRow_apply _ z j)
  refine congrFun ?_ (ix2 z j)
  show StableHlo.after hostOps2 W (Proc.devRef .tc main_v20) = _
  after_results
  rfl

/-- The two LSTM regions' results pass the stretch unchanged. -/
theorem ops2_v6_0 (W : Valuation τ sig (Elt Ideal)) :
    StableHlo.after (hostOps2 (F := Ideal)) W (Proc.devRef .tc main_v6_0) = W (Proc.devRef .tc main_v6_0) :=
  ops2_keeps W main_v6_0 (by decide)
theorem ops2_v6_1 (W : Valuation τ sig (Elt Ideal)) :
    StableHlo.after (hostOps2 (F := Ideal)) W (Proc.devRef .tc main_v6_1) = W (Proc.devRef .tc main_v6_1) :=
  ops2_keeps W main_v6_1 (by decide)
theorem ops2_v13_0 (W : Valuation τ sig (Elt Ideal)) :
    StableHlo.after (hostOps2 (F := Ideal)) W (Proc.devRef .tc main_v13_0) = W (Proc.devRef .tc main_v13_0) :=
  ops2_keeps W main_v13_0 (by decide)
theorem ops2_v13_1 (W : Valuation τ sig (Elt Ideal)) :
    StableHlo.after (hostOps2 (F := Ideal)) W (Proc.devRef .tc main_v13_1) = W (Proc.devRef .tc main_v13_1) :=
  ops2_keeps W main_v13_1 (by decide)

end Cert.KernelSide

end
-- ==== Proof.HostTail.lean ====
/-
  The last two stretches of host operations of the kernel program, read at an index: the count head's second layer.

  After the third region has left the head's hidden layer y [64, 2048] in its result array, the program transposes the
  second weight matrix w [1, 2048] to a column, contracts y against that column, adds the one entry of the second bias
  broadcast over the rows, and takes the maximum against the float zero word broadcast over the rows. Entry (b, 0) of the
  result is therefore  max ((Σ_j y(b,j) · w(0,j)) + bias(0)) 0 : the contraction of row b of y against the transposed
  column reads w at its one row; the broadcast bias reads its one entry; the zero word is the extended real 0.

  Each operation is first read at an index for arbitrary operands, then the two stretches are opened over an arbitrary
  valuation of the buffers they start from. A buffer a stretch does not write keeps the contents it had.
-/
import proofs.«142131_j78597901517448_2_alg».proof.Proof.Gen.KernelIdeal.Regions
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws

noncomputable section

open Idealize.ShloMosaic Idealize.ShloMosaic.TcCoe
open Idealize.ShloMosaic.ValueIdx (ix0 ix1 ix2 ix3)
open scoped BigOperators

namespace Cert.KernelSide

open Cert.KernelIdeal Cert.KernelIdeal.Gen

/-! ## The contraction of the hidden layer against the transposed weight row -/

/-- The left operand's row coordinate is the result's row. -/
theorem tailLhs0 (i : S64x1.Idx) (q : dot_S64x2048_S2048x1_S64x1_1_0_0_1_n_n.contr.Idx) :
    (dot_S64x2048_S2048x1_S64x1_1_0_0_1_n_n.lhsIdx i q 0).val = (i 0).val := by
  unfold DotDims.lhsIdx
  rw [dif_neg (show ¬(0 : Fin S64x2048.rank) ∈ dot_S64x2048_S2048x1_S64x1_1_0_0_1_n_n.lhsBatch by decide), dif_pos (show (0 : Fin S64x2048.rank) ∈ dot_S64x2048_S2048x1_S64x1_1_0_0_1_n_n.lhsNonContracting by decide)]
  rfl
/-- The left operand's column coordinate is the contraction position. -/
theorem tailLhs1 (i : S64x1.Idx) (q : dot_S64x2048_S2048x1_S64x1_1_0_0_1_n_n.contr.Idx) :
    (dot_S64x2048_S2048x1_S64x1_1_0_0_1_n_n.lhsIdx i q 1).val = (q ⟨0, by decide⟩).val :=
  dot_S64x2048_S2048x1_S64x1_1_0_0_1_n_n.lhsIdx_val_of_single rfl i q
/-- The right operand's row coordinate is the contraction position. -/
theorem tailRhs0 (i : S64x1.Idx) (q : dot_S64x2048_S2048x1_S64x1_1_0_0_1_n_n.contr.Idx) :
    (dot_S64x2048_S2048x1_S64x1_1_0_0_1_n_n.rhsIdx i q 0).val = (q ⟨0, by decide⟩).val :=
  dot_S64x2048_S2048x1_S64x1_1_0_0_1_n_n.rhsIdx_val_of_single rfl i q
/-- The right operand's column coordinate is the result's column. -/
theorem tailRhs1 (i : S64x1.Idx) (q : dot_S64x2048_S2048x1_S64x1_1_0_0_1_n_n.contr.Idx) :
    (dot_S64x2048_S2048x1_S64x1_1_0_0_1_n_n.rhsIdx i q 1).val = (i 1).val := by
  unfold DotDims.rhsIdx
  rw [dif_neg (show ¬(1 : Fin S2048x1.rank) ∈ dot_S64x2048_S2048x1_S64x1_1_0_0_1_n_n.rhsBatch by decide), dif_pos (show (1 : Fin S2048x1.rank) ∈ dot_S64x2048_S2048x1_S64x1_1_0_0_1_n_n.rhsNonContracting by decide)]
  rfl

/-- The product of a 64 × 2048 array with a 2048 × 1 column, read at row `b`, column `z`: the sum over the contracted
    position `k` of the row's entry times the column's entry. -/
theorem tailDot_apply (l : FVec Ideal S64x2048 .f32) (y : FVec Ideal S2048x1 .f32) (b : Fin 64) (z : Fin 1) :
    Host.dotGeneral (F := Ideal) dot_S64x2048_S2048x1_S64x1_1_0_0_1_n_n none l y (ix2 b z) = ∑ k : Fin 2048, l (ix2 b k) * y (ix2 k z) := by
  simp only [Host.dotGeneral]
  rw [Ideal.dotGeneral_apply, ← Equiv.sum_comp (ValueIdx.contrEquiv1 dot_S64x2048_S2048x1_S64x1_1_0_0_1_n_n 2048 rfl rfl).symm]
  refine Finset.sum_congr rfl fun k _ => ?_
  have hk := ValueIdx.contrEquiv1_symm_val dot_S64x2048_S2048x1_S64x1_1_0_0_1_n_n 2048 rfl rfl k
  have el : dot_S64x2048_S2048x1_S64x1_1_0_0_1_n_n.lhsIdx (ix2 b z) ((ValueIdx.contrEquiv1 dot_S64x2048_S2048x1_S64x1_1_0_0_1_n_n 2048 rfl rfl).symm k) = ix2 b k := funext fun a => Fin.ext (by
    match a with
    | ⟨0, _⟩ => exact tailLhs0 _ _
    | ⟨1, _⟩ => exact (tailLhs1 _ _).trans hk)
  have er : dot_S64x2048_S2048x1_S64x1_1_0_0_1_n_n.rhsIdx (ix2 b z) ((ValueIdx.contrEquiv1 dot_S64x2048_S2048x1_S64x1_1_0_0_1_n_n 2048 rfl rfl).symm k) = ix2 k z := funext fun a => Fin.ext (by
    match a with
    | ⟨0, _⟩ => exact (tailRhs0 _ _).trans hk
    | ⟨1, _⟩ => exact tailRhs1 _ _)
  rw [el, er]

/-- The 1 × 2048 weight row transposed to a column, read at position `k` of its one column `z`. -/
theorem tailColumn_apply (r : FVec Ideal S1x2048 .f32) (k : Fin 2048) (z : Fin 1) :
    transpose S2048x1 [1, 0] r transposes_S1x2048_S2048x1_1_0 (ix2 k z) = r (ix2 (0 : Fin 1) k) :=
  transpose_apply [1, 0] r transposes_S1x2048_S2048x1_1_0 (ix2 k z) (ix2 (0 : Fin 1) k) (fun a => match a with
    | ⟨0, _⟩ => rfl
    | ⟨1, _⟩ => by have hz := z.isLt; show (0 : Nat) = z.val; omega)

/-- The one-entry bias broadcast to a 64 × 1 column reads its one entry everywhere. -/
theorem tailBias_apply (v : FVec Ideal S1 .f32) (b : Fin 64) (z : Fin 1) :
    broadcastInDim S64x1 ![0, 1] bcast_S1x1_S64x1_0_1 (broadcastInDim S1x1 ![1] bcast_S1_S1x1_1 v) (ix2 b z)
      = v (ix1 (0 : Fin 1)) := by
  refine (broadcastInDim_apply _ bcast_S1x1_S64x1_0_1 _ (ix2 b z) (ix2 (0 : Fin 1) (0 : Fin 1)) (fun a => match a with
    | ⟨0, _⟩ => by show (0 : Nat) = if (1 : Nat) = 1 then 0 else b.val; rw [if_pos rfl]
    | ⟨1, _⟩ => by show (0 : Nat) = if (1 : Nat) = 1 then 0 else z.val; rw [if_pos rfl])).trans ?_
  exact broadcastInDim_apply _ bcast_S1_S1x1_1 v (ix2 (0 : Fin 1) (0 : Fin 1)) (ix1 (0 : Fin 1)) (fun a => match a with
    | ⟨0, _⟩ => by show (0 : Nat) = if (1 : Nat) = 1 then 0 else (0 : Nat); rw [if_pos rfl])

/-- The float zero word broadcast to a 64 × 1 column is the extended real 0 everywhere. -/
theorem tailZero_apply (b : Fin 64) (z : Fin 1) :
    broadcastInDim S64x1 ![] bcast_S_S64x1 (constant (F := Ideal) S_ .f32 0x00000000#32) (ix2 b z) = 0 := by
  refine (broadcastInDim_apply _ bcast_S_S64x1 _ (ix2 b z) ix0 (fun a => a.elim0)).trans ?_
  show Ideal.ofBits .f32 0x00000000#32 = 0
  exact Ideal.ofBits_zero_f32

/-- The count estimate of row `b` from a hidden layer `l`, a weight row `r` and a one-entry bias `v`:
    `max ((Σ_j l(b,j) · r(0,j)) + v(0)) 0`. -/
def countOf (l : FVec Ideal S64x2048 .f32) (r : FVec Ideal S1x2048 .f32) (v : FVec Ideal S1 .f32) (b : Fin 64) : EReal :=
  max ((∑ j : Fin 2048, l (ix2 b j) * r (ix2 (0 : Fin 1) j)) + v (ix1 (0 : Fin 1))) 0

/-- The head's second layer for arbitrary operands, read at row `b` of its one column `z`. -/
theorem tailCount_apply (l : FVec Ideal S64x2048 .f32) (r : FVec Ideal S1x2048 .f32) (v : FVec Ideal S1 .f32) (b : Fin 64) (z : Fin 1) :
    maximumf
        (addf (Host.dotGeneral (F := Ideal) dot_S64x2048_S2048x1_S64x1_1_0_0_1_n_n none l (transpose S2048x1 [1, 0] r transposes_S1x2048_S2048x1_1_0))
          (broadcastInDim S64x1 ![0, 1] bcast_S1x1_S64x1_0_1 (broadcastInDim S1x1 ![1] bcast_S1_S1x1_1 v)))
        (broadcastInDim S64x1 ![] bcast_S_S64x1 (constant (F := Ideal) S_ .f32 0x00000000#32)) (ix2 b z)
      = countOf l r v b := by
  unfold countOf
  rw [ValueIdx.maximumf_apply, ValueIdx.addf_apply, tailDot_apply, tailBias_apply, tailZero_apply]
  refine congrArg (fun t => max (t + v (ix1 (0 : Fin 1))) 0) ?_
  exact Finset.sum_congr rfl fun k _ => by rw [tailColumn_apply]

/-! ## The two stretches -/

/-- What the stretch after the third region does not write it leaves as it found it. -/
theorem ops3_keeps (W : Valuation τ sig (Elt Ideal)) (r : Ref sig .tc) (h : r ∉ hostOps3_W) :
    StableHlo.after (hostOps3 (F := Ideal)) W (Proc.devRef .tc r) = W (Proc.devRef .tc r) :=
  StableHlo.after_of_writes_sub hostOps3 W hostOps3_writes h

/-- What the final maximum's stretch does not write it leaves as it found it. -/
theorem ops3_1_keeps (W : Valuation τ sig (Elt Ideal)) (r : Ref sig .tc) (h : r ∉ hostOps3_1_W) :
    StableHlo.after (hostOps3_1 (F := Ideal)) W (Proc.devRef .tc r) = W (Proc.devRef .tc r) :=
  StableHlo.after_of_writes_sub hostOps3_1 W hostOps3_1_writes h

/-- What neither of the two last stretches writes ends as it was before them. -/
theorem tail_keeps (W : Valuation τ sig (Elt Ideal)) (r : Ref sig .tc) (h : r ∉ hostOps3_W) (h' : r ∉ hostOps3_1_W) :
    StableHlo.after (hostOps3_1 (F := Ideal)) (StableHlo.after (hostOps3 (F := Ideal)) W) (Proc.devRef .tc r)
      = W (Proc.devRef .tc r) :=
  (ops3_1_keeps _ r h').trans (ops3_keeps W r h)

/-- The affine map before the maximum, as the operations' term. -/
theorem ops3_v26 (W : Valuation τ sig (Elt Ideal)) :
    (StableHlo.after (hostOps3 (F := Ideal)) W (Proc.devRef .tc main_v26) : (⟨S64x1, .f32⟩ : BufTy).Contents (Elt Ideal))
      = addf (Host.dotGeneral (F := Ideal) (φ₁ := .f32) (φ₂ := .f32) dot_S64x2048_S2048x1_S64x1_1_0_0_1_n_n none (W (Proc.devRef .tc main_v21) : (⟨S64x2048, .f32⟩ : BufTy).Contents (Elt Ideal))
            (transpose S2048x1 [1, 0] (W (Proc.devRef .tc main_arg13) : (⟨S1x2048, .f32⟩ : BufTy).Contents (Elt Ideal)) transposes_S1x2048_S2048x1_1_0))
          (broadcastInDim S64x1 ![0, 1] bcast_S1x1_S64x1_0_1
            (broadcastInDim S1x1 ![1] bcast_S1_S1x1_1 (W (Proc.devRef .tc main_arg14) : (⟨S1, .f32⟩ : BufTy).Contents (Elt Ideal)))) := by
  show StableHlo.after hostOps3 W (Proc.devRef .tc main_v26) = _
  after_results

/-- The final maximum, as the operations' term. -/
theorem ops3_1_v27 (W : Valuation τ sig (Elt Ideal)) :
    (StableHlo.after (hostOps3_1 (F := Ideal)) W (Proc.devRef .tc main_v27) : (⟨S64x1, .f32⟩ : BufTy).Contents (Elt Ideal))
      = maximumf (W (Proc.devRef .tc main_v26) : (⟨S64x1, .f32⟩ : BufTy).Contents (Elt Ideal))
          (broadcastInDim S64x1 ![] bcast_S_S64x1 (constant (F := Ideal) S_ .f32 0x00000000#32)) := by
  show StableHlo.after hostOps3_1 W (Proc.devRef .tc main_v27) = _
  after_results
  rfl

/-- The count estimate as the program leaves it, at row `b` of its one column `z`, from the hidden layer, the second
    weight row and the second bias as the two stretches found them. -/
theorem tail_v27 (W : Valuation τ sig (Elt Ideal)) (b : Fin 64) (z : Fin 1) :
    (StableHlo.after (hostOps3_1 (F := Ideal)) (StableHlo.after (hostOps3 (F := Ideal)) W) (Proc.devRef .tc main_v27) : (⟨S64x1, .f32⟩ : BufTy).Contents (Elt Ideal)) (ix2 b z)
      = countOf (W (Proc.devRef .tc main_v21)) (W (Proc.devRef .tc main_arg13)) (W (Proc.devRef .tc main_arg14)) b := by
  refine Eq.trans ?_ (tailCount_apply _ _ _ b z)
  refine congrFun ?_ (ix2 b z)
  refine (ops3_1_v27 _).trans ?_
  exact congrArg (fun t => maximumf t (broadcastInDim S64x1 ![] bcast_S_S64x1 (constant (F := Ideal) S_ .f32 0x00000000#32))) (ops3_v26 W)

/-- The same with the three operands named: if the two stretches find the hidden layer `l`, the weight row `r` and the
    bias `v`, they leave `max ((Σ_j l(b,j) · r(0,j)) + v(0)) 0` at row `b`. -/
theorem tail_v27_of (W : Valuation τ sig (Elt Ideal)) (l : FVec Ideal S64x2048 .f32) (r : FVec Ideal S1x2048 .f32) (v : FVec Ideal S1 .f32)
    (hl : W (Proc.devRef .tc main_v21) = l) (hr : W (Proc.devRef .tc main_arg13) = r) (hv : W (Proc.devRef .tc main_arg14) = v)
    (b : Fin 64) (z : Fin 1) :
    (StableHlo.after (hostOps3_1 (F := Ideal)) (StableHlo.after (hostOps3 (F := Ideal)) W) (Proc.devRef .tc main_v27) : (⟨S64x1, .f32⟩ : BufTy).Contents (Elt Ideal)) (ix2 b z)
      = max ((∑ j : Fin 2048, l (ix2 b j) * r (ix2 (0 : Fin 1) j)) + v (ix1 (0 : Fin 1))) 0 := by
  subst hl hr hv
  exact tail_v27 W b z

/-- The second region's first result and the two stacked results pass the two last stretches unchanged. -/
theorem tail_v13_0 (W : Valuation τ sig (Elt Ideal)) :
    StableHlo.after (hostOps3_1 (F := Ideal)) (StableHlo.after (hostOps3 (F := Ideal)) W) (Proc.devRef .tc main_v13_0)
      = W (Proc.devRef .tc main_v13_0) := tail_keeps W main_v13_0 (by decide) (by decide)
theorem tail_v16 (W : Valuation τ sig (Elt Ideal)) :
    StableHlo.after (hostOps3_1 (F := Ideal)) (StableHlo.after (hostOps3 (F := Ideal)) W) (Proc.devRef .tc main_v16)
      = W (Proc.devRef .tc main_v16) := tail_keeps W main_v16 (by decide) (by decide)
theorem tail_v19 (W : Valuation τ sig (Elt Ideal)) :
    StableHlo.after (hostOps3_1 (F := Ideal)) (StableHlo.after (hostOps3 (F := Ideal)) W) (Proc.devRef .tc main_v19)
      = W (Proc.devRef .tc main_v19) := tail_keeps W main_v19 (by decide) (by decide)

end Cert.KernelSide

end
-- ==== Proof.KernelValue.lean ====
/-
  The value of the kernel program: what its run leaves in the four result buffers, as the specification's arrays of
  the fifteen argument arrays the launch memory holds.

  The run passes through nine valuations of the unscoped buffers: the launch memory; then, alternately, a stretch of
  host operations applied and a kernel region's result arrays put at what its write-backs leave. Reading along that
  chain: the first stretch cuts layer 0's states out of the stacked states and turns its biases into rows, so the first
  region finds the operands of the specification's layer 0 and leaves its new hidden and cell state; the second stretch
  does the same for layer 1, whose region finds layer 0's new hidden state as its input and leaves layer 1's new
  states; the third stretch stacks the two layers' states and turns the head's first bias into a row; the third region
  leaves the head's hidden layer; the last two stretches apply the head's second affine map and the final maximum
  against zero. A buffer that a stretch does not write, and that is no result array of a region, keeps its contents,
  which is how the arguments and the earlier results reach the places that read them.
-/
import proofs.«142131_j78597901517448_2_alg».proof.Proof.FrameRun
import proofs.«142131_j78597901517448_2_alg».proof.Proof.LayerValue0
import proofs.«142131_j78597901517448_2_alg».proof.Proof.LayerValue1
import proofs.«142131_j78597901517448_2_alg».proof.Proof.HeadValue
import proofs.«142131_j78597901517448_2_alg».proof.Proof.HostIn
import proofs.«142131_j78597901517448_2_alg».proof.Proof.HostStack
import proofs.«142131_j78597901517448_2_alg».proof.Proof.HostTail

noncomputable section

open Idealize.ShloMosaic Idealize.ShloMosaic.TcCoe Idealize.SL.Sem
open Idealize.ShloMosaic.ValueIdx (ix1 ix2 ix3)
open scoped BigOperators

namespace Cert.KernelSide

open Cert.KernelIdeal Cert.KernelIdeal.Gen Cert.KernelIdeal.Hand

/-- A bias row that agrees with a bias vector entry by entry reads back as that vector. -/
theorem rowOf_eq (R : (⟨S1x16384, .f32⟩ : BufTy).Contents (Elt Ideal)) (v : (⟨S16384, .f32⟩ : BufTy).Contents (Elt Ideal))
    (h : ∀ (z : Fin 1) (j : Fin 16384), R (ix2 z j) = v (ix1 j)) : rowOf R = v := by
  funext i
  rw [ValueIdx.eq_ix1 i]
  exact h 0 _

section Run
variable (m : (ℓ : Loc nD τ sig) → Buf (Elt Ideal) ℓ) (c : Dev nD)

/-! ## An argument, or any buffer nothing writes, along the chain -/

/-- After the first stretch. -/
theorem w1_keep (r : Ref sig .tc) (h0 : r ∉ hostOps0_W) :
    W1 m c (Proc.devRef .tc r) = m ((c.tc : Thread nD τ).loc r) :=
  ops0_keeps (W0 m c) r h0

/-- After the first region. -/
theorem w2_keep (r : Ref sig .tc) (h0 : r ∉ hostOps0_W)
    (g0 : ∀ w, Pipeline.arrRef spec0 w = r → (cfg0.win w).isOut = false) :
    W2 m c (Proc.devRef .tc r) = m ((c.tc : Thread nD τ).loc r) :=
  (W2_keep m c r g0).trans (w1_keep m c r h0)

/-- After the second stretch. -/
theorem w3_keep (r : Ref sig .tc) (h0 : r ∉ hostOps0_W)
    (g0 : ∀ w, Pipeline.arrRef spec0 w = r → (cfg0.win w).isOut = false) (h1 : r ∉ hostOps1_W) :
    W3 m c (Proc.devRef .tc r) = m ((c.tc : Thread nD τ).loc r) :=
  (ops1_keeps (W2 m c) r h1).trans (w2_keep m c r h0 g0)

/-- After the second region. -/
theorem w4_keep (r : Ref sig .tc) (h0 : r ∉ hostOps0_W)
    (g0 : ∀ w, Pipeline.arrRef spec0 w = r → (cfg0.win w).isOut = false) (h1 : r ∉ hostOps1_W)
    (g1 : ∀ w, Pipeline.arrRef spec1 w = r → (cfg1.win w).isOut = false) :
    W4 m c (Proc.devRef .tc r) = m ((c.tc : Thread nD τ).loc r) :=
  (W4_keep m c r g1).trans (w3_keep m c r h0 g0 h1)

/-- After the third stretch. -/
theorem w5_keep (r : Ref sig .tc) (h0 : r ∉ hostOps0_W)
    (g0 : ∀ w, Pipeline.arrRef spec0 w = r → (cfg0.win w).isOut = false) (h1 : r ∉ hostOps1_W)
    (g1 : ∀ w, Pipeline.arrRef spec1 w = r → (cfg1.win w).isOut = false) (h2 : r ∉ hostOps2_W) :
    W5 m c (Proc.devRef .tc r) = m ((c.tc : Thread nD τ).loc r) :=
  (ops2_keeps (W4 m c) r h2).trans (w4_keep m c r h0 g0 h1 g1)

/-- After the third region. -/
theorem w6_keep (r : Ref sig .tc) (h0 : r ∉ hostOps0_W)
    (g0 : ∀ w, Pipeline.arrRef spec0 w = r → (cfg0.win w).isOut = false) (h1 : r ∉ hostOps1_W)
    (g1 : ∀ w, Pipeline.arrRef spec1 w = r → (cfg1.win w).isOut = false) (h2 : r ∉ hostOps2_W)
    (g2 : ∀ w, Pipeline.arrRef spec2 w = r → (cfg2.win w).isOut = false) :
    W6 m c (Proc.devRef .tc r) = m ((c.tc : Thread nD τ).loc r) :=
  (W6_keep m c r g2).trans (w5_keep m c r h0 g0 h1 g1 h2)

/-! ## Layer 0 -/

/-- The first region finds the features as launched. -/
theorem in0_x : Ve0 m c main_arg0 = m ((c.tc : Thread nD τ).loc main_arg0) := w1_keep m c main_arg0 (by decide)
/-- The first region finds layer 0's input weights as launched. -/
theorem in0_wih : Ve0 m c main_arg3 = m ((c.tc : Thread nD τ).loc main_arg3) := w1_keep m c main_arg3 (by decide)
/-- The first region finds layer 0's hidden weights as launched. -/
theorem in0_whh : Ve0 m c main_arg4 = m ((c.tc : Thread nD τ).loc main_arg4) := w1_keep m c main_arg4 (by decide)
/-- The first region finds layer 0 of the stacked hidden states. -/
theorem in0_h : (Ve0 m c main_v1 : (⟨S64x4096, .f32⟩ : BufTy).Contents (Elt Ideal))
    = Lstm.layerOf 0 (m ((c.tc : Thread nD τ).loc main_arg1)) :=
  ops0_v1 (W0 m c)
/-- The first region finds layer 0 of the stacked cell states. -/
theorem in0_c : (Ve0 m c main_v3 : (⟨S64x4096, .f32⟩ : BufTy).Contents (Elt Ideal))
    = Lstm.layerOf 0 (m ((c.tc : Thread nD τ).loc main_arg2)) :=
  ops0_v3 (W0 m c)
/-- The first region finds layer 0's input bias, as a row. -/
theorem in0_bih : rowOf (Ve0 m c main_v4) = m ((c.tc : Thread nD τ).loc main_arg5) :=
  rowOf_eq _ _ (ops0_v4 (W0 m c))
/-- The first region finds layer 0's hidden bias, as a row. -/
theorem in0_bhh : rowOf (Ve0 m c main_v5) = m ((c.tc : Thread nD τ).loc main_arg6) :=
  rowOf_eq _ _ (ops0_v5 (W0 m c))

/-- The first region leaves layer 0's new hidden state. -/
theorem out0_h : (W2 m c (Proc.devRef .tc main_v6_0) : (⟨S64x4096, .f32⟩ : BufTy).Contents (Elt Ideal))
    = Lstm.asMat (Lstm.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (W2_arr m c 7).trans ((finalH0 (Ve0 m) c).trans ?_)
  rw [in0_x, in0_h, in0_c, in0_wih, in0_whh, in0_bih, in0_bhh]
  rfl

/-- The first region leaves layer 0's new cell state. -/
theorem out0_c : (W2 m c (Proc.devRef .tc main_v6_1) : (⟨S64x4096, .f32⟩ : BufTy).Contents (Elt Ideal))
    = Lstm.asMat (Lstm.c1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  refine (W2_arr m c 8).trans ((finalC0 (Ve0 m) c).trans ?_)
  rw [in0_x, in0_h, in0_c, in0_wih, in0_whh, in0_bih, in0_bhh]
  rfl

/-! ## Layer 1 -/

/-- The second region finds layer 0's new hidden state as its input. -/
theorem in1_x : (Ve1 m c main_v6_0 : (⟨S64x4096, .f32⟩ : BufTy).Contents (Elt Ideal))
    = Lstm.asMat (Lstm.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  (ops1_v6_0 (W2 m c)).trans (out0_h m c)
/-- Layer 0's new cell state passes the second stretch. -/
theorem in1_c1 : (Ve1 m c main_v6_1 : (⟨S64x4096, .f32⟩ : BufTy).Contents (Elt Ideal))
    = Lstm.asMat (Lstm.c1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  (ops1_v6_1 (W2 m c)).trans (out0_c m c)
/-- The second region finds layer 1's input weights as launched. -/
theorem in1_wih : Ve1 m c main_arg7 = m ((c.tc : Thread nD τ).loc main_arg7) :=
  w3_keep m c main_arg7 (by decide) (by decide) (by decide)
/-- The second region finds layer 1's hidden weights as launched. -/
theorem in1_whh : Ve1 m c main_arg8 = m ((c.tc : Thread nD τ).loc main_arg8) :=
  w3_keep m c main_arg8 (by decide) (by decide) (by decide)
/-- The second region finds layer 1 of the stacked hidden states. -/
theorem in1_h : (Ve1 m c main_v8 : (⟨S64x4096, .f32⟩ : BufTy).Contents (Elt Ideal))
    = Lstm.layerOf 1 (m ((c.tc : Thread nD τ).loc main_arg1)) := by
  refine (ops1_v8 (W2 m c)).trans ?_
  rw [w2_keep m c main_arg1 (by decide) (by decide)]
/-- The second region finds layer 1 of the stacked cell states. -/
theorem in1_c : (Ve1 m c main_v10 : (⟨S64x4096, .f32⟩ : BufTy).Contents (Elt Ideal))
    = Lstm.layerOf 1 (m ((c.tc : Thread nD τ).loc main_arg2)) := by
  refine (ops1_v10 (W2 m c)).trans ?_
  rw [w2_keep m c main_arg2 (by decide) (by decide)]
/-- The second region finds layer 1's input bias, as a row. -/
theorem in1_bih : rowOf (Ve1 m c main_v11) = m ((c.tc : Thread nD τ).loc main_arg9) := by
  refine rowOf_eq _ _ fun z j => ?_
  refine (ops1_v11 (W2 m c) z j).trans ?_
  rw [w2_keep m c main_arg9 (by decide) (by decide)]
/-- The second region finds layer 1's hidden bias, as a row. -/
theorem in1_bhh : rowOf (Ve1 m c main_v12) = m ((c.tc : Thread nD τ).loc main_arg10) := by
  refine rowOf_eq _ _ fun z j => ?_
  refine (ops1_v12 (W2 m c) z j).trans ?_
  rw [w2_keep m c main_arg10 (by decide) (by decide)]

/-- The second region leaves layer 1's new hidden state: the first result. -/
theorem out1_h : (W4 m c (Proc.devRef .tc main_v13_0) : (⟨S64x4096, .f32⟩ : BufTy).Contents (Elt Ideal))
    = Lstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  refine (W4_arr m c 7).trans ((finalH1 (Ve1 m) c).trans ?_)
  rw [in1_x, in1_h, in1_c, in1_wih, in1_whh, in1_bih, in1_bhh]
  rfl

/-- The second region leaves layer 1's new cell state. -/
theorem out1_c : (W4 m c (Proc.devRef .tc main_v13_1) : (⟨S64x4096, .f32⟩ : BufTy).Contents (Elt Ideal))
    = Lstm.asMat (Lstm.c2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))) := by
  refine (W4_arr m c 8).trans ((finalC1 (Ve1 m) c).trans ?_)
  rw [in1_x, in1_h, in1_c, in1_wih, in1_whh, in1_bih, in1_bhh]
  rfl

/-- Layer 0's new hidden state passes the second region, which only reads it. -/
theorem keep1_h1 : (W4 m c (Proc.devRef .tc main_v6_0) : (⟨S64x4096, .f32⟩ : BufTy).Contents (Elt Ideal))
    = Lstm.asMat (Lstm.h1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  (W4_keep m c main_v6_0 (by decide)).trans (in1_x m c)
/-- Layer 0's new cell state passes the second region, which does not stage it. -/
theorem keep1_c1 : (W4 m c (Proc.devRef .tc main_v6_1) : (⟨S64x4096, .f32⟩ : BufTy).Contents (Elt Ideal))
    = Lstm.asMat (Lstm.c1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) :=
  (W4_keep m c main_v6_1 (by decide)).trans (in1_c1 m c)

/-! ## The stacks and the head's operands -/

/-- The third stretch leaves the stacked new hidden states: the second result. -/
theorem stack_h : (W5 m c (Proc.devRef .tc main_v16) : (⟨S2x64x4096, .f32⟩ : BufTy).Contents (Elt Ideal))
    = Lstm.outHStack (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Lstm.outHStack
  refine Lstm.eq_asStack fun s b u => ?_
  refine (ops2_v16 (W4 m c) s b u).trans ?_
  rw [keep1_h1, out1_h]
  rfl

/-- The third stretch leaves the stacked new cell states: the third result. -/
theorem stack_c : (W5 m c (Proc.devRef .tc main_v19) : (⟨S2x64x4096, .f32⟩ : BufTy).Contents (Elt Ideal))
    = Lstm.outCStack (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
  unfold Lstm.outCStack
  refine Lstm.eq_asStack fun s b u => ?_
  refine (ops2_v19 (W4 m c) s b u).trans ?_
  rw [keep1_c1, out1_c]
  rfl

/-- The third region finds layer 1's new hidden state as its input. -/
theorem in2_x : (Ve2 m c main_v13_0 : (⟨S64x4096, .f32⟩ : BufTy).Contents (Elt Ideal))
    = Lstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (ops2_v13_0 (W4 m c)).trans (out1_h m c)
/-- The third region finds the head's first weight matrix as launched. -/
theorem in2_w : Ve2 m c main_arg11 = m ((c.tc : Thread nD τ).loc main_arg11) :=
  w5_keep m c main_arg11 (by decide) (by decide) (by decide) (by decide) (by decide)
/-- The third region finds the head's first bias, as a row. -/
theorem in2_b (z : Fin 1) (j : Fin 2048) :
    (Ve2 m c main_v20 : (⟨S1x2048, .f32⟩ : BufTy).Contents (Elt Ideal)) (ix2 z j)
      = (m ((c.tc : Thread nD τ).loc main_arg12) : (⟨S2048, .f32⟩ : BufTy).Contents (Elt Ideal)) (ix1 j) := by
  refine (ops2_v20 (W4 m c) z j).trans ?_
  rw [w4_keep m c main_arg12 (by decide) (by decide) (by decide) (by decide)]

/-- The third region leaves the head's hidden layer. -/
theorem out2_hidden (b : Fin 64) (j : Fin 2048) :
    (W6 m c (Proc.devRef .tc main_v21) : (⟨S64x2048, .f32⟩ : BufTy).Contents (Elt Ideal)) (ix2 b j)
      = Lstm.hidden (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) b j := by
  refine (congrFun ((W6_arr m c 3).trans (final2 (Ve2 m) c)) (ix2 b j)).trans ?_
  rw [hiddenOf_apply, in2_x, in2_w, in2_b m c 0 j]
  rfl

/-! ## The four results -/

/-- The first result: layer 1's new hidden state. -/
theorem value_h : (W8 m c (Proc.devRef .tc main_v13_0) : (⟨S64x4096, .f32⟩ : BufTy).Contents (Elt Ideal))
    = Lstm.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (tail_v13_0 (W6 m c)).trans ((W6_keep m c main_v13_0 (by decide)).trans (in2_x m c))

/-- The second result: the two new hidden states stacked. -/
theorem value_hstack : (W8 m c (Proc.devRef .tc main_v16) : (⟨S2x64x4096, .f32⟩ : BufTy).Contents (Elt Ideal))
    = Lstm.outHStack (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (tail_v16 (W6 m c)).trans ((W6_keep m c main_v16 (by decide)).trans (stack_h m c))

/-- The third result: the two new cell states stacked. -/
theorem value_cstack : (W8 m c (Proc.devRef .tc main_v19) : (⟨S2x64x4096, .f32⟩ : BufTy).Contents (Elt Ideal))
    = Lstm.outCStack (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) :=
  (tail_v19 (W6 m c)).trans ((W6_keep m c main_v19 (by decide)).trans (stack_c m c))

/-- The fourth result: the count estimate. -/
theorem value_count : (W8 m c (Proc.devRef .tc main_v27) : (⟨S64x1, .f32⟩ : BufTy).Contents (Elt Ideal))
    = Lstm.outCount (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Lstm.outCount
  refine Lstm.eq_asCol fun b z => ?_
  refine (tail_v27 (W6 m c) b z).trans ?_
  unfold countOf
  simp only [out2_hidden m c,
    w6_keep m c main_arg13 (by decide) (by decide) (by decide) (by decide) (by decide) (by decide),
    w6_keep m c main_arg14 (by decide) (by decide) (by decide) (by decide) (by decide) (by decide)]
  rfl

end Run

end Cert.KernelSide

end
-- ==== Proof.Claims.lean ====
/-
  The five claims of the certificate, assembled.

  Frames: each program's run, with everything but the fifteen argument arrays dropped from its post. The idealization
  rewrote nothing, so what it must preserve is the trivial proposition. The algebraic claim: from memories that agree on
  the fifteen arguments both idealized programs end with the same four arrays, named once as the specification's
  functions of the arguments (layer 1's new hidden state, the two new hidden states stacked, the two new cell states
  stacked, the count estimate) — the kernel's by reading its three regions' result arrays and the host operations
  around them, the reference's by reading its operations one at a time.
-/
import proofs.«142131_j78597901517448_2_alg».proof.Defs
import proofs.«142131_j78597901517448_2_alg».proof.Proof.Gen.Kernel
import proofs.«142131_j78597901517448_2_alg».proof.Proof.Gen.KernelIdeal
import proofs.«142131_j78597901517448_2_alg».proof.Proof.Gen.ReferenceIdeal
import proofs.«142131_j78597901517448_2_alg».proof.Proof.Gen.Pre_finite_inputs
import proofs.«142131_j78597901517448_2_alg».proof.Proof.RefRun
import proofs.«142131_j78597901517448_2_alg».proof.Proof.FrameArgs
import proofs.«142131_j78597901517448_2_alg».proof.Proof.FrameArgsW
import proofs.«142131_j78597901517448_2_alg».proof.Proof.KernelValue

noncomputable section

open Idealize.ShloMosaic Idealize.ShloMosaic.TcCoe Idealize.SL.Sem

namespace Cert.Proof.Claims

/-- The idealized kernel runs and leaves its fifteen arguments as they were: the run of its three regions and the host
    operations around them, read at the arguments. -/
theorem frame_pi : Cert.frame_KernelIdeal := fun m ρ _ => Cert.KernelIdeal.Hand.frame (F := Ideal) m ρ

/-- The kernel as printed, at the word level: the same run. -/
theorem frame_p : Cert.frame_Kernel := fun m ρ _ => Cert.Kernel.Hand.frame (F := Bits) m ρ

/-- The reference runs and leaves its fifteen arguments as they were: its run, read, with the four results dropped. -/
theorem frame_ri : Cert.frame_ReferenceIdeal := fun m ρ _ =>
  (θ_run Cert.ReferenceIdeal.defs _ _).mono (fun _ h c => (h c).2.2.2.2) (Cert.RefSide.run m ρ)

/-- The idealization rewrote no operation: nothing to preserve. -/
theorem preserves : Cert.preserves_Kernel_KernelIdeal := trivial

/-- A function of 11 arguments takes equal values at equal arguments. -/
theorem congr11 {α0 α1 α2 α3 α4 α5 α6 α7 α8 α9 α10 β : Type} (f : α0 → α1 → α2 → α3 → α4 → α5 → α6 → α7 → α8 → α9 → α10 → β)
    {a0 b0 : α0} {a1 b1 : α1} {a2 b2 : α2} {a3 b3 : α3} {a4 b4 : α4} {a5 b5 : α5} {a6 b6 : α6} {a7 b7 : α7} {a8 b8 : α8} {a9 b9 : α9} {a10 b10 : α10}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) :
    f a0 a1 a2 a3 a4 a5 a6 a7 a8 a9 a10 = f b0 b1 b2 b3 b4 b5 b6 b7 b8 b9 b10 := by
  subst h0 h1 h2 h3 h4 h5 h6 h7 h8 h9 h10
  rfl

/-- A function of 15 arguments takes equal values at equal arguments. -/
theorem congr15 {α0 α1 α2 α3 α4 α5 α6 α7 α8 α9 α10 α11 α12 α13 α14 β : Type} (f : α0 → α1 → α2 → α3 → α4 → α5 → α6 → α7 → α8 → α9 → α10 → α11 → α12 → α13 → α14 → β)
    {a0 b0 : α0} {a1 b1 : α1} {a2 b2 : α2} {a3 b3 : α3} {a4 b4 : α4} {a5 b5 : α5} {a6 b6 : α6} {a7 b7 : α7} {a8 b8 : α8} {a9 b9 : α9} {a10 b10 : α10} {a11 b11 : α11} {a12 b12 : α12} {a13 b13 : α13} {a14 b14 : α14}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) :
    f a0 a1 a2 a3 a4 a5 a6 a7 a8 a9 a10 a11 a12 a13 a14 = f b0 b1 b2 b3 b4 b5 b6 b7 b8 b9 b10 b11 b12 b13 b14 := by
  subst h0 h1 h2 h3 h4 h5 h6 h7 h8 h9 h10 h11 h12 h13 h14
  rfl

/-- From memories that agree on the fifteen arguments, both idealized programs end with the specification's four arrays
    of those arguments, and with the arguments unchanged. -/
theorem algebraic : Cert.algebraic_KernelIdeal_ReferenceIdeal := by
  intro m ρ m' ρ' _ hagree
  refine ⟨fun c => Lstm.outH
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    fun c => Lstm.outHStack
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    fun c => Lstm.outCStack
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    fun c => Lstm.outCount
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)),
    ?_, ?_⟩
  · exact (θ_run Cert.KernelIdeal.defs _ _).mono (fun r h c =>
      ⟨(h c _ (Cert.KernelIdeal.Hand.mem_uc Cert.KernelIdeal.main_v13_0 (by decide))).trans (Cert.KernelSide.value_h m c),
       (h c _ (Cert.KernelIdeal.Hand.mem_uc Cert.KernelIdeal.main_v16 (by decide))).trans (Cert.KernelSide.value_hstack m c),
       (h c _ (Cert.KernelIdeal.Hand.mem_uc Cert.KernelIdeal.main_v19 (by decide))).trans (Cert.KernelSide.value_cstack m c),
       (h c _ (Cert.KernelIdeal.Hand.mem_uc Cert.KernelIdeal.main_v27 (by decide))).trans (Cert.KernelSide.value_count m c),
       (h c _ (Cert.KernelIdeal.Hand.mem_uc Cert.KernelIdeal.main_arg0 (by decide))).trans (Cert.KernelIdeal.Hand.W8_main_arg0 m c),
       (h c _ (Cert.KernelIdeal.Hand.mem_uc Cert.KernelIdeal.main_arg1 (by decide))).trans (Cert.KernelIdeal.Hand.W8_main_arg1 m c),
       (h c _ (Cert.KernelIdeal.Hand.mem_uc Cert.KernelIdeal.main_arg2 (by decide))).trans (Cert.KernelIdeal.Hand.W8_main_arg2 m c),
       (h c _ (Cert.KernelIdeal.Hand.mem_uc Cert.KernelIdeal.main_arg3 (by decide))).trans (Cert.KernelIdeal.Hand.W8_main_arg3 m c),
       (h c _ (Cert.KernelIdeal.Hand.mem_uc Cert.KernelIdeal.main_arg4 (by decide))).trans (Cert.KernelIdeal.Hand.W8_main_arg4 m c),
       (h c _ (Cert.KernelIdeal.Hand.mem_uc Cert.KernelIdeal.main_arg5 (by decide))).trans (Cert.KernelIdeal.Hand.W8_main_arg5 m c),
       (h c _ (Cert.KernelIdeal.Hand.mem_uc Cert.KernelIdeal.main_arg6 (by decide))).trans (Cert.KernelIdeal.Hand.W8_main_arg6 m c),
       (h c _ (Cert.KernelIdeal.Hand.mem_uc Cert.KernelIdeal.main_arg7 (by decide))).trans (Cert.KernelIdeal.Hand.W8_main_arg7 m c),
       (h c _ (Cert.KernelIdeal.Hand.mem_uc Cert.KernelIdeal.main_arg8 (by decide))).trans (Cert.KernelIdeal.Hand.W8_main_arg8 m c),
       (h c _ (Cert.KernelIdeal.Hand.mem_uc Cert.KernelIdeal.main_arg9 (by decide))).trans (Cert.KernelIdeal.Hand.W8_main_arg9 m c),
       (h c _ (Cert.KernelIdeal.Hand.mem_uc Cert.KernelIdeal.main_arg10 (by decide))).trans (Cert.KernelIdeal.Hand.W8_main_arg10 m c),
       (h c _ (Cert.KernelIdeal.Hand.mem_uc Cert.KernelIdeal.main_arg11 (by decide))).trans (Cert.KernelIdeal.Hand.W8_main_arg11 m c),
       (h c _ (Cert.KernelIdeal.Hand.mem_uc Cert.KernelIdeal.main_arg12 (by decide))).trans (Cert.KernelIdeal.Hand.W8_main_arg12 m c),
       (h c _ (Cert.KernelIdeal.Hand.mem_uc Cert.KernelIdeal.main_arg13 (by decide))).trans (Cert.KernelIdeal.Hand.W8_main_arg13 m c),
       (h c _ (Cert.KernelIdeal.Hand.mem_uc Cert.KernelIdeal.main_arg14 (by decide))).trans (Cert.KernelIdeal.Hand.W8_main_arg14 m c)⟩)
      (Cert.KernelIdeal.Hand.run_main (F := Ideal) m ρ)
  · refine (θ_run Cert.ReferenceIdeal.defs _ _).mono (fun r h c => ?_) (Cert.RefSide.run m' ρ')
    obtain ⟨e0, e1, e2, e3, e4, e5, e6, e7, e8, e9, e10, e11, e12, e13, e14⟩ := hagree c
    obtain ⟨h85, h88, h91, h103, hkept⟩ := h c
    exact ⟨h85.trans (congr11 Lstm.outH e0 e1 e2 e3 e4 e5 e6 e7 e8 e9 e10), h88.trans (congr11 Lstm.outHStack e0 e1 e2 e3 e4 e5 e6 e7 e8 e9 e10),
      h91.trans (congr11 Lstm.outCStack e0 e1 e2 e3 e4 e5 e6 e7 e8 e9 e10), h103.trans (congr15 Lstm.outCount e0 e1 e2 e3 e4 e5 e6 e7 e8 e9 e10 e11 e12 e13 e14), hkept⟩

end Cert.Proof.Claims

end
-- ==== Proof.lean ====
/- The proof of `Cert.Claim` for a one-step, two-layer LSTM (batch 64, hidden size 4096) followed by a two-layer
   count head, computed by three kernel regions among five stretches of host operations, against its plain reference.

   The mathematics. For one layer with input x, state (h, c), weights W_ih, W_hh : [4·4096, 4096] and biases b_ih, b_hh,
   gates(b, j) = ((Σ_k x(b,k)·W_ih(j,k) + b_ih(j)) + Σ_k h(b,k)·W_hh(j,k)) + b_hh(j); with i, f, g, o the four blocks of
   4096 gate columns, c' = σ(f)·c + σ(i)·tanh(g) and h' = σ(o)·tanh(c'), σ the logistic function. Layer 1 takes layer 0's
   h' as its input. The results are h'₂, the stacks (h'₁, h'₂) and (c'₁, c'₂), and
   max(max(h'₂·Wc1ᵀ + bc1, 0)·Wc2ᵀ + bc2, 0). Both programs form these sums in this grouping, and at the ideal values the
   logistic function of the kernel and the quotient 1 / (1 + e^(−x)) the reference spells are one function, so the two
   sides agree entry by entry on all of the extended reals and the precondition is never opened.

   The kernel tiles a layer by hidden tile (512 columns) and gate: grid point 4·ht + g computes gate g's tile for hidden
   tile ht from rows (8g + ht)·512 … of the weights and keeps it in slab g of a scratch of four slabs; the point of the
   last gate reads the four slabs and the old cell-state block and stores the new state blocks. The scratch is carried
   from point to point, so each layer's region invariant says which slabs hold which gate tiles.

   The modules. Spec: the results as functions of the arguments. RefLayer0/1, RefStack, RefHead, RefIsSpec, RefRun: the
   reference's run ends at those functions. FrameLib, LstmDefs0/1, LstmRuns0/1, FrameL0/1 (a layer's region: its
   blocks, its invariant, the body at each gate coordinate, the body obligation), FrameHead (the count head's region),
   FrameRun (the run of @main through its eight items), FrameArgs (the arguments end as launched); the modules whose
   names end in W are the same text over the word-level program. PayGate, PayCell, PayHead, LibTransposedDot, LayerBlock,
   LayerValue0/1, HeadValue (what each region's arrays end holding, read at an index), HostIn, HostStack, HostTail (the
   host stretches read at an index), KernelValue, KernelRun (the kernel's results are the specification's). Claims: the
   five conjuncts, assembled here behind the witnesses of the programs' stated facts. -/
import proofs.«142131_j78597901517448_2_alg».proof.Defs
import proofs.«142131_j78597901517448_2_alg».proof.Proof.Gen.Kernel
import proofs.«142131_j78597901517448_2_alg».proof.Proof.Gen.KernelIdeal
import proofs.«142131_j78597901517448_2_alg».proof.Proof.Gen.ReferenceIdeal
import proofs.«142131_j78597901517448_2_alg».proof.Proof.Gen.Pre_finite_inputs
import proofs.«142131_j78597901517448_2_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, Claims.algebraic⟩

end Cert.Proof

end
